-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  IdealRules.truncf_extf.Statement Cert.KernelIdeal.S10000x128 .f32 .bf16
  ∧ IdealRules.truncf_extf.Statement Cert.KernelIdeal.S128x256 .f32 .bf16
  ∧ IdealRules.truncf_extf.Statement Cert.KernelIdeal.S10000x256 .f32 .bf16
  ∧ IdealRules.truncf_extf.Statement Cert.KernelIdeal.S256x128 .f32 .bf16
  ∧ IdealRules.truncf_extf.Statement Cert.KernelIdeal.S10000x128 .f32 .bf16
  ∧ IdealRules.truncf_extf.Statement Cert.KernelIdeal.S128x256 .f32 .bf16
  ∧ IdealRules.truncf_extf.Statement Cert.KernelIdeal.S10000x256 .f32 .bf16
  ∧ IdealRules.truncf_extf.Statement Cert.KernelIdeal.S256x128 .f32 .bf16
  ∧ IdealRules.truncf_extf.Statement Cert.KernelIdeal.S10000x128 .f32 .bf16
  ∧ IdealRules.truncf_extf.Statement Cert.KernelIdeal.S128x256 .f32 .bf16
  ∧ IdealRules.truncf_extf.Statement Cert.KernelIdeal.S10000x256 .f32 .bf16
  ∧ IdealRules.truncf_extf.Statement Cert.KernelIdeal.S256x128 .f32 .bf16
  ∧ IdealRules.truncf_extf.Statement Cert.KernelIdeal.S10000x128 .f32 .bf16
  ∧ IdealRules.truncf_extf.Statement Cert.KernelIdeal.S128x256 .f32 .bf16
  ∧ IdealRules.truncf_extf.Statement Cert.KernelIdeal.S10000x256 .f32 .bf16
  ∧ IdealRules.truncf_extf.Statement Cert.KernelIdeal.S256x128 .f32 .bf16
  ∧ IdealRules.truncf_extf.Statement Cert.KernelIdeal.S512x128 .f32 .bf16
  ∧ IdealRules.truncf_extf.Statement Cert.KernelIdeal.S128x128 .f32 .bf16
  ∧ IdealRules.truncf_extf.Statement Cert.KernelIdeal.S512x128 .f32 .bf16
  ∧ IdealRules.truncf_extf.Statement Cert.KernelIdeal.S128x10 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v205)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v205) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v351) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S4x128x256 : Shape := ⟨3, ![4, 128, 256]⟩
abbrev S4x256 : Shape := ⟨2, ![4, 256]⟩
abbrev S4 : Shape := ⟨1, ![4]⟩
abbrev S4x256x128 : Shape := ⟨3, ![4, 256, 128]⟩
abbrev S4x128 : Shape := ⟨2, ![4, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x256 : S_.BroadcastsInDim S4x128x256 (![] : Fin 0 → Fin S4x128x256.rank)
  reducesTo_S4x128x256_S_d0_1_2 : S4x128x256.ReducesTo [0, 1, 2] S_
  bcast_S_S4x256 : S_.BroadcastsInDim S4x256 (![] : Fin 0 → Fin S4x256.rank)
  reducesTo_S4x256_S_d0_1 : S4x256.ReducesTo [0, 1] S_
  bcast_S_S4 : S_.BroadcastsInDim S4 (![] : Fin 0 → Fin S4.rank)
  reducesTo_S4_S_d0 : S4.ReducesTo [0] S_
  bcast_S_S4x256x128 : S_.BroadcastsInDim S4x256x128 (![] : Fin 0 → Fin S4x256x128.rank)
  reducesTo_S4x256x128_S_d0_1_2 : S4x256x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part7 {F : FTy → Type} [FloatOps F] (main_v116 : IVec S_ 1) (main_v118 : IVec S128 1) : IVec S_ 1 :=
  let main_c_47 : IVec S_ 1 := constantI S_ 1 1#1
  let main_v119 : IVec S_ 1 := (fun x v => Host.reduce IntOp.andi x v reducesTo_S128_S_d0 h_S_) main_v118 main_c_47
  let main_v120 : IVec S_ 1 := andi main_v116 main_v119
  main_v120

def fn_part6 {F : FTy → Type} [FloatOps F] (main_arg8 : FVec F S4x256 .f32) (main_arg15 : FVec F S4x128 .f32) (main_arg21 : FVec F S128 .f32) (main_arg23 : FVec F S10 .f32) (main_v98 : IVec S_ 1) (main_v101 : IVec S128x10 1) (main_c_39 : IVec S_ 1) : IVec S_ 1 :=
  let main_v102 : IVec S_ 1 := (fun x v => Host.reduce IntOp.andi x v reducesTo_S128x10_S_d0_1 h_S_) main_v101 main_c_39
  let main_v103 : IVec S_ 1 := andi main_v98 main_v102
  let main_v104 : FVec F S10 .f32 := Host.absf main_arg23
  let main_cst_40 : FVec F S_ .f32 := constant S_ .f32 0x7F800000#32
  let main_v105 : FVec F S10 .f32 := broadcastInDim S10 ![] bcast_S_S10 main_cst_40
  let main_v106 : IVec S10 1 := cmpf .olt main_v104 main_v105
  let main_c_41 : IVec S_ 1 := constantI S_ 1 1#1
  let main_v107 : IVec S_ 1 := (fun x v => Host.reduce IntOp.andi x v reducesTo_S10_S_d0 h_S_) main_v106 main_c_41
  let main_v108 : IVec S_ 1 := andi main_v103 main_v107
  let main_cst_42 : FVec F S_ .f32 := constant S_ .f32 0x00000000#32
  let main_v109 : FVec F S4x256 .f32 := broadcastInDim S4x256 ![] bcast_S_S4x256 main_cst_42
  let main_v110 : IVec S4x256 1 := cmpf .oge main_arg8 main_v109
  let main_c_43 : IVec S_ 1 := constantI S_ 1 1#1
  let main_v111 : IVec S_ 1 := (fun x v => Host.reduce IntOp.andi x v reducesTo_S4x256_S_d0_1 h_S_) main_v110 main_c_43
  let main_v112 : IVec S_ 1 := andi main_v108 main_v111
  let main_cst_44 : FVec F S_ .f32 := constant S_ .f32 0x00000000#32
  let main_v113 : FVec F S4x128 .f32 := broadcastInDim S4x128 ![] bcast_S_S4x128 main_cst_44
  let main_v114 : IVec S4x128 1 := cmpf .oge main_arg15 main_v113
  let main_c_45 : IVec S_ 1 := constantI S_ 1 1#1
  let main_v115 : IVec S_ 1 := (fun x v => Host.reduce IntOp.andi x v reducesTo_S4x128_S_d0_1 h_S_) main_v114 main_c_45
  let main_v116 : IVec S_ 1 := andi main_v112 main_v115
  let main_cst_46 : FVec F S_ .f32 := constant S_ .f32 0x00000000#32
  let main_v117 : FVec F S128 .f32 := broadcastInDim S128 ![] bcast_S_S128 main_cst_46
  let main_v118 : IVec S128 1 := cmpf .oge main_arg21 main_v117
  fn_part7 (F := F) main_v116 main_v118

def fn_part5 {F : FTy → Type} [FloatOps F] (main_arg8 : FVec F S4x256 .f32) (main_arg15 : FVec F S4x128 .f32) (main_arg20 : FVec F S128 .f32) (main_arg21 : FVec F S128 .f32) (main_arg22 : FVec F S128x10 .f32) (main_arg23 : FVec F S10 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x10 .f32 := Host.absf main_arg22
  let main_cst_38 : FVec F S_ .f32 := constant S_ .f32 0x7F800000#32
  let main_v100 : FVec F S128x10 .f32 := broadcastInDim S128x10 ![] bcast_S_S128x10 main_cst_38
  let main_v101 : IVec S128x10 1 := cmpf .olt main_v99 main_v100
  let main_c_39 : IVec S_ 1 := constantI S_ 1 1#1
  fn_part6 (F := F) main_arg8 main_arg15 main_arg21 main_arg23 main_v98 main_v101 main_c_39

def fn_part4 {F : FTy → Type} [FloatOps F] (main_arg8 : FVec F S4x256 .f32) (main_arg15 : FVec F S4x128 .f32) (main_arg16 : FVec F S128x128 .f32) (main_arg17 : FVec F S128 .f32) (main_arg18 : FVec F S128 .f32) (main_arg19 : FVec F S128 .f32) (main_arg20 : FVec F S128 .f32) (main_arg21 : FVec F S128 .f32) (main_arg22 : FVec F S128x10 .f32) (main_arg23 : FVec F S10 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg8 main_arg15 main_arg20 main_arg21 main_arg22 main_arg23 main_v83 main_v84 main_cst_32

def fn_part3 {F : FTy → Type} [FloatOps F] (main_arg8 : FVec F S4x256 .f32) (main_arg13 : FVec F S4x128 .f32) (main_arg14 : FVec F S4x128 .f32) (main_arg15 : FVec F S4x128 .f32) (main_arg16 : FVec F S128x128 .f32) (main_arg17 : FVec F S128 .f32) (main_arg18 : FVec F S128 .f32) (main_arg19 : FVec F S128 .f32) (main_arg20 : FVec F S128 .f32) (main_arg21 : FVec F S128 .f32) (main_arg22 : FVec F S128x10 .f32) (main_arg23 : FVec F S10 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S4x128 .f32 := Host.absf main_arg13
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S4x128 .f32 := Host.absf main_arg14
  let main_cst_22 : FVec F S_ .f32 := constant S_ .f32 0x7F800000#32
  let main_v60 : FVec F S4x128 .f32 := broadcastInDim S4x128 ![] bcast_S_S4x128 main_cst_22
  let main_v61 : IVec S4x128 1 := cmpf .olt main_v59 main_v60
  let main_c_23 : IVec S_ 1 := constantI S_ 1 1#1
  let main_v62 : IVec S_ 1 := (fun x v => Host.reduce IntOp.andi x v reducesTo_S4x128_S_d0_1 h_S_) main_v61 main_c_23
  let main_v63 : IVec S_ 1 := andi main_v58 main_v62
  let main_v64 : FVec F S4x128 .f32 := Host.absf main_arg15
  let main_cst_24 : FVec F S_ .f32 := constant S_ .f32 0x7F800000#32
  let main_v65 : FVec F S4x128 .f32 := broadcastInDim S4x128 ![] bcast_S_S4x128 main_cst_24
  let main_v66 : IVec S4x128 1 := cmpf .olt main_v64 main_v65
  let main_c_25 : IVec S_ 1 := constantI S_ 1 1#1
  let main_v67 : IVec S_ 1 := (fun x v => Host.reduce IntOp.andi x v reducesTo_S4x128_S_d0_1 h_S_) main_v66 main_c_25
  fn_part4 (F := F) main_arg8 main_arg15 main_arg16 main_arg17 main_arg18 main_arg19 main_arg20 main_arg21 main_arg22 main_arg23 main_v63 main_v67

def fn_part2 {F : FTy → Type} [FloatOps F] (main_arg8 : FVec F S4x256 .f32) (main_arg9 : FVec F S4 .f32) (main_arg10 : FVec F S4x256x128 .f32) (main_arg11 : FVec F S4x128 .f32) (main_arg12 : FVec F S4x128 .f32) (main_arg13 : FVec F S4x128 .f32) (main_arg14 : FVec F S4x128 .f32) (main_arg15 : FVec F S4x128 .f32) (main_arg16 : FVec F S128x128 .f32) (main_arg17 : FVec F S128 .f32) (main_arg18 : FVec F S128 .f32) (main_arg19 : FVec F S128 .f32) (main_arg20 : FVec F S128 .f32) (main_arg21 : FVec F S128 .f32) (main_arg22 : FVec F S128x10 .f32) (main_arg23 : FVec F S10 .f32) (main_v33 : IVec S_ 1) : IVec S_ 1 :=
  let main_v34 : FVec F S4 .f32 := Host.absf main_arg9
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S4x256x128 .f32 := Host.absf main_arg10
  let main_cst_14 : FVec F S_ .f32 := constant S_ .f32 0x7F800000#32
  let main_v40 : FVec F S4x256x128 .f32 := broadcastInDim S4x256x128 ![] bcast_S_S4x256x128 main_cst_14
  let main_v41 : IVec S4x256x128 1 := cmpf .olt main_v39 main_v40
  let main_c_15 : IVec S_ 1 := constantI S_ 1 1#1
  let main_v42 : IVec S_ 1 := (fun x v => Host.reduce IntOp.andi x v reducesTo_S4x256x128_S_d0_1_2 h_S_) main_v41 main_c_15
  let main_v43 : IVec S_ 1 := andi main_v38 main_v42
  let main_v44 : FVec F S4x128 .f32 := Host.absf main_arg11
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128 .f32 := Host.absf main_arg12
  let main_cst_18 : FVec F S_ .f32 := constant S_ .f32 0x7F800000#32
  let main_v50 : FVec F S4x128 .f32 := broadcastInDim S4x128 ![] bcast_S_S4x128 main_cst_18
  fn_part3 (F := F) main_arg8 main_arg13 main_arg14 main_arg15 main_arg16 main_arg17 main_arg18 main_arg19 main_arg20 main_arg21 main_arg22 main_arg23 main_v48 main_v49 main_v50

def fn_part1 {F : FTy → Type} [FloatOps F] (main_arg6 : FVec F S4x256 .f32) (main_arg7 : FVec F S4x256 .f32) (main_arg8 : FVec F S4x256 .f32) (main_arg9 : FVec F S4 .f32) (main_arg10 : FVec F S4x256x128 .f32) (main_arg11 : FVec F S4x128 .f32) (main_arg12 : FVec F S4x128 .f32) (main_arg13 : FVec F S4x128 .f32) (main_arg14 : FVec F S4x128 .f32) (main_arg15 : FVec F S4x128 .f32) (main_arg16 : FVec F S128x128 .f32) (main_arg17 : FVec F S128 .f32) (main_arg18 : FVec F S128 .f32) (main_arg19 : FVec F S128 .f32) (main_arg20 : FVec F S128 .f32) (main_arg21 : FVec F S128 .f32) (main_arg22 : FVec F S128x10 .f32) (main_arg23 : FVec F S10 .f32) (main_v13 : IVec S_ 1) (main_v16 : IVec S4x256 1) : IVec S_ 1 :=
  let main_c_5 : IVec S_ 1 := constantI S_ 1 1#1
  let main_v17 : IVec S_ 1 := (fun x v => Host.reduce IntOp.andi x v reducesTo_S4x256_S_d0_1 h_S_) main_v16 main_c_5
  let main_v18 : IVec S_ 1 := andi main_v13 main_v17
  let main_v19 : FVec F S4x256 .f32 := Host.absf main_arg6
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256 .f32 := Host.absf main_arg7
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S4x256 .f32 := Host.absf main_arg8
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x128 .f32) (main_arg1 : IVec S2x1600000 32) (main_arg2 : IVec S100000 32) (main_arg3 : FVec F S4x128x256 .f32) (main_arg4 : FVec F S4x256 .f32) (main_arg5 : FVec F S4x256 .f32) (main_arg6 : FVec F S4x256 .f32) (main_arg7 : FVec F S4x256 .f32) (main_arg8 : FVec F S4x256 .f32) (main_arg9 : FVec F S4 .f32) (main_arg10 : FVec F S4x256x128 .f32) (main_arg11 : FVec F S4x128 .f32) (main_arg12 : FVec F S4x128 .f32) (main_arg13 : FVec F S4x128 .f32) (main_arg14 : FVec F S4x128 .f32) (main_arg15 : FVec F S4x128 .f32) (main_arg16 : FVec F S128x128 .f32) (main_arg17 : FVec F S128 .f32) (main_arg18 : FVec F S128 .f32) (main_arg19 : FVec F S128 .f32) (main_arg20 : FVec F S128 .f32) (main_arg21 : FVec F S128 .f32) (main_arg22 : FVec F S128x10 .f32) (main_arg23 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x256 .f32 := Host.absf main_arg3
  let main_cst_0 : FVec F S_ .f32 := constant S_ .f32 0x7F800000#32
  let main_v5 : FVec F S4x128x256 .f32 := broadcastInDim S4x128x256 ![] bcast_S_S4x128x256 main_cst_0
  let main_v6 : IVec S4x128x256 1 := cmpf .olt main_v4 main_v5
  let main_c_1 : IVec S_ 1 := constantI S_ 1 1#1
  let main_v7 : IVec S_ 1 := (fun x v => Host.reduce IntOp.andi x v reducesTo_S4x128x256_S_d0_1_2 h_S_) main_v6 main_c_1
  let main_v8 : IVec S_ 1 := andi main_v3 main_v7
  let main_v9 : FVec F S4x256 .f32 := Host.absf main_arg4
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : FVec F S4x256 .f32 := Host.absf main_arg5
  let main_cst_4 : FVec F S_ .f32 := constant S_ .f32 0x7F800000#32
  let main_v15 : FVec F S4x256 .f32 := broadcastInDim S4x256 ![] bcast_S_S4x256 main_cst_4
  let main_v16 : IVec S4x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S4x128x256 : Shape := ⟨3, ![4, 128, 256]⟩
abbrev S4x256 : Shape := ⟨2, ![4, 256]⟩
abbrev S4 : Shape := ⟨1, ![4]⟩
abbrev S4x256x128 : Shape := ⟨3, ![4, 256, 128]⟩
abbrev S4x128 : Shape := ⟨2, ![4, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1 : Shape := ⟨1, ![1]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S1x1 : Shape := ⟨2, ![1, 1]⟩
abbrev S10000x128 : Shape := ⟨2, ![10000, 128]⟩
abbrev S10000x256 : Shape := ⟨2, ![10000, 256]⟩
abbrev S512x128 : Shape := ⟨2, ![512, 128]⟩
abbrev S100000x1 : Shape := ⟨2, ![100000, 1]⟩
abbrev S1x10 : Shape := ⟨2, ![1, 10]⟩
abbrev S512x10 : Shape := ⟨2, ![512, 10]⟩
abbrev S512 : Shape := ⟨1, ![512]⟩
abbrev S512x1 : Shape := ⟨2, ![512, 1]⟩

abbrev nBuf : Space → Nat
  | .hbm => 243
  | .vmem => 86
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x256, .f32⟩
  | 4 => ⟨S4x256, .f32⟩
  | 5 => ⟨S4x256, .f32⟩
  | 6 => ⟨S4x256, .f32⟩
  | 7 => ⟨S4x256, .f32⟩
  | 8 => ⟨S4x256, .f32⟩
  | 9 => ⟨S4, .f32⟩
  | 10 => ⟨S4x256x128, .f32⟩
  | 11 => ⟨S4x128, .f32⟩
  | 12 => ⟨S4x128, .f32⟩
  | 13 => ⟨S4x128, .f32⟩
  | 14 => ⟨S4x128, .f32⟩
  | 15 => ⟨S4x128, .f32⟩
  | 16 => ⟨S128x128, .f32⟩
  | 17 => ⟨S128, .f32⟩
  | 18 => ⟨S128, .f32⟩
  | 19 => ⟨S128, .f32⟩
  | 20 => ⟨S128, .f32⟩
  | 21 => ⟨S128, .f32⟩
  | 22 => ⟨S128x10, .f32⟩
  | 23 => ⟨S10, .f32⟩
  | 24 => ⟨S1x1600000, .i32⟩
  | 25 => ⟨S1600000, .i32⟩
  | 26 => ⟨S1x1600000, .i32⟩
  | 27 => ⟨S1600000, .i32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S1, .f32⟩
  | 42 => ⟨S_, .f32⟩
  | 43 => ⟨S1x128x256, .f32⟩
  | 44 => ⟨S128x256, .f32⟩
  | 45 => ⟨S1x256, .f32⟩
  | 46 => ⟨S256, .f32⟩
  | 47 => ⟨S1x256, .f32⟩
  | 48 => ⟨S256, .f32⟩
  | 49 => ⟨S1x256, .f32⟩
  | 50 => ⟨S256, .f32⟩
  | 51 => ⟨S1x256, .f32⟩
  | 52 => ⟨S256, .f32⟩
  | 53 => ⟨S1x256, .f32⟩
  | 54 => ⟨S256, .f32⟩
  | 55 => ⟨S1x256x128, .f32⟩
  | 56 => ⟨S256x128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S128, .f32⟩
  | 67 => ⟨S1x256, .f32⟩
  | 68 => ⟨S1x256, .f32⟩
  | 69 => ⟨S1x256, .f32⟩
  | 70 => ⟨S1x256, .f32⟩
  | 71 => ⟨S1x256, .f32⟩
  | 72 => ⟨S1x128, .f32⟩
  | 73 => ⟨S1x128, .f32⟩
  | 74 => ⟨S1x128, .f32⟩
  | 75 => ⟨S1x128, .f32⟩
  | 76 => ⟨S1x128, .f32⟩
  | 77 => ⟨S1x1, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S1, .f32⟩
  | 93 => ⟨S_, .f32⟩
  | 94 => ⟨S1x128x256, .f32⟩
  | 95 => ⟨S128x256, .f32⟩
  | 96 => ⟨S1x256, .f32⟩
  | 97 => ⟨S256, .f32⟩
  | 98 => ⟨S1x256, .f32⟩
  | 99 => ⟨S256, .f32⟩
  | 100 => ⟨S1x256, .f32⟩
  | 101 => ⟨S256, .f32⟩
  | 102 => ⟨S1x256, .f32⟩
  | 103 => ⟨S256, .f32⟩
  | 104 => ⟨S1x256, .f32⟩
  | 105 => ⟨S256, .f32⟩
  | 106 => ⟨S1x256x128, .f32⟩
  | 107 => ⟨S256x128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S128, .f32⟩
  | 114 => ⟨S1x128, .f32⟩
  | 115 => ⟨S128, .f32⟩
  | 116 => ⟨S1x128, .f32⟩
  | 117 => ⟨S128, .f32⟩
  | 118 => ⟨S1x256, .f32⟩
  | 119 => ⟨S1x256, .f32⟩
  | 120 => ⟨S1x256, .f32⟩
  | 121 => ⟨S1x256, .f32⟩
  | 122 => ⟨S1x256, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S1x1, .f32⟩
  | 1 => ⟨S100000x128, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x128, .f32⟩
  | 11 => ⟨S_, .f32⟩
  | 12 => ⟨S100000x128, .f32⟩
  | 13 => ⟨S1600000x1, .i32⟩
  | 14 => ⟨S100000x128, .f32⟩
  | 15 => ⟨S1, .f32⟩
  | 16 => ⟨S_, .f32⟩
  | 17 => ⟨S1x128x256, .f32⟩
  | 18 => ⟨S128x256, .f32⟩
  | 19 => ⟨S1x256, .f32⟩
  | 20 => ⟨S256, .f32⟩
  | 21 => ⟨S1x256, .f32⟩
  | 22 => ⟨S256, .f32⟩
  | 23 => ⟨S1x256, .f32⟩
  | 24 => ⟨S256, .f32⟩
  | 25 => ⟨S1x256, .f32⟩
  | 26 => ⟨S256, .f32⟩
  | 27 => ⟨S1x256, .f32⟩
  | 28 => ⟨S256, .f32⟩
  | 29 => ⟨S1x256x128, .f32⟩
  | 30 => ⟨S256x128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S1x256, .f32⟩
  | 42 => ⟨S1x256, .f32⟩
  | 43 => ⟨S1x256, .f32⟩
  | 44 => ⟨S1x256, .f32⟩
  | 45 => ⟨S1x256, .f32⟩
  | 46 => ⟨S1x128, .f32⟩
  | 47 => ⟨S1x128, .f32⟩
  | 48 => ⟨S1x128, .f32⟩
  | 49 => ⟨S1x128, .f32⟩
  | 50 => ⟨S1x128, .f32⟩
  | 51 => ⟨S1x1, .f32⟩
  | 52 => ⟨S100000x128, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S1, .f32⟩
  | 67 => ⟨S_, .f32⟩
  | 68 => ⟨S1x128x256, .f32⟩
  | 69 => ⟨S128x256, .f32⟩
  | 70 => ⟨S1x256, .f32⟩
  | 71 => ⟨S256, .f32⟩
  | 72 => ⟨S1x256, .f32⟩
  | 73 => ⟨S256, .f32⟩
  | 74 => ⟨S1x256, .f32⟩
  | 75 => ⟨S256, .f32⟩
  | 76 => ⟨S1x256, .f32⟩
  | 77 => ⟨S256, .f32⟩
  | 78 => ⟨S1x256, .f32⟩
  | 79 => ⟨S256, .f32⟩
  | 80 => ⟨S1x256x128, .f32⟩
  | 81 => ⟨S256x128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S128, .f32⟩
  | 92 => ⟨S1x256, .f32⟩
  | 93 => ⟨S1x256, .f32⟩
  | 94 => ⟨S1x256, .f32⟩
  | 95 => ⟨S1x256, .f32⟩
  | 96 => ⟨S1x256, .f32⟩
  | 97 => ⟨S1x128, .f32⟩
  | 98 => ⟨S1x128, .f32⟩
  | 99 => ⟨S1x128, .f32⟩
  | 100 => ⟨S1x128, .f32⟩
  | 101 => ⟨S1x128, .f32⟩
  | 102 => ⟨S1x1, .f32⟩
  | 103 => ⟨S100000x128, .f32⟩
  | 104 => ⟨S_, .f32⟩
  | 105 => ⟨S512x128, .f32⟩
  | 106 => ⟨S100000x1, .i32⟩
  | 107 => ⟨S512x128, .f32⟩
  | 108 => ⟨S1x128, .f32⟩
  | 109 => ⟨S1x128, .f32⟩
  | 110 => ⟨S1x128, .f32⟩
  | 111 => ⟨S1x128, .f32⟩
  | 112 => ⟨S1x128, .f32⟩
  | 113 => ⟨S1x10, .f32⟩
  | 114 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S1x1, .f32⟩
  | .local _ .vmem, ⟨5, _⟩ => ⟨S128x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S256x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S1x1, .f32⟩
  | .local _ .vmem, ⟨24, _⟩ => ⟨S128x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S256x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S1x1, .f32⟩
  | .local _ .vmem, ⟨43, _⟩ => ⟨S128x256, .f32⟩
  | .local _ .vmem, ⟨44, _⟩ => ⟨S1x256, .f32⟩
  | .local _ .vmem, ⟨45, _⟩ => ⟨S1x256, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S256x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S10000x128, .f32⟩
  | .local _ .vmem, ⟨56, _⟩ => ⟨S10000x128, .f32⟩
  | .local _ .vmem, ⟨57, _⟩ => ⟨S10000x128, .f32⟩
  | .local _ .vmem, ⟨58, _⟩ => ⟨S10000x128, .f32⟩
  | .local _ .vmem, ⟨59, _⟩ => ⟨S10000x128, .f32⟩
  | .local _ .vmem, ⟨60, _⟩ => ⟨S10000x128, .f32⟩
  | .local _ .vmem, ⟨61, _⟩ => ⟨S1x1, .f32⟩
  | .local _ .vmem, ⟨62, _⟩ => ⟨S128x256, .f32⟩
  | .local _ .vmem, ⟨63, _⟩ => ⟨S1x256, .f32⟩
  | .local _ .vmem, ⟨64, _⟩ => ⟨S1x256, .f32⟩
  | .local _ .vmem, ⟨65, _⟩ => ⟨S1x256, .f32⟩
  | .local _ .vmem, ⟨66, _⟩ => ⟨S1x256, .f32⟩
  | .local _ .vmem, ⟨67, _⟩ => ⟨S1x256, .f32⟩
  | .local _ .vmem, ⟨68, _⟩ => ⟨S256x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S10000x128, .f32⟩
  | .local _ .vmem, ⟨75, _⟩ => ⟨S10000x128, .f32⟩
  | .local _ .vmem, ⟨76, _⟩ => ⟨S512x128, .f32⟩
  | .local _ .vmem, ⟨77, _⟩ => ⟨S128x128, .f32⟩
  | .local _ .vmem, ⟨78, _⟩ => ⟨S1x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S1x128, .f32⟩
  | .local _ .vmem, ⟨83, _⟩ => ⟨S128x10, .f32⟩
  | .local _ .vmem, ⟨84, _⟩ => ⟨S1x10, .f32⟩
  | .local _ .vmem, ⟨85, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_1 : Ref sig .tc := ⟨.hbm, 79, rfl⟩
abbrev main_v52 : Ref sig .tc := ⟨.hbm, 80, rfl⟩
abbrev main_v53 : Ref sig .tc := ⟨.hbm, 81, rfl⟩
abbrev main_c_2 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_3 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_c_4 : Ref sig .tc := ⟨.hbm, 130, rfl⟩
abbrev main_v100 : Ref sig .tc := ⟨.hbm, 131, rfl⟩
abbrev main_v101 : Ref sig .tc := ⟨.hbm, 132, rfl⟩
abbrev main_c_5 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_6 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_c_7 : Ref sig .tc := ⟨.hbm, 181, rfl⟩
abbrev main_v148 : Ref sig .tc := ⟨.hbm, 182, rfl⟩
abbrev main_v149 : Ref sig .tc := ⟨.hbm, 183, rfl⟩
abbrev main_c_8 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_cst_9 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_cst_10 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc1_stg14_0 : Ref sig .tc := ⟨.vmem, 35, rfl⟩
abbrev cc1_stg15_0 : Ref sig .tc := ⟨.vmem, 36, rfl⟩
abbrev cc1_stg15_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg3_0 : Ref sig .tc := ⟨.vmem, 43, rfl⟩
abbrev cc2_stg4_0 : Ref sig .tc := ⟨.vmem, 44, rfl⟩
abbrev cc2_stg5_0 : Ref sig .tc := ⟨.vmem, 45, rfl⟩
abbrev cc2_stg6_0 : Ref sig .tc := ⟨.vmem, 46, rfl⟩
abbrev cc2_stg7_0 : Ref sig .tc := ⟨.vmem, 47, rfl⟩
abbrev cc2_stg8_0 : Ref sig .tc := ⟨.vmem, 48, rfl⟩
abbrev cc2_stg9_0 : Ref sig .tc := ⟨.vmem, 49, rfl⟩
abbrev cc2_stg10_0 : Ref sig .tc := ⟨.vmem, 50, rfl⟩
abbrev cc2_stg11_0 : Ref sig .tc := ⟨.vmem, 51, rfl⟩
abbrev cc2_stg12_0 : Ref sig .tc := ⟨.vmem, 52, rfl⟩
abbrev cc2_stg13_0 : Ref sig .tc := ⟨.vmem, 53, rfl⟩
abbrev cc2_stg14_0 : Ref sig .tc := ⟨.vmem, 54, rfl⟩
abbrev cc2_stg15_0 : Ref sig .tc := ⟨.vmem, 55, rfl⟩
abbrev cc2_stg15_1 : Ref sig .tc := ⟨.vmem, 56, rfl⟩
abbrev cc3_stg0_0 : Ref sig .tc := ⟨.vmem, 57, rfl⟩
abbrev cc3_stg0_1 : Ref sig .tc := ⟨.vmem, 58, rfl⟩
abbrev cc3_stg1_0 : Ref sig .tc := ⟨.vmem, 59, rfl⟩
abbrev cc3_stg1_1 : Ref sig .tc := ⟨.vmem, 60, rfl⟩
abbrev cc3_stg2_0 : Ref sig .tc := ⟨.vmem, 61, rfl⟩
abbrev cc3_stg3_0 : Ref sig .tc := ⟨.vmem, 62, rfl⟩
abbrev cc3_stg4_0 : Ref sig .tc := ⟨.vmem, 63, rfl⟩
abbrev cc3_stg5_0 : Ref sig .tc := ⟨.vmem, 64, rfl⟩
abbrev cc3_stg6_0 : Ref sig .tc := ⟨.vmem, 65, rfl⟩
abbrev cc3_stg7_0 : Ref sig .tc := ⟨.vmem, 66, rfl⟩
abbrev cc3_stg8_0 : Ref sig .tc := ⟨.vmem, 67, rfl⟩
abbrev cc3_stg9_0 : Ref sig .tc := ⟨.vmem, 68, rfl⟩
abbrev cc3_stg10_0 : Ref sig .tc := ⟨.vmem, 69, rfl⟩
abbrev cc3_stg11_0 : Ref sig .tc := ⟨.vmem, 70, rfl⟩
abbrev cc3_stg12_0 : Ref sig .tc := ⟨.vmem, 71, rfl⟩
abbrev cc3_stg13_0 : Ref sig .tc := ⟨.vmem, 72, rfl⟩
abbrev cc3_stg14_0 : Ref sig .tc := ⟨.vmem, 73, rfl⟩
abbrev cc3_stg15_0 : Ref sig .tc := ⟨.vmem, 74, rfl⟩
abbrev cc3_stg15_1 : Ref sig .tc := ⟨.vmem, 75, rfl⟩
abbrev cc4_stg0_0 : Ref sig .tc := ⟨.vmem, 76, rfl⟩
abbrev cc4_stg1_0 : Ref sig .tc := ⟨.vmem, 77, rfl⟩
abbrev cc4_stg2_0 : Ref sig .tc := ⟨.vmem, 78, rfl⟩
abbrev cc4_stg3_0 : Ref sig .tc := ⟨.vmem, 79, rfl⟩
abbrev cc4_stg4_0 : Ref sig .tc := ⟨.vmem, 80, rfl⟩
abbrev cc4_stg5_0 : Ref sig .tc := ⟨.vmem, 81, rfl⟩
abbrev cc4_stg6_0 : Ref sig .tc := ⟨.vmem, 82, rfl⟩
abbrev cc4_stg7_0 : Ref sig .tc := ⟨.vmem, 83, rfl⟩
abbrev cc4_stg8_0 : Ref sig .tc := ⟨.vmem, 84, rfl⟩
abbrev cc4_stg9_0 : Ref sig .tc := ⟨.vmem, 85, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem12_0 : DmaSem sig := 33
abbrev cc1_sem13_0 : DmaSem sig := 34
abbrev cc1_sem14_0 : DmaSem sig := 35
abbrev cc1_sem15_0 : DmaSem sig := 36
abbrev cc1_sem15_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem3_0 : DmaSem sig := 43
abbrev cc2_sem4_0 : DmaSem sig := 44
abbrev cc2_sem5_0 : DmaSem sig := 45
abbrev cc2_sem6_0 : DmaSem sig := 46
abbrev cc2_sem7_0 : DmaSem sig := 47
abbrev cc2_sem8_0 : DmaSem sig := 48
abbrev cc2_sem9_0 : DmaSem sig := 49
abbrev cc2_sem10_0 : DmaSem sig := 50
abbrev cc2_sem11_0 : DmaSem sig := 51
abbrev cc2_sem12_0 : DmaSem sig := 52
abbrev cc2_sem13_0 : DmaSem sig := 53
abbrev cc2_sem14_0 : DmaSem sig := 54
abbrev cc2_sem15_0 : DmaSem sig := 55
abbrev cc2_sem15_1 : DmaSem sig := 56
abbrev cc3_sem0_0 : DmaSem sig := 57
abbrev cc3_sem0_1 : DmaSem sig := 58
abbrev cc3_sem1_0 : DmaSem sig := 59
abbrev cc3_sem1_1 : DmaSem sig := 60
abbrev cc3_sem2_0 : DmaSem sig := 61
abbrev cc3_sem3_0 : DmaSem sig := 62
abbrev cc3_sem4_0 : DmaSem sig := 63
abbrev cc3_sem5_0 : DmaSem sig := 64
abbrev cc3_sem6_0 : DmaSem sig := 65
abbrev cc3_sem7_0 : DmaSem sig := 66
abbrev cc3_sem8_0 : DmaSem sig := 67
abbrev cc3_sem9_0 : DmaSem sig := 68
abbrev cc3_sem10_0 : DmaSem sig := 69
abbrev cc3_sem11_0 : DmaSem sig := 70
abbrev cc3_sem12_0 : DmaSem sig := 71
abbrev cc3_sem13_0 : DmaSem sig := 72
abbrev cc3_sem14_0 : DmaSem sig := 73
abbrev cc3_sem15_0 : DmaSem sig := 74
abbrev cc3_sem15_1 : DmaSem sig := 75
abbrev cc4_sem0_0 : DmaSem sig := 76
abbrev cc4_sem1_0 : DmaSem sig := 77
abbrev cc4_sem2_0 : DmaSem sig := 78
abbrev cc4_sem3_0 : DmaSem sig := 79
abbrev cc4_sem4_0 : DmaSem sig := 80
abbrev cc4_sem5_0 : DmaSem sig := 81
abbrev cc4_sem6_0 : DmaSem sig := 82
abbrev cc4_sem7_0 : DmaSem sig := 83
abbrev cc4_sem8_0 : DmaSem sig := 84
abbrev cc4_sem9_0 : DmaSem sig := 85

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S10000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S10000x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S10000x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S256x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 2 → Memref sig .tc .vmem S10000x128 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x10 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x10 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S512x10 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4_S1_0 : S4.Slices ![0] S1
  shapeCasts_S1_S_ : S1.ShapeCasts S_
  slices_S4x128x256_S1x128x256_0_0_0 : S4x128x256.Slices ![0, 0, 0] S1x128x256
  shapeCasts_S1x128x256_S128x256 : S1x128x256.ShapeCasts S128x256
  slices_S4x256_S1x256_0_0 : S4x256.Slices ![0, 0] S1x256
  shapeCasts_S1x256_S256 : S1x256.ShapeCasts S256
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  shapeCasts_S256_S1x256 : S256.ShapeCasts S1x256
  shapeCasts_S128_S1x128 : S128.ShapeCasts S1x128
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x128_S10000x128_0_0 : ∀ a, (![0, 0] : Fin 2 → Nat) a + S10000x128.size a ≤ S10000x128.size a
  h_S10000x128 : 0 < S10000x128.numel
  broadcasts_S1x1_S10000x128 : S1x1.Broadcasts S10000x128
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S4_S1_1 : S4.Slices ![1] S1
  slices_S4x128x256_S1x128x256_1_0_0 : S4x128x256.Slices ![1, 0, 0] S1x128x256
  slices_S4x256_S1x256_1_0 : S4x256.Slices ![1, 0] S1x256
  slices_S4x256x128_S1x256x128_1_0_0 : S4x256x128.Slices ![1, 0, 0] S1x256x128
  slices_S4x128_S1x128_1_0 : S4x128.Slices ![1, 0] S1x128
  slices_S4_S1_2 : S4.Slices ![2] S1
  slices_S4x128x256_S1x128x256_2_0_0 : S4x128x256.Slices ![2, 0, 0] S1x128x256
  slices_S4x256_S1x256_2_0 : S4x256.Slices ![2, 0] S1x256
  slices_S4x256x128_S1x256x128_2_0_0 : S4x256x128.Slices ![2, 0, 0] S1x256x128
  slices_S4x128_S1x128_2_0 : S4x128.Slices ![2, 0] S1x128
  slices_S4_S1_3 : S4.Slices ![3] S1
  slices_S4x128x256_S1x128x256_3_0_0 : S4x128x256.Slices ![3, 0, 0] S1x128x256
  slices_S4x256_S1x256_3_0 : S4x256.Slices ![3, 0] S1x256
  slices_S4x256x128_S1x256x128_3_0_0 : S4x256x128.Slices ![3, 0, 0] S1x256x128
  slices_S4x128_S1x128_3_0 : S4x128.Slices ![3, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x128_S128x128_0_0 : ∀ a, (![0, 0] : Fin 2 → Nat) a + S128x128.size a ≤ S128x128.size a
  h_S128x128 : 0 < S128x128.numel
  broadcasts_S1x128_S512x128 : S1x128.Broadcasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x256_S10000x256_1_0_0_1_n_n_wf : DotDims.WF S10000x128 S128x256 S10000x256 [1] [0] [0] [1] [] []
  dot_S10000x256_S256x128_S10000x128_1_0_0_1_n_n_wf : DotDims.WF S10000x256 S256x128 S10000x128 [1] [0] [0] [1] [] []
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S10000x128.size a ≤ S100000x128.size a
  hwx0_15 : ∀ i : grid0.Coords, EltTy.bits .f32 = 32 ∨ (Rect.block (s := S100000x128) S10000x128.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x128.size a ≤ S256x128.size a
  hwx1_9 : ∀ i : grid1.Coords, EltTy.bits .f32 = 32 ∨ (Rect.block (s := S256x128) S256x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x128.size a
  hwx1_13 : ∀ i : grid1.Coords, EltTy.bits .f32 = 32 ∨ (Rect.block (s := S1x128) S1x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S10000x128.size a ≤ S100000x128.size a
  hwx1_15 : ∀ i : grid1.Coords, EltTy.bits .f32 = 32 ∨ (Rect.block (s := S100000x128) S10000x128.size (cc1_transform_15 i) (hinb1_15 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x128.size a ≤ S256x128.size a
  hwx2_9 : ∀ i : grid2.Coords, EltTy.bits .f32 = 32 ∨ (Rect.block (s := S256x128) S256x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x128.size a ≤ S1x128.size a
  hwx2_13 : ∀ i : grid2.Coords, EltTy.bits .f32 = 32 ∨ (Rect.block (s := S1x128) S1x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x128.size a ≤ S1x128.size a
  hwx2_14 : ∀ i : grid2.Coords, EltTy.bits .f32 = 32 ∨ (Rect.block (s := S1x128) S1x128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S10000x128.size a ≤ S100000x128.size a
  hwx2_15 : ∀ i : grid2.Coords, EltTy.bits .f32 = 32 ∨ (Rect.block (s := S100000x128) S10000x128.size (cc2_transform_15 i) (hinb2_15 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .f32 = 32 ∨ (Rect.block (s := S100000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x256.size a ≤ S1x256.size a
  hwx3_8 : ∀ i : grid3.Coords, EltTy.bits .f32 = 32 ∨ (Rect.block (s := S1x256) S1x256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S256x128.size a ≤ S256x128.size a
  hwx3_9 : ∀ i : grid3.Coords, EltTy.bits .f32 = 32 ∨ (Rect.block (s := S256x128) S256x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x128.size a ≤ S1x128.size a
  hwx3_12 : ∀ i : grid3.Coords, EltTy.bits .f32 = 32 ∨ (Rect.block (s := S1x128) S1x128.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x128.size a ≤ S1x128.size a
  hwx3_13 : ∀ i : grid3.Coords, EltTy.bits .f32 = 32 ∨ (Rect.block (s := S1x128) S1x128.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x128.size a ≤ S1x128.size a
  hwx3_14 : ∀ i : grid3.Coords, EltTy.bits .f32 = 32 ∨ (Rect.block (s := S1x128) S1x128.size (cc3_transform_14 i) (hinb3_14 i)).WholeWords (EltTy.packing .f32)
  hstage3_15 : ∀ j, (stage3_15 j).IsWhole
  nbuf3_15 : grid3.bufCount reads3_15 false = 2
  hreads3_15 : ∀ i i' : grid3.Coords, (∀ a, reads3_15 a = true → i a = i' a) → cc3_transform_15 i = cc3_transform_15 i'
  hinb3_15 : ∀ (i : grid3.Coords) a, (cc3_transform_15 i a + 1) * S10000x128.size a ≤ S100000x128.size a
  hwx3_15 : ∀ i : grid3.Coords, EltTy.bits .f32 = 32 ∨ (Rect.block (s := S100000x128) S10000x128.size (cc3_transform_15 i) (hinb3_15 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x10.size a ≤ S128x10.size a
  hwx4_7 : ∀ i : grid4.Coords, EltTy.bits .f32 = 32 ∨ (Rect.block (s := S128x10) S128x10.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x10.size a ≤ S1x10.size a
  hwx4_8 : ∀ i : grid4.Coords, EltTy.bits .f32 = 32 ∨ (Rect.block (s := S1x10) S1x10.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S512x10.size a ≤ S512x10.size a
  hwx4_9 : ∀ i : grid4.Coords, EltTy.bits .f32 = 32 ∨ (Rect.block (s := S512x10) S512x10.size (cc4_transform_9 i) (hinb4_9 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v44) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v45) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v46) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v47) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v48) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v49) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v51) S10000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v51) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v98) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v88) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v89) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v90) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v91) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v92) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v77) S256x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v93) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v94) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v95) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v96) S1x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v97) S1x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v99) S10000x128.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev win2_0 : Pipeline.Window sig grid2 :=
  Pipeline.Window.ofSpec (Memref.whole main_v99) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v109) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v146) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v113) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v136) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v137) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v138) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v139) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v140) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v125) S256x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v141) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v142) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v143) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v144) S1x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v145) S1x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v147) S10000x128.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

abbrev win3_0 : Pipeline.Window sig grid3 :=
  Pipeline.Window.ofSpec (Memref.whole main_v147) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v157) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v194) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v161) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v184) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v185) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v186) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v187) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v188) S1x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v173) S256x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v189) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v190) S1x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v191) S1x128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v192) S1x128.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v193) S1x128.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v195) S10000x128.size cc3_transform_15 reads3_15 true false 2 stage3_15 sem3_15
    hrank3 hreads3_15 hinb3_15 nbuf3_15 (Memref.isWhole_whole _) hwx3_15 hstage3_15

abbrev win3 : Fin 16 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | ⟨_ + 16, h⟩ => absurd h (Nat.not_lt.2 (Nat.le_add_left _ _))
abbrev spec3 : Fin 16 → Pipeline.WinSpec sig grid3.rank := fun w => (win3 w).toWinSpec

abbrev win4_0 : Pipeline.Window sig grid4 :=
  Pipeline.Window.ofSpec (Memref.whole main_v198) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v199) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v200) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v201) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v202) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v203) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg22) S128x10.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v204) S1x10.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v205) S512x10.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S4x128x256 : Shape := ⟨3, ![4, 128, 256]⟩
abbrev S4x256 : Shape := ⟨2, ![4, 256]⟩
abbrev S4 : Shape := ⟨1, ![4]⟩
abbrev S4x256x128 : Shape := ⟨3, ![4, 256, 128]⟩
abbrev S4x128 : Shape := ⟨2, ![4, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1 : Shape := ⟨1, ![1]⟩
abbrev S1x128x256 : Shape := ⟨3, ![1, 128, 256]⟩
abbrev S128x256 : Shape := ⟨2, ![128, 256]⟩
abbrev S100000x256 : Shape := ⟨2, ![100000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S512x128 : Shape := ⟨2, ![512, 128]⟩
abbrev S100000x1 : Shape := ⟨2, ![100000, 1]⟩
abbrev S512x10 : Shape := ⟨2, ![512, 10]⟩
abbrev S1x10 : Shape := ⟨2, ![1, 10]⟩
abbrev S512 : Shape := ⟨1, ![512]⟩
abbrev S512x1 : Shape := ⟨2, ![512, 1]⟩

abbrev nBuf : Space → Nat
  | .hbm => 434
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x256, .f32⟩
  | 4 => ⟨S4x256, .f32⟩
  | 5 => ⟨S4x256, .f32⟩
  | 6 => ⟨S4x256, .f32⟩
  | 7 => ⟨S4x256, .f32⟩
  | 8 => ⟨S4x256, .f32⟩
  | 9 => ⟨S4, .f32⟩
  | 10 => ⟨S4x256x128, .f32⟩
  | 11 => ⟨S4x128, .f32⟩
  | 12 => ⟨S4x128, .f32⟩
  | 13 => ⟨S4x128, .f32⟩
  | 14 => ⟨S4x128, .f32⟩
  | 15 => ⟨S4x128, .f32⟩
  | 16 => ⟨S128x128, .f32⟩
  | 17 => ⟨S128, .f32⟩
  | 18 => ⟨S128, .f32⟩
  | 19 => ⟨S128, .f32⟩
  | 20 => ⟨S128, .f32⟩
  | 21 => ⟨S128, .f32⟩
  | 22 => ⟨S128x10, .f32⟩
  | 23 => ⟨S10, .f32⟩
  | 24 => ⟨S1x1600000, .i32⟩
  | 25 => ⟨S1600000, .i32⟩
  | 26 => ⟨S1x1600000, .i32⟩
  | 27 => ⟨S1600000, .i32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S1, .f32⟩
  | 42 => ⟨S_, .f32⟩
  | 43 => ⟨S_, .f32⟩
  | 44 => ⟨S_, .f32⟩
  | 45 => ⟨S100000x128, .f32⟩
  | 46 => ⟨S100000x128, .f32⟩
  | 47 => ⟨S100000x128, .f32⟩
  | 48 => ⟨S1x128x256, .f32⟩
  | 49 => ⟨S128x256, .f32⟩
  | 50 => ⟨S100000x256, .f32⟩
  | 51 => ⟨S1x256, .f32⟩
  | 52 => ⟨S256, .f32⟩
  | 53 => ⟨S1x256, .f32⟩
  | 54 => ⟨S100000x256, .f32⟩
  | 55 => ⟨S100000x256, .f32⟩
  | 56 => ⟨S1x256, .f32⟩
  | 57 => ⟨S256, .f32⟩
  | 58 => ⟨S1x256, .f32⟩
  | 59 => ⟨S256, .f32⟩
  | 60 => ⟨S1x256, .f32⟩
  | 61 => ⟨S256, .f32⟩
  | 62 => ⟨S1x256, .f32⟩
  | 63 => ⟨S256, .f32⟩
  | 64 => ⟨S1x256, .f32⟩
  | 65 => ⟨S100000x256, .f32⟩
  | 66 => ⟨S100000x256, .f32⟩
  | 67 => ⟨S_, .f32⟩
  | 68 => ⟨S256, .f32⟩
  | 69 => ⟨S256, .f32⟩
  | 70 => ⟨S256, .f32⟩
  | 71 => ⟨S1x256, .f32⟩
  | 72 => ⟨S100000x256, .f32⟩
  | 73 => ⟨S100000x256, .f32⟩
  | 74 => ⟨S1x256, .f32⟩
  | 75 => ⟨S100000x256, .f32⟩
  | 76 => ⟨S100000x256, .f32⟩
  | 77 => ⟨S1x256, .f32⟩
  | 78 => ⟨S100000x256, .f32⟩
  | 79 => ⟨S100000x256, .f32⟩
  | 80 => ⟨S_, .f32⟩
  | 81 => ⟨S100000x256, .f32⟩
  | 82 => ⟨S100000x256, .f32⟩
  | 83 => ⟨S1x256x128, .f32⟩
  | 84 => ⟨S256x128, .f32⟩
  | 85 => ⟨S100000x128, .f32⟩
  | 86 => ⟨S1x128, .f32⟩
  | 87 => ⟨S128, .f32⟩
  | 88 => ⟨S1x128, .f32⟩
  | 89 => ⟨S100000x128, .f32⟩
  | 90 => ⟨S100000x128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S100000x128, .f32⟩
  | 101 => ⟨S100000x128, .f32⟩
  | 102 => ⟨S_, .f32⟩
  | 103 => ⟨S128, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x128, .f32⟩
  | 127 => ⟨S_, .f32⟩
  | _ => ⟨S100000x128, .f32⟩

abbrev hbmTy0_1 (i : Nat) : BufTy := match i % 128 with
  | 0 => ⟨S100000x128, .f32⟩
  | 1 => ⟨S1600000x1, .i32⟩
  | 2 => ⟨S100000x128, .f32⟩
  | 3 => ⟨S1, .f32⟩
  | 4 => ⟨S_, .f32⟩
  | 5 => ⟨S_, .f32⟩
  | 6 => ⟨S_, .f32⟩
  | 7 => ⟨S100000x128, .f32⟩
  | 8 => ⟨S100000x128, .f32⟩
  | 9 => ⟨S100000x128, .f32⟩
  | 10 => ⟨S1x128x256, .f32⟩
  | 11 => ⟨S128x256, .f32⟩
  | 12 => ⟨S100000x256, .f32⟩
  | 13 => ⟨S1x256, .f32⟩
  | 14 => ⟨S256, .f32⟩
  | 15 => ⟨S1x256, .f32⟩
  | 16 => ⟨S100000x256, .f32⟩
  | 17 => ⟨S100000x256, .f32⟩
  | 18 => ⟨S1x256, .f32⟩
  | 19 => ⟨S256, .f32⟩
  | 20 => ⟨S1x256, .f32⟩
  | 21 => ⟨S256, .f32⟩
  | 22 => ⟨S1x256, .f32⟩
  | 23 => ⟨S256, .f32⟩
  | 24 => ⟨S1x256, .f32⟩
  | 25 => ⟨S256, .f32⟩
  | 26 => ⟨S1x256, .f32⟩
  | 27 => ⟨S100000x256, .f32⟩
  | 28 => ⟨S100000x256, .f32⟩
  | 29 => ⟨S_, .f32⟩
  | 30 => ⟨S256, .f32⟩
  | 31 => ⟨S256, .f32⟩
  | 32 => ⟨S256, .f32⟩
  | 33 => ⟨S1x256, .f32⟩
  | 34 => ⟨S100000x256, .f32⟩
  | 35 => ⟨S100000x256, .f32⟩
  | 36 => ⟨S1x256, .f32⟩
  | 37 => ⟨S100000x256, .f32⟩
  | 38 => ⟨S100000x256, .f32⟩
  | 39 => ⟨S1x256, .f32⟩
  | 40 => ⟨S100000x256, .f32⟩
  | 41 => ⟨S100000x256, .f32⟩
  | 42 => ⟨S_, .f32⟩
  | 43 => ⟨S100000x256, .f32⟩
  | 44 => ⟨S100000x256, .f32⟩
  | 45 => ⟨S1x256x128, .f32⟩
  | 46 => ⟨S256x128, .f32⟩
  | 47 => ⟨S100000x128, .f32⟩
  | 48 => ⟨S1x128, .f32⟩
  | 49 => ⟨S128, .f32⟩
  | 50 => ⟨S1x128, .f32⟩
  | 51 => ⟨S100000x128, .f32⟩
  | 52 => ⟨S100000x128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S100000x128, .f32⟩
  | 63 => ⟨S100000x128, .f32⟩
  | 64 => ⟨S_, .f32⟩
  | 65 => ⟨S128, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S1, .f32⟩
  | 94 => ⟨S_, .f32⟩
  | 95 => ⟨S_, .f32⟩
  | 96 => ⟨S_, .f32⟩
  | 97 => ⟨S100000x128, .f32⟩
  | 98 => ⟨S100000x128, .f32⟩
  | 99 => ⟨S100000x128, .f32⟩
  | 100 => ⟨S1x128x256, .f32⟩
  | 101 => ⟨S128x256, .f32⟩
  | 102 => ⟨S100000x256, .f32⟩
  | 103 => ⟨S1x256, .f32⟩
  | 104 => ⟨S256, .f32⟩
  | 105 => ⟨S1x256, .f32⟩
  | 106 => ⟨S100000x256, .f32⟩
  | 107 => ⟨S100000x256, .f32⟩
  | 108 => ⟨S1x256, .f32⟩
  | 109 => ⟨S256, .f32⟩
  | 110 => ⟨S1x256, .f32⟩
  | 111 => ⟨S256, .f32⟩
  | 112 => ⟨S1x256, .f32⟩
  | 113 => ⟨S256, .f32⟩
  | 114 => ⟨S1x256, .f32⟩
  | 115 => ⟨S256, .f32⟩
  | 116 => ⟨S1x256, .f32⟩
  | 117 => ⟨S100000x256, .f32⟩
  | 118 => ⟨S100000x256, .f32⟩
  | 119 => ⟨S_, .f32⟩
  | 120 => ⟨S256, .f32⟩
  | 121 => ⟨S256, .f32⟩
  | 122 => ⟨S256, .f32⟩
  | 123 => ⟨S1x256, .f32⟩
  | 124 => ⟨S100000x256, .f32⟩
  | 125 => ⟨S100000x256, .f32⟩
  | 126 => ⟨S1x256, .f32⟩
  | 127 => ⟨S100000x256, .f32⟩
  | _ => ⟨S100000x128, .f32⟩

abbrev hbmTy0_2 (i : Nat) : BufTy := match i % 128 with
  | 0 => ⟨S100000x256, .f32⟩
  | 1 => ⟨S1x256, .f32⟩
  | 2 => ⟨S100000x256, .f32⟩
  | 3 => ⟨S100000x256, .f32⟩
  | 4 => ⟨S_, .f32⟩
  | 5 => ⟨S100000x256, .f32⟩
  | 6 => ⟨S100000x256, .f32⟩
  | 7 => ⟨S1x256x128, .f32⟩
  | 8 => ⟨S256x128, .f32⟩
  | 9 => ⟨S100000x128, .f32⟩
  | 10 => ⟨S1x128, .f32⟩
  | 11 => ⟨S128, .f32⟩
  | 12 => ⟨S1x128, .f32⟩
  | 13 => ⟨S100000x128, .f32⟩
  | 14 => ⟨S100000x128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S100000x128, .f32⟩
  | 25 => ⟨S100000x128, .f32⟩
  | 26 => ⟨S_, .f32⟩
  | 27 => ⟨S128, .f32⟩
  | 28 => ⟨S128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S_, .f32⟩
  | 52 => ⟨S100000x128, .f32⟩
  | 53 => ⟨S1600000x1, .i32⟩
  | 54 => ⟨S100000x128, .f32⟩
  | 55 => ⟨S1, .f32⟩
  | 56 => ⟨S_, .f32⟩
  | 57 => ⟨S_, .f32⟩
  | 58 => ⟨S_, .f32⟩
  | 59 => ⟨S100000x128, .f32⟩
  | 60 => ⟨S100000x128, .f32⟩
  | 61 => ⟨S100000x128, .f32⟩
  | 62 => ⟨S1x128x256, .f32⟩
  | 63 => ⟨S128x256, .f32⟩
  | 64 => ⟨S100000x256, .f32⟩
  | 65 => ⟨S1x256, .f32⟩
  | 66 => ⟨S256, .f32⟩
  | 67 => ⟨S1x256, .f32⟩
  | 68 => ⟨S100000x256, .f32⟩
  | 69 => ⟨S100000x256, .f32⟩
  | 70 => ⟨S1x256, .f32⟩
  | 71 => ⟨S256, .f32⟩
  | 72 => ⟨S1x256, .f32⟩
  | 73 => ⟨S256, .f32⟩
  | 74 => ⟨S1x256, .f32⟩
  | 75 => ⟨S256, .f32⟩
  | 76 => ⟨S1x256, .f32⟩
  | 77 => ⟨S256, .f32⟩
  | 78 => ⟨S1x256, .f32⟩
  | 79 => ⟨S100000x256, .f32⟩
  | 80 => ⟨S100000x256, .f32⟩
  | 81 => ⟨S_, .f32⟩
  | 82 => ⟨S256, .f32⟩
  | 83 => ⟨S256, .f32⟩
  | 84 => ⟨S256, .f32⟩
  | 85 => ⟨S1x256, .f32⟩
  | 86 => ⟨S100000x256, .f32⟩
  | 87 => ⟨S100000x256, .f32⟩
  | 88 => ⟨S1x256, .f32⟩
  | 89 => ⟨S100000x256, .f32⟩
  | 90 => ⟨S100000x256, .f32⟩
  | 91 => ⟨S1x256, .f32⟩
  | 92 => ⟨S100000x256, .f32⟩
  | 93 => ⟨S100000x256, .f32⟩
  | 94 => ⟨S_, .f32⟩
  | 95 => ⟨S100000x256, .f32⟩
  | 96 => ⟨S100000x256, .f32⟩
  | 97 => ⟨S1x256x128, .f32⟩
  | 98 => ⟨S256x128, .f32⟩
  | 99 => ⟨S100000x128, .f32⟩
  | 100 => ⟨S1x128, .f32⟩
  | 101 => ⟨S128, .f32⟩
  | 102 => ⟨S1x128, .f32⟩
  | 103 => ⟨S100000x128, .f32⟩
  | 104 => ⟨S100000x128, .f32⟩
  | 105 => ⟨S1x128, .f32⟩
  | 106 => ⟨S128, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S100000x128, .f32⟩
  | 115 => ⟨S100000x128, .f32⟩
  | 116 => ⟨S_, .f32⟩
  | 117 => ⟨S128, .f32⟩
  | 118 => ⟨S128, .f32⟩
  | 119 => ⟨S128, .f32⟩
  | 120 => ⟨S1x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_3 (i : Nat) : BufTy := match i % 128 with
  | 0 => ⟨S100000x128, .f32⟩
  | 1 => ⟨S_, .f32⟩
  | 2 => ⟨S100000x128, .f32⟩
  | 3 => ⟨S100000x128, .f32⟩
  | 4 => ⟨S_, .f32⟩
  | 5 => ⟨S512x128, .f32⟩
  | 6 => ⟨S100000x1, .i32⟩
  | 7 => ⟨S512x128, .f32⟩
  | 8 => ⟨S512x128, .f32⟩
  | 9 => ⟨S1x128, .f32⟩
  | 10 => ⟨S512x128, .f32⟩
  | 11 => ⟨S512x128, .f32⟩
  | 12 => ⟨S1x128, .f32⟩
  | 13 => ⟨S512x128, .f32⟩
  | 14 => ⟨S512x128, .f32⟩
  | 15 => ⟨S_, .f32⟩
  | 16 => ⟨S128, .f32⟩
  | 17 => ⟨S128, .f32⟩
  | 18 => ⟨S128, .f32⟩
  | 19 => ⟨S1x128, .f32⟩
  | 20 => ⟨S512x128, .f32⟩
  | 21 => ⟨S512x128, .f32⟩
  | 22 => ⟨S1x128, .f32⟩
  | 23 => ⟨S512x128, .f32⟩
  | 24 => ⟨S512x128, .f32⟩
  | 25 => ⟨S1x128, .f32⟩
  | 26 => ⟨S512x128, .f32⟩
  | 27 => ⟨S512x128, .f32⟩
  | 28 => ⟨S_, .f32⟩
  | 29 => ⟨S512x128, .f32⟩
  | 30 => ⟨S512x128, .f32⟩
  | 31 => ⟨S512x10, .f32⟩
  | 32 => ⟨S1x10, .f32⟩
  | 33 => ⟨S512x10, .f32⟩
  | 34 => ⟨S512x10, .f32⟩
  | 35 => ⟨S_, .f32⟩
  | 36 => ⟨S512, .f32⟩
  | 37 => ⟨S_, .f32⟩
  | 38 => ⟨S512, .f32⟩
  | 39 => ⟨S512, .f32⟩
  | 40 => ⟨S512x1, .f32⟩
  | 41 => ⟨S512x10, .f32⟩
  | 42 => ⟨S512x10, .f32⟩
  | 43 => ⟨S512x10, .f32⟩
  | 44 => ⟨S_, .f32⟩
  | 45 => ⟨S512, .f32⟩
  | 46 => ⟨S512x1, .f32⟩
  | 47 => ⟨S512x1, .f32⟩
  | 48 => ⟨S512x10, .f32⟩
  | 49 => ⟨S512x10, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_1 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_2 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_call0_cst : Ref sig .tc := ⟨.hbm, 80, rfl⟩
abbrev main_call0_v0 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_3 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_call1_cst : Ref sig .tc := ⟨.hbm, 115, rfl⟩
abbrev main_call1_v0 : Ref sig .tc := ⟨.hbm, 116, rfl⟩
abbrev main_v83 : Ref sig .tc := ⟨.hbm, 117, rfl⟩
abbrev main_c_4 : Ref sig .tc := ⟨.hbm, 118, rfl⟩
abbrev main_v84 : Ref sig .tc := ⟨.hbm, 119, rfl⟩
abbrev main_v85 : Ref sig .tc := ⟨.hbm, 120, rfl⟩
abbrev main_c_5 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_6 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_7 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_8 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_call2_cst : Ref sig .tc := ⟨.hbm, 170, rfl⟩
abbrev main_call2_v0 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_cst_9 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_call3_cst : Ref sig .tc := ⟨.hbm, 205, rfl⟩
abbrev main_call3_v0 : Ref sig .tc := ⟨.hbm, 206, rfl⟩
abbrev main_v163 : Ref sig .tc := ⟨.hbm, 207, rfl⟩
abbrev main_c_10 : Ref sig .tc := ⟨.hbm, 208, rfl⟩
abbrev main_v164 : Ref sig .tc := ⟨.hbm, 209, rfl⟩
abbrev main_v165 : Ref sig .tc := ⟨.hbm, 210, rfl⟩
abbrev main_c_11 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_12 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_cst_13 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_cst_14 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_call4_cst : Ref sig .tc := ⟨.hbm, 260, rfl⟩
abbrev main_call4_v0 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_cst_15 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_call5_cst : Ref sig .tc := ⟨.hbm, 295, rfl⟩
abbrev main_call5_v0 : Ref sig .tc := ⟨.hbm, 296, rfl⟩
abbrev main_v243 : Ref sig .tc := ⟨.hbm, 297, rfl⟩
abbrev main_c_16 : Ref sig .tc := ⟨.hbm, 298, rfl⟩
abbrev main_v244 : Ref sig .tc := ⟨.hbm, 299, rfl⟩
abbrev main_v245 : Ref sig .tc := ⟨.hbm, 300, rfl⟩
abbrev main_c_17 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_cst_18 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_cst_19 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_cst_20 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_v289 : Ref sig .tc := ⟨.hbm, 348, rfl⟩
abbrev main_v290 : Ref sig .tc := ⟨.hbm, 349, rfl⟩
abbrev main_call6_cst : Ref sig .tc := ⟨.hbm, 350, rfl⟩
abbrev main_call6_v0 : Ref sig .tc := ⟨.hbm, 351, rfl⟩
abbrev main_v291 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_v310 : Ref sig .tc := ⟨.hbm, 371, rfl⟩
abbrev main_cst_21 : Ref sig .tc := ⟨.hbm, 372, rfl⟩
abbrev main_v311 : Ref sig .tc := ⟨.hbm, 373, rfl⟩
abbrev main_v312 : Ref sig .tc := ⟨.hbm, 374, rfl⟩
abbrev main_v313 : Ref sig .tc := ⟨.hbm, 375, rfl⟩
abbrev main_v314 : Ref sig .tc := ⟨.hbm, 376, rfl⟩
abbrev main_v315 : Ref sig .tc := ⟨.hbm, 377, rfl⟩
abbrev main_v316 : Ref sig .tc := ⟨.hbm, 378, rfl⟩
abbrev main_v317 : Ref sig .tc := ⟨.hbm, 379, rfl⟩
abbrev main_v318 : Ref sig .tc := ⟨.hbm, 380, rfl⟩
abbrev main_v319 : Ref sig .tc := ⟨.hbm, 381, rfl⟩
abbrev main_v320 : Ref sig .tc := ⟨.hbm, 382, rfl⟩
abbrev main_v321 : Ref sig .tc := ⟨.hbm, 383, rfl⟩
abbrev main_v322 : Ref sig .tc := ⟨.hbm, 384, rfl⟩
abbrev main_call7_cst : Ref sig .tc := ⟨.hbm, 385, rfl⟩
abbrev main_call7_v0 : Ref sig .tc := ⟨.hbm, 386, rfl⟩
abbrev main_v323 : Ref sig .tc := ⟨.hbm, 387, rfl⟩
abbrev main_cst_22 : Ref sig .tc := ⟨.hbm, 388, rfl⟩
abbrev main_v324 : Ref sig .tc := ⟨.hbm, 389, rfl⟩
abbrev main_v325 : Ref sig .tc := ⟨.hbm, 390, rfl⟩
abbrev main_v326 : Ref sig .tc := ⟨.hbm, 391, rfl⟩
abbrev main_v327 : Ref sig .tc := ⟨.hbm, 392, rfl⟩
abbrev main_v328 : Ref sig .tc := ⟨.hbm, 393, rfl⟩
abbrev main_v329 : Ref sig .tc := ⟨.hbm, 394, rfl⟩
abbrev main_v330 : Ref sig .tc := ⟨.hbm, 395, rfl⟩
abbrev main_v331 : Ref sig .tc := ⟨.hbm, 396, rfl⟩
abbrev main_v332 : Ref sig .tc := ⟨.hbm, 397, rfl⟩
abbrev main_v333 : Ref sig .tc := ⟨.hbm, 398, rfl⟩
abbrev main_cst_23 : Ref sig .tc := ⟨.hbm, 399, rfl⟩
abbrev main_v334 : Ref sig .tc := ⟨.hbm, 400, rfl⟩
abbrev main_v335 : Ref sig .tc := ⟨.hbm, 401, rfl⟩
abbrev main_v336 : Ref sig .tc := ⟨.hbm, 402, rfl⟩
abbrev main_v337 : Ref sig .tc := ⟨.hbm, 403, rfl⟩
abbrev main_v338 : Ref sig .tc := ⟨.hbm, 404, rfl⟩
abbrev main_v339 : Ref sig .tc := ⟨.hbm, 405, rfl⟩
abbrev main_v340 : Ref sig .tc := ⟨.hbm, 406, rfl⟩
abbrev main_v341 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_v345 : Ref sig .tc := ⟨.hbm, 411, rfl⟩
abbrev main_call8_cst : Ref sig .tc := ⟨.hbm, 412, rfl⟩
abbrev main_call8_v0 : Ref sig .tc := ⟨.hbm, 413, rfl⟩
abbrev main_v346 : Ref sig .tc := ⟨.hbm, 414, rfl⟩
abbrev main_v347 : Ref sig .tc := ⟨.hbm, 415, rfl⟩
abbrev main_v348 : Ref sig .tc := ⟨.hbm, 416, rfl⟩
abbrev main_v349 : Ref sig .tc := ⟨.hbm, 417, rfl⟩
abbrev main_v350 : Ref sig .tc := ⟨.hbm, 418, rfl⟩
abbrev main_call9_cst : Ref sig .tc := ⟨.hbm, 419, rfl⟩
abbrev main_call9_v0 : Ref sig .tc := ⟨.hbm, 420, rfl⟩
abbrev main_call9_cst_0 : Ref sig .tc := ⟨.hbm, 421, rfl⟩
abbrev main_call9_v1 : Ref sig .tc := ⟨.hbm, 422, rfl⟩
abbrev main_call9_v2 : Ref sig .tc := ⟨.hbm, 423, rfl⟩
abbrev main_call9_v3 : Ref sig .tc := ⟨.hbm, 424, rfl⟩
abbrev main_call9_v4 : Ref sig .tc := ⟨.hbm, 425, rfl⟩
abbrev main_call9_v5 : Ref sig .tc := ⟨.hbm, 426, rfl⟩
abbrev main_call9_v6 : Ref sig .tc := ⟨.hbm, 427, rfl⟩
abbrev main_call9_cst_1 : Ref sig .tc := ⟨.hbm, 428, rfl⟩
abbrev main_call9_v7 : Ref sig .tc := ⟨.hbm, 429, rfl⟩
abbrev main_call9_v8 : Ref sig .tc := ⟨.hbm, 430, rfl⟩
abbrev main_call9_v9 : Ref sig .tc := ⟨.hbm, 431, rfl⟩
abbrev main_call9_v10 : Ref sig .tc := ⟨.hbm, 432, rfl⟩
abbrev main_v351 : Ref sig .tc := ⟨.hbm, 433, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4_S1_0 : S4.Slices ![0] S1
  shapeCasts_S1_S_ : S1.ShapeCasts S_
  slices_S4x128x256_S1x128x256_0_0_0 : S4x128x256.Slices ![0, 0, 0] S1x128x256
  shapeCasts_S1x128x256_S128x256 : S1x128x256.ShapeCasts S128x256
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S256 : S_.BroadcastsInDim S256 (![] : Fin 0 → Fin S256.rank)
  bcast_S_S100000x256 : S_.BroadcastsInDim S100000x256 (![] : Fin 0 → Fin S100000x256.rank)
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S4_S1_1 : S4.Slices ![1] S1
  slices_S4x128x256_S1x128x256_1_0_0 : S4x128x256.Slices ![1, 0, 0] S1x128x256
  slices_S4x256_S1x256_1_0 : S4x256.Slices ![1, 0] S1x256
  slices_S4x256x128_S1x256x128_1_0_0 : S4x256x128.Slices ![1, 0, 0] S1x256x128
  slices_S4x128_S1x128_1_0 : S4x128.Slices ![1, 0] S1x128
  slices_S4_S1_2 : S4.Slices ![2] S1
  slices_S4x128x256_S1x128x256_2_0_0 : S4x128x256.Slices ![2, 0, 0] S1x128x256
  slices_S4x256_S1x256_2_0 : S4x256.Slices ![2, 0] S1x256
  slices_S4x256x128_S1x256x128_2_0_0 : S4x256x128.Slices ![2, 0, 0] S1x256x128
  slices_S4x128_S1x128_2_0 : S4x128.Slices ![2, 0] S1x128
  slices_S4_S1_3 : S4.Slices ![3] S1
  slices_S4x128x256_S1x128x256_3_0_0 : S4x128x256.Slices ![3, 0, 0] S1x128x256
  slices_S4x256_S1x256_3_0 : S4x256.Slices ![3, 0] S1x256
  slices_S4x256x128_S1x256x128_3_0_0 : S4x256x128.Slices ![3, 0, 0] S1x256x128
  slices_S4x128_S1x128_3_0 : S4x128.Slices ![3, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.RefRunW.lean ====
/-
  The reference program's run, read back. The program is one straight line of host operations, written here as
  seven consecutive stretches. Run from any memory, every weakly fair execution terminates; a buffer holds at the
  end the fold of the operations' results over the launch contents. Read at the program's result, the fold is the
  composition of the operations, stage by stage; read at an argument, which no operation writes, it is the launch
  contents.
-/
import proofs.«113793_j3350074490963_2_alg».proof.Proof.Gen.ReferenceIdeal
import proofs.«113793_j3350074490963_2_alg».proof.Proof.RefReadP
import Idealize.ShloMosaic.Lib.StableHlo.Run

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

/-- A reference of a list is, as a device buffer, among the list's device buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

/-! ## The seven stretches -/

set_option maxHeartbeats 4000000 in
set_option maxRecDepth 16384 in
/-- Stretch 0: operations 1 … 62 of the program, in order (a called function's operations stand in its call's place). -/
abbrev ops0 : List (HloOp τ sig (Elt F)) :=
  ( unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F))
  :: reshape main_v0 main_v1 rfl shapeCasts_S1x1600000_S1600000
  :: unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F))
  :: reshape main_v2 main_v3 rfl shapeCasts_S1x1600000_S1600000
  :: nullary main_c (constantI S_ 32 0#32)
  :: unary main_c main_v4 (broadcastInDim S1600000 ![] bcast_S_S1600000 : (⟨S_, .i32⟩ : BufTy).Contents (Elt F) → (⟨S1600000, .i32⟩ : BufTy).Contents (Elt F))
  :: binary main_v1 main_v4 main_v5 (cmpi .slt : (⟨S1600000, .i32⟩ : BufTy).Contents (Elt F) → (⟨S1600000, .i32⟩ : BufTy).Contents (Elt F) → (⟨S1600000, .i1⟩ : BufTy).Contents (Elt F))
  :: nullary main_c_0 (constantI S_ 32 100000#32)
  :: unary main_c_0 main_v6 (broadcastInDim S1600000 ![] bcast_S_S1600000 : (⟨S_, .i32⟩ : BufTy).Contents (Elt F) → (⟨S1600000, .i32⟩ : BufTy).Contents (Elt F))
  :: binary main_v1 main_v6 main_v7 (addi : (⟨S1600000, .i32⟩ : BufTy).Contents (Elt F) → (⟨S1600000, .i32⟩ : BufTy).Contents (Elt F) → (⟨S1600000, .i32⟩ : BufTy).Contents (Elt F))
  :: ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v8 main_v9 (broadcastInDim S1600000x1 ![0] bcast_S1600000_S1600000x1_0 : (⟨S1600000, .i32⟩ : BufTy).Contents (Elt F) → (⟨S1600000x1, .i32⟩ : BufTy).Contents (Elt F))
  :: binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F))
  :: nullary main_cst (constant S_ .f32 0x00000000#32)
  :: unary main_cst main_v11 (broadcastInDim S100000x128 ![] bcast_S_S100000x128 : (⟨S_, .f32⟩ : BufTy).Contents (Elt F) → (⟨S100000x128, .f32⟩ : BufTy).Contents (Elt F))
  :: unary main_v3 main_v12 (broadcastInDim S1600000x1 ![0] bcast_S1600000_S1600000x1_0 : (⟨S1600000, .i32⟩ : BufTy).Contents (Elt F) → (⟨S1600000x1, .i32⟩ : BufTy).Contents (Elt F))
  :: ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F))
  :: unary main_arg9 main_v14 ((extractStridedSlice S1 ![0] · slices_S4_S1_0) : (⟨S4, .f32⟩ : BufTy).Contents (Elt F) → (⟨S1, .f32⟩ : BufTy).Contents (Elt F))
  :: reshape main_v14 main_v15 rfl shapeCasts_S1_S_
  :: nullary main_cst_1 (constant S_ .f32 0x3F800000#32)
  :: binary main_cst_1 main_v15 main_v16 (addf : (⟨S_, .f32⟩ : BufTy).Contents (Elt F) → (⟨S_, .f32⟩ : BufTy).Contents (Elt F) → (⟨S_, .f32⟩ : BufTy).Contents (Elt F))
  :: unary main_v16 main_v17 (broadcastInDim S100000x128 ![] bcast_S_S100000x128 : (⟨S_, .f32⟩ : BufTy).Contents (Elt F) → (⟨S100000x128, .f32⟩ : BufTy).Contents (Elt F))
  :: binary main_v17 main_arg0 main_v18 (mulf : (⟨S100000x128, .f32⟩ : BufTy).Contents (Elt F) → (⟨S100000x128, .f32⟩ : BufTy).Contents (Elt F) → (⟨S100000x128, .f32⟩ : BufTy).Contents (Elt F))
  :: binary main_v18 main_v13 main_v19 (addf : (⟨S100000x128, .f32⟩ : BufTy).Contents (Elt F) → (⟨S100000x128, .f32⟩ : BufTy).Contents (Elt F) → (⟨S100000x128, .f32⟩ : BufTy).Contents (Elt F))
  :: unary main_arg3 main_v20 ((extractStridedSlice S1x128x256 ![0, 0, 0] · slices_S4x128x256_S1x128x256_0_0_0) : (⟨S4x128x256, .f32⟩ : BufTy).Contents (Elt F) → (⟨S1x128x256, .f32⟩ : BufTy).Contents (Elt F))
  :: reshape main_v20 main_v21 rfl shapeCasts_S1x128x256_S128x256
  :: binary main_v19 main_v21 main_v22 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F))
  :: unary main_arg4 main_v23 ((extractStridedSlice S1x256 ![0, 0] · slices_S4x256_S1x256_0_0) : (⟨S4x256, .f32⟩ : BufTy).Contents (Elt F) → (⟨S1x256, .f32⟩ : BufTy).Contents (Elt F))
  :: reshape main_v23 main_v24 rfl shapeCasts_S1x256_S256
  :: unary main_v24 main_v25 (broadcastInDim S1x256 ![1] bcast_S256_S1x256_1 : (⟨S256, .f32⟩ : BufTy).Contents (Elt F) → (⟨S1x256, .f32⟩ : BufTy).Contents (Elt F))
  :: unary main_v25 main_v26 (broadcastInDim S100000x256 ![0, 1] bcast_S1x256_S100000x256_0_1 : (⟨S1x256, .f32⟩ : BufTy).Contents (Elt F) → (⟨S100000x256, .f32⟩ : BufTy).Contents (Elt F))
  :: binary main_v22 main_v26 main_v27 (addf : (⟨S100000x256, .f32⟩ : BufTy).Contents (Elt F) → (⟨S100000x256, .f32⟩ : BufTy).Contents (Elt F) → (⟨S100000x256, .f32⟩ : BufTy).Contents (Elt F))
  :: unary main_arg5 main_v28 ((extractStridedSlice S1x256 ![0, 0] · slices_S4x256_S1x256_0_0) : (⟨S4x256, .f32⟩ : BufTy).Contents (Elt F) → (⟨S1x256, .f32⟩ : BufTy).Contents (Elt F))
  :: reshape main_v28 main_v29 rfl shapeCasts_S1x256_S256
  :: unary main_arg6 main_v30 ((extractStridedSlice S1x256 ![0, 0] · slices_S4x256_S1x256_0_0) : (⟨S4x256, .f32⟩ : BufTy).Contents (Elt F) → (⟨S1x256, .f32⟩ : BufTy).Contents (Elt F))
  :: reshape main_v30 main_v31 rfl shapeCasts_S1x256_S256
  :: unary main_arg7 main_v32 ((extractStridedSlice S1x256 ![0, 0] · slices_S4x256_S1x256_0_0) : (⟨S4x256, .f32⟩ : BufTy).Contents (Elt F) → (⟨S1x256, .f32⟩ : BufTy).Contents (Elt F))
  :: reshape main_v32 main_v33 rfl shapeCasts_S1x256_S256
  :: unary main_arg8 main_v34 ((extractStridedSlice S1x256 ![0, 0] · slices_S4x256_S1x256_0_0) : (⟨S4x256, .f32⟩ : BufTy).Contents (Elt F) → (⟨S1x256, .f32⟩ : BufTy).Contents (Elt F))
  :: reshape main_v34 main_v35 rfl shapeCasts_S1x256_S256
  :: unary main_v33 main_v36 (broadcastInDim S1x256 ![1] bcast_S256_S1x256_1 : (⟨S256, .f32⟩ : BufTy).Contents (Elt F) → (⟨S1x256, .f32⟩ : BufTy).Contents (Elt F))
  :: unary main_v36 main_v37 (broadcastInDim S100000x256 ![0, 1] bcast_S1x256_S100000x256_0_1 : (⟨S1x256, .f32⟩ : BufTy).Contents (Elt F) → (⟨S100000x256, .f32⟩ : BufTy).Contents (Elt F))
  :: binary main_v27 main_v37 main_v38 (subf : (⟨S100000x256, .f32⟩ : BufTy).Contents (Elt F) → (⟨S100000x256, .f32⟩ : BufTy).Contents (Elt F) → (⟨S100000x256, .f32⟩ : BufTy).Contents (Elt F))
  :: nullary main_cst_2 (constant S_ .f32 0x3727C5AC#32)
  :: unary main_cst_2 main_v39 (broadcastInDim S256 ![] bcast_S_S256 : (⟨S_, .f32⟩ : BufTy).Contents (Elt F) → (⟨S256, .f32⟩ : BufTy).Contents (Elt F))
  :: binary main_v35 main_v39 main_v40 (addf : (⟨S256, .f32⟩ : BufTy).Contents (Elt F) → (⟨S256, .f32⟩ : BufTy).Contents (Elt F) → (⟨S256, .f32⟩ : BufTy).Contents (Elt F))
  :: unary main_v40 main_v41 (Host.rsqrt : (⟨S256, .f32⟩ : BufTy).Contents (Elt F) → (⟨S256, .f32⟩ : BufTy).Contents (Elt F))
  :: unary main_v41 main_v42 (broadcastInDim S1x256 ![1] bcast_S256_S1x256_1 : (⟨S256, .f32⟩ : BufTy).Contents (Elt F) → (⟨S1x256, .f32⟩ : BufTy).Contents (Elt F))
  :: unary main_v42 main_v43 (broadcastInDim S100000x256 ![0, 1] bcast_S1x256_S100000x256_0_1 : (⟨S1x256, .f32⟩ : BufTy).Contents (Elt F) → (⟨S100000x256, .f32⟩ : BufTy).Contents (Elt F))
  :: binary main_v38 main_v43 main_v44 (mulf : (⟨S100000x256, .f32⟩ : BufTy).Contents (Elt F) → (⟨S100000x256, .f32⟩ : BufTy).Contents (Elt F) → (⟨S100000x256, .f32⟩ : BufTy).Contents (Elt F))
  :: unary main_v29 main_v45 (broadcastInDim S1x256 ![1] bcast_S256_S1x256_1 : (⟨S256, .f32⟩ : BufTy).Contents (Elt F) → (⟨S1x256, .f32⟩ : BufTy).Contents (Elt F))
  :: unary main_v45 main_v46 (broadcastInDim S100000x256 ![0, 1] bcast_S1x256_S100000x256_0_1 : (⟨S1x256, .f32⟩ : BufTy).Contents (Elt F) → (⟨S100000x256, .f32⟩ : BufTy).Contents (Elt F))
  :: binary main_v44 main_v46 main_v47 (mulf : (⟨S100000x256, .f32⟩ : BufTy).Contents (Elt F) → (⟨S100000x256, .f32⟩ : BufTy).Contents (Elt F) → (⟨S100000x256, .f32⟩ : BufTy).Contents (Elt F))
  :: unary main_v31 main_v48 (broadcastInDim S1x256 ![1] bcast_S256_S1x256_1 : (⟨S256, .f32⟩ : BufTy).Contents (Elt F) → (⟨S1x256, .f32⟩ : BufTy).Contents (Elt F))
  :: unary main_v48 main_v49 (broadcastInDim S100000x256 ![0, 1] bcast_S1x256_S100000x256_0_1 : (⟨S1x256, .f32⟩ : BufTy).Contents (Elt F) → (⟨S100000x256, .f32⟩ : BufTy).Contents (Elt F))
  :: binary main_v47 main_v49 main_v50 (addf : (⟨S100000x256, .f32⟩ : BufTy).Contents (Elt F) → (⟨S100000x256, .f32⟩ : BufTy).Contents (Elt F) → (⟨S100000x256, .f32⟩ : BufTy).Contents (Elt F))
  :: TRef.nullary (TRef.of (T := ⟨S_, .f32⟩) main_call0_cst) (constant S_ .f32 0x00000000#32)
  :: TRef.unary (TRef.of (T := ⟨S_, .f32⟩) main_call0_cst) (TRef.of (T := ⟨S100000x256, .f32⟩) main_call0_v0) (broadcastInDim S100000x256 ![] bcast_S_S100000x256)
  :: TRef.binary (TRef.of (T := ⟨S100000x256, .f32⟩) main_v50) (TRef.of (T := ⟨S100000x256, .f32⟩) main_call0_v0) (TRef.of (T := ⟨S100000x256, .f32⟩) main_v51) maximumf
  :: unary main_arg10 main_v52 ((extractStridedSlice S1x256x128 ![0, 0, 0] · slices_S4x256x128_S1x256x128_0_0_0) : (⟨S4x256x128, .f32⟩ : BufTy).Contents (Elt F) → (⟨S1x256x128, .f32⟩ : BufTy).Contents (Elt F))
  :: reshape main_v52 main_v53 rfl shapeCasts_S1x256x128_S256x128
  :: binary main_v51 main_v53 main_v54 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F))
  :: [] )

set_option maxHeartbeats 4000000 in
set_option maxRecDepth 16384 in
/-- Stretch 0 is part 0 of the program. -/
theorem part0_eq (c : Dev nD) : main_part0 (F := F) c = seq ops0 := rfl

set_option maxRecDepth 16384 in
/-- Every operation of stretch 0 touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub ..⟩

set_option maxRecDepth 16384 in
/-- No operation of stretch 0 allocates a buffer. -/
theorem ops0_fresh : (ops0 : List (HloOp τ sig (Elt F))).Forall fun op => op.fresh = ∅ := by
  simp only [List.Forall]; repeat' constructor

/-- The references stretch 0 writes, in order: one per operation, its result. -/
abbrev writes0 : List (Ref sig .tc) :=
  [main_v0, main_v1, main_v2, main_v3, main_c, main_v4, main_v5, main_c_0, main_v6, main_v7, main_v8, main_v9, main_v10, main_cst, main_v11, main_v12, main_v13, main_v14, main_v15, main_cst_1, main_v16, main_v17, main_v18, main_v19, main_v20, main_v21, main_v22, main_v23, main_v24, main_v25, main_v26, main_v27, main_v28, main_v29, main_v30, main_v31, main_v32, main_v33, main_v34, main_v35, main_v36, main_v37, main_v38, main_cst_2, main_v39, main_v40, main_v41, main_v42, main_v43, main_v44, main_v45, main_v46, main_v47, main_v48, main_v49, main_v50, main_call0_cst, main_call0_v0, main_v51, main_v52, main_v53, main_v54]

set_option maxRecDepth 16384 in
/-- Every operation of stretch 0 writes a reference of that list. -/
theorem ops0_writes : (ops0 : List (HloOp τ sig (Elt F))).Forall fun op => op.writes ⊆ (writes0.map (Proc.devRef (τ := τ) .tc)).toFinset :=
  ⟨sub_of_mem (y := main_v0) (by decide),
   sub_of_mem (y := main_v1) (by decide),
   sub_of_mem (y := main_v2) (by decide),
   sub_of_mem (y := main_v3) (by decide),
   sub_of_mem (y := main_c) (by decide),
   sub_of_mem (y := main_v4) (by decide),
   sub_of_mem (y := main_v5) (by decide),
   sub_of_mem (y := main_c_0) (by decide),
   sub_of_mem (y := main_v6) (by decide),
   sub_of_mem (y := main_v7) (by decide),
   sub_of_mem (y := main_v8) (by decide),
   sub_of_mem (y := main_v9) (by decide),
   sub_of_mem (y := main_v10) (by decide),
   sub_of_mem (y := main_cst) (by decide),
   sub_of_mem (y := main_v11) (by decide),
   sub_of_mem (y := main_v12) (by decide),
   sub_of_mem (y := main_v13) (by decide),
   sub_of_mem (y := main_v14) (by decide),
   sub_of_mem (y := main_v15) (by decide),
   sub_of_mem (y := main_cst_1) (by decide),
   sub_of_mem (y := main_v16) (by decide),
   sub_of_mem (y := main_v17) (by decide),
   sub_of_mem (y := main_v18) (by decide),
   sub_of_mem (y := main_v19) (by decide),
   sub_of_mem (y := main_v20) (by decide),
   sub_of_mem (y := main_v21) (by decide),
   sub_of_mem (y := main_v22) (by decide),
   sub_of_mem (y := main_v23) (by decide),
   sub_of_mem (y := main_v24) (by decide),
   sub_of_mem (y := main_v25) (by decide),
   sub_of_mem (y := main_v26) (by decide),
   sub_of_mem (y := main_v27) (by decide),
   sub_of_mem (y := main_v28) (by decide),
   sub_of_mem (y := main_v29) (by decide),
   sub_of_mem (y := main_v30) (by decide),
   sub_of_mem (y := main_v31) (by decide),
   sub_of_mem (y := main_v32) (by decide),
   sub_of_mem (y := main_v33) (by decide),
   sub_of_mem (y := main_v34) (by decide),
   sub_of_mem (y := main_v35) (by decide),
   sub_of_mem (y := main_v36) (by decide),
   sub_of_mem (y := main_v37) (by decide),
   sub_of_mem (y := main_v38) (by decide),
   sub_of_mem (y := main_cst_2) (by decide),
   sub_of_mem (y := main_v39) (by decide),
   sub_of_mem (y := main_v40) (by decide),
   sub_of_mem (y := main_v41) (by decide),
   sub_of_mem (y := main_v42) (by decide),
   sub_of_mem (y := main_v43) (by decide),
   sub_of_mem (y := main_v44) (by decide),
   sub_of_mem (y := main_v45) (by decide),
   sub_of_mem (y := main_v46) (by decide),
   sub_of_mem (y := main_v47) (by decide),
   sub_of_mem (y := main_v48) (by decide),
   sub_of_mem (y := main_v49) (by decide),
   sub_of_mem (y := main_v50) (by decide),
   sub_of_mem (y := main_call0_cst) (by decide),
   sub_of_mem (y := main_call0_v0) (by decide),
   sub_of_mem (y := main_v51) (by decide),
   sub_of_mem (y := main_v52) (by decide),
   sub_of_mem (y := main_v53) (by decide),
   sub_of_mem (y := main_v54) (by decide)⟩

set_option maxHeartbeats 4000000 in
set_option maxRecDepth 16384 in
/-- Stretch 1: operations 63 … 124 of the program, in order (a called function's operations stand in its call's place). -/
abbrev ops1 : List (HloOp τ sig (Elt F)) :=
  ( unary main_arg11 main_v55 ((extractStridedSlice S1x128 ![0, 0] · slices_S4x128_S1x128_0_0) : (⟨S4x128, .f32⟩ : BufTy).Contents (Elt F) → (⟨S1x128, .f32⟩ : BufTy).Contents (Elt F))
  :: reshape main_v55 main_v56 rfl shapeCasts_S1x128_S128
  :: unary main_v56 main_v57 (broadcastInDim S1x128 ![1] bcast_S128_S1x128_1 : (⟨S128, .f32⟩ : BufTy).Contents (Elt F) → (⟨S1x128, .f32⟩ : BufTy).Contents (Elt F))
  :: unary main_v57 main_v58 (broadcastInDim S100000x128 ![0, 1] bcast_S1x128_S100000x128_0_1 : (⟨S1x128, .f32⟩ : BufTy).Contents (Elt F) → (⟨S100000x128, .f32⟩ : BufTy).Contents (Elt F))
  :: binary main_v54 main_v58 main_v59 (addf : (⟨S100000x128, .f32⟩ : BufTy).Contents (Elt F) → (⟨S100000x128, .f32⟩ : BufTy).Contents (Elt F) → (⟨S100000x128, .f32⟩ : BufTy).Contents (Elt F))
  :: unary main_arg12 main_v60 ((extractStridedSlice S1x128 ![0, 0] · slices_S4x128_S1x128_0_0) : (⟨S4x128, .f32⟩ : BufTy).Contents (Elt F) → (⟨S1x128, .f32⟩ : BufTy).Contents (Elt F))
  :: reshape main_v60 main_v61 rfl shapeCasts_S1x128_S128
  :: unary main_arg13 main_v62 ((extractStridedSlice S1x128 ![0, 0] · slices_S4x128_S1x128_0_0) : (⟨S4x128, .f32⟩ : BufTy).Contents (Elt F) → (⟨S1x128, .f32⟩ : BufTy).Contents (Elt F))
  :: reshape main_v62 main_v63 rfl shapeCasts_S1x128_S128
  :: unary main_arg14 main_v64 ((extractStridedSlice S1x128 ![0, 0] · slices_S4x128_S1x128_0_0) : (⟨S4x128, .f32⟩ : BufTy).Contents (Elt F) → (⟨S1x128, .f32⟩ : BufTy).Contents (Elt F))
  :: reshape main_v64 main_v65 rfl shapeCasts_S1x128_S128
  :: unary main_arg15 main_v66 ((extractStridedSlice S1x128 ![0, 0] · slices_S4x128_S1x128_0_0) : (⟨S4x128, .f32⟩ : BufTy).Contents (Elt F) → (⟨S1x128, .f32⟩ : BufTy).Contents (Elt F))
  :: reshape main_v66 main_v67 rfl shapeCasts_S1x128_S128
  :: unary main_v65 main_v68 (broadcastInDim S1x128 ![1] bcast_S128_S1x128_1 : (⟨S128, .f32⟩ : BufTy).Contents (Elt F) → (⟨S1x128, .f32⟩ : BufTy).Contents (Elt F))
  :: unary main_v68 main_v69 (broadcastInDim S100000x128 ![0, 1] bcast_S1x128_S100000x128_0_1 : (⟨S1x128, .f32⟩ : BufTy).Contents (Elt F) → (⟨S100000x128, .f32⟩ : BufTy).Contents (Elt F))
  :: binary main_v59 main_v69 main_v70 (subf : (⟨S100000x128, .f32⟩ : BufTy).Contents (Elt F) → (⟨S100000x128, .f32⟩ : BufTy).Contents (Elt F) → (⟨S100000x128, .f32⟩ : BufTy).Contents (Elt F))
  :: nullary main_cst_3 (constant S_ .f32 0x3727C5AC#32)
  :: unary main_cst_3 main_v71 (broadcastInDim S128 ![] bcast_S_S128 : (⟨S_, .f32⟩ : BufTy).Contents (Elt F) → (⟨S128, .f32⟩ : BufTy).Contents (Elt F))
  :: binary main_v67 main_v71 main_v72 (addf : (⟨S128, .f32⟩ : BufTy).Contents (Elt F) → (⟨S128, .f32⟩ : BufTy).Contents (Elt F) → (⟨S128, .f32⟩ : BufTy).Contents (Elt F))
  :: unary main_v72 main_v73 (Host.rsqrt : (⟨S128, .f32⟩ : BufTy).Contents (Elt F) → (⟨S128, .f32⟩ : BufTy).Contents (Elt F))
  :: unary main_v73 main_v74 (broadcastInDim S1x128 ![1] bcast_S128_S1x128_1 : (⟨S128, .f32⟩ : BufTy).Contents (Elt F) → (⟨S1x128, .f32⟩ : BufTy).Contents (Elt F))
  :: unary main_v74 main_v75 (broadcastInDim S100000x128 ![0, 1] bcast_S1x128_S100000x128_0_1 : (⟨S1x128, .f32⟩ : BufTy).Contents (Elt F) → (⟨S100000x128, .f32⟩ : BufTy).Contents (Elt F))
  :: binary main_v70 main_v75 main_v76 (mulf : (⟨S100000x128, .f32⟩ : BufTy).Contents (Elt F) → (⟨S100000x128, .f32⟩ : BufTy).Contents (Elt F) → (⟨S100000x128, .f32⟩ : BufTy).Contents (Elt F))
  :: unary main_v61 main_v77 (broadcastInDim S1x128 ![1] bcast_S128_S1x128_1 : (⟨S128, .f32⟩ : BufTy).Contents (Elt F) → (⟨S1x128, .f32⟩ : BufTy).Contents (Elt F))
  :: unary main_v77 main_v78 (broadcastInDim S100000x128 ![0, 1] bcast_S1x128_S100000x128_0_1 : (⟨S1x128, .f32⟩ : BufTy).Contents (Elt F) → (⟨S100000x128, .f32⟩ : BufTy).Contents (Elt F))
  :: binary main_v76 main_v78 main_v79 (mulf : (⟨S100000x128, .f32⟩ : BufTy).Contents (Elt F) → (⟨S100000x128, .f32⟩ : BufTy).Contents (Elt F) → (⟨S100000x128, .f32⟩ : BufTy).Contents (Elt F))
  :: unary main_v63 main_v80 (broadcastInDim S1x128 ![1] bcast_S128_S1x128_1 : (⟨S128, .f32⟩ : BufTy).Contents (Elt F) → (⟨S1x128, .f32⟩ : BufTy).Contents (Elt F))
  :: unary main_v80 main_v81 (broadcastInDim S100000x128 ![0, 1] bcast_S1x128_S100000x128_0_1 : (⟨S1x128, .f32⟩ : BufTy).Contents (Elt F) → (⟨S100000x128, .f32⟩ : BufTy).Contents (Elt F))
  :: binary main_v79 main_v81 main_v82 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call1_cst) (constant S_ .f32 0x00000000#32)
  :: TRef.unary (TRef.of (T := ⟨S_, .f32⟩) main_call1_cst) (TRef.of (T := ⟨S100000x128, .f32⟩) main_call1_v0) (broadcastInDim S100000x128 ![] bcast_S_S100000x128)
  :: TRef.binary (TRef.of (T := ⟨S100000x128, .f32⟩) main_v82) (TRef.of (T := ⟨S100000x128, .f32⟩) main_call1_v0) (TRef.of (T := ⟨S100000x128, .f32⟩) main_v83) maximumf
  :: nullary main_c_4 (constantI S_ 32 0#32)
  :: unary main_c_4 main_v84 (broadcastInDim S1600000 ![] bcast_S_S1600000 : (⟨S_, .i32⟩ : BufTy).Contents (Elt F) → (⟨S1600000, .i32⟩ : BufTy).Contents (Elt F))
  :: binary main_v1 main_v84 main_v85 (cmpi .slt : (⟨S1600000, .i32⟩ : BufTy).Contents (Elt F) → (⟨S1600000, .i32⟩ : BufTy).Contents (Elt F) → (⟨S1600000, .i1⟩ : BufTy).Contents (Elt F))
  :: nullary main_c_5 (constantI S_ 32 100000#32)
  :: unary main_c_5 main_v86 (broadcastInDim S1600000 ![] bcast_S_S1600000 : (⟨S_, .i32⟩ : BufTy).Contents (Elt F) → (⟨S1600000, .i32⟩ : BufTy).Contents (Elt F))
  :: binary main_v1 main_v86 main_v87 (addi : (⟨S1600000, .i32⟩ : BufTy).Contents (Elt F) → (⟨S1600000, .i32⟩ : BufTy).Contents (Elt F) → (⟨S1600000, .i32⟩ : BufTy).Contents (Elt F))
  :: ternary main_v85 main_v87 main_v1 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v88 main_v89 (broadcastInDim S1600000x1 ![0] bcast_S1600000_S1600000x1_0 : (⟨S1600000, .i32⟩ : BufTy).Contents (Elt F) → (⟨S1600000x1, .i32⟩ : BufTy).Contents (Elt F))
  :: binary main_v83 main_v89 main_v90 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F))
  :: nullary main_cst_6 (constant S_ .f32 0x00000000#32)
  :: unary main_cst_6 main_v91 (broadcastInDim S100000x128 ![] bcast_S_S100000x128 : (⟨S_, .f32⟩ : BufTy).Contents (Elt F) → (⟨S100000x128, .f32⟩ : BufTy).Contents (Elt F))
  :: unary main_v3 main_v92 (broadcastInDim S1600000x1 ![0] bcast_S1600000_S1600000x1_0 : (⟨S1600000, .i32⟩ : BufTy).Contents (Elt F) → (⟨S1600000x1, .i32⟩ : BufTy).Contents (Elt F))
  :: ternary main_v91 main_v92 main_v90 main_v93 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F))
  :: unary main_arg9 main_v94 ((extractStridedSlice S1 ![1] · slices_S4_S1_1) : (⟨S4, .f32⟩ : BufTy).Contents (Elt F) → (⟨S1, .f32⟩ : BufTy).Contents (Elt F))
  :: reshape main_v94 main_v95 rfl shapeCasts_S1_S_
  :: nullary main_cst_7 (constant S_ .f32 0x3F800000#32)
  :: binary main_cst_7 main_v95 main_v96 (addf : (⟨S_, .f32⟩ : BufTy).Contents (Elt F) → (⟨S_, .f32⟩ : BufTy).Contents (Elt F) → (⟨S_, .f32⟩ : BufTy).Contents (Elt F))
  :: unary main_v96 main_v97 (broadcastInDim S100000x128 ![] bcast_S_S100000x128 : (⟨S_, .f32⟩ : BufTy).Contents (Elt F) → (⟨S100000x128, .f32⟩ : BufTy).Contents (Elt F))
  :: binary main_v97 main_v83 main_v98 (mulf : (⟨S100000x128, .f32⟩ : BufTy).Contents (Elt F) → (⟨S100000x128, .f32⟩ : BufTy).Contents (Elt F) → (⟨S100000x128, .f32⟩ : BufTy).Contents (Elt F))
  :: binary main_v98 main_v93 main_v99 (addf : (⟨S100000x128, .f32⟩ : BufTy).Contents (Elt F) → (⟨S100000x128, .f32⟩ : BufTy).Contents (Elt F) → (⟨S100000x128, .f32⟩ : BufTy).Contents (Elt F))
  :: unary main_arg3 main_v100 ((extractStridedSlice S1x128x256 ![1, 0, 0] · slices_S4x128x256_S1x128x256_1_0_0) : (⟨S4x128x256, .f32⟩ : BufTy).Contents (Elt F) → (⟨S1x128x256, .f32⟩ : BufTy).Contents (Elt F))
  :: reshape main_v100 main_v101 rfl shapeCasts_S1x128x256_S128x256
  :: binary main_v99 main_v101 main_v102 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F))
  :: unary main_arg4 main_v103 ((extractStridedSlice S1x256 ![1, 0] · slices_S4x256_S1x256_1_0) : (⟨S4x256, .f32⟩ : BufTy).Contents (Elt F) → (⟨S1x256, .f32⟩ : BufTy).Contents (Elt F))
  :: reshape main_v103 main_v104 rfl shapeCasts_S1x256_S256
  :: unary main_v104 main_v105 (broadcastInDim S1x256 ![1] bcast_S256_S1x256_1 : (⟨S256, .f32⟩ : BufTy).Contents (Elt F) → (⟨S1x256, .f32⟩ : BufTy).Contents (Elt F))
  :: unary main_v105 main_v106 (broadcastInDim S100000x256 ![0, 1] bcast_S1x256_S100000x256_0_1 : (⟨S1x256, .f32⟩ : BufTy).Contents (Elt F) → (⟨S100000x256, .f32⟩ : BufTy).Contents (Elt F))
  :: binary main_v102 main_v106 main_v107 (addf : (⟨S100000x256, .f32⟩ : BufTy).Contents (Elt F) → (⟨S100000x256, .f32⟩ : BufTy).Contents (Elt F) → (⟨S100000x256, .f32⟩ : BufTy).Contents (Elt F))
  :: unary main_arg5 main_v108 ((extractStridedSlice S1x256 ![1, 0] · slices_S4x256_S1x256_1_0) : (⟨S4x256, .f32⟩ : BufTy).Contents (Elt F) → (⟨S1x256, .f32⟩ : BufTy).Contents (Elt F))
  :: reshape main_v108 main_v109 rfl shapeCasts_S1x256_S256
  :: [] )

set_option maxHeartbeats 4000000 in
set_option maxRecDepth 16384 in
/-- Stretch 1 is part 1 of the program. -/
theorem part1_eq (c : Dev nD) : main_part1 (F := F) c = seq ops1 := rfl

set_option maxRecDepth 16384 in
/-- Every operation of stretch 1 touches TensorCore references only. -/
theorem ops1_sub : (ops1 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub ..⟩

set_option maxRecDepth 16384 in
/-- No operation of stretch 1 allocates a buffer. -/
theorem ops1_fresh : (ops1 : List (HloOp τ sig (Elt F))).Forall fun op => op.fresh = ∅ := by
  simp only [List.Forall]; repeat' constructor

/-- The references stretch 1 writes, in order: one per operation, its result. -/
abbrev writes1 : List (Ref sig .tc) :=
  [main_v55, main_v56, main_v57, main_v58, main_v59, main_v60, main_v61, main_v62, main_v63, main_v64, main_v65, main_v66, main_v67, main_v68, main_v69, main_v70, main_cst_3, main_v71, main_v72, main_v73, main_v74, main_v75, main_v76, main_v77, main_v78, main_v79, main_v80, main_v81, main_v82, main_call1_cst, main_call1_v0, main_v83, main_c_4, main_v84, main_v85, main_c_5, main_v86, main_v87, main_v88, main_v89, main_v90, main_cst_6, main_v91, main_v92, main_v93, main_v94, main_v95, main_cst_7, main_v96, main_v97, main_v98, main_v99, main_v100, main_v101, main_v102, main_v103, main_v104, main_v105, main_v106, main_v107, main_v108, main_v109]

set_option maxRecDepth 16384 in
/-- Every operation of stretch 1 writes a reference of that list. -/
theorem ops1_writes : (ops1 : List (HloOp τ sig (Elt F))).Forall fun op => op.writes ⊆ (writes1.map (Proc.devRef (τ := τ) .tc)).toFinset :=
  ⟨sub_of_mem (y := main_v55) (by decide),
   sub_of_mem (y := main_v56) (by decide),
   sub_of_mem (y := main_v57) (by decide),
   sub_of_mem (y := main_v58) (by decide),
   sub_of_mem (y := main_v59) (by decide),
   sub_of_mem (y := main_v60) (by decide),
   sub_of_mem (y := main_v61) (by decide),
   sub_of_mem (y := main_v62) (by decide),
   sub_of_mem (y := main_v63) (by decide),
   sub_of_mem (y := main_v64) (by decide),
   sub_of_mem (y := main_v65) (by decide),
   sub_of_mem (y := main_v66) (by decide),
   sub_of_mem (y := main_v67) (by decide),
   sub_of_mem (y := main_v68) (by decide),
   sub_of_mem (y := main_v69) (by decide),
   sub_of_mem (y := main_v70) (by decide),
   sub_of_mem (y := main_cst_3) (by decide),
   sub_of_mem (y := main_v71) (by decide),
   sub_of_mem (y := main_v72) (by decide),
   sub_of_mem (y := main_v73) (by decide),
   sub_of_mem (y := main_v74) (by decide),
   sub_of_mem (y := main_v75) (by decide),
   sub_of_mem (y := main_v76) (by decide),
   sub_of_mem (y := main_v77) (by decide),
   sub_of_mem (y := main_v78) (by decide),
   sub_of_mem (y := main_v79) (by decide),
   sub_of_mem (y := main_v80) (by decide),
   sub_of_mem (y := main_v81) (by decide),
   sub_of_mem (y := main_v82) (by decide),
   sub_of_mem (y := main_call1_cst) (by decide),
   sub_of_mem (y := main_call1_v0) (by decide),
   sub_of_mem (y := main_v83) (by decide),
   sub_of_mem (y := main_c_4) (by decide),
   sub_of_mem (y := main_v84) (by decide),
   sub_of_mem (y := main_v85) (by decide),
   sub_of_mem (y := main_c_5) (by decide),
   sub_of_mem (y := main_v86) (by decide),
   sub_of_mem (y := main_v87) (by decide),
   sub_of_mem (y := main_v88) (by decide),
   sub_of_mem (y := main_v89) (by decide),
   sub_of_mem (y := main_v90) (by decide),
   sub_of_mem (y := main_cst_6) (by decide),
   sub_of_mem (y := main_v91) (by decide),
   sub_of_mem (y := main_v92) (by decide),
   sub_of_mem (y := main_v93) (by decide),
   sub_of_mem (y := main_v94) (by decide),
   sub_of_mem (y := main_v95) (by decide),
   sub_of_mem (y := main_cst_7) (by decide),
   sub_of_mem (y := main_v96) (by decide),
   sub_of_mem (y := main_v97) (by decide),
   sub_of_mem (y := main_v98) (by decide),
   sub_of_mem (y := main_v99) (by decide),
   sub_of_mem (y := main_v100) (by decide),
   sub_of_mem (y := main_v101) (by decide),
   sub_of_mem (y := main_v102) (by decide),
   sub_of_mem (y := main_v103) (by decide),
   sub_of_mem (y := main_v104) (by decide),
   sub_of_mem (y := main_v105) (by decide),
   sub_of_mem (y := main_v106) (by decide),
   sub_of_mem (y := main_v107) (by decide),
   sub_of_mem (y := main_v108) (by decide),
   sub_of_mem (y := main_v109) (by decide)⟩

set_option maxHeartbeats 4000000 in
set_option maxRecDepth 16384 in
/-- Stretch 2: operations 125 … 188 of the program, in order (a called function's operations stand in its call's place). -/
abbrev ops2 : List (HloOp τ sig (Elt F)) :=
  ( unary main_arg6 main_v110 ((extractStridedSlice S1x256 ![1, 0] · slices_S4x256_S1x256_1_0) : (⟨S4x256, .f32⟩ : BufTy).Contents (Elt F) → (⟨S1x256, .f32⟩ : BufTy).Contents (Elt F))
  :: reshape main_v110 main_v111 rfl shapeCasts_S1x256_S256
  :: unary main_arg7 main_v112 ((extractStridedSlice S1x256 ![1, 0] · slices_S4x256_S1x256_1_0) : (⟨S4x256, .f32⟩ : BufTy).Contents (Elt F) → (⟨S1x256, .f32⟩ : BufTy).Contents (Elt F))
  :: reshape main_v112 main_v113 rfl shapeCasts_S1x256_S256
  :: unary main_arg8 main_v114 ((extractStridedSlice S1x256 ![1, 0] · slices_S4x256_S1x256_1_0) : (⟨S4x256, .f32⟩ : BufTy).Contents (Elt F) → (⟨S1x256, .f32⟩ : BufTy).Contents (Elt F))
  :: reshape main_v114 main_v115 rfl shapeCasts_S1x256_S256
  :: unary main_v113 main_v116 (broadcastInDim S1x256 ![1] bcast_S256_S1x256_1 : (⟨S256, .f32⟩ : BufTy).Contents (Elt F) → (⟨S1x256, .f32⟩ : BufTy).Contents (Elt F))
  :: unary main_v116 main_v117 (broadcastInDim S100000x256 ![0, 1] bcast_S1x256_S100000x256_0_1 : (⟨S1x256, .f32⟩ : BufTy).Contents (Elt F) → (⟨S100000x256, .f32⟩ : BufTy).Contents (Elt F))
  :: binary main_v107 main_v117 main_v118 (subf : (⟨S100000x256, .f32⟩ : BufTy).Contents (Elt F) → (⟨S100000x256, .f32⟩ : BufTy).Contents (Elt F) → (⟨S100000x256, .f32⟩ : BufTy).Contents (Elt F))
  :: nullary main_cst_8 (constant S_ .f32 0x3727C5AC#32)
  :: unary main_cst_8 main_v119 (broadcastInDim S256 ![] bcast_S_S256 : (⟨S_, .f32⟩ : BufTy).Contents (Elt F) → (⟨S256, .f32⟩ : BufTy).Contents (Elt F))
  :: binary main_v115 main_v119 main_v120 (addf : (⟨S256, .f32⟩ : BufTy).Contents (Elt F) → (⟨S256, .f32⟩ : BufTy).Contents (Elt F) → (⟨S256, .f32⟩ : BufTy).Contents (Elt F))
  :: unary main_v120 main_v121 (Host.rsqrt : (⟨S256, .f32⟩ : BufTy).Contents (Elt F) → (⟨S256, .f32⟩ : BufTy).Contents (Elt F))
  :: unary main_v121 main_v122 (broadcastInDim S1x256 ![1] bcast_S256_S1x256_1 : (⟨S256, .f32⟩ : BufTy).Contents (Elt F) → (⟨S1x256, .f32⟩ : BufTy).Contents (Elt F))
  :: unary main_v122 main_v123 (broadcastInDim S100000x256 ![0, 1] bcast_S1x256_S100000x256_0_1 : (⟨S1x256, .f32⟩ : BufTy).Contents (Elt F) → (⟨S100000x256, .f32⟩ : BufTy).Contents (Elt F))
  :: binary main_v118 main_v123 main_v124 (mulf : (⟨S100000x256, .f32⟩ : BufTy).Contents (Elt F) → (⟨S100000x256, .f32⟩ : BufTy).Contents (Elt F) → (⟨S100000x256, .f32⟩ : BufTy).Contents (Elt F))
  :: unary main_v109 main_v125 (broadcastInDim S1x256 ![1] bcast_S256_S1x256_1 : (⟨S256, .f32⟩ : BufTy).Contents (Elt F) → (⟨S1x256, .f32⟩ : BufTy).Contents (Elt F))
  :: unary main_v125 main_v126 (broadcastInDim S100000x256 ![0, 1] bcast_S1x256_S100000x256_0_1 : (⟨S1x256, .f32⟩ : BufTy).Contents (Elt F) → (⟨S100000x256, .f32⟩ : BufTy).Contents (Elt F))
  :: binary main_v124 main_v126 main_v127 (mulf : (⟨S100000x256, .f32⟩ : BufTy).Contents (Elt F) → (⟨S100000x256, .f32⟩ : BufTy).Contents (Elt F) → (⟨S100000x256, .f32⟩ : BufTy).Contents (Elt F))
  :: unary main_v111 main_v128 (broadcastInDim S1x256 ![1] bcast_S256_S1x256_1 : (⟨S256, .f32⟩ : BufTy).Contents (Elt F) → (⟨S1x256, .f32⟩ : BufTy).Contents (Elt F))
  :: unary main_v128 main_v129 (broadcastInDim S100000x256 ![0, 1] bcast_S1x256_S100000x256_0_1 : (⟨S1x256, .f32⟩ : BufTy).Contents (Elt F) → (⟨S100000x256, .f32⟩ : BufTy).Contents (Elt F))
  :: binary main_v127 main_v129 main_v130 (addf : (⟨S100000x256, .f32⟩ : BufTy).Contents (Elt F) → (⟨S100000x256, .f32⟩ : BufTy).Contents (Elt F) → (⟨S100000x256, .f32⟩ : BufTy).Contents (Elt F))
  :: TRef.nullary (TRef.of (T := ⟨S_, .f32⟩) main_call2_cst) (constant S_ .f32 0x00000000#32)
  :: TRef.unary (TRef.of (T := ⟨S_, .f32⟩) main_call2_cst) (TRef.of (T := ⟨S100000x256, .f32⟩) main_call2_v0) (broadcastInDim S100000x256 ![] bcast_S_S100000x256)
  :: TRef.binary (TRef.of (T := ⟨S100000x256, .f32⟩) main_v130) (TRef.of (T := ⟨S100000x256, .f32⟩) main_call2_v0) (TRef.of (T := ⟨S100000x256, .f32⟩) main_v131) maximumf
  :: unary main_arg10 main_v132 ((extractStridedSlice S1x256x128 ![1, 0, 0] · slices_S4x256x128_S1x256x128_1_0_0) : (⟨S4x256x128, .f32⟩ : BufTy).Contents (Elt F) → (⟨S1x256x128, .f32⟩ : BufTy).Contents (Elt F))
  :: reshape main_v132 main_v133 rfl shapeCasts_S1x256x128_S256x128
  :: binary main_v131 main_v133 main_v134 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F))
  :: unary main_arg11 main_v135 ((extractStridedSlice S1x128 ![1, 0] · slices_S4x128_S1x128_1_0) : (⟨S4x128, .f32⟩ : BufTy).Contents (Elt F) → (⟨S1x128, .f32⟩ : BufTy).Contents (Elt F))
  :: reshape main_v135 main_v136 rfl shapeCasts_S1x128_S128
  :: unary main_v136 main_v137 (broadcastInDim S1x128 ![1] bcast_S128_S1x128_1 : (⟨S128, .f32⟩ : BufTy).Contents (Elt F) → (⟨S1x128, .f32⟩ : BufTy).Contents (Elt F))
  :: unary main_v137 main_v138 (broadcastInDim S100000x128 ![0, 1] bcast_S1x128_S100000x128_0_1 : (⟨S1x128, .f32⟩ : BufTy).Contents (Elt F) → (⟨S100000x128, .f32⟩ : BufTy).Contents (Elt F))
  :: binary main_v134 main_v138 main_v139 (addf : (⟨S100000x128, .f32⟩ : BufTy).Contents (Elt F) → (⟨S100000x128, .f32⟩ : BufTy).Contents (Elt F) → (⟨S100000x128, .f32⟩ : BufTy).Contents (Elt F))
  :: unary main_arg12 main_v140 ((extractStridedSlice S1x128 ![1, 0] · slices_S4x128_S1x128_1_0) : (⟨S4x128, .f32⟩ : BufTy).Contents (Elt F) → (⟨S1x128, .f32⟩ : BufTy).Contents (Elt F))
  :: reshape main_v140 main_v141 rfl shapeCasts_S1x128_S128
  :: unary main_arg13 main_v142 ((extractStridedSlice S1x128 ![1, 0] · slices_S4x128_S1x128_1_0) : (⟨S4x128, .f32⟩ : BufTy).Contents (Elt F) → (⟨S1x128, .f32⟩ : BufTy).Contents (Elt F))
  :: reshape main_v142 main_v143 rfl shapeCasts_S1x128_S128
  :: unary main_arg14 main_v144 ((extractStridedSlice S1x128 ![1, 0] · slices_S4x128_S1x128_1_0) : (⟨S4x128, .f32⟩ : BufTy).Contents (Elt F) → (⟨S1x128, .f32⟩ : BufTy).Contents (Elt F))
  :: reshape main_v144 main_v145 rfl shapeCasts_S1x128_S128
  :: unary main_arg15 main_v146 ((extractStridedSlice S1x128 ![1, 0] · slices_S4x128_S1x128_1_0) : (⟨S4x128, .f32⟩ : BufTy).Contents (Elt F) → (⟨S1x128, .f32⟩ : BufTy).Contents (Elt F))
  :: reshape main_v146 main_v147 rfl shapeCasts_S1x128_S128
  :: unary main_v145 main_v148 (broadcastInDim S1x128 ![1] bcast_S128_S1x128_1 : (⟨S128, .f32⟩ : BufTy).Contents (Elt F) → (⟨S1x128, .f32⟩ : BufTy).Contents (Elt F))
  :: unary main_v148 main_v149 (broadcastInDim S100000x128 ![0, 1] bcast_S1x128_S100000x128_0_1 : (⟨S1x128, .f32⟩ : BufTy).Contents (Elt F) → (⟨S100000x128, .f32⟩ : BufTy).Contents (Elt F))
  :: binary main_v139 main_v149 main_v150 (subf : (⟨S100000x128, .f32⟩ : BufTy).Contents (Elt F) → (⟨S100000x128, .f32⟩ : BufTy).Contents (Elt F) → (⟨S100000x128, .f32⟩ : BufTy).Contents (Elt F))
  :: nullary main_cst_9 (constant S_ .f32 0x3727C5AC#32)
  :: unary main_cst_9 main_v151 (broadcastInDim S128 ![] bcast_S_S128 : (⟨S_, .f32⟩ : BufTy).Contents (Elt F) → (⟨S128, .f32⟩ : BufTy).Contents (Elt F))
  :: binary main_v147 main_v151 main_v152 (addf : (⟨S128, .f32⟩ : BufTy).Contents (Elt F) → (⟨S128, .f32⟩ : BufTy).Contents (Elt F) → (⟨S128, .f32⟩ : BufTy).Contents (Elt F))
  :: unary main_v152 main_v153 (Host.rsqrt : (⟨S128, .f32⟩ : BufTy).Contents (Elt F) → (⟨S128, .f32⟩ : BufTy).Contents (Elt F))
  :: unary main_v153 main_v154 (broadcastInDim S1x128 ![1] bcast_S128_S1x128_1 : (⟨S128, .f32⟩ : BufTy).Contents (Elt F) → (⟨S1x128, .f32⟩ : BufTy).Contents (Elt F))
  :: unary main_v154 main_v155 (broadcastInDim S100000x128 ![0, 1] bcast_S1x128_S100000x128_0_1 : (⟨S1x128, .f32⟩ : BufTy).Contents (Elt F) → (⟨S100000x128, .f32⟩ : BufTy).Contents (Elt F))
  :: binary main_v150 main_v155 main_v156 (mulf : (⟨S100000x128, .f32⟩ : BufTy).Contents (Elt F) → (⟨S100000x128, .f32⟩ : BufTy).Contents (Elt F) → (⟨S100000x128, .f32⟩ : BufTy).Contents (Elt F))
  :: unary main_v141 main_v157 (broadcastInDim S1x128 ![1] bcast_S128_S1x128_1 : (⟨S128, .f32⟩ : BufTy).Contents (Elt F) → (⟨S1x128, .f32⟩ : BufTy).Contents (Elt F))
  :: unary main_v157 main_v158 (broadcastInDim S100000x128 ![0, 1] bcast_S1x128_S100000x128_0_1 : (⟨S1x128, .f32⟩ : BufTy).Contents (Elt F) → (⟨S100000x128, .f32⟩ : BufTy).Contents (Elt F))
  :: binary main_v156 main_v158 main_v159 (mulf : (⟨S100000x128, .f32⟩ : BufTy).Contents (Elt F) → (⟨S100000x128, .f32⟩ : BufTy).Contents (Elt F) → (⟨S100000x128, .f32⟩ : BufTy).Contents (Elt F))
  :: unary main_v143 main_v160 (broadcastInDim S1x128 ![1] bcast_S128_S1x128_1 : (⟨S128, .f32⟩ : BufTy).Contents (Elt F) → (⟨S1x128, .f32⟩ : BufTy).Contents (Elt F))
  :: unary main_v160 main_v161 (broadcastInDim S100000x128 ![0, 1] bcast_S1x128_S100000x128_0_1 : (⟨S1x128, .f32⟩ : BufTy).Contents (Elt F) → (⟨S100000x128, .f32⟩ : BufTy).Contents (Elt F))
  :: binary main_v159 main_v161 main_v162 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call3_cst) (constant S_ .f32 0x00000000#32)
  :: TRef.unary (TRef.of (T := ⟨S_, .f32⟩) main_call3_cst) (TRef.of (T := ⟨S100000x128, .f32⟩) main_call3_v0) (broadcastInDim S100000x128 ![] bcast_S_S100000x128)
  :: TRef.binary (TRef.of (T := ⟨S100000x128, .f32⟩) main_v162) (TRef.of (T := ⟨S100000x128, .f32⟩) main_call3_v0) (TRef.of (T := ⟨S100000x128, .f32⟩) main_v163) maximumf
  :: nullary main_c_10 (constantI S_ 32 0#32)
  :: unary main_c_10 main_v164 (broadcastInDim S1600000 ![] bcast_S_S1600000 : (⟨S_, .i32⟩ : BufTy).Contents (Elt F) → (⟨S1600000, .i32⟩ : BufTy).Contents (Elt F))
  :: binary main_v1 main_v164 main_v165 (cmpi .slt : (⟨S1600000, .i32⟩ : BufTy).Contents (Elt F) → (⟨S1600000, .i32⟩ : BufTy).Contents (Elt F) → (⟨S1600000, .i1⟩ : BufTy).Contents (Elt F))
  :: nullary main_c_11 (constantI S_ 32 100000#32)
  :: [] )

set_option maxHeartbeats 4000000 in
set_option maxRecDepth 16384 in
/-- Stretch 2 is part 2 of the program. -/
theorem part2_eq (c : Dev nD) : main_part2 (F := F) c = seq ops2 := rfl

set_option maxRecDepth 16384 in
/-- Every operation of stretch 2 touches TensorCore references only. -/
theorem ops2_sub : (ops2 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub ..⟩

set_option maxRecDepth 16384 in
/-- No operation of stretch 2 allocates a buffer. -/
theorem ops2_fresh : (ops2 : List (HloOp τ sig (Elt F))).Forall fun op => op.fresh = ∅ := by
  simp only [List.Forall]; repeat' constructor

/-- The references stretch 2 writes, in order: one per operation, its result. -/
abbrev writes2 : List (Ref sig .tc) :=
  [main_v110, main_v111, main_v112, main_v113, main_v114, main_v115, main_v116, main_v117, main_v118, main_cst_8, main_v119, main_v120, main_v121, main_v122, main_v123, main_v124, main_v125, main_v126, main_v127, main_v128, main_v129, main_v130, main_call2_cst, main_call2_v0, main_v131, main_v132, main_v133, main_v134, main_v135, main_v136, main_v137, main_v138, main_v139, main_v140, main_v141, main_v142, main_v143, main_v144, main_v145, main_v146, main_v147, main_v148, main_v149, main_v150, main_cst_9, main_v151, main_v152, main_v153, main_v154, main_v155, main_v156, main_v157, main_v158, main_v159, main_v160, main_v161, main_v162, main_call3_cst, main_call3_v0, main_v163, main_c_10, main_v164, main_v165, main_c_11]

set_option maxRecDepth 16384 in
/-- Every operation of stretch 2 writes a reference of that list. -/
theorem ops2_writes : (ops2 : List (HloOp τ sig (Elt F))).Forall fun op => op.writes ⊆ (writes2.map (Proc.devRef (τ := τ) .tc)).toFinset :=
  ⟨sub_of_mem (y := main_v110) (by decide),
   sub_of_mem (y := main_v111) (by decide),
   sub_of_mem (y := main_v112) (by decide),
   sub_of_mem (y := main_v113) (by decide),
   sub_of_mem (y := main_v114) (by decide),
   sub_of_mem (y := main_v115) (by decide),
   sub_of_mem (y := main_v116) (by decide),
   sub_of_mem (y := main_v117) (by decide),
   sub_of_mem (y := main_v118) (by decide),
   sub_of_mem (y := main_cst_8) (by decide),
   sub_of_mem (y := main_v119) (by decide),
   sub_of_mem (y := main_v120) (by decide),
   sub_of_mem (y := main_v121) (by decide),
   sub_of_mem (y := main_v122) (by decide),
   sub_of_mem (y := main_v123) (by decide),
   sub_of_mem (y := main_v124) (by decide),
   sub_of_mem (y := main_v125) (by decide),
   sub_of_mem (y := main_v126) (by decide),
   sub_of_mem (y := main_v127) (by decide),
   sub_of_mem (y := main_v128) (by decide),
   sub_of_mem (y := main_v129) (by decide),
   sub_of_mem (y := main_v130) (by decide),
   sub_of_mem (y := main_call2_cst) (by decide),
   sub_of_mem (y := main_call2_v0) (by decide),
   sub_of_mem (y := main_v131) (by decide),
   sub_of_mem (y := main_v132) (by decide),
   sub_of_mem (y := main_v133) (by decide),
   sub_of_mem (y := main_v134) (by decide),
   sub_of_mem (y := main_v135) (by decide),
   sub_of_mem (y := main_v136) (by decide),
   sub_of_mem (y := main_v137) (by decide),
   sub_of_mem (y := main_v138) (by decide),
   sub_of_mem (y := main_v139) (by decide),
   sub_of_mem (y := main_v140) (by decide),
   sub_of_mem (y := main_v141) (by decide),
   sub_of_mem (y := main_v142) (by decide),
   sub_of_mem (y := main_v143) (by decide),
   sub_of_mem (y := main_v144) (by decide),
   sub_of_mem (y := main_v145) (by decide),
   sub_of_mem (y := main_v146) (by decide),
   sub_of_mem (y := main_v147) (by decide),
   sub_of_mem (y := main_v148) (by decide),
   sub_of_mem (y := main_v149) (by decide),
   sub_of_mem (y := main_v150) (by decide),
   sub_of_mem (y := main_cst_9) (by decide),
   sub_of_mem (y := main_v151) (by decide),
   sub_of_mem (y := main_v152) (by decide),
   sub_of_mem (y := main_v153) (by decide),
   sub_of_mem (y := main_v154) (by decide),
   sub_of_mem (y := main_v155) (by decide),
   sub_of_mem (y := main_v156) (by decide),
   sub_of_mem (y := main_v157) (by decide),
   sub_of_mem (y := main_v158) (by decide),
   sub_of_mem (y := main_v159) (by decide),
   sub_of_mem (y := main_v160) (by decide),
   sub_of_mem (y := main_v161) (by decide),
   sub_of_mem (y := main_v162) (by decide),
   sub_of_mem (y := main_call3_cst) (by decide),
   sub_of_mem (y := main_call3_v0) (by decide),
   sub_of_mem (y := main_v163) (by decide),
   sub_of_mem (y := main_c_10) (by decide),
   sub_of_mem (y := main_v164) (by decide),
   sub_of_mem (y := main_v165) (by decide),
   sub_of_mem (y := main_c_11) (by decide)⟩

set_option maxHeartbeats 4000000 in
set_option maxRecDepth 16384 in
/-- Stretch 3: operations 189 … 250 of the program, in order (a called function's operations stand in its call's place). -/
abbrev ops3 : List (HloOp τ sig (Elt F)) :=
  ( unary main_c_11 main_v166 (broadcastInDim S1600000 ![] bcast_S_S1600000 : (⟨S_, .i32⟩ : BufTy).Contents (Elt F) → (⟨S1600000, .i32⟩ : BufTy).Contents (Elt F))
  :: binary main_v1 main_v166 main_v167 (addi : (⟨S1600000, .i32⟩ : BufTy).Contents (Elt F) → (⟨S1600000, .i32⟩ : BufTy).Contents (Elt F) → (⟨S1600000, .i32⟩ : BufTy).Contents (Elt F))
  :: ternary main_v165 main_v167 main_v1 main_v168 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v168 main_v169 (broadcastInDim S1600000x1 ![0] bcast_S1600000_S1600000x1_0 : (⟨S1600000, .i32⟩ : BufTy).Contents (Elt F) → (⟨S1600000x1, .i32⟩ : BufTy).Contents (Elt F))
  :: binary main_v163 main_v169 main_v170 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F))
  :: nullary main_cst_12 (constant S_ .f32 0x00000000#32)
  :: unary main_cst_12 main_v171 (broadcastInDim S100000x128 ![] bcast_S_S100000x128 : (⟨S_, .f32⟩ : BufTy).Contents (Elt F) → (⟨S100000x128, .f32⟩ : BufTy).Contents (Elt F))
  :: unary main_v3 main_v172 (broadcastInDim S1600000x1 ![0] bcast_S1600000_S1600000x1_0 : (⟨S1600000, .i32⟩ : BufTy).Contents (Elt F) → (⟨S1600000x1, .i32⟩ : BufTy).Contents (Elt F))
  :: ternary main_v171 main_v172 main_v170 main_v173 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F))
  :: unary main_arg9 main_v174 ((extractStridedSlice S1 ![2] · slices_S4_S1_2) : (⟨S4, .f32⟩ : BufTy).Contents (Elt F) → (⟨S1, .f32⟩ : BufTy).Contents (Elt F))
  :: reshape main_v174 main_v175 rfl shapeCasts_S1_S_
  :: nullary main_cst_13 (constant S_ .f32 0x3F800000#32)
  :: binary main_cst_13 main_v175 main_v176 (addf : (⟨S_, .f32⟩ : BufTy).Contents (Elt F) → (⟨S_, .f32⟩ : BufTy).Contents (Elt F) → (⟨S_, .f32⟩ : BufTy).Contents (Elt F))
  :: unary main_v176 main_v177 (broadcastInDim S100000x128 ![] bcast_S_S100000x128 : (⟨S_, .f32⟩ : BufTy).Contents (Elt F) → (⟨S100000x128, .f32⟩ : BufTy).Contents (Elt F))
  :: binary main_v177 main_v163 main_v178 (mulf : (⟨S100000x128, .f32⟩ : BufTy).Contents (Elt F) → (⟨S100000x128, .f32⟩ : BufTy).Contents (Elt F) → (⟨S100000x128, .f32⟩ : BufTy).Contents (Elt F))
  :: binary main_v178 main_v173 main_v179 (addf : (⟨S100000x128, .f32⟩ : BufTy).Contents (Elt F) → (⟨S100000x128, .f32⟩ : BufTy).Contents (Elt F) → (⟨S100000x128, .f32⟩ : BufTy).Contents (Elt F))
  :: unary main_arg3 main_v180 ((extractStridedSlice S1x128x256 ![2, 0, 0] · slices_S4x128x256_S1x128x256_2_0_0) : (⟨S4x128x256, .f32⟩ : BufTy).Contents (Elt F) → (⟨S1x128x256, .f32⟩ : BufTy).Contents (Elt F))
  :: reshape main_v180 main_v181 rfl shapeCasts_S1x128x256_S128x256
  :: binary main_v179 main_v181 main_v182 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F))
  :: unary main_arg4 main_v183 ((extractStridedSlice S1x256 ![2, 0] · slices_S4x256_S1x256_2_0) : (⟨S4x256, .f32⟩ : BufTy).Contents (Elt F) → (⟨S1x256, .f32⟩ : BufTy).Contents (Elt F))
  :: reshape main_v183 main_v184 rfl shapeCasts_S1x256_S256
  :: unary main_v184 main_v185 (broadcastInDim S1x256 ![1] bcast_S256_S1x256_1 : (⟨S256, .f32⟩ : BufTy).Contents (Elt F) → (⟨S1x256, .f32⟩ : BufTy).Contents (Elt F))
  :: unary main_v185 main_v186 (broadcastInDim S100000x256 ![0, 1] bcast_S1x256_S100000x256_0_1 : (⟨S1x256, .f32⟩ : BufTy).Contents (Elt F) → (⟨S100000x256, .f32⟩ : BufTy).Contents (Elt F))
  :: binary main_v182 main_v186 main_v187 (addf : (⟨S100000x256, .f32⟩ : BufTy).Contents (Elt F) → (⟨S100000x256, .f32⟩ : BufTy).Contents (Elt F) → (⟨S100000x256, .f32⟩ : BufTy).Contents (Elt F))
  :: unary main_arg5 main_v188 ((extractStridedSlice S1x256 ![2, 0] · slices_S4x256_S1x256_2_0) : (⟨S4x256, .f32⟩ : BufTy).Contents (Elt F) → (⟨S1x256, .f32⟩ : BufTy).Contents (Elt F))
  :: reshape main_v188 main_v189 rfl shapeCasts_S1x256_S256
  :: unary main_arg6 main_v190 ((extractStridedSlice S1x256 ![2, 0] · slices_S4x256_S1x256_2_0) : (⟨S4x256, .f32⟩ : BufTy).Contents (Elt F) → (⟨S1x256, .f32⟩ : BufTy).Contents (Elt F))
  :: reshape main_v190 main_v191 rfl shapeCasts_S1x256_S256
  :: unary main_arg7 main_v192 ((extractStridedSlice S1x256 ![2, 0] · slices_S4x256_S1x256_2_0) : (⟨S4x256, .f32⟩ : BufTy).Contents (Elt F) → (⟨S1x256, .f32⟩ : BufTy).Contents (Elt F))
  :: reshape main_v192 main_v193 rfl shapeCasts_S1x256_S256
  :: unary main_arg8 main_v194 ((extractStridedSlice S1x256 ![2, 0] · slices_S4x256_S1x256_2_0) : (⟨S4x256, .f32⟩ : BufTy).Contents (Elt F) → (⟨S1x256, .f32⟩ : BufTy).Contents (Elt F))
  :: reshape main_v194 main_v195 rfl shapeCasts_S1x256_S256
  :: unary main_v193 main_v196 (broadcastInDim S1x256 ![1] bcast_S256_S1x256_1 : (⟨S256, .f32⟩ : BufTy).Contents (Elt F) → (⟨S1x256, .f32⟩ : BufTy).Contents (Elt F))
  :: unary main_v196 main_v197 (broadcastInDim S100000x256 ![0, 1] bcast_S1x256_S100000x256_0_1 : (⟨S1x256, .f32⟩ : BufTy).Contents (Elt F) → (⟨S100000x256, .f32⟩ : BufTy).Contents (Elt F))
  :: binary main_v187 main_v197 main_v198 (subf : (⟨S100000x256, .f32⟩ : BufTy).Contents (Elt F) → (⟨S100000x256, .f32⟩ : BufTy).Contents (Elt F) → (⟨S100000x256, .f32⟩ : BufTy).Contents (Elt F))
  :: nullary main_cst_14 (constant S_ .f32 0x3727C5AC#32)
  :: unary main_cst_14 main_v199 (broadcastInDim S256 ![] bcast_S_S256 : (⟨S_, .f32⟩ : BufTy).Contents (Elt F) → (⟨S256, .f32⟩ : BufTy).Contents (Elt F))
  :: binary main_v195 main_v199 main_v200 (addf : (⟨S256, .f32⟩ : BufTy).Contents (Elt F) → (⟨S256, .f32⟩ : BufTy).Contents (Elt F) → (⟨S256, .f32⟩ : BufTy).Contents (Elt F))
  :: unary main_v200 main_v201 (Host.rsqrt : (⟨S256, .f32⟩ : BufTy).Contents (Elt F) → (⟨S256, .f32⟩ : BufTy).Contents (Elt F))
  :: unary main_v201 main_v202 (broadcastInDim S1x256 ![1] bcast_S256_S1x256_1 : (⟨S256, .f32⟩ : BufTy).Contents (Elt F) → (⟨S1x256, .f32⟩ : BufTy).Contents (Elt F))
  :: unary main_v202 main_v203 (broadcastInDim S100000x256 ![0, 1] bcast_S1x256_S100000x256_0_1 : (⟨S1x256, .f32⟩ : BufTy).Contents (Elt F) → (⟨S100000x256, .f32⟩ : BufTy).Contents (Elt F))
  :: binary main_v198 main_v203 main_v204 (mulf : (⟨S100000x256, .f32⟩ : BufTy).Contents (Elt F) → (⟨S100000x256, .f32⟩ : BufTy).Contents (Elt F) → (⟨S100000x256, .f32⟩ : BufTy).Contents (Elt F))
  :: unary main_v189 main_v205 (broadcastInDim S1x256 ![1] bcast_S256_S1x256_1 : (⟨S256, .f32⟩ : BufTy).Contents (Elt F) → (⟨S1x256, .f32⟩ : BufTy).Contents (Elt F))
  :: unary main_v205 main_v206 (broadcastInDim S100000x256 ![0, 1] bcast_S1x256_S100000x256_0_1 : (⟨S1x256, .f32⟩ : BufTy).Contents (Elt F) → (⟨S100000x256, .f32⟩ : BufTy).Contents (Elt F))
  :: binary main_v204 main_v206 main_v207 (mulf : (⟨S100000x256, .f32⟩ : BufTy).Contents (Elt F) → (⟨S100000x256, .f32⟩ : BufTy).Contents (Elt F) → (⟨S100000x256, .f32⟩ : BufTy).Contents (Elt F))
  :: unary main_v191 main_v208 (broadcastInDim S1x256 ![1] bcast_S256_S1x256_1 : (⟨S256, .f32⟩ : BufTy).Contents (Elt F) → (⟨S1x256, .f32⟩ : BufTy).Contents (Elt F))
  :: unary main_v208 main_v209 (broadcastInDim S100000x256 ![0, 1] bcast_S1x256_S100000x256_0_1 : (⟨S1x256, .f32⟩ : BufTy).Contents (Elt F) → (⟨S100000x256, .f32⟩ : BufTy).Contents (Elt F))
  :: binary main_v207 main_v209 main_v210 (addf : (⟨S100000x256, .f32⟩ : BufTy).Contents (Elt F) → (⟨S100000x256, .f32⟩ : BufTy).Contents (Elt F) → (⟨S100000x256, .f32⟩ : BufTy).Contents (Elt F))
  :: TRef.nullary (TRef.of (T := ⟨S_, .f32⟩) main_call4_cst) (constant S_ .f32 0x00000000#32)
  :: TRef.unary (TRef.of (T := ⟨S_, .f32⟩) main_call4_cst) (TRef.of (T := ⟨S100000x256, .f32⟩) main_call4_v0) (broadcastInDim S100000x256 ![] bcast_S_S100000x256)
  :: TRef.binary (TRef.of (T := ⟨S100000x256, .f32⟩) main_v210) (TRef.of (T := ⟨S100000x256, .f32⟩) main_call4_v0) (TRef.of (T := ⟨S100000x256, .f32⟩) main_v211) maximumf
  :: unary main_arg10 main_v212 ((extractStridedSlice S1x256x128 ![2, 0, 0] · slices_S4x256x128_S1x256x128_2_0_0) : (⟨S4x256x128, .f32⟩ : BufTy).Contents (Elt F) → (⟨S1x256x128, .f32⟩ : BufTy).Contents (Elt F))
  :: reshape main_v212 main_v213 rfl shapeCasts_S1x256x128_S256x128
  :: binary main_v211 main_v213 main_v214 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F))
  :: unary main_arg11 main_v215 ((extractStridedSlice S1x128 ![2, 0] · slices_S4x128_S1x128_2_0) : (⟨S4x128, .f32⟩ : BufTy).Contents (Elt F) → (⟨S1x128, .f32⟩ : BufTy).Contents (Elt F))
  :: reshape main_v215 main_v216 rfl shapeCasts_S1x128_S128
  :: unary main_v216 main_v217 (broadcastInDim S1x128 ![1] bcast_S128_S1x128_1 : (⟨S128, .f32⟩ : BufTy).Contents (Elt F) → (⟨S1x128, .f32⟩ : BufTy).Contents (Elt F))
  :: unary main_v217 main_v218 (broadcastInDim S100000x128 ![0, 1] bcast_S1x128_S100000x128_0_1 : (⟨S1x128, .f32⟩ : BufTy).Contents (Elt F) → (⟨S100000x128, .f32⟩ : BufTy).Contents (Elt F))
  :: binary main_v214 main_v218 main_v219 (addf : (⟨S100000x128, .f32⟩ : BufTy).Contents (Elt F) → (⟨S100000x128, .f32⟩ : BufTy).Contents (Elt F) → (⟨S100000x128, .f32⟩ : BufTy).Contents (Elt F))
  :: unary main_arg12 main_v220 ((extractStridedSlice S1x128 ![2, 0] · slices_S4x128_S1x128_2_0) : (⟨S4x128, .f32⟩ : BufTy).Contents (Elt F) → (⟨S1x128, .f32⟩ : BufTy).Contents (Elt F))
  :: reshape main_v220 main_v221 rfl shapeCasts_S1x128_S128
  :: unary main_arg13 main_v222 ((extractStridedSlice S1x128 ![2, 0] · slices_S4x128_S1x128_2_0) : (⟨S4x128, .f32⟩ : BufTy).Contents (Elt F) → (⟨S1x128, .f32⟩ : BufTy).Contents (Elt F))
  :: [] )

set_option maxHeartbeats 4000000 in
set_option maxRecDepth 16384 in
/-- Stretch 3 is part 3 of the program. -/
theorem part3_eq (c : Dev nD) : main_part3 (F := F) c = seq ops3 := rfl

set_option maxRecDepth 16384 in
/-- Every operation of stretch 3 touches TensorCore references only. -/
theorem ops3_sub : (ops3 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub ..⟩

set_option maxRecDepth 16384 in
/-- No operation of stretch 3 allocates a buffer. -/
theorem ops3_fresh : (ops3 : List (HloOp τ sig (Elt F))).Forall fun op => op.fresh = ∅ := by
  simp only [List.Forall]; repeat' constructor

/-- The references stretch 3 writes, in order: one per operation, its result. -/
abbrev writes3 : List (Ref sig .tc) :=
  [main_v166, main_v167, main_v168, main_v169, main_v170, main_cst_12, main_v171, main_v172, main_v173, main_v174, main_v175, main_cst_13, main_v176, main_v177, main_v178, main_v179, main_v180, main_v181, main_v182, main_v183, main_v184, main_v185, main_v186, main_v187, main_v188, main_v189, main_v190, main_v191, main_v192, main_v193, main_v194, main_v195, main_v196, main_v197, main_v198, main_cst_14, main_v199, main_v200, main_v201, main_v202, main_v203, main_v204, main_v205, main_v206, main_v207, main_v208, main_v209, main_v210, main_call4_cst, main_call4_v0, main_v211, main_v212, main_v213, main_v214, main_v215, main_v216, main_v217, main_v218, main_v219, main_v220, main_v221, main_v222]

set_option maxRecDepth 16384 in
/-- Every operation of stretch 3 writes a reference of that list. -/
theorem ops3_writes : (ops3 : List (HloOp τ sig (Elt F))).Forall fun op => op.writes ⊆ (writes3.map (Proc.devRef (τ := τ) .tc)).toFinset :=
  ⟨sub_of_mem (y := main_v166) (by decide),
   sub_of_mem (y := main_v167) (by decide),
   sub_of_mem (y := main_v168) (by decide),
   sub_of_mem (y := main_v169) (by decide),
   sub_of_mem (y := main_v170) (by decide),
   sub_of_mem (y := main_cst_12) (by decide),
   sub_of_mem (y := main_v171) (by decide),
   sub_of_mem (y := main_v172) (by decide),
   sub_of_mem (y := main_v173) (by decide),
   sub_of_mem (y := main_v174) (by decide),
   sub_of_mem (y := main_v175) (by decide),
   sub_of_mem (y := main_cst_13) (by decide),
   sub_of_mem (y := main_v176) (by decide),
   sub_of_mem (y := main_v177) (by decide),
   sub_of_mem (y := main_v178) (by decide),
   sub_of_mem (y := main_v179) (by decide),
   sub_of_mem (y := main_v180) (by decide),
   sub_of_mem (y := main_v181) (by decide),
   sub_of_mem (y := main_v182) (by decide),
   sub_of_mem (y := main_v183) (by decide),
   sub_of_mem (y := main_v184) (by decide),
   sub_of_mem (y := main_v185) (by decide),
   sub_of_mem (y := main_v186) (by decide),
   sub_of_mem (y := main_v187) (by decide),
   sub_of_mem (y := main_v188) (by decide),
   sub_of_mem (y := main_v189) (by decide),
   sub_of_mem (y := main_v190) (by decide),
   sub_of_mem (y := main_v191) (by decide),
   sub_of_mem (y := main_v192) (by decide),
   sub_of_mem (y := main_v193) (by decide),
   sub_of_mem (y := main_v194) (by decide),
   sub_of_mem (y := main_v195) (by decide),
   sub_of_mem (y := main_v196) (by decide),
   sub_of_mem (y := main_v197) (by decide),
   sub_of_mem (y := main_v198) (by decide),
   sub_of_mem (y := main_cst_14) (by decide),
   sub_of_mem (y := main_v199) (by decide),
   sub_of_mem (y := main_v200) (by decide),
   sub_of_mem (y := main_v201) (by decide),
   sub_of_mem (y := main_v202) (by decide),
   sub_of_mem (y := main_v203) (by decide),
   sub_of_mem (y := main_v204) (by decide),
   sub_of_mem (y := main_v205) (by decide),
   sub_of_mem (y := main_v206) (by decide),
   sub_of_mem (y := main_v207) (by decide),
   sub_of_mem (y := main_v208) (by decide),
   sub_of_mem (y := main_v209) (by decide),
   sub_of_mem (y := main_v210) (by decide),
   sub_of_mem (y := main_call4_cst) (by decide),
   sub_of_mem (y := main_call4_v0) (by decide),
   sub_of_mem (y := main_v211) (by decide),
   sub_of_mem (y := main_v212) (by decide),
   sub_of_mem (y := main_v213) (by decide),
   sub_of_mem (y := main_v214) (by decide),
   sub_of_mem (y := main_v215) (by decide),
   sub_of_mem (y := main_v216) (by decide),
   sub_of_mem (y := main_v217) (by decide),
   sub_of_mem (y := main_v218) (by decide),
   sub_of_mem (y := main_v219) (by decide),
   sub_of_mem (y := main_v220) (by decide),
   sub_of_mem (y := main_v221) (by decide),
   sub_of_mem (y := main_v222) (by decide)⟩

set_option maxHeartbeats 4000000 in
set_option maxRecDepth 16384 in
/-- Stretch 4: operations 251 … 312 of the program, in order (a called function's operations stand in its call's place). -/
abbrev ops4 : List (HloOp τ sig (Elt F)) :=
  ( reshape main_v222 main_v223 rfl shapeCasts_S1x128_S128
  :: unary main_arg14 main_v224 ((extractStridedSlice S1x128 ![2, 0] · slices_S4x128_S1x128_2_0) : (⟨S4x128, .f32⟩ : BufTy).Contents (Elt F) → (⟨S1x128, .f32⟩ : BufTy).Contents (Elt F))
  :: reshape main_v224 main_v225 rfl shapeCasts_S1x128_S128
  :: unary main_arg15 main_v226 ((extractStridedSlice S1x128 ![2, 0] · slices_S4x128_S1x128_2_0) : (⟨S4x128, .f32⟩ : BufTy).Contents (Elt F) → (⟨S1x128, .f32⟩ : BufTy).Contents (Elt F))
  :: reshape main_v226 main_v227 rfl shapeCasts_S1x128_S128
  :: unary main_v225 main_v228 (broadcastInDim S1x128 ![1] bcast_S128_S1x128_1 : (⟨S128, .f32⟩ : BufTy).Contents (Elt F) → (⟨S1x128, .f32⟩ : BufTy).Contents (Elt F))
  :: unary main_v228 main_v229 (broadcastInDim S100000x128 ![0, 1] bcast_S1x128_S100000x128_0_1 : (⟨S1x128, .f32⟩ : BufTy).Contents (Elt F) → (⟨S100000x128, .f32⟩ : BufTy).Contents (Elt F))
  :: binary main_v219 main_v229 main_v230 (subf : (⟨S100000x128, .f32⟩ : BufTy).Contents (Elt F) → (⟨S100000x128, .f32⟩ : BufTy).Contents (Elt F) → (⟨S100000x128, .f32⟩ : BufTy).Contents (Elt F))
  :: nullary main_cst_15 (constant S_ .f32 0x3727C5AC#32)
  :: unary main_cst_15 main_v231 (broadcastInDim S128 ![] bcast_S_S128 : (⟨S_, .f32⟩ : BufTy).Contents (Elt F) → (⟨S128, .f32⟩ : BufTy).Contents (Elt F))
  :: binary main_v227 main_v231 main_v232 (addf : (⟨S128, .f32⟩ : BufTy).Contents (Elt F) → (⟨S128, .f32⟩ : BufTy).Contents (Elt F) → (⟨S128, .f32⟩ : BufTy).Contents (Elt F))
  :: unary main_v232 main_v233 (Host.rsqrt : (⟨S128, .f32⟩ : BufTy).Contents (Elt F) → (⟨S128, .f32⟩ : BufTy).Contents (Elt F))
  :: unary main_v233 main_v234 (broadcastInDim S1x128 ![1] bcast_S128_S1x128_1 : (⟨S128, .f32⟩ : BufTy).Contents (Elt F) → (⟨S1x128, .f32⟩ : BufTy).Contents (Elt F))
  :: unary main_v234 main_v235 (broadcastInDim S100000x128 ![0, 1] bcast_S1x128_S100000x128_0_1 : (⟨S1x128, .f32⟩ : BufTy).Contents (Elt F) → (⟨S100000x128, .f32⟩ : BufTy).Contents (Elt F))
  :: binary main_v230 main_v235 main_v236 (mulf : (⟨S100000x128, .f32⟩ : BufTy).Contents (Elt F) → (⟨S100000x128, .f32⟩ : BufTy).Contents (Elt F) → (⟨S100000x128, .f32⟩ : BufTy).Contents (Elt F))
  :: unary main_v221 main_v237 (broadcastInDim S1x128 ![1] bcast_S128_S1x128_1 : (⟨S128, .f32⟩ : BufTy).Contents (Elt F) → (⟨S1x128, .f32⟩ : BufTy).Contents (Elt F))
  :: unary main_v237 main_v238 (broadcastInDim S100000x128 ![0, 1] bcast_S1x128_S100000x128_0_1 : (⟨S1x128, .f32⟩ : BufTy).Contents (Elt F) → (⟨S100000x128, .f32⟩ : BufTy).Contents (Elt F))
  :: binary main_v236 main_v238 main_v239 (mulf : (⟨S100000x128, .f32⟩ : BufTy).Contents (Elt F) → (⟨S100000x128, .f32⟩ : BufTy).Contents (Elt F) → (⟨S100000x128, .f32⟩ : BufTy).Contents (Elt F))
  :: unary main_v223 main_v240 (broadcastInDim S1x128 ![1] bcast_S128_S1x128_1 : (⟨S128, .f32⟩ : BufTy).Contents (Elt F) → (⟨S1x128, .f32⟩ : BufTy).Contents (Elt F))
  :: unary main_v240 main_v241 (broadcastInDim S100000x128 ![0, 1] bcast_S1x128_S100000x128_0_1 : (⟨S1x128, .f32⟩ : BufTy).Contents (Elt F) → (⟨S100000x128, .f32⟩ : BufTy).Contents (Elt F))
  :: binary main_v239 main_v241 main_v242 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call5_cst) (constant S_ .f32 0x00000000#32)
  :: TRef.unary (TRef.of (T := ⟨S_, .f32⟩) main_call5_cst) (TRef.of (T := ⟨S100000x128, .f32⟩) main_call5_v0) (broadcastInDim S100000x128 ![] bcast_S_S100000x128)
  :: TRef.binary (TRef.of (T := ⟨S100000x128, .f32⟩) main_v242) (TRef.of (T := ⟨S100000x128, .f32⟩) main_call5_v0) (TRef.of (T := ⟨S100000x128, .f32⟩) main_v243) maximumf
  :: nullary main_c_16 (constantI S_ 32 0#32)
  :: unary main_c_16 main_v244 (broadcastInDim S1600000 ![] bcast_S_S1600000 : (⟨S_, .i32⟩ : BufTy).Contents (Elt F) → (⟨S1600000, .i32⟩ : BufTy).Contents (Elt F))
  :: binary main_v1 main_v244 main_v245 (cmpi .slt : (⟨S1600000, .i32⟩ : BufTy).Contents (Elt F) → (⟨S1600000, .i32⟩ : BufTy).Contents (Elt F) → (⟨S1600000, .i1⟩ : BufTy).Contents (Elt F))
  :: nullary main_c_17 (constantI S_ 32 100000#32)
  :: unary main_c_17 main_v246 (broadcastInDim S1600000 ![] bcast_S_S1600000 : (⟨S_, .i32⟩ : BufTy).Contents (Elt F) → (⟨S1600000, .i32⟩ : BufTy).Contents (Elt F))
  :: binary main_v1 main_v246 main_v247 (addi : (⟨S1600000, .i32⟩ : BufTy).Contents (Elt F) → (⟨S1600000, .i32⟩ : BufTy).Contents (Elt F) → (⟨S1600000, .i32⟩ : BufTy).Contents (Elt F))
  :: ternary main_v245 main_v247 main_v1 main_v248 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v248 main_v249 (broadcastInDim S1600000x1 ![0] bcast_S1600000_S1600000x1_0 : (⟨S1600000, .i32⟩ : BufTy).Contents (Elt F) → (⟨S1600000x1, .i32⟩ : BufTy).Contents (Elt F))
  :: binary main_v243 main_v249 main_v250 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F))
  :: nullary main_cst_18 (constant S_ .f32 0x00000000#32)
  :: unary main_cst_18 main_v251 (broadcastInDim S100000x128 ![] bcast_S_S100000x128 : (⟨S_, .f32⟩ : BufTy).Contents (Elt F) → (⟨S100000x128, .f32⟩ : BufTy).Contents (Elt F))
  :: unary main_v3 main_v252 (broadcastInDim S1600000x1 ![0] bcast_S1600000_S1600000x1_0 : (⟨S1600000, .i32⟩ : BufTy).Contents (Elt F) → (⟨S1600000x1, .i32⟩ : BufTy).Contents (Elt F))
  :: ternary main_v251 main_v252 main_v250 main_v253 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F))
  :: unary main_arg9 main_v254 ((extractStridedSlice S1 ![3] · slices_S4_S1_3) : (⟨S4, .f32⟩ : BufTy).Contents (Elt F) → (⟨S1, .f32⟩ : BufTy).Contents (Elt F))
  :: reshape main_v254 main_v255 rfl shapeCasts_S1_S_
  :: nullary main_cst_19 (constant S_ .f32 0x3F800000#32)
  :: binary main_cst_19 main_v255 main_v256 (addf : (⟨S_, .f32⟩ : BufTy).Contents (Elt F) → (⟨S_, .f32⟩ : BufTy).Contents (Elt F) → (⟨S_, .f32⟩ : BufTy).Contents (Elt F))
  :: unary main_v256 main_v257 (broadcastInDim S100000x128 ![] bcast_S_S100000x128 : (⟨S_, .f32⟩ : BufTy).Contents (Elt F) → (⟨S100000x128, .f32⟩ : BufTy).Contents (Elt F))
  :: binary main_v257 main_v243 main_v258 (mulf : (⟨S100000x128, .f32⟩ : BufTy).Contents (Elt F) → (⟨S100000x128, .f32⟩ : BufTy).Contents (Elt F) → (⟨S100000x128, .f32⟩ : BufTy).Contents (Elt F))
  :: binary main_v258 main_v253 main_v259 (addf : (⟨S100000x128, .f32⟩ : BufTy).Contents (Elt F) → (⟨S100000x128, .f32⟩ : BufTy).Contents (Elt F) → (⟨S100000x128, .f32⟩ : BufTy).Contents (Elt F))
  :: unary main_arg3 main_v260 ((extractStridedSlice S1x128x256 ![3, 0, 0] · slices_S4x128x256_S1x128x256_3_0_0) : (⟨S4x128x256, .f32⟩ : BufTy).Contents (Elt F) → (⟨S1x128x256, .f32⟩ : BufTy).Contents (Elt F))
  :: reshape main_v260 main_v261 rfl shapeCasts_S1x128x256_S128x256
  :: binary main_v259 main_v261 main_v262 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F))
  :: unary main_arg4 main_v263 ((extractStridedSlice S1x256 ![3, 0] · slices_S4x256_S1x256_3_0) : (⟨S4x256, .f32⟩ : BufTy).Contents (Elt F) → (⟨S1x256, .f32⟩ : BufTy).Contents (Elt F))
  :: reshape main_v263 main_v264 rfl shapeCasts_S1x256_S256
  :: unary main_v264 main_v265 (broadcastInDim S1x256 ![1] bcast_S256_S1x256_1 : (⟨S256, .f32⟩ : BufTy).Contents (Elt F) → (⟨S1x256, .f32⟩ : BufTy).Contents (Elt F))
  :: unary main_v265 main_v266 (broadcastInDim S100000x256 ![0, 1] bcast_S1x256_S100000x256_0_1 : (⟨S1x256, .f32⟩ : BufTy).Contents (Elt F) → (⟨S100000x256, .f32⟩ : BufTy).Contents (Elt F))
  :: binary main_v262 main_v266 main_v267 (addf : (⟨S100000x256, .f32⟩ : BufTy).Contents (Elt F) → (⟨S100000x256, .f32⟩ : BufTy).Contents (Elt F) → (⟨S100000x256, .f32⟩ : BufTy).Contents (Elt F))
  :: unary main_arg5 main_v268 ((extractStridedSlice S1x256 ![3, 0] · slices_S4x256_S1x256_3_0) : (⟨S4x256, .f32⟩ : BufTy).Contents (Elt F) → (⟨S1x256, .f32⟩ : BufTy).Contents (Elt F))
  :: reshape main_v268 main_v269 rfl shapeCasts_S1x256_S256
  :: unary main_arg6 main_v270 ((extractStridedSlice S1x256 ![3, 0] · slices_S4x256_S1x256_3_0) : (⟨S4x256, .f32⟩ : BufTy).Contents (Elt F) → (⟨S1x256, .f32⟩ : BufTy).Contents (Elt F))
  :: reshape main_v270 main_v271 rfl shapeCasts_S1x256_S256
  :: unary main_arg7 main_v272 ((extractStridedSlice S1x256 ![3, 0] · slices_S4x256_S1x256_3_0) : (⟨S4x256, .f32⟩ : BufTy).Contents (Elt F) → (⟨S1x256, .f32⟩ : BufTy).Contents (Elt F))
  :: reshape main_v272 main_v273 rfl shapeCasts_S1x256_S256
  :: unary main_arg8 main_v274 ((extractStridedSlice S1x256 ![3, 0] · slices_S4x256_S1x256_3_0) : (⟨S4x256, .f32⟩ : BufTy).Contents (Elt F) → (⟨S1x256, .f32⟩ : BufTy).Contents (Elt F))
  :: reshape main_v274 main_v275 rfl shapeCasts_S1x256_S256
  :: unary main_v273 main_v276 (broadcastInDim S1x256 ![1] bcast_S256_S1x256_1 : (⟨S256, .f32⟩ : BufTy).Contents (Elt F) → (⟨S1x256, .f32⟩ : BufTy).Contents (Elt F))
  :: unary main_v276 main_v277 (broadcastInDim S100000x256 ![0, 1] bcast_S1x256_S100000x256_0_1 : (⟨S1x256, .f32⟩ : BufTy).Contents (Elt F) → (⟨S100000x256, .f32⟩ : BufTy).Contents (Elt F))
  :: [] )

set_option maxHeartbeats 4000000 in
set_option maxRecDepth 16384 in
/-- Stretch 4 is part 4 of the program. -/
theorem part4_eq (c : Dev nD) : main_part4 (F := F) c = seq ops4 := rfl

set_option maxRecDepth 16384 in
/-- Every operation of stretch 4 touches TensorCore references only. -/
theorem ops4_sub : (ops4 : List (HloOp τ sig (Elt F))).Forall fun op => op.bufs ⊆ tcRefs τ sig :=
  ⟨reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub ..⟩

set_option maxRecDepth 16384 in
/-- No operation of stretch 4 allocates a buffer. -/
theorem ops4_fresh : (ops4 : List (HloOp τ sig (Elt F))).Forall fun op => op.fresh = ∅ := by
  simp only [List.Forall]; repeat' constructor

/-- The references stretch 4 writes, in order: one per operation, its result. -/
abbrev writes4 : List (Ref sig .tc) :=
  [main_v223, main_v224, main_v225, main_v226, main_v227, main_v228, main_v229, main_v230, main_cst_15, main_v231, main_v232, main_v233, main_v234, main_v235, main_v236, main_v237, main_v238, main_v239, main_v240, main_v241, main_v242, main_call5_cst, main_call5_v0, main_v243, main_c_16, main_v244, main_v245, main_c_17, main_v246, main_v247, main_v248, main_v249, main_v250, main_cst_18, main_v251, main_v252, main_v253, main_v254, main_v255, main_cst_19, main_v256, main_v257, main_v258, main_v259, main_v260, main_v261, main_v262, main_v263, main_v264, main_v265, main_v266, main_v267, main_v268, main_v269, main_v270, main_v271, main_v272, main_v273, main_v274, main_v275, main_v276, main_v277]

set_option maxRecDepth 16384 in
/-- Every operation of stretch 4 writes a reference of that list. -/
theorem ops4_writes : (ops4 : List (HloOp τ sig (Elt F))).Forall fun op => op.writes ⊆ (writes4.map (Proc.devRef (τ := τ) .tc)).toFinset :=
  ⟨sub_of_mem (y := main_v223) (by decide),
   sub_of_mem (y := main_v224) (by decide),
   sub_of_mem (y := main_v225) (by decide),
   sub_of_mem (y := main_v226) (by decide),
   sub_of_mem (y := main_v227) (by decide),
   sub_of_mem (y := main_v228) (by decide),
   sub_of_mem (y := main_v229) (by decide),
   sub_of_mem (y := main_v230) (by decide),
   sub_of_mem (y := main_cst_15) (by decide),
   sub_of_mem (y := main_v231) (by decide),
   sub_of_mem (y := main_v232) (by decide),
   sub_of_mem (y := main_v233) (by decide),
   sub_of_mem (y := main_v234) (by decide),
   sub_of_mem (y := main_v235) (by decide),
   sub_of_mem (y := main_v236) (by decide),
   sub_of_mem (y := main_v237) (by decide),
   sub_of_mem (y := main_v238) (by decide),
   sub_of_mem (y := main_v239) (by decide),
   sub_of_mem (y := main_v240) (by decide),
   sub_of_mem (y := main_v241) (by decide),
   sub_of_mem (y := main_v242) (by decide),
   sub_of_mem (y := main_call5_cst) (by decide),
   sub_of_mem (y := main_call5_v0) (by decide),
   sub_of_mem (y := main_v243) (by decide),
   sub_of_mem (y := main_c_16) (by decide),
   sub_of_mem (y := main_v244) (by decide),
   sub_of_mem (y := main_v245) (by decide),
   sub_of_mem (y := main_c_17) (by decide),
   sub_of_mem (y := main_v246) (by decide),
   sub_of_mem (y := main_v247) (by decide),
   sub_of_mem (y := main_v248) (by decide),
   sub_of_mem (y := main_v249) (by decide),
   sub_of_mem (y := main_v250) (by decide),
   sub_of_mem (y := main_cst_18) (by decide),
   sub_of_mem (y := main_v251) (by decide),
   sub_of_mem (y := main_v252) (by decide),
   sub_of_mem (y := main_v253) (by decide),
   sub_of_mem (y := main_v254) (by decide),
   sub_of_mem (y := main_v255) (by decide),
   sub_of_mem (y := main_cst_19) (by decide),
   sub_of_mem (y := main_v256) (by decide),
   sub_of_mem (y := main_v257) (by decide),
   sub_of_mem (y := main_v258) (by decide),
   sub_of_mem (y := main_v259) (by decide),
   sub_of_mem (y := main_v260) (by decide),
   sub_of_mem (y := main_v261) (by decide),
   sub_of_mem (y := main_v262) (by decide),
   sub_of_mem (y := main_v263) (by decide),
   sub_of_mem (y := main_v264) (by decide),
   sub_of_mem (y := main_v265) (by decide),
   sub_of_mem (y := main_v266) (by decide),
   sub_of_mem (y := main_v267) (by decide),
   sub_of_mem (y := main_v268) (by decide),
   sub_of_mem (y := main_v269) (by decide),
   sub_of_mem (y := main_v270) (by decide),
   sub_of_mem (y := main_v271) (by decide),
   sub_of_mem (y := main_v272) (by decide),
   sub_of_mem (y := main_v273) (by decide),
   sub_of_mem (y := main_v274) (by decide),
   sub_of_mem (y := main_v275) (by decide),
   sub_of_mem (y := main_v276) (by decide),
   sub_of_mem (y := main_v277) (by decide)⟩

set_option maxHeartbeats 4000000 in
set_option maxRecDepth 16384 in
/-- Stretch 5: operations 313 … 376 of the program, in order (a called function's operations stand in its call's place). -/
abbrev ops5 : List (HloOp τ sig (Elt F)) :=
  ( binary main_v267 main_v277 main_v278 (subf : (⟨S100000x256, .f32⟩ : BufTy).Contents (Elt F) → (⟨S100000x256, .f32⟩ : BufTy).Contents (Elt F) → (⟨S100000x256, .f32⟩ : BufTy).Contents (Elt F))
  :: nullary main_cst_20 (constant S_ .f32 0x3727C5AC#32)
  :: unary main_cst_20 main_v279 (broadcastInDim S256 ![] bcast_S_S256 : (⟨S_, .f32⟩ : BufTy).Contents (Elt F) → (⟨S256, .f32⟩ : BufTy).Contents (Elt F))
  :: binary main_v275 main_v279 main_v280 (addf : (⟨S256, .f32⟩ : BufTy).Contents (Elt F) → (⟨S256, .f32⟩ : BufTy).Contents (Elt F) → (⟨S256, .f32⟩ : BufTy).Contents (Elt F))
  :: unary main_v280 main_v281 (Host.rsqrt : (⟨S256, .f32⟩ : BufTy).Contents (Elt F) → (⟨S256, .f32⟩ : BufTy).Contents (Elt F))
  :: unary main_v281 main_v282 (broadcastInDim S1x256 ![1] bcast_S256_S1x256_1 : (⟨S256, .f32⟩ : BufTy).Contents (Elt F) → (⟨S1x256, .f32⟩ : BufTy).Contents (Elt F))
  :: unary main_v282 main_v283 (broadcastInDim S100000x256 ![0, 1] bcast_S1x256_S100000x256_0_1 : (⟨S1x256, .f32⟩ : BufTy).Contents (Elt F) → (⟨S100000x256, .f32⟩ : BufTy).Contents (Elt F))
  :: binary main_v278 main_v283 main_v284 (mulf : (⟨S100000x256, .f32⟩ : BufTy).Contents (Elt F) → (⟨S100000x256, .f32⟩ : BufTy).Contents (Elt F) → (⟨S100000x256, .f32⟩ : BufTy).Contents (Elt F))
  :: unary main_v269 main_v285 (broadcastInDim S1x256 ![1] bcast_S256_S1x256_1 : (⟨S256, .f32⟩ : BufTy).Contents (Elt F) → (⟨S1x256, .f32⟩ : BufTy).Contents (Elt F))
  :: unary main_v285 main_v286 (broadcastInDim S100000x256 ![0, 1] bcast_S1x256_S100000x256_0_1 : (⟨S1x256, .f32⟩ : BufTy).Contents (Elt F) → (⟨S100000x256, .f32⟩ : BufTy).Contents (Elt F))
  :: binary main_v284 main_v286 main_v287 (mulf : (⟨S100000x256, .f32⟩ : BufTy).Contents (Elt F) → (⟨S100000x256, .f32⟩ : BufTy).Contents (Elt F) → (⟨S100000x256, .f32⟩ : BufTy).Contents (Elt F))
  :: unary main_v271 main_v288 (broadcastInDim S1x256 ![1] bcast_S256_S1x256_1 : (⟨S256, .f32⟩ : BufTy).Contents (Elt F) → (⟨S1x256, .f32⟩ : BufTy).Contents (Elt F))
  :: unary main_v288 main_v289 (broadcastInDim S100000x256 ![0, 1] bcast_S1x256_S100000x256_0_1 : (⟨S1x256, .f32⟩ : BufTy).Contents (Elt F) → (⟨S100000x256, .f32⟩ : BufTy).Contents (Elt F))
  :: binary main_v287 main_v289 main_v290 (addf : (⟨S100000x256, .f32⟩ : BufTy).Contents (Elt F) → (⟨S100000x256, .f32⟩ : BufTy).Contents (Elt F) → (⟨S100000x256, .f32⟩ : BufTy).Contents (Elt F))
  :: TRef.nullary (TRef.of (T := ⟨S_, .f32⟩) main_call6_cst) (constant S_ .f32 0x00000000#32)
  :: TRef.unary (TRef.of (T := ⟨S_, .f32⟩) main_call6_cst) (TRef.of (T := ⟨S100000x256, .f32⟩) main_call6_v0) (broadcastInDim S100000x256 ![] bcast_S_S100000x256)
  :: TRef.binary (TRef.of (T := ⟨S100000x256, .f32⟩) main_v290) (TRef.of (T := ⟨S100000x256, .f32⟩) main_call6_v0) (TRef.of (T := ⟨S100000x256, .f32⟩) main_v291) maximumf
  :: unary main_arg10 main_v292 ((extractStridedSlice S1x256x128 ![3, 0, 0] · slices_S4x256x128_S1x256x128_3_0_0) : (⟨S4x256x128, .f32⟩ : BufTy).Contents (Elt F) → (⟨S1x256x128, .f32⟩ : BufTy).Contents (Elt F))
  :: reshape main_v292 main_v293 rfl shapeCasts_S1x256x128_S256x128
  :: binary main_v291 main_v293 main_v294 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F))
  :: unary main_arg11 main_v295 ((extractStridedSlice S1x128 ![3, 0] · slices_S4x128_S1x128_3_0) : (⟨S4x128, .f32⟩ : BufTy).Contents (Elt F) → (⟨S1x128, .f32⟩ : BufTy).Contents (Elt F))
  :: reshape main_v295 main_v296 rfl shapeCasts_S1x128_S128
  :: unary main_v296 main_v297 (broadcastInDim S1x128 ![1] bcast_S128_S1x128_1 : (⟨S128, .f32⟩ : BufTy).Contents (Elt F) → (⟨S1x128, .f32⟩ : BufTy).Contents (Elt F))
  :: unary main_v297 main_v298 (broadcastInDim S100000x128 ![0, 1] bcast_S1x128_S100000x128_0_1 : (⟨S1x128, .f32⟩ : BufTy).Contents (Elt F) → (⟨S100000x128, .f32⟩ : BufTy).Contents (Elt F))
  :: binary main_v294 main_v298 main_v299 (addf : (⟨S100000x128, .f32⟩ : BufTy).Contents (Elt F) → (⟨S100000x128, .f32⟩ : BufTy).Contents (Elt F) → (⟨S100000x128, .f32⟩ : BufTy).Contents (Elt F))
  :: unary main_arg12 main_v300 ((extractStridedSlice S1x128 ![3, 0] · slices_S4x128_S1x128_3_0) : (⟨S4x128, .f32⟩ : BufTy).Contents (Elt F) → (⟨S1x128, .f32⟩ : BufTy).Contents (Elt F))
  :: reshape main_v300 main_v301 rfl shapeCasts_S1x128_S128
  :: unary main_arg13 main_v302 ((extractStridedSlice S1x128 ![3, 0] · slices_S4x128_S1x128_3_0) : (⟨S4x128, .f32⟩ : BufTy).Contents (Elt F) → (⟨S1x128, .f32⟩ : BufTy).Contents (Elt F))
  :: reshape main_v302 main_v303 rfl shapeCasts_S1x128_S128
  :: unary main_arg14 main_v304 ((extractStridedSlice S1x128 ![3, 0] · slices_S4x128_S1x128_3_0) : (⟨S4x128, .f32⟩ : BufTy).Contents (Elt F) → (⟨S1x128, .f32⟩ : BufTy).Contents (Elt F))
  :: reshape main_v304 main_v305 rfl shapeCasts_S1x128_S128
  :: unary main_arg15 main_v306 ((extractStridedSlice S1x128 ![3, 0] · slices_S4x128_S1x128_3_0) : (⟨S4x128, .f32⟩ : BufTy).Contents (Elt F) → (⟨S1x128, .f32⟩ : BufTy).Contents (Elt F))
  :: reshape main_v306 main_v307 rfl shapeCasts_S1x128_S128
  :: unary main_v305 main_v308 (broadcastInDim S1x128 ![1] bcast_S128_S1x128_1 : (⟨S128, .f32⟩ : BufTy).Contents (Elt F) → (⟨S1x128, .f32⟩ : BufTy).Contents (Elt F))
  :: unary main_v308 main_v309 (broadcastInDim S100000x128 ![0, 1] bcast_S1x128_S100000x128_0_1 : (⟨S1x128, .f32⟩ : BufTy).Contents (Elt F) → (⟨S100000x128, .f32⟩ : BufTy).Contents (Elt F))
  :: binary main_v299 main_v309 main_v310 (subf : (⟨S100000x128, .f32⟩ : BufTy).Contents (Elt F) → (⟨S100000x128, .f32⟩ : BufTy).Contents (Elt F) → (⟨S100000x128, .f32⟩ : BufTy).Contents (Elt F))
  :: nullary main_cst_21 (constant S_ .f32 0x3727C5AC#32)
  :: unary main_cst_21 main_v311 (broadcastInDim S128 ![] bcast_S_S128 : (⟨S_, .f32⟩ : BufTy).Contents (Elt F) → (⟨S128, .f32⟩ : BufTy).Contents (Elt F))
  :: binary main_v307 main_v311 main_v312 (addf : (⟨S128, .f32⟩ : BufTy).Contents (Elt F) → (⟨S128, .f32⟩ : BufTy).Contents (Elt F) → (⟨S128, .f32⟩ : BufTy).Contents (Elt F))
  :: unary main_v312 main_v313 (Host.rsqrt : (⟨S128, .f32⟩ : BufTy).Contents (Elt F) → (⟨S128, .f32⟩ : BufTy).Contents (Elt F))
  :: unary main_v313 main_v314 (broadcastInDim S1x128 ![1] bcast_S128_S1x128_1 : (⟨S128, .f32⟩ : BufTy).Contents (Elt F) → (⟨S1x128, .f32⟩ : BufTy).Contents (Elt F))
  :: unary main_v314 main_v315 (broadcastInDim S100000x128 ![0, 1] bcast_S1x128_S100000x128_0_1 : (⟨S1x128, .f32⟩ : BufTy).Contents (Elt F) → (⟨S100000x128, .f32⟩ : BufTy).Contents (Elt F))
  :: binary main_v310 main_v315 main_v316 (mulf : (⟨S100000x128, .f32⟩ : BufTy).Contents (Elt F) → (⟨S100000x128, .f32⟩ : BufTy).Contents (Elt F) → (⟨S100000x128, .f32⟩ : BufTy).Contents (Elt F))
  :: unary main_v301 main_v317 (broadcastInDim S1x128 ![1] bcast_S128_S1x128_1 : (⟨S128, .f32⟩ : BufTy).Contents (Elt F) → (⟨S1x128, .f32⟩ : BufTy).Contents (Elt F))
  :: unary main_v317 main_v318 (broadcastInDim S100000x128 ![0, 1] bcast_S1x128_S100000x128_0_1 : (⟨S1x128, .f32⟩ : BufTy).Contents (Elt F) → (⟨S100000x128, .f32⟩ : BufTy).Contents (Elt F))
  :: binary main_v316 main_v318 main_v319 (mulf : (⟨S100000x128, .f32⟩ : BufTy).Contents (Elt F) → (⟨S100000x128, .f32⟩ : BufTy).Contents (Elt F) → (⟨S100000x128, .f32⟩ : BufTy).Contents (Elt F))
  :: unary main_v303 main_v320 (broadcastInDim S1x128 ![1] bcast_S128_S1x128_1 : (⟨S128, .f32⟩ : BufTy).Contents (Elt F) → (⟨S1x128, .f32⟩ : BufTy).Contents (Elt F))
  :: unary main_v320 main_v321 (broadcastInDim S100000x128 ![0, 1] bcast_S1x128_S100000x128_0_1 : (⟨S1x128, .f32⟩ : BufTy).Contents (Elt F) → (⟨S100000x128, .f32⟩ : BufTy).Contents (Elt F))
  :: binary main_v319 main_v321 main_v322 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call7_cst) (constant S_ .f32 0x00000000#32)
  :: TRef.unary (TRef.of (T := ⟨S_, .f32⟩) main_call7_cst) (TRef.of (T := ⟨S100000x128, .f32⟩) main_call7_v0) (broadcastInDim S100000x128 ![] bcast_S_S100000x128)
  :: TRef.binary (TRef.of (T := ⟨S100000x128, .f32⟩) main_v322) (TRef.of (T := ⟨S100000x128, .f32⟩) main_call7_v0) (TRef.of (T := ⟨S100000x128, .f32⟩) main_v323) maximumf
  :: nullary main_cst_22 (constant S_ .f32 0x00000000#32)
  :: unary main_cst_22 main_v324 (broadcastInDim S512x128 ![] bcast_S_S512x128 : (⟨S_, .f32⟩ : BufTy).Contents (Elt F) → (⟨S512x128, .f32⟩ : BufTy).Contents (Elt F))
  :: unary main_arg2 main_v325 (broadcastInDim S100000x1 ![0] bcast_S100000_S100000x1_0 : (⟨S100000, .i32⟩ : BufTy).Contents (Elt F) → (⟨S100000x1, .i32⟩ : BufTy).Contents (Elt F))
  :: ternary main_v324 main_v325 main_v323 main_v326 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F))
  :: binary main_v326 main_arg16 main_v327 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F))
  :: unary main_arg17 main_v328 (broadcastInDim S1x128 ![1] bcast_S128_S1x128_1 : (⟨S128, .f32⟩ : BufTy).Contents (Elt F) → (⟨S1x128, .f32⟩ : BufTy).Contents (Elt F))
  :: unary main_v328 main_v329 (broadcastInDim S512x128 ![0, 1] bcast_S1x128_S512x128_0_1 : (⟨S1x128, .f32⟩ : BufTy).Contents (Elt F) → (⟨S512x128, .f32⟩ : BufTy).Contents (Elt F))
  :: binary main_v327 main_v329 main_v330 (addf : (⟨S512x128, .f32⟩ : BufTy).Contents (Elt F) → (⟨S512x128, .f32⟩ : BufTy).Contents (Elt F) → (⟨S512x128, .f32⟩ : BufTy).Contents (Elt F))
  :: unary main_arg20 main_v331 (broadcastInDim S1x128 ![1] bcast_S128_S1x128_1 : (⟨S128, .f32⟩ : BufTy).Contents (Elt F) → (⟨S1x128, .f32⟩ : BufTy).Contents (Elt F))
  :: unary main_v331 main_v332 (broadcastInDim S512x128 ![0, 1] bcast_S1x128_S512x128_0_1 : (⟨S1x128, .f32⟩ : BufTy).Contents (Elt F) → (⟨S512x128, .f32⟩ : BufTy).Contents (Elt F))
  :: binary main_v330 main_v332 main_v333 (subf : (⟨S512x128, .f32⟩ : BufTy).Contents (Elt F) → (⟨S512x128, .f32⟩ : BufTy).Contents (Elt F) → (⟨S512x128, .f32⟩ : BufTy).Contents (Elt F))
  :: nullary main_cst_23 (constant S_ .f32 0x3727C5AC#32)
  :: [] )

set_option maxHeartbeats 4000000 in
set_option maxRecDepth 16384 in
/-- Stretch 5 is part 5 of the program. -/
theorem part5_eq (c : Dev nD) : main_part5 (F := F) c = seq ops5 := rfl

set_option maxRecDepth 16384 in
/-- Every operation of stretch 5 touches TensorCore references only. -/
theorem ops5_sub : (ops5 : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., unary_bufs_sub .., binary_bufs_sub .., unary_bufs_sub .., unary_bufs_sub .., binary_bufs_sub .., nullary_bufs_sub ..⟩

set_option maxRecDepth 16384 in
/-- No operation of stretch 5 allocates a buffer. -/
theorem ops5_fresh : (ops5 : List (HloOp τ sig (Elt F))).Forall fun op => op.fresh = ∅ := by
  simp only [List.Forall]; repeat' constructor

/-- The references stretch 5 writes, in order: one per operation, its result. -/
abbrev writes5 : List (Ref sig .tc) :=
  [main_v278, main_cst_20, main_v279, main_v280, main_v281, main_v282, main_v283, main_v284, main_v285, main_v286, main_v287, main_v288, main_v289, main_v290, main_call6_cst, main_call6_v0, main_v291, main_v292, main_v293, main_v294, main_v295, main_v296, main_v297, main_v298, main_v299, main_v300, main_v301, main_v302, main_v303, main_v304, main_v305, main_v306, main_v307, main_v308, main_v309, main_v310, main_cst_21, main_v311, main_v312, main_v313, main_v314, main_v315, main_v316, main_v317, main_v318, main_v319, main_v320, main_v321, main_v322, main_call7_cst, main_call7_v0, main_v323, main_cst_22, main_v324, main_v325, main_v326, main_v327, main_v328, main_v329, main_v330, main_v331, main_v332, main_v333, main_cst_23]

set_option maxRecDepth 16384 in
/-- Every operation of stretch 5 writes a reference of that list. -/
theorem ops5_writes : (ops5 : List (HloOp τ sig (Elt F))).Forall fun op => op.writes ⊆ (writes5.map (Proc.devRef (τ := τ) .tc)).toFinset :=
  ⟨sub_of_mem (y := main_v278) (by decide),
   sub_of_mem (y := main_cst_20) (by decide),
   sub_of_mem (y := main_v279) (by decide),
   sub_of_mem (y := main_v280) (by decide),
   sub_of_mem (y := main_v281) (by decide),
   sub_of_mem (y := main_v282) (by decide),
   sub_of_mem (y := main_v283) (by decide),
   sub_of_mem (y := main_v284) (by decide),
   sub_of_mem (y := main_v285) (by decide),
   sub_of_mem (y := main_v286) (by decide),
   sub_of_mem (y := main_v287) (by decide),
   sub_of_mem (y := main_v288) (by decide),
   sub_of_mem (y := main_v289) (by decide),
   sub_of_mem (y := main_v290) (by decide),
   sub_of_mem (y := main_call6_cst) (by decide),
   sub_of_mem (y := main_call6_v0) (by decide),
   sub_of_mem (y := main_v291) (by decide),
   sub_of_mem (y := main_v292) (by decide),
   sub_of_mem (y := main_v293) (by decide),
   sub_of_mem (y := main_v294) (by decide),
   sub_of_mem (y := main_v295) (by decide),
   sub_of_mem (y := main_v296) (by decide),
   sub_of_mem (y := main_v297) (by decide),
   sub_of_mem (y := main_v298) (by decide),
   sub_of_mem (y := main_v299) (by decide),
   sub_of_mem (y := main_v300) (by decide),
   sub_of_mem (y := main_v301) (by decide),
   sub_of_mem (y := main_v302) (by decide),
   sub_of_mem (y := main_v303) (by decide),
   sub_of_mem (y := main_v304) (by decide),
   sub_of_mem (y := main_v305) (by decide),
   sub_of_mem (y := main_v306) (by decide),
   sub_of_mem (y := main_v307) (by decide),
   sub_of_mem (y := main_v308) (by decide),
   sub_of_mem (y := main_v309) (by decide),
   sub_of_mem (y := main_v310) (by decide),
   sub_of_mem (y := main_cst_21) (by decide),
   sub_of_mem (y := main_v311) (by decide),
   sub_of_mem (y := main_v312) (by decide),
   sub_of_mem (y := main_v313) (by decide),
   sub_of_mem (y := main_v314) (by decide),
   sub_of_mem (y := main_v315) (by decide),
   sub_of_mem (y := main_v316) (by decide),
   sub_of_mem (y := main_v317) (by decide),
   sub_of_mem (y := main_v318) (by decide),
   sub_of_mem (y := main_v319) (by decide),
   sub_of_mem (y := main_v320) (by decide),
   sub_of_mem (y := main_v321) (by decide),
   sub_of_mem (y := main_v322) (by decide),
   sub_of_mem (y := main_call7_cst) (by decide),
   sub_of_mem (y := main_call7_v0) (by decide),
   sub_of_mem (y := main_v323) (by decide),
   sub_of_mem (y := main_cst_22) (by decide),
   sub_of_mem (y := main_v324) (by decide),
   sub_of_mem (y := main_v325) (by decide),
   sub_of_mem (y := main_v326) (by decide),
   sub_of_mem (y := main_v327) (by decide),
   sub_of_mem (y := main_v328) (by decide),
   sub_of_mem (y := main_v329) (by decide),
   sub_of_mem (y := main_v330) (by decide),
   sub_of_mem (y := main_v331) (by decide),
   sub_of_mem (y := main_v332) (by decide),
   sub_of_mem (y := main_v333) (by decide),
   sub_of_mem (y := main_cst_23) (by decide)⟩

set_option maxHeartbeats 4000000 in
set_option maxRecDepth 16384 in
/-- Stretch 6: operations 377 … 410 of the program, in order (a called function's operations stand in its call's place). -/
abbrev ops6 : List (HloOp τ sig (Elt F)) :=
  ( unary main_cst_23 main_v334 (broadcastInDim S128 ![] bcast_S_S128 : (⟨S_, .f32⟩ : BufTy).Contents (Elt F) → (⟨S128, .f32⟩ : BufTy).Contents (Elt F))
  :: binary main_arg21 main_v334 main_v335 (addf : (⟨S128, .f32⟩ : BufTy).Contents (Elt F) → (⟨S128, .f32⟩ : BufTy).Contents (Elt F) → (⟨S128, .f32⟩ : BufTy).Contents (Elt F))
  :: unary main_v335 main_v336 (Host.rsqrt : (⟨S128, .f32⟩ : BufTy).Contents (Elt F) → (⟨S128, .f32⟩ : BufTy).Contents (Elt F))
  :: unary main_v336 main_v337 (broadcastInDim S1x128 ![1] bcast_S128_S1x128_1 : (⟨S128, .f32⟩ : BufTy).Contents (Elt F) → (⟨S1x128, .f32⟩ : BufTy).Contents (Elt F))
  :: unary main_v337 main_v338 (broadcastInDim S512x128 ![0, 1] bcast_S1x128_S512x128_0_1 : (⟨S1x128, .f32⟩ : BufTy).Contents (Elt F) → (⟨S512x128, .f32⟩ : BufTy).Contents (Elt F))
  :: binary main_v333 main_v338 main_v339 (mulf : (⟨S512x128, .f32⟩ : BufTy).Contents (Elt F) → (⟨S512x128, .f32⟩ : BufTy).Contents (Elt F) → (⟨S512x128, .f32⟩ : BufTy).Contents (Elt F))
  :: unary main_arg18 main_v340 (broadcastInDim S1x128 ![1] bcast_S128_S1x128_1 : (⟨S128, .f32⟩ : BufTy).Contents (Elt F) → (⟨S1x128, .f32⟩ : BufTy).Contents (Elt F))
  :: unary main_v340 main_v341 (broadcastInDim S512x128 ![0, 1] bcast_S1x128_S512x128_0_1 : (⟨S1x128, .f32⟩ : BufTy).Contents (Elt F) → (⟨S512x128, .f32⟩ : BufTy).Contents (Elt F))
  :: binary main_v339 main_v341 main_v342 (mulf : (⟨S512x128, .f32⟩ : BufTy).Contents (Elt F) → (⟨S512x128, .f32⟩ : BufTy).Contents (Elt F) → (⟨S512x128, .f32⟩ : BufTy).Contents (Elt F))
  :: unary main_arg19 main_v343 (broadcastInDim S1x128 ![1] bcast_S128_S1x128_1 : (⟨S128, .f32⟩ : BufTy).Contents (Elt F) → (⟨S1x128, .f32⟩ : BufTy).Contents (Elt F))
  :: unary main_v343 main_v344 (broadcastInDim S512x128 ![0, 1] bcast_S1x128_S512x128_0_1 : (⟨S1x128, .f32⟩ : BufTy).Contents (Elt F) → (⟨S512x128, .f32⟩ : BufTy).Contents (Elt F))
  :: binary main_v342 main_v344 main_v345 (addf : (⟨S512x128, .f32⟩ : BufTy).Contents (Elt F) → (⟨S512x128, .f32⟩ : BufTy).Contents (Elt F) → (⟨S512x128, .f32⟩ : BufTy).Contents (Elt F))
  :: TRef.nullary (TRef.of (T := ⟨S_, .f32⟩) main_call8_cst) (constant S_ .f32 0x00000000#32)
  :: TRef.unary (TRef.of (T := ⟨S_, .f32⟩) main_call8_cst) (TRef.of (T := ⟨S512x128, .f32⟩) main_call8_v0) (broadcastInDim S512x128 ![] bcast_S_S512x128)
  :: TRef.binary (TRef.of (T := ⟨S512x128, .f32⟩) main_v345) (TRef.of (T := ⟨S512x128, .f32⟩) main_call8_v0) (TRef.of (T := ⟨S512x128, .f32⟩) main_v346) maximumf
  :: binary main_v346 main_arg22 main_v347 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F))
  :: unary main_arg23 main_v348 (broadcastInDim S1x10 ![1] bcast_S10_S1x10_1 : (⟨S10, .f32⟩ : BufTy).Contents (Elt F) → (⟨S1x10, .f32⟩ : BufTy).Contents (Elt F))
  :: unary main_v348 main_v349 (broadcastInDim S512x10 ![0, 1] bcast_S1x10_S512x10_0_1 : (⟨S1x10, .f32⟩ : BufTy).Contents (Elt F) → (⟨S512x10, .f32⟩ : BufTy).Contents (Elt F))
  :: binary main_v347 main_v349 main_v350 (addf : (⟨S512x10, .f32⟩ : BufTy).Contents (Elt F) → (⟨S512x10, .f32⟩ : BufTy).Contents (Elt F) → (⟨S512x10, .f32⟩ : BufTy).Contents (Elt F))
  :: TRef.nullary (TRef.of (T := ⟨S_, .f32⟩) main_call9_cst) (constant S_ .f32 0xFF800000#32)
  :: TRef.binary (TRef.of (T := ⟨S512x10, .f32⟩) main_v350) (TRef.of (T := ⟨S_, .f32⟩) main_call9_cst) (TRef.of (T := ⟨S512, .f32⟩) main_call9_v0) (fun x v => Host.reduce FloatOps.maximumf x v reducesTo_S512x10_S512_d1 h_S_)
  :: TRef.nullary (TRef.of (T := ⟨S_, .f32⟩) main_call9_cst_0) (constant S_ .f32 0xFF800000#32)
  :: TRef.unary (TRef.of (T := ⟨S_, .f32⟩) main_call9_cst_0) (TRef.of (T := ⟨S512, .f32⟩) main_call9_v1) (broadcastInDim S512 ![] bcast_S_S512)
  :: TRef.binary (TRef.of (T := ⟨S512, .f32⟩) main_call9_v1) (TRef.of (T := ⟨S512, .f32⟩) main_call9_v0) (TRef.of (T := ⟨S512, .f32⟩) main_call9_v2) maximumf
  :: TRef.unary (TRef.of (T := ⟨S512, .f32⟩) main_call9_v2) (TRef.of (T := ⟨S512x1, .f32⟩) main_call9_v3) (broadcastInDim S512x1 ![0] bcast_S512_S512x1_0)
  :: TRef.unary (TRef.of (T := ⟨S512x1, .f32⟩) main_call9_v3) (TRef.of (T := ⟨S512x10, .f32⟩) main_call9_v4) (broadcastInDim S512x10 ![0, 1] bcast_S512x1_S512x10_0_1)
  :: TRef.binary (TRef.of (T := ⟨S512x10, .f32⟩) main_v350) (TRef.of (T := ⟨S512x10, .f32⟩) main_call9_v4) (TRef.of (T := ⟨S512x10, .f32⟩) main_call9_v5) subf
  :: TRef.unary (TRef.of (T := ⟨S512x10, .f32⟩) main_call9_v5) (TRef.of (T := ⟨S512x10, .f32⟩) main_call9_v6) Host.exp
  :: TRef.nullary (TRef.of (T := ⟨S_, .f32⟩) main_call9_cst_1) (constant S_ .f32 0x00000000#32)
  :: TRef.binary (TRef.of (T := ⟨S512x10, .f32⟩) main_call9_v6) (TRef.of (T := ⟨S_, .f32⟩) main_call9_cst_1) (TRef.of (T := ⟨S512, .f32⟩) main_call9_v7) (fun x v => Host.reduceAdd x v reducesTo_S512x10_S512_d1 h_S_)
  :: TRef.unary (TRef.of (T := ⟨S512, .f32⟩) main_call9_v7) (TRef.of (T := ⟨S512x1, .f32⟩) main_call9_v8) (broadcastInDim S512x1 ![0] bcast_S512_S512x1_0)
  :: TRef.unary (TRef.of (T := ⟨S512x1, .f32⟩) main_call9_v8) (TRef.of (T := ⟨S512x1, .f32⟩) main_call9_v9) Host.log
  :: TRef.unary (TRef.of (T := ⟨S512x1, .f32⟩) main_call9_v9) (TRef.of (T := ⟨S512x10, .f32⟩) main_call9_v10) (broadcastInDim S512x10 ![0, 1] bcast_S512x1_S512x10_0_1)
  :: TRef.binary (TRef.of (T := ⟨S512x10, .f32⟩) main_call9_v5) (TRef.of (T := ⟨S512x10, .f32⟩) main_call9_v10) (TRef.of (T := ⟨S512x10, .f32⟩) main_v351) subf
  :: [] )

set_option maxHeartbeats 4000000 in
set_option maxRecDepth 16384 in
/-- Stretch 6 is part 6 of the program. -/
theorem part6_eq (c : Dev nD) : main_part6 (F := F) c = seq ops6 := rfl

set_option maxRecDepth 16384 in
/-- Every operation of stretch 6 touches TensorCore references only. -/
theorem ops6_sub : (ops6 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 16384 in
/-- No operation of stretch 6 allocates a buffer. -/
theorem ops6_fresh : (ops6 : List (HloOp τ sig (Elt F))).Forall fun op => op.fresh = ∅ := by
  simp only [List.Forall]; repeat' constructor

/-- The references stretch 6 writes, in order: one per operation, its result. -/
abbrev writes6 : List (Ref sig .tc) :=
  [main_v334, main_v335, main_v336, main_v337, main_v338, main_v339, main_v340, main_v341, main_v342, main_v343, main_v344, main_v345, main_call8_cst, main_call8_v0, main_v346, main_v347, main_v348, main_v349, main_v350, main_call9_cst, main_call9_v0, main_call9_cst_0, main_call9_v1, main_call9_v2, main_call9_v3, main_call9_v4, main_call9_v5, main_call9_v6, main_call9_cst_1, main_call9_v7, main_call9_v8, main_call9_v9, main_call9_v10, main_v351]

set_option maxRecDepth 16384 in
/-- Every operation of stretch 6 writes a reference of that list. -/
theorem ops6_writes : (ops6 : List (HloOp τ sig (Elt F))).Forall fun op => op.writes ⊆ (writes6.map (Proc.devRef (τ := τ) .tc)).toFinset :=
  ⟨sub_of_mem (y := main_v334) (by decide),
   sub_of_mem (y := main_v335) (by decide),
   sub_of_mem (y := main_v336) (by decide),
   sub_of_mem (y := main_v337) (by decide),
   sub_of_mem (y := main_v338) (by decide),
   sub_of_mem (y := main_v339) (by decide),
   sub_of_mem (y := main_v340) (by decide),
   sub_of_mem (y := main_v341) (by decide),
   sub_of_mem (y := main_v342) (by decide),
   sub_of_mem (y := main_v343) (by decide),
   sub_of_mem (y := main_v344) (by decide),
   sub_of_mem (y := main_v345) (by decide),
   sub_of_mem (y := main_call8_cst) (by decide),
   sub_of_mem (y := main_call8_v0) (by decide),
   sub_of_mem (y := main_v346) (by decide),
   sub_of_mem (y := main_v347) (by decide),
   sub_of_mem (y := main_v348) (by decide),
   sub_of_mem (y := main_v349) (by decide),
   sub_of_mem (y := main_v350) (by decide),
   sub_of_mem (y := main_call9_cst) (by decide),
   sub_of_mem (y := main_call9_v0) (by decide),
   sub_of_mem (y := main_call9_cst_0) (by decide),
   sub_of_mem (y := main_call9_v1) (by decide),
   sub_of_mem (y := main_call9_v2) (by decide),
   sub_of_mem (y := main_call9_v3) (by decide),
   sub_of_mem (y := main_call9_v4) (by decide),
   sub_of_mem (y := main_call9_v5) (by decide),
   sub_of_mem (y := main_call9_v6) (by decide),
   sub_of_mem (y := main_call9_cst_1) (by decide),
   sub_of_mem (y := main_call9_v7) (by decide),
   sub_of_mem (y := main_call9_v8) (by decide),
   sub_of_mem (y := main_call9_v9) (by decide),
   sub_of_mem (y := main_call9_v10) (by decide),
   sub_of_mem (y := main_v351) (by decide)⟩

/-! ## The whole program -/

/-- The program's operations: the seven stretches, one after the other. -/
abbrev opsAll : List (HloOp τ sig (Elt F)) := ops0 ++ (ops1 ++ (ops2 ++ (ops3 ++ (ops4 ++ (ops5 ++ ops6)))))

/-- The program is the line of its operations. -/
theorem main_eq (c : Dev nD) : main (F := F) c = seq opsAll := by
  show main (F := F) c = seq (ops0 ++ (ops1 ++ (ops2 ++ (ops3 ++ (ops4 ++ (ops5 ++ ops6))))))
  rw [seq_append, seq_append, seq_append, seq_append, seq_append, seq_append,
    ← part0_eq c, ← part1_eq c, ← part2_eq c, ← part3_eq c, ← part4_eq c, ← part5_eq c, ← part6_eq c]
  rfl

theorem scopedRefs_eq : (Finset.univ.filter fun b : Ref sig .tc => b.isScoped) = ∅ := by decide
theorem scopedSems_eq : (Finset.univ.filter fun sm : SemLoc sig => sm.isScoped .tc) = ∅ := by decide

/-- What holds of every element of two lists holds of every element of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

theorem opsAll_sub : (opsAll : List (HloOp τ sig (Elt F))).Forall fun op => op.bufs ⊆ tcRefs τ sig :=
  forall_append ops0_sub (forall_append ops1_sub (forall_append ops2_sub (forall_append ops3_sub
    (forall_append ops4_sub (forall_append ops5_sub ops6_sub)))))

theorem opsAll_fresh : ∀ op ∈ (opsAll : List (HloOp τ sig (Elt F))), op.fresh = ∅ :=
  List.forall_iff_forall_mem.1 (forall_append ops0_fresh (forall_append ops1_fresh (forall_append ops2_fresh
    (forall_append ops3_fresh (forall_append ops4_fresh (forall_append ops5_fresh ops6_fresh))))))

/-- The fold through a concatenation is the fold through its second part of the fold through its first. -/
theorem after_append (a b : List (HloOp τ sig (Elt F))) (V : Valuation τ sig (Elt F)) :
    after (a ++ b) V = after b (after a V) := by
  induction a generalizing V with
  | nil => rfl
  | cons op a ih => rw [List.cons_append, after_cons, after_cons, ih]

/-- Every weakly fair execution of the program terminates with each buffer at the fold of the operations' results over
    the launch contents. -/
theorem run0 (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after opsAll (launchContents m d) (Proc.devRef .tc b) :=
  run_seq scopedRefs_eq scopedSems_eq defs main (fun _ => opsAll) main_eq (fun _ => opsAll_sub) m ρ (fun _ => opsAll_fresh)

/-! ## The buffer contents after each stretch -/

variable (m : (ℓ : Loc nD τ sig) → Buf (Elt F) ℓ) (c : Dev nD)

/-- The contents at launch, and after each stretch. -/
abbrev V0 : Valuation τ sig (Elt F) := launchContents m c
abbrev V1 : Valuation τ sig (Elt F) := after ops0 (V0 m c)
abbrev V2 : Valuation τ sig (Elt F) := after ops1 (V1 m c)
abbrev V3 : Valuation τ sig (Elt F) := after ops2 (V2 m c)
abbrev V4 : Valuation τ sig (Elt F) := after ops3 (V3 m c)
abbrev V5 : Valuation τ sig (Elt F) := after ops4 (V4 m c)
abbrev V6 : Valuation τ sig (Elt F) := after ops5 (V5 m c)
abbrev V7 : Valuation τ sig (Elt F) := after ops6 (V6 m c)

/-- The fold through the whole program is the fold through the seven stretches in turn. -/
theorem after_all : after opsAll (launchContents m c) = V7 m c := by
  show after (ops0 ++ (ops1 ++ (ops2 ++ (ops3 ++ (ops4 ++ (ops5 ++ ops6)))))) (launchContents m c) = _
  rw [after_append, after_append, after_append, after_append, after_append, after_append]

/-- A reference stretch 0 does not write holds after it what it held before it. -/
theorem carry0 (V : Valuation τ sig (Elt F)) (r : Ref sig .tc) (hr : r ∉ writes0) :
    after ops0 V (Proc.devRef .tc r) = V (Proc.devRef .tc r) :=
  after_of_writes_sub ops0 V ops0_writes hr

/-- A reference stretch 1 does not write holds after it what it held before it. -/
theorem carry1 (V : Valuation τ sig (Elt F)) (r : Ref sig .tc) (hr : r ∉ writes1) :
    after ops1 V (Proc.devRef .tc r) = V (Proc.devRef .tc r) :=
  after_of_writes_sub ops1 V ops1_writes hr

/-- A reference stretch 2 does not write holds after it what it held before it. -/
theorem carry2 (V : Valuation τ sig (Elt F)) (r : Ref sig .tc) (hr : r ∉ writes2) :
    after ops2 V (Proc.devRef .tc r) = V (Proc.devRef .tc r) :=
  after_of_writes_sub ops2 V ops2_writes hr

/-- A reference stretch 3 does not write holds after it what it held before it. -/
theorem carry3 (V : Valuation τ sig (Elt F)) (r : Ref sig .tc) (hr : r ∉ writes3) :
    after ops3 V (Proc.devRef .tc r) = V (Proc.devRef .tc r) :=
  after_of_writes_sub ops3 V ops3_writes hr

/-- A reference stretch 4 does not write holds after it what it held before it. -/
theorem carry4 (V : Valuation τ sig (Elt F)) (r : Ref sig .tc) (hr : r ∉ writes4) :
    after ops4 V (Proc.devRef .tc r) = V (Proc.devRef .tc r) :=
  after_of_writes_sub ops4 V ops4_writes hr

/-- A reference stretch 5 does not write holds after it what it held before it. -/
theorem carry5 (V : Valuation τ sig (Elt F)) (r : Ref sig .tc) (hr : r ∉ writes5) :
    after ops5 V (Proc.devRef .tc r) = V (Proc.devRef .tc r) :=
  after_of_writes_sub ops5 V ops5_writes hr

/-- A reference stretch 6 does not write holds after it what it held before it. -/
theorem carry6 (V : Valuation τ sig (Elt F)) (r : Ref sig .tc) (hr : r ∉ writes6) :
    after ops6 V (Proc.devRef .tc r) = V (Proc.devRef .tc r) :=
  after_of_writes_sub ops6 V ops6_writes hr

/-! ## The arguments are never written -/

theorem A0_0 : V0 m c (Proc.devRef .tc main_arg0) = m ((c.tc : Thread nD τ).loc main_arg0) := rfl
theorem A1_0 : V1 m c (Proc.devRef .tc main_arg0) = m ((c.tc : Thread nD τ).loc main_arg0) :=
  (carry0 (V0 m c) main_arg0 (by decide)).trans (A0_0 m c)
theorem A2_0 : V2 m c (Proc.devRef .tc main_arg0) = m ((c.tc : Thread nD τ).loc main_arg0) :=
  (carry1 (V1 m c) main_arg0 (by decide)).trans (A1_0 m c)
theorem A3_0 : V3 m c (Proc.devRef .tc main_arg0) = m ((c.tc : Thread nD τ).loc main_arg0) :=
  (carry2 (V2 m c) main_arg0 (by decide)).trans (A2_0 m c)
theorem A4_0 : V4 m c (Proc.devRef .tc main_arg0) = m ((c.tc : Thread nD τ).loc main_arg0) :=
  (carry3 (V3 m c) main_arg0 (by decide)).trans (A3_0 m c)
theorem A5_0 : V5 m c (Proc.devRef .tc main_arg0) = m ((c.tc : Thread nD τ).loc main_arg0) :=
  (carry4 (V4 m c) main_arg0 (by decide)).trans (A4_0 m c)
theorem A6_0 : V6 m c (Proc.devRef .tc main_arg0) = m ((c.tc : Thread nD τ).loc main_arg0) :=
  (carry5 (V5 m c) main_arg0 (by decide)).trans (A5_0 m c)
theorem A7_0 : V7 m c (Proc.devRef .tc main_arg0) = m ((c.tc : Thread nD τ).loc main_arg0) :=
  (carry6 (V6 m c) main_arg0 (by decide)).trans (A6_0 m c)
theorem A0_1 : V0 m c (Proc.devRef .tc main_arg1) = m ((c.tc : Thread nD τ).loc main_arg1) := rfl
theorem A1_1 : V1 m c (Proc.devRef .tc main_arg1) = m ((c.tc : Thread nD τ).loc main_arg1) :=
  (carry0 (V0 m c) main_arg1 (by decide)).trans (A0_1 m c)
theorem A2_1 : V2 m c (Proc.devRef .tc main_arg1) = m ((c.tc : Thread nD τ).loc main_arg1) :=
  (carry1 (V1 m c) main_arg1 (by decide)).trans (A1_1 m c)
theorem A3_1 : V3 m c (Proc.devRef .tc main_arg1) = m ((c.tc : Thread nD τ).loc main_arg1) :=
  (carry2 (V2 m c) main_arg1 (by decide)).trans (A2_1 m c)
theorem A4_1 : V4 m c (Proc.devRef .tc main_arg1) = m ((c.tc : Thread nD τ).loc main_arg1) :=
  (carry3 (V3 m c) main_arg1 (by decide)).trans (A3_1 m c)
theorem A5_1 : V5 m c (Proc.devRef .tc main_arg1) = m ((c.tc : Thread nD τ).loc main_arg1) :=
  (carry4 (V4 m c) main_arg1 (by decide)).trans (A4_1 m c)
theorem A6_1 : V6 m c (Proc.devRef .tc main_arg1) = m ((c.tc : Thread nD τ).loc main_arg1) :=
  (carry5 (V5 m c) main_arg1 (by decide)).trans (A5_1 m c)
theorem A7_1 : V7 m c (Proc.devRef .tc main_arg1) = m ((c.tc : Thread nD τ).loc main_arg1) :=
  (carry6 (V6 m c) main_arg1 (by decide)).trans (A6_1 m c)
theorem A0_2 : V0 m c (Proc.devRef .tc main_arg2) = m ((c.tc : Thread nD τ).loc main_arg2) := rfl
theorem A1_2 : V1 m c (Proc.devRef .tc main_arg2) = m ((c.tc : Thread nD τ).loc main_arg2) :=
  (carry0 (V0 m c) main_arg2 (by decide)).trans (A0_2 m c)
theorem A2_2 : V2 m c (Proc.devRef .tc main_arg2) = m ((c.tc : Thread nD τ).loc main_arg2) :=
  (carry1 (V1 m c) main_arg2 (by decide)).trans (A1_2 m c)
theorem A3_2 : V3 m c (Proc.devRef .tc main_arg2) = m ((c.tc : Thread nD τ).loc main_arg2) :=
  (carry2 (V2 m c) main_arg2 (by decide)).trans (A2_2 m c)
theorem A4_2 : V4 m c (Proc.devRef .tc main_arg2) = m ((c.tc : Thread nD τ).loc main_arg2) :=
  (carry3 (V3 m c) main_arg2 (by decide)).trans (A3_2 m c)
theorem A5_2 : V5 m c (Proc.devRef .tc main_arg2) = m ((c.tc : Thread nD τ).loc main_arg2) :=
  (carry4 (V4 m c) main_arg2 (by decide)).trans (A4_2 m c)
theorem A6_2 : V6 m c (Proc.devRef .tc main_arg2) = m ((c.tc : Thread nD τ).loc main_arg2) :=
  (carry5 (V5 m c) main_arg2 (by decide)).trans (A5_2 m c)
theorem A7_2 : V7 m c (Proc.devRef .tc main_arg2) = m ((c.tc : Thread nD τ).loc main_arg2) :=
  (carry6 (V6 m c) main_arg2 (by decide)).trans (A6_2 m c)
theorem A0_3 : V0 m c (Proc.devRef .tc main_arg3) = m ((c.tc : Thread nD τ).loc main_arg3) := rfl
theorem A1_3 : V1 m c (Proc.devRef .tc main_arg3) = m ((c.tc : Thread nD τ).loc main_arg3) :=
  (carry0 (V0 m c) main_arg3 (by decide)).trans (A0_3 m c)
theorem A2_3 : V2 m c (Proc.devRef .tc main_arg3) = m ((c.tc : Thread nD τ).loc main_arg3) :=
  (carry1 (V1 m c) main_arg3 (by decide)).trans (A1_3 m c)
theorem A3_3 : V3 m c (Proc.devRef .tc main_arg3) = m ((c.tc : Thread nD τ).loc main_arg3) :=
  (carry2 (V2 m c) main_arg3 (by decide)).trans (A2_3 m c)
theorem A4_3 : V4 m c (Proc.devRef .tc main_arg3) = m ((c.tc : Thread nD τ).loc main_arg3) :=
  (carry3 (V3 m c) main_arg3 (by decide)).trans (A3_3 m c)
theorem A5_3 : V5 m c (Proc.devRef .tc main_arg3) = m ((c.tc : Thread nD τ).loc main_arg3) :=
  (carry4 (V4 m c) main_arg3 (by decide)).trans (A4_3 m c)
theorem A6_3 : V6 m c (Proc.devRef .tc main_arg3) = m ((c.tc : Thread nD τ).loc main_arg3) :=
  (carry5 (V5 m c) main_arg3 (by decide)).trans (A5_3 m c)
theorem A7_3 : V7 m c (Proc.devRef .tc main_arg3) = m ((c.tc : Thread nD τ).loc main_arg3) :=
  (carry6 (V6 m c) main_arg3 (by decide)).trans (A6_3 m c)
theorem A0_4 : V0 m c (Proc.devRef .tc main_arg4) = m ((c.tc : Thread nD τ).loc main_arg4) := rfl
theorem A1_4 : V1 m c (Proc.devRef .tc main_arg4) = m ((c.tc : Thread nD τ).loc main_arg4) :=
  (carry0 (V0 m c) main_arg4 (by decide)).trans (A0_4 m c)
theorem A2_4 : V2 m c (Proc.devRef .tc main_arg4) = m ((c.tc : Thread nD τ).loc main_arg4) :=
  (carry1 (V1 m c) main_arg4 (by decide)).trans (A1_4 m c)
theorem A3_4 : V3 m c (Proc.devRef .tc main_arg4) = m ((c.tc : Thread nD τ).loc main_arg4) :=
  (carry2 (V2 m c) main_arg4 (by decide)).trans (A2_4 m c)
theorem A4_4 : V4 m c (Proc.devRef .tc main_arg4) = m ((c.tc : Thread nD τ).loc main_arg4) :=
  (carry3 (V3 m c) main_arg4 (by decide)).trans (A3_4 m c)
theorem A5_4 : V5 m c (Proc.devRef .tc main_arg4) = m ((c.tc : Thread nD τ).loc main_arg4) :=
  (carry4 (V4 m c) main_arg4 (by decide)).trans (A4_4 m c)
theorem A6_4 : V6 m c (Proc.devRef .tc main_arg4) = m ((c.tc : Thread nD τ).loc main_arg4) :=
  (carry5 (V5 m c) main_arg4 (by decide)).trans (A5_4 m c)
theorem A7_4 : V7 m c (Proc.devRef .tc main_arg4) = m ((c.tc : Thread nD τ).loc main_arg4) :=
  (carry6 (V6 m c) main_arg4 (by decide)).trans (A6_4 m c)
theorem A0_5 : V0 m c (Proc.devRef .tc main_arg5) = m ((c.tc : Thread nD τ).loc main_arg5) := rfl
theorem A1_5 : V1 m c (Proc.devRef .tc main_arg5) = m ((c.tc : Thread nD τ).loc main_arg5) :=
  (carry0 (V0 m c) main_arg5 (by decide)).trans (A0_5 m c)
theorem A2_5 : V2 m c (Proc.devRef .tc main_arg5) = m ((c.tc : Thread nD τ).loc main_arg5) :=
  (carry1 (V1 m c) main_arg5 (by decide)).trans (A1_5 m c)
theorem A3_5 : V3 m c (Proc.devRef .tc main_arg5) = m ((c.tc : Thread nD τ).loc main_arg5) :=
  (carry2 (V2 m c) main_arg5 (by decide)).trans (A2_5 m c)
theorem A4_5 : V4 m c (Proc.devRef .tc main_arg5) = m ((c.tc : Thread nD τ).loc main_arg5) :=
  (carry3 (V3 m c) main_arg5 (by decide)).trans (A3_5 m c)
theorem A5_5 : V5 m c (Proc.devRef .tc main_arg5) = m ((c.tc : Thread nD τ).loc main_arg5) :=
  (carry4 (V4 m c) main_arg5 (by decide)).trans (A4_5 m c)
theorem A6_5 : V6 m c (Proc.devRef .tc main_arg5) = m ((c.tc : Thread nD τ).loc main_arg5) :=
  (carry5 (V5 m c) main_arg5 (by decide)).trans (A5_5 m c)
theorem A7_5 : V7 m c (Proc.devRef .tc main_arg5) = m ((c.tc : Thread nD τ).loc main_arg5) :=
  (carry6 (V6 m c) main_arg5 (by decide)).trans (A6_5 m c)
theorem A0_6 : V0 m c (Proc.devRef .tc main_arg6) = m ((c.tc : Thread nD τ).loc main_arg6) := rfl
theorem A1_6 : V1 m c (Proc.devRef .tc main_arg6) = m ((c.tc : Thread nD τ).loc main_arg6) :=
  (carry0 (V0 m c) main_arg6 (by decide)).trans (A0_6 m c)
theorem A2_6 : V2 m c (Proc.devRef .tc main_arg6) = m ((c.tc : Thread nD τ).loc main_arg6) :=
  (carry1 (V1 m c) main_arg6 (by decide)).trans (A1_6 m c)
theorem A3_6 : V3 m c (Proc.devRef .tc main_arg6) = m ((c.tc : Thread nD τ).loc main_arg6) :=
  (carry2 (V2 m c) main_arg6 (by decide)).trans (A2_6 m c)
theorem A4_6 : V4 m c (Proc.devRef .tc main_arg6) = m ((c.tc : Thread nD τ).loc main_arg6) :=
  (carry3 (V3 m c) main_arg6 (by decide)).trans (A3_6 m c)
theorem A5_6 : V5 m c (Proc.devRef .tc main_arg6) = m ((c.tc : Thread nD τ).loc main_arg6) :=
  (carry4 (V4 m c) main_arg6 (by decide)).trans (A4_6 m c)
theorem A6_6 : V6 m c (Proc.devRef .tc main_arg6) = m ((c.tc : Thread nD τ).loc main_arg6) :=
  (carry5 (V5 m c) main_arg6 (by decide)).trans (A5_6 m c)
theorem A7_6 : V7 m c (Proc.devRef .tc main_arg6) = m ((c.tc : Thread nD τ).loc main_arg6) :=
  (carry6 (V6 m c) main_arg6 (by decide)).trans (A6_6 m c)
theorem A0_7 : V0 m c (Proc.devRef .tc main_arg7) = m ((c.tc : Thread nD τ).loc main_arg7) := rfl
theorem A1_7 : V1 m c (Proc.devRef .tc main_arg7) = m ((c.tc : Thread nD τ).loc main_arg7) :=
  (carry0 (V0 m c) main_arg7 (by decide)).trans (A0_7 m c)
theorem A2_7 : V2 m c (Proc.devRef .tc main_arg7) = m ((c.tc : Thread nD τ).loc main_arg7) :=
  (carry1 (V1 m c) main_arg7 (by decide)).trans (A1_7 m c)
theorem A3_7 : V3 m c (Proc.devRef .tc main_arg7) = m ((c.tc : Thread nD τ).loc main_arg7) :=
  (carry2 (V2 m c) main_arg7 (by decide)).trans (A2_7 m c)
theorem A4_7 : V4 m c (Proc.devRef .tc main_arg7) = m ((c.tc : Thread nD τ).loc main_arg7) :=
  (carry3 (V3 m c) main_arg7 (by decide)).trans (A3_7 m c)
theorem A5_7 : V5 m c (Proc.devRef .tc main_arg7) = m ((c.tc : Thread nD τ).loc main_arg7) :=
  (carry4 (V4 m c) main_arg7 (by decide)).trans (A4_7 m c)
theorem A6_7 : V6 m c (Proc.devRef .tc main_arg7) = m ((c.tc : Thread nD τ).loc main_arg7) :=
  (carry5 (V5 m c) main_arg7 (by decide)).trans (A5_7 m c)
theorem A7_7 : V7 m c (Proc.devRef .tc main_arg7) = m ((c.tc : Thread nD τ).loc main_arg7) :=
  (carry6 (V6 m c) main_arg7 (by decide)).trans (A6_7 m c)
theorem A0_8 : V0 m c (Proc.devRef .tc main_arg8) = m ((c.tc : Thread nD τ).loc main_arg8) := rfl
theorem A1_8 : V1 m c (Proc.devRef .tc main_arg8) = m ((c.tc : Thread nD τ).loc main_arg8) :=
  (carry0 (V0 m c) main_arg8 (by decide)).trans (A0_8 m c)
theorem A2_8 : V2 m c (Proc.devRef .tc main_arg8) = m ((c.tc : Thread nD τ).loc main_arg8) :=
  (carry1 (V1 m c) main_arg8 (by decide)).trans (A1_8 m c)
theorem A3_8 : V3 m c (Proc.devRef .tc main_arg8) = m ((c.tc : Thread nD τ).loc main_arg8) :=
  (carry2 (V2 m c) main_arg8 (by decide)).trans (A2_8 m c)
theorem A4_8 : V4 m c (Proc.devRef .tc main_arg8) = m ((c.tc : Thread nD τ).loc main_arg8) :=
  (carry3 (V3 m c) main_arg8 (by decide)).trans (A3_8 m c)
theorem A5_8 : V5 m c (Proc.devRef .tc main_arg8) = m ((c.tc : Thread nD τ).loc main_arg8) :=
  (carry4 (V4 m c) main_arg8 (by decide)).trans (A4_8 m c)
theorem A6_8 : V6 m c (Proc.devRef .tc main_arg8) = m ((c.tc : Thread nD τ).loc main_arg8) :=
  (carry5 (V5 m c) main_arg8 (by decide)).trans (A5_8 m c)
theorem A7_8 : V7 m c (Proc.devRef .tc main_arg8) = m ((c.tc : Thread nD τ).loc main_arg8) :=
  (carry6 (V6 m c) main_arg8 (by decide)).trans (A6_8 m c)
theorem A0_9 : V0 m c (Proc.devRef .tc main_arg9) = m ((c.tc : Thread nD τ).loc main_arg9) := rfl
theorem A1_9 : V1 m c (Proc.devRef .tc main_arg9) = m ((c.tc : Thread nD τ).loc main_arg9) :=
  (carry0 (V0 m c) main_arg9 (by decide)).trans (A0_9 m c)
theorem A2_9 : V2 m c (Proc.devRef .tc main_arg9) = m ((c.tc : Thread nD τ).loc main_arg9) :=
  (carry1 (V1 m c) main_arg9 (by decide)).trans (A1_9 m c)
theorem A3_9 : V3 m c (Proc.devRef .tc main_arg9) = m ((c.tc : Thread nD τ).loc main_arg9) :=
  (carry2 (V2 m c) main_arg9 (by decide)).trans (A2_9 m c)
theorem A4_9 : V4 m c (Proc.devRef .tc main_arg9) = m ((c.tc : Thread nD τ).loc main_arg9) :=
  (carry3 (V3 m c) main_arg9 (by decide)).trans (A3_9 m c)
theorem A5_9 : V5 m c (Proc.devRef .tc main_arg9) = m ((c.tc : Thread nD τ).loc main_arg9) :=
  (carry4 (V4 m c) main_arg9 (by decide)).trans (A4_9 m c)
theorem A6_9 : V6 m c (Proc.devRef .tc main_arg9) = m ((c.tc : Thread nD τ).loc main_arg9) :=
  (carry5 (V5 m c) main_arg9 (by decide)).trans (A5_9 m c)
theorem A7_9 : V7 m c (Proc.devRef .tc main_arg9) = m ((c.tc : Thread nD τ).loc main_arg9) :=
  (carry6 (V6 m c) main_arg9 (by decide)).trans (A6_9 m c)
theorem A0_10 : V0 m c (Proc.devRef .tc main_arg10) = m ((c.tc : Thread nD τ).loc main_arg10) := rfl
theorem A1_10 : V1 m c (Proc.devRef .tc main_arg10) = m ((c.tc : Thread nD τ).loc main_arg10) :=
  (carry0 (V0 m c) main_arg10 (by decide)).trans (A0_10 m c)
theorem A2_10 : V2 m c (Proc.devRef .tc main_arg10) = m ((c.tc : Thread nD τ).loc main_arg10) :=
  (carry1 (V1 m c) main_arg10 (by decide)).trans (A1_10 m c)
theorem A3_10 : V3 m c (Proc.devRef .tc main_arg10) = m ((c.tc : Thread nD τ).loc main_arg10) :=
  (carry2 (V2 m c) main_arg10 (by decide)).trans (A2_10 m c)
theorem A4_10 : V4 m c (Proc.devRef .tc main_arg10) = m ((c.tc : Thread nD τ).loc main_arg10) :=
  (carry3 (V3 m c) main_arg10 (by decide)).trans (A3_10 m c)
theorem A5_10 : V5 m c (Proc.devRef .tc main_arg10) = m ((c.tc : Thread nD τ).loc main_arg10) :=
  (carry4 (V4 m c) main_arg10 (by decide)).trans (A4_10 m c)
theorem A6_10 : V6 m c (Proc.devRef .tc main_arg10) = m ((c.tc : Thread nD τ).loc main_arg10) :=
  (carry5 (V5 m c) main_arg10 (by decide)).trans (A5_10 m c)
theorem A7_10 : V7 m c (Proc.devRef .tc main_arg10) = m ((c.tc : Thread nD τ).loc main_arg10) :=
  (carry6 (V6 m c) main_arg10 (by decide)).trans (A6_10 m c)
theorem A0_11 : V0 m c (Proc.devRef .tc main_arg11) = m ((c.tc : Thread nD τ).loc main_arg11) := rfl
theorem A1_11 : V1 m c (Proc.devRef .tc main_arg11) = m ((c.tc : Thread nD τ).loc main_arg11) :=
  (carry0 (V0 m c) main_arg11 (by decide)).trans (A0_11 m c)
theorem A2_11 : V2 m c (Proc.devRef .tc main_arg11) = m ((c.tc : Thread nD τ).loc main_arg11) :=
  (carry1 (V1 m c) main_arg11 (by decide)).trans (A1_11 m c)
theorem A3_11 : V3 m c (Proc.devRef .tc main_arg11) = m ((c.tc : Thread nD τ).loc main_arg11) :=
  (carry2 (V2 m c) main_arg11 (by decide)).trans (A2_11 m c)
theorem A4_11 : V4 m c (Proc.devRef .tc main_arg11) = m ((c.tc : Thread nD τ).loc main_arg11) :=
  (carry3 (V3 m c) main_arg11 (by decide)).trans (A3_11 m c)
theorem A5_11 : V5 m c (Proc.devRef .tc main_arg11) = m ((c.tc : Thread nD τ).loc main_arg11) :=
  (carry4 (V4 m c) main_arg11 (by decide)).trans (A4_11 m c)
theorem A6_11 : V6 m c (Proc.devRef .tc main_arg11) = m ((c.tc : Thread nD τ).loc main_arg11) :=
  (carry5 (V5 m c) main_arg11 (by decide)).trans (A5_11 m c)
theorem A7_11 : V7 m c (Proc.devRef .tc main_arg11) = m ((c.tc : Thread nD τ).loc main_arg11) :=
  (carry6 (V6 m c) main_arg11 (by decide)).trans (A6_11 m c)
theorem A0_12 : V0 m c (Proc.devRef .tc main_arg12) = m ((c.tc : Thread nD τ).loc main_arg12) := rfl
theorem A1_12 : V1 m c (Proc.devRef .tc main_arg12) = m ((c.tc : Thread nD τ).loc main_arg12) :=
  (carry0 (V0 m c) main_arg12 (by decide)).trans (A0_12 m c)
theorem A2_12 : V2 m c (Proc.devRef .tc main_arg12) = m ((c.tc : Thread nD τ).loc main_arg12) :=
  (carry1 (V1 m c) main_arg12 (by decide)).trans (A1_12 m c)
theorem A3_12 : V3 m c (Proc.devRef .tc main_arg12) = m ((c.tc : Thread nD τ).loc main_arg12) :=
  (carry2 (V2 m c) main_arg12 (by decide)).trans (A2_12 m c)
theorem A4_12 : V4 m c (Proc.devRef .tc main_arg12) = m ((c.tc : Thread nD τ).loc main_arg12) :=
  (carry3 (V3 m c) main_arg12 (by decide)).trans (A3_12 m c)
theorem A5_12 : V5 m c (Proc.devRef .tc main_arg12) = m ((c.tc : Thread nD τ).loc main_arg12) :=
  (carry4 (V4 m c) main_arg12 (by decide)).trans (A4_12 m c)
theorem A6_12 : V6 m c (Proc.devRef .tc main_arg12) = m ((c.tc : Thread nD τ).loc main_arg12) :=
  (carry5 (V5 m c) main_arg12 (by decide)).trans (A5_12 m c)
theorem A7_12 : V7 m c (Proc.devRef .tc main_arg12) = m ((c.tc : Thread nD τ).loc main_arg12) :=
  (carry6 (V6 m c) main_arg12 (by decide)).trans (A6_12 m c)
theorem A0_13 : V0 m c (Proc.devRef .tc main_arg13) = m ((c.tc : Thread nD τ).loc main_arg13) := rfl
theorem A1_13 : V1 m c (Proc.devRef .tc main_arg13) = m ((c.tc : Thread nD τ).loc main_arg13) :=
  (carry0 (V0 m c) main_arg13 (by decide)).trans (A0_13 m c)
theorem A2_13 : V2 m c (Proc.devRef .tc main_arg13) = m ((c.tc : Thread nD τ).loc main_arg13) :=
  (carry1 (V1 m c) main_arg13 (by decide)).trans (A1_13 m c)
theorem A3_13 : V3 m c (Proc.devRef .tc main_arg13) = m ((c.tc : Thread nD τ).loc main_arg13) :=
  (carry2 (V2 m c) main_arg13 (by decide)).trans (A2_13 m c)
theorem A4_13 : V4 m c (Proc.devRef .tc main_arg13) = m ((c.tc : Thread nD τ).loc main_arg13) :=
  (carry3 (V3 m c) main_arg13 (by decide)).trans (A3_13 m c)
theorem A5_13 : V5 m c (Proc.devRef .tc main_arg13) = m ((c.tc : Thread nD τ).loc main_arg13) :=
  (carry4 (V4 m c) main_arg13 (by decide)).trans (A4_13 m c)
theorem A6_13 : V6 m c (Proc.devRef .tc main_arg13) = m ((c.tc : Thread nD τ).loc main_arg13) :=
  (carry5 (V5 m c) main_arg13 (by decide)).trans (A5_13 m c)
theorem A7_13 : V7 m c (Proc.devRef .tc main_arg13) = m ((c.tc : Thread nD τ).loc main_arg13) :=
  (carry6 (V6 m c) main_arg13 (by decide)).trans (A6_13 m c)
theorem A0_14 : V0 m c (Proc.devRef .tc main_arg14) = m ((c.tc : Thread nD τ).loc main_arg14) := rfl
theorem A1_14 : V1 m c (Proc.devRef .tc main_arg14) = m ((c.tc : Thread nD τ).loc main_arg14) :=
  (carry0 (V0 m c) main_arg14 (by decide)).trans (A0_14 m c)
theorem A2_14 : V2 m c (Proc.devRef .tc main_arg14) = m ((c.tc : Thread nD τ).loc main_arg14) :=
  (carry1 (V1 m c) main_arg14 (by decide)).trans (A1_14 m c)
theorem A3_14 : V3 m c (Proc.devRef .tc main_arg14) = m ((c.tc : Thread nD τ).loc main_arg14) :=
  (carry2 (V2 m c) main_arg14 (by decide)).trans (A2_14 m c)
theorem A4_14 : V4 m c (Proc.devRef .tc main_arg14) = m ((c.tc : Thread nD τ).loc main_arg14) :=
  (carry3 (V3 m c) main_arg14 (by decide)).trans (A3_14 m c)
theorem A5_14 : V5 m c (Proc.devRef .tc main_arg14) = m ((c.tc : Thread nD τ).loc main_arg14) :=
  (carry4 (V4 m c) main_arg14 (by decide)).trans (A4_14 m c)
theorem A6_14 : V6 m c (Proc.devRef .tc main_arg14) = m ((c.tc : Thread nD τ).loc main_arg14) :=
  (carry5 (V5 m c) main_arg14 (by decide)).trans (A5_14 m c)
theorem A7_14 : V7 m c (Proc.devRef .tc main_arg14) = m ((c.tc : Thread nD τ).loc main_arg14) :=
  (carry6 (V6 m c) main_arg14 (by decide)).trans (A6_14 m c)
theorem A0_15 : V0 m c (Proc.devRef .tc main_arg15) = m ((c.tc : Thread nD τ).loc main_arg15) := rfl
theorem A1_15 : V1 m c (Proc.devRef .tc main_arg15) = m ((c.tc : Thread nD τ).loc main_arg15) :=
  (carry0 (V0 m c) main_arg15 (by decide)).trans (A0_15 m c)
theorem A2_15 : V2 m c (Proc.devRef .tc main_arg15) = m ((c.tc : Thread nD τ).loc main_arg15) :=
  (carry1 (V1 m c) main_arg15 (by decide)).trans (A1_15 m c)
theorem A3_15 : V3 m c (Proc.devRef .tc main_arg15) = m ((c.tc : Thread nD τ).loc main_arg15) :=
  (carry2 (V2 m c) main_arg15 (by decide)).trans (A2_15 m c)
theorem A4_15 : V4 m c (Proc.devRef .tc main_arg15) = m ((c.tc : Thread nD τ).loc main_arg15) :=
  (carry3 (V3 m c) main_arg15 (by decide)).trans (A3_15 m c)
theorem A5_15 : V5 m c (Proc.devRef .tc main_arg15) = m ((c.tc : Thread nD τ).loc main_arg15) :=
  (carry4 (V4 m c) main_arg15 (by decide)).trans (A4_15 m c)
theorem A6_15 : V6 m c (Proc.devRef .tc main_arg15) = m ((c.tc : Thread nD τ).loc main_arg15) :=
  (carry5 (V5 m c) main_arg15 (by decide)).trans (A5_15 m c)
theorem A7_15 : V7 m c (Proc.devRef .tc main_arg15) = m ((c.tc : Thread nD τ).loc main_arg15) :=
  (carry6 (V6 m c) main_arg15 (by decide)).trans (A6_15 m c)
theorem A0_16 : V0 m c (Proc.devRef .tc main_arg16) = m ((c.tc : Thread nD τ).loc main_arg16) := rfl
theorem A1_16 : V1 m c (Proc.devRef .tc main_arg16) = m ((c.tc : Thread nD τ).loc main_arg16) :=
  (carry0 (V0 m c) main_arg16 (by decide)).trans (A0_16 m c)
theorem A2_16 : V2 m c (Proc.devRef .tc main_arg16) = m ((c.tc : Thread nD τ).loc main_arg16) :=
  (carry1 (V1 m c) main_arg16 (by decide)).trans (A1_16 m c)
theorem A3_16 : V3 m c (Proc.devRef .tc main_arg16) = m ((c.tc : Thread nD τ).loc main_arg16) :=
  (carry2 (V2 m c) main_arg16 (by decide)).trans (A2_16 m c)
theorem A4_16 : V4 m c (Proc.devRef .tc main_arg16) = m ((c.tc : Thread nD τ).loc main_arg16) :=
  (carry3 (V3 m c) main_arg16 (by decide)).trans (A3_16 m c)
theorem A5_16 : V5 m c (Proc.devRef .tc main_arg16) = m ((c.tc : Thread nD τ).loc main_arg16) :=
  (carry4 (V4 m c) main_arg16 (by decide)).trans (A4_16 m c)
theorem A6_16 : V6 m c (Proc.devRef .tc main_arg16) = m ((c.tc : Thread nD τ).loc main_arg16) :=
  (carry5 (V5 m c) main_arg16 (by decide)).trans (A5_16 m c)
theorem A7_16 : V7 m c (Proc.devRef .tc main_arg16) = m ((c.tc : Thread nD τ).loc main_arg16) :=
  (carry6 (V6 m c) main_arg16 (by decide)).trans (A6_16 m c)
theorem A0_17 : V0 m c (Proc.devRef .tc main_arg17) = m ((c.tc : Thread nD τ).loc main_arg17) := rfl
theorem A1_17 : V1 m c (Proc.devRef .tc main_arg17) = m ((c.tc : Thread nD τ).loc main_arg17) :=
  (carry0 (V0 m c) main_arg17 (by decide)).trans (A0_17 m c)
theorem A2_17 : V2 m c (Proc.devRef .tc main_arg17) = m ((c.tc : Thread nD τ).loc main_arg17) :=
  (carry1 (V1 m c) main_arg17 (by decide)).trans (A1_17 m c)
theorem A3_17 : V3 m c (Proc.devRef .tc main_arg17) = m ((c.tc : Thread nD τ).loc main_arg17) :=
  (carry2 (V2 m c) main_arg17 (by decide)).trans (A2_17 m c)
theorem A4_17 : V4 m c (Proc.devRef .tc main_arg17) = m ((c.tc : Thread nD τ).loc main_arg17) :=
  (carry3 (V3 m c) main_arg17 (by decide)).trans (A3_17 m c)
theorem A5_17 : V5 m c (Proc.devRef .tc main_arg17) = m ((c.tc : Thread nD τ).loc main_arg17) :=
  (carry4 (V4 m c) main_arg17 (by decide)).trans (A4_17 m c)
theorem A6_17 : V6 m c (Proc.devRef .tc main_arg17) = m ((c.tc : Thread nD τ).loc main_arg17) :=
  (carry5 (V5 m c) main_arg17 (by decide)).trans (A5_17 m c)
theorem A7_17 : V7 m c (Proc.devRef .tc main_arg17) = m ((c.tc : Thread nD τ).loc main_arg17) :=
  (carry6 (V6 m c) main_arg17 (by decide)).trans (A6_17 m c)
theorem A0_18 : V0 m c (Proc.devRef .tc main_arg18) = m ((c.tc : Thread nD τ).loc main_arg18) := rfl
theorem A1_18 : V1 m c (Proc.devRef .tc main_arg18) = m ((c.tc : Thread nD τ).loc main_arg18) :=
  (carry0 (V0 m c) main_arg18 (by decide)).trans (A0_18 m c)
theorem A2_18 : V2 m c (Proc.devRef .tc main_arg18) = m ((c.tc : Thread nD τ).loc main_arg18) :=
  (carry1 (V1 m c) main_arg18 (by decide)).trans (A1_18 m c)
theorem A3_18 : V3 m c (Proc.devRef .tc main_arg18) = m ((c.tc : Thread nD τ).loc main_arg18) :=
  (carry2 (V2 m c) main_arg18 (by decide)).trans (A2_18 m c)
theorem A4_18 : V4 m c (Proc.devRef .tc main_arg18) = m ((c.tc : Thread nD τ).loc main_arg18) :=
  (carry3 (V3 m c) main_arg18 (by decide)).trans (A3_18 m c)
theorem A5_18 : V5 m c (Proc.devRef .tc main_arg18) = m ((c.tc : Thread nD τ).loc main_arg18) :=
  (carry4 (V4 m c) main_arg18 (by decide)).trans (A4_18 m c)
theorem A6_18 : V6 m c (Proc.devRef .tc main_arg18) = m ((c.tc : Thread nD τ).loc main_arg18) :=
  (carry5 (V5 m c) main_arg18 (by decide)).trans (A5_18 m c)
theorem A7_18 : V7 m c (Proc.devRef .tc main_arg18) = m ((c.tc : Thread nD τ).loc main_arg18) :=
  (carry6 (V6 m c) main_arg18 (by decide)).trans (A6_18 m c)
theorem A0_19 : V0 m c (Proc.devRef .tc main_arg19) = m ((c.tc : Thread nD τ).loc main_arg19) := rfl
theorem A1_19 : V1 m c (Proc.devRef .tc main_arg19) = m ((c.tc : Thread nD τ).loc main_arg19) :=
  (carry0 (V0 m c) main_arg19 (by decide)).trans (A0_19 m c)
theorem A2_19 : V2 m c (Proc.devRef .tc main_arg19) = m ((c.tc : Thread nD τ).loc main_arg19) :=
  (carry1 (V1 m c) main_arg19 (by decide)).trans (A1_19 m c)
theorem A3_19 : V3 m c (Proc.devRef .tc main_arg19) = m ((c.tc : Thread nD τ).loc main_arg19) :=
  (carry2 (V2 m c) main_arg19 (by decide)).trans (A2_19 m c)
theorem A4_19 : V4 m c (Proc.devRef .tc main_arg19) = m ((c.tc : Thread nD τ).loc main_arg19) :=
  (carry3 (V3 m c) main_arg19 (by decide)).trans (A3_19 m c)
theorem A5_19 : V5 m c (Proc.devRef .tc main_arg19) = m ((c.tc : Thread nD τ).loc main_arg19) :=
  (carry4 (V4 m c) main_arg19 (by decide)).trans (A4_19 m c)
theorem A6_19 : V6 m c (Proc.devRef .tc main_arg19) = m ((c.tc : Thread nD τ).loc main_arg19) :=
  (carry5 (V5 m c) main_arg19 (by decide)).trans (A5_19 m c)
theorem A7_19 : V7 m c (Proc.devRef .tc main_arg19) = m ((c.tc : Thread nD τ).loc main_arg19) :=
  (carry6 (V6 m c) main_arg19 (by decide)).trans (A6_19 m c)
theorem A0_20 : V0 m c (Proc.devRef .tc main_arg20) = m ((c.tc : Thread nD τ).loc main_arg20) := rfl
theorem A1_20 : V1 m c (Proc.devRef .tc main_arg20) = m ((c.tc : Thread nD τ).loc main_arg20) :=
  (carry0 (V0 m c) main_arg20 (by decide)).trans (A0_20 m c)
theorem A2_20 : V2 m c (Proc.devRef .tc main_arg20) = m ((c.tc : Thread nD τ).loc main_arg20) :=
  (carry1 (V1 m c) main_arg20 (by decide)).trans (A1_20 m c)
theorem A3_20 : V3 m c (Proc.devRef .tc main_arg20) = m ((c.tc : Thread nD τ).loc main_arg20) :=
  (carry2 (V2 m c) main_arg20 (by decide)).trans (A2_20 m c)
theorem A4_20 : V4 m c (Proc.devRef .tc main_arg20) = m ((c.tc : Thread nD τ).loc main_arg20) :=
  (carry3 (V3 m c) main_arg20 (by decide)).trans (A3_20 m c)
theorem A5_20 : V5 m c (Proc.devRef .tc main_arg20) = m ((c.tc : Thread nD τ).loc main_arg20) :=
  (carry4 (V4 m c) main_arg20 (by decide)).trans (A4_20 m c)
theorem A6_20 : V6 m c (Proc.devRef .tc main_arg20) = m ((c.tc : Thread nD τ).loc main_arg20) :=
  (carry5 (V5 m c) main_arg20 (by decide)).trans (A5_20 m c)
theorem A7_20 : V7 m c (Proc.devRef .tc main_arg20) = m ((c.tc : Thread nD τ).loc main_arg20) :=
  (carry6 (V6 m c) main_arg20 (by decide)).trans (A6_20 m c)
theorem A0_21 : V0 m c (Proc.devRef .tc main_arg21) = m ((c.tc : Thread nD τ).loc main_arg21) := rfl
theorem A1_21 : V1 m c (Proc.devRef .tc main_arg21) = m ((c.tc : Thread nD τ).loc main_arg21) :=
  (carry0 (V0 m c) main_arg21 (by decide)).trans (A0_21 m c)
theorem A2_21 : V2 m c (Proc.devRef .tc main_arg21) = m ((c.tc : Thread nD τ).loc main_arg21) :=
  (carry1 (V1 m c) main_arg21 (by decide)).trans (A1_21 m c)
theorem A3_21 : V3 m c (Proc.devRef .tc main_arg21) = m ((c.tc : Thread nD τ).loc main_arg21) :=
  (carry2 (V2 m c) main_arg21 (by decide)).trans (A2_21 m c)
theorem A4_21 : V4 m c (Proc.devRef .tc main_arg21) = m ((c.tc : Thread nD τ).loc main_arg21) :=
  (carry3 (V3 m c) main_arg21 (by decide)).trans (A3_21 m c)
theorem A5_21 : V5 m c (Proc.devRef .tc main_arg21) = m ((c.tc : Thread nD τ).loc main_arg21) :=
  (carry4 (V4 m c) main_arg21 (by decide)).trans (A4_21 m c)
theorem A6_21 : V6 m c (Proc.devRef .tc main_arg21) = m ((c.tc : Thread nD τ).loc main_arg21) :=
  (carry5 (V5 m c) main_arg21 (by decide)).trans (A5_21 m c)
theorem A7_21 : V7 m c (Proc.devRef .tc main_arg21) = m ((c.tc : Thread nD τ).loc main_arg21) :=
  (carry6 (V6 m c) main_arg21 (by decide)).trans (A6_21 m c)
theorem A0_22 : V0 m c (Proc.devRef .tc main_arg22) = m ((c.tc : Thread nD τ).loc main_arg22) := rfl
theorem A1_22 : V1 m c (Proc.devRef .tc main_arg22) = m ((c.tc : Thread nD τ).loc main_arg22) :=
  (carry0 (V0 m c) main_arg22 (by decide)).trans (A0_22 m c)
theorem A2_22 : V2 m c (Proc.devRef .tc main_arg22) = m ((c.tc : Thread nD τ).loc main_arg22) :=
  (carry1 (V1 m c) main_arg22 (by decide)).trans (A1_22 m c)
theorem A3_22 : V3 m c (Proc.devRef .tc main_arg22) = m ((c.tc : Thread nD τ).loc main_arg22) :=
  (carry2 (V2 m c) main_arg22 (by decide)).trans (A2_22 m c)
theorem A4_22 : V4 m c (Proc.devRef .tc main_arg22) = m ((c.tc : Thread nD τ).loc main_arg22) :=
  (carry3 (V3 m c) main_arg22 (by decide)).trans (A3_22 m c)
theorem A5_22 : V5 m c (Proc.devRef .tc main_arg22) = m ((c.tc : Thread nD τ).loc main_arg22) :=
  (carry4 (V4 m c) main_arg22 (by decide)).trans (A4_22 m c)
theorem A6_22 : V6 m c (Proc.devRef .tc main_arg22) = m ((c.tc : Thread nD τ).loc main_arg22) :=
  (carry5 (V5 m c) main_arg22 (by decide)).trans (A5_22 m c)
theorem A7_22 : V7 m c (Proc.devRef .tc main_arg22) = m ((c.tc : Thread nD τ).loc main_arg22) :=
  (carry6 (V6 m c) main_arg22 (by decide)).trans (A6_22 m c)
theorem A0_23 : V0 m c (Proc.devRef .tc main_arg23) = m ((c.tc : Thread nD τ).loc main_arg23) := rfl
theorem A1_23 : V1 m c (Proc.devRef .tc main_arg23) = m ((c.tc : Thread nD τ).loc main_arg23) :=
  (carry0 (V0 m c) main_arg23 (by decide)).trans (A0_23 m c)
theorem A2_23 : V2 m c (Proc.devRef .tc main_arg23) = m ((c.tc : Thread nD τ).loc main_arg23) :=
  (carry1 (V1 m c) main_arg23 (by decide)).trans (A1_23 m c)
theorem A3_23 : V3 m c (Proc.devRef .tc main_arg23) = m ((c.tc : Thread nD τ).loc main_arg23) :=
  (carry2 (V2 m c) main_arg23 (by decide)).trans (A2_23 m c)
theorem A4_23 : V4 m c (Proc.devRef .tc main_arg23) = m ((c.tc : Thread nD τ).loc main_arg23) :=
  (carry3 (V3 m c) main_arg23 (by decide)).trans (A3_23 m c)
theorem A5_23 : V5 m c (Proc.devRef .tc main_arg23) = m ((c.tc : Thread nD τ).loc main_arg23) :=
  (carry4 (V4 m c) main_arg23 (by decide)).trans (A4_23 m c)
theorem A6_23 : V6 m c (Proc.devRef .tc main_arg23) = m ((c.tc : Thread nD τ).loc main_arg23) :=
  (carry5 (V5 m c) main_arg23 (by decide)).trans (A5_23 m c)
theorem A7_23 : V7 m c (Proc.devRef .tc main_arg23) = m ((c.tc : Thread nD τ).loc main_arg23) :=
  (carry6 (V6 m c) main_arg23 (by decide)).trans (A6_23 m c)

/-! ## Each stretch's results that later stretches read, as stages of the composed term -/

set_option maxHeartbeats 8000000 in
set_option maxRecDepth 16384 in
/-- Stretch 0 read at main_v54. -/
theorem c0_main_v54 (V : Valuation τ sig (Elt F)) (x0 : (⟨S100000x128, .f32⟩ : BufTy).Contents (Elt F)) (x1 : (⟨S2x1600000, .i32⟩ : BufTy).Contents (Elt F)) (x3 : (⟨S4x128x256, .f32⟩ : BufTy).Contents (Elt F)) (x4 : (⟨S4x256, .f32⟩ : BufTy).Contents (Elt F)) (x5 : (⟨S4x256, .f32⟩ : BufTy).Contents (Elt F)) (x6 : (⟨S4x256, .f32⟩ : BufTy).Contents (Elt F)) (x7 : (⟨S4x256, .f32⟩ : BufTy).Contents (Elt F)) (x8 : (⟨S4x256, .f32⟩ : BufTy).Contents (Elt F)) (x9 : (⟨S4, .f32⟩ : BufTy).Contents (Elt F)) (x10 : (⟨S4x256x128, .f32⟩ : BufTy).Contents (Elt F))
    (h_main_arg0 : V (Proc.devRef .tc main_arg0) = x0) (h_main_arg1 : V (Proc.devRef .tc main_arg1) = x1) (h_main_arg3 : V (Proc.devRef .tc main_arg3) = x3) (h_main_arg4 : V (Proc.devRef .tc main_arg4) = x4) (h_main_arg5 : V (Proc.devRef .tc main_arg5) = x5) (h_main_arg6 : V (Proc.devRef .tc main_arg6) = x6) (h_main_arg7 : V (Proc.devRef .tc main_arg7) = x7) (h_main_arg8 : V (Proc.devRef .tc main_arg8) = x8) (h_main_arg9 : V (Proc.devRef .tc main_arg9) = x9) (h_main_arg10 : V (Proc.devRef .tc main_arg10) = x10) :
    after ops0 V (Proc.devRef .tc main_v54) = Cert.ReferenceIdeal.ReadP.val_main_v54 (F := F) x0 x1 x3 x4 x5 x6 x7 x8 x9 x10 := by
  after_results_simp
  simp only [h_main_arg0, h_main_arg1, h_main_arg3, h_main_arg4, h_main_arg5, h_main_arg6, h_main_arg7, h_main_arg8, h_main_arg9, h_main_arg10]
  rfl

set_option maxHeartbeats 8000000 in
set_option maxRecDepth 16384 in
/-- Stretch 0 read at main_v1. -/
theorem c0_main_v1 (V : Valuation τ sig (Elt F)) (x1 : (⟨S2x1600000, .i32⟩ : BufTy).Contents (Elt F))
    (h_main_arg1 : V (Proc.devRef .tc main_arg1) = x1) :
    after ops0 V (Proc.devRef .tc main_v1) = Cert.ReferenceIdeal.ReadP.val_main_v1 (F := F) x1 := by
  after_results_simp
  simp only [h_main_arg1]
  rfl

set_option maxHeartbeats 8000000 in
set_option maxRecDepth 16384 in
/-- Stretch 0 read at main_v3. -/
theorem c0_main_v3 (V : Valuation τ sig (Elt F)) (x1 : (⟨S2x1600000, .i32⟩ : BufTy).Contents (Elt F))
    (h_main_arg1 : V (Proc.devRef .tc main_arg1) = x1) :
    after ops0 V (Proc.devRef .tc main_v3) = Cert.ReferenceIdeal.ReadP.val_main_v3 (F := F) x1 := by
  after_results_simp
  simp only [h_main_arg1]
  rfl

set_option maxHeartbeats 8000000 in
set_option maxRecDepth 16384 in
/-- Stretch 1 read at main_v107. -/
theorem c1_main_v107 (V : Valuation τ sig (Elt F)) (x0 : (⟨S100000x128, .f32⟩ : BufTy).Contents (Elt F)) (x1 : (⟨S2x1600000, .i32⟩ : BufTy).Contents (Elt F)) (x3 : (⟨S4x128x256, .f32⟩ : BufTy).Contents (Elt F)) (x4 : (⟨S4x256, .f32⟩ : BufTy).Contents (Elt F)) (x5 : (⟨S4x256, .f32⟩ : BufTy).Contents (Elt F)) (x6 : (⟨S4x256, .f32⟩ : BufTy).Contents (Elt F)) (x7 : (⟨S4x256, .f32⟩ : BufTy).Contents (Elt F)) (x8 : (⟨S4x256, .f32⟩ : BufTy).Contents (Elt F)) (x9 : (⟨S4, .f32⟩ : BufTy).Contents (Elt F)) (x10 : (⟨S4x256x128, .f32⟩ : BufTy).Contents (Elt F)) (x11 : (⟨S4x128, .f32⟩ : BufTy).Contents (Elt F)) (x12 : (⟨S4x128, .f32⟩ : BufTy).Contents (Elt F)) (x13 : (⟨S4x128, .f32⟩ : BufTy).Contents (Elt F)) (x14 : (⟨S4x128, .f32⟩ : BufTy).Contents (Elt F)) (x15 : (⟨S4x128, .f32⟩ : BufTy).Contents (Elt F))
    (h_main_arg3 : V (Proc.devRef .tc main_arg3) = x3) (h_main_arg4 : V (Proc.devRef .tc main_arg4) = x4) (h_main_arg9 : V (Proc.devRef .tc main_arg9) = x9) (h_main_arg11 : V (Proc.devRef .tc main_arg11) = x11) (h_main_arg12 : V (Proc.devRef .tc main_arg12) = x12) (h_main_arg13 : V (Proc.devRef .tc main_arg13) = x13) (h_main_arg14 : V (Proc.devRef .tc main_arg14) = x14) (h_main_arg15 : V (Proc.devRef .tc main_arg15) = x15) (h_main_v1 : V (Proc.devRef .tc main_v1) = Cert.ReferenceIdeal.ReadP.val_main_v1 (F := F) x1) (h_main_v54 : V (Proc.devRef .tc main_v54) = Cert.ReferenceIdeal.ReadP.val_main_v54 (F := F) x0 x1 x3 x4 x5 x6 x7 x8 x9 x10) (h_main_v3 : V (Proc.devRef .tc main_v3) = Cert.ReferenceIdeal.ReadP.val_main_v3 (F := F) x1) :
    after ops1 V (Proc.devRef .tc main_v107) = Cert.ReferenceIdeal.ReadP.val_main_v107 (F := F) x0 x1 x3 x4 x5 x6 x7 x8 x9 x10 x11 x12 x13 x14 x15 := by
  after_results_simp
  simp only [h_main_arg3, h_main_arg4, h_main_arg9, h_main_arg11, h_main_arg12, h_main_arg13, h_main_arg14, h_main_arg15, h_main_v1, h_main_v54, h_main_v3]
  rfl

set_option maxHeartbeats 8000000 in
set_option maxRecDepth 16384 in
/-- Stretch 1 read at main_v109. -/
theorem c1_main_v109 (V : Valuation τ sig (Elt F)) (x5 : (⟨S4x256, .f32⟩ : BufTy).Contents (Elt F))
    (h_main_arg5 : V (Proc.devRef .tc main_arg5) = x5) :
    after ops1 V (Proc.devRef .tc main_v109) = Cert.ReferenceIdeal.ReadP.val_main_v109 (F := F) x5 := by
  after_results_simp
  simp only [h_main_arg5]
  rfl

set_option maxHeartbeats 8000000 in
set_option maxRecDepth 16384 in
/-- Stretch 2 read at main_c_11. -/
theorem c2_main_c_11 (V : Valuation τ sig (Elt F))
     :
    after ops2 V (Proc.devRef .tc main_c_11) = Cert.ReferenceIdeal.ReadP.val_main_c_11 (F := F) := by
  after_results_simp
  rfl

set_option maxHeartbeats 8000000 in
set_option maxRecDepth 16384 in
/-- Stretch 2 read at main_v165. -/
theorem c2_main_v165 (V : Valuation τ sig (Elt F)) (x1 : (⟨S2x1600000, .i32⟩ : BufTy).Contents (Elt F))
    (h_main_v1 : V (Proc.devRef .tc main_v1) = Cert.ReferenceIdeal.ReadP.val_main_v1 (F := F) x1) :
    after ops2 V (Proc.devRef .tc main_v165) = Cert.ReferenceIdeal.ReadP.val_main_v165 (F := F) x1 := by
  after_results_simp
  simp only [h_main_v1]
  rfl

set_option maxHeartbeats 8000000 in
set_option maxRecDepth 16384 in
/-- Stretch 2 read at main_v163. -/
theorem c2_main_v163 (V : Valuation τ sig (Elt F)) (x0 : (⟨S100000x128, .f32⟩ : BufTy).Contents (Elt F)) (x1 : (⟨S2x1600000, .i32⟩ : BufTy).Contents (Elt F)) (x3 : (⟨S4x128x256, .f32⟩ : BufTy).Contents (Elt F)) (x4 : (⟨S4x256, .f32⟩ : BufTy).Contents (Elt F)) (x5 : (⟨S4x256, .f32⟩ : BufTy).Contents (Elt F)) (x6 : (⟨S4x256, .f32⟩ : BufTy).Contents (Elt F)) (x7 : (⟨S4x256, .f32⟩ : BufTy).Contents (Elt F)) (x8 : (⟨S4x256, .f32⟩ : BufTy).Contents (Elt F)) (x9 : (⟨S4, .f32⟩ : BufTy).Contents (Elt F)) (x10 : (⟨S4x256x128, .f32⟩ : BufTy).Contents (Elt F)) (x11 : (⟨S4x128, .f32⟩ : BufTy).Contents (Elt F)) (x12 : (⟨S4x128, .f32⟩ : BufTy).Contents (Elt F)) (x13 : (⟨S4x128, .f32⟩ : BufTy).Contents (Elt F)) (x14 : (⟨S4x128, .f32⟩ : BufTy).Contents (Elt F)) (x15 : (⟨S4x128, .f32⟩ : BufTy).Contents (Elt F))
    (h_main_arg6 : V (Proc.devRef .tc main_arg6) = x6) (h_main_arg7 : V (Proc.devRef .tc main_arg7) = x7) (h_main_arg8 : V (Proc.devRef .tc main_arg8) = x8) (h_main_arg10 : V (Proc.devRef .tc main_arg10) = x10) (h_main_arg11 : V (Proc.devRef .tc main_arg11) = x11) (h_main_arg12 : V (Proc.devRef .tc main_arg12) = x12) (h_main_arg13 : V (Proc.devRef .tc main_arg13) = x13) (h_main_arg14 : V (Proc.devRef .tc main_arg14) = x14) (h_main_arg15 : V (Proc.devRef .tc main_arg15) = x15) (h_main_v109 : V (Proc.devRef .tc main_v109) = Cert.ReferenceIdeal.ReadP.val_main_v109 (F := F) x5) (h_main_v107 : V (Proc.devRef .tc main_v107) = Cert.ReferenceIdeal.ReadP.val_main_v107 (F := F) x0 x1 x3 x4 x5 x6 x7 x8 x9 x10 x11 x12 x13 x14 x15) :
    after ops2 V (Proc.devRef .tc main_v163) = Cert.ReferenceIdeal.ReadP.val_main_v163 (F := F) x0 x1 x3 x4 x5 x6 x7 x8 x9 x10 x11 x12 x13 x14 x15 := by
  after_results_simp
  simp only [h_main_arg6, h_main_arg7, h_main_arg8, h_main_arg10, h_main_arg11, h_main_arg12, h_main_arg13, h_main_arg14, h_main_arg15, h_main_v109, h_main_v107]
  rfl

set_option maxHeartbeats 8000000 in
set_option maxRecDepth 16384 in
/-- Stretch 3 read at main_v222. -/
theorem c3_main_v222 (V : Valuation τ sig (Elt F)) (x13 : (⟨S4x128, .f32⟩ : BufTy).Contents (Elt F))
    (h_main_arg13 : V (Proc.devRef .tc main_arg13) = x13) :
    after ops3 V (Proc.devRef .tc main_v222) = Cert.ReferenceIdeal.ReadP.val_main_v222 (F := F) x13 := by
  after_results_simp
  simp only [h_main_arg13]
  rfl

set_option maxHeartbeats 8000000 in
set_option maxRecDepth 16384 in
/-- Stretch 3 read at main_v219. -/
theorem c3_main_v219 (V : Valuation τ sig (Elt F)) (x0 : (⟨S100000x128, .f32⟩ : BufTy).Contents (Elt F)) (x1 : (⟨S2x1600000, .i32⟩ : BufTy).Contents (Elt F)) (x3 : (⟨S4x128x256, .f32⟩ : BufTy).Contents (Elt F)) (x4 : (⟨S4x256, .f32⟩ : BufTy).Contents (Elt F)) (x5 : (⟨S4x256, .f32⟩ : BufTy).Contents (Elt F)) (x6 : (⟨S4x256, .f32⟩ : BufTy).Contents (Elt F)) (x7 : (⟨S4x256, .f32⟩ : BufTy).Contents (Elt F)) (x8 : (⟨S4x256, .f32⟩ : BufTy).Contents (Elt F)) (x9 : (⟨S4, .f32⟩ : BufTy).Contents (Elt F)) (x10 : (⟨S4x256x128, .f32⟩ : BufTy).Contents (Elt F)) (x11 : (⟨S4x128, .f32⟩ : BufTy).Contents (Elt F)) (x12 : (⟨S4x128, .f32⟩ : BufTy).Contents (Elt F)) (x13 : (⟨S4x128, .f32⟩ : BufTy).Contents (Elt F)) (x14 : (⟨S4x128, .f32⟩ : BufTy).Contents (Elt F)) (x15 : (⟨S4x128, .f32⟩ : BufTy).Contents (Elt F))
    (h_main_arg3 : V (Proc.devRef .tc main_arg3) = x3) (h_main_arg4 : V (Proc.devRef .tc main_arg4) = x4) (h_main_arg5 : V (Proc.devRef .tc main_arg5) = x5) (h_main_arg6 : V (Proc.devRef .tc main_arg6) = x6) (h_main_arg7 : V (Proc.devRef .tc main_arg7) = x7) (h_main_arg8 : V (Proc.devRef .tc main_arg8) = x8) (h_main_arg9 : V (Proc.devRef .tc main_arg9) = x9) (h_main_arg10 : V (Proc.devRef .tc main_arg10) = x10) (h_main_arg11 : V (Proc.devRef .tc main_arg11) = x11) (h_main_v1 : V (Proc.devRef .tc main_v1) = Cert.ReferenceIdeal.ReadP.val_main_v1 (F := F) x1) (h_main_c_11 : V (Proc.devRef .tc main_c_11) = Cert.ReferenceIdeal.ReadP.val_main_c_11 (F := F)) (h_main_v165 : V (Proc.devRef .tc main_v165) = Cert.ReferenceIdeal.ReadP.val_main_v165 (F := F) x1) (h_main_v163 : V (Proc.devRef .tc main_v163) = Cert.ReferenceIdeal.ReadP.val_main_v163 (F := F) x0 x1 x3 x4 x5 x6 x7 x8 x9 x10 x11 x12 x13 x14 x15) (h_main_v3 : V (Proc.devRef .tc main_v3) = Cert.ReferenceIdeal.ReadP.val_main_v3 (F := F) x1) :
    after ops3 V (Proc.devRef .tc main_v219) = Cert.ReferenceIdeal.ReadP.val_main_v219 (F := F) x0 x1 x3 x4 x5 x6 x7 x8 x9 x10 x11 x12 x13 x14 x15 := by
  after_results_simp
  simp only [h_main_arg3, h_main_arg4, h_main_arg5, h_main_arg6, h_main_arg7, h_main_arg8, h_main_arg9, h_main_arg10, h_main_arg11, h_main_v1, h_main_c_11, h_main_v165, h_main_v163, h_main_v3]
  rfl

set_option maxHeartbeats 8000000 in
set_option maxRecDepth 16384 in
/-- Stretch 3 read at main_v221. -/
theorem c3_main_v221 (V : Valuation τ sig (Elt F)) (x12 : (⟨S4x128, .f32⟩ : BufTy).Contents (Elt F))
    (h_main_arg12 : V (Proc.devRef .tc main_arg12) = x12) :
    after ops3 V (Proc.devRef .tc main_v221) = Cert.ReferenceIdeal.ReadP.val_main_v221 (F := F) x12 := by
  after_results_simp
  simp only [h_main_arg12]
  rfl

set_option maxHeartbeats 8000000 in
set_option maxRecDepth 16384 in
/-- Stretch 4 read at main_v267. -/
theorem c4_main_v267 (V : Valuation τ sig (Elt F)) (x0 : (⟨S100000x128, .f32⟩ : BufTy).Contents (Elt F)) (x1 : (⟨S2x1600000, .i32⟩ : BufTy).Contents (Elt F)) (x3 : (⟨S4x128x256, .f32⟩ : BufTy).Contents (Elt F)) (x4 : (⟨S4x256, .f32⟩ : BufTy).Contents (Elt F)) (x5 : (⟨S4x256, .f32⟩ : BufTy).Contents (Elt F)) (x6 : (⟨S4x256, .f32⟩ : BufTy).Contents (Elt F)) (x7 : (⟨S4x256, .f32⟩ : BufTy).Contents (Elt F)) (x8 : (⟨S4x256, .f32⟩ : BufTy).Contents (Elt F)) (x9 : (⟨S4, .f32⟩ : BufTy).Contents (Elt F)) (x10 : (⟨S4x256x128, .f32⟩ : BufTy).Contents (Elt F)) (x11 : (⟨S4x128, .f32⟩ : BufTy).Contents (Elt F)) (x12 : (⟨S4x128, .f32⟩ : BufTy).Contents (Elt F)) (x13 : (⟨S4x128, .f32⟩ : BufTy).Contents (Elt F)) (x14 : (⟨S4x128, .f32⟩ : BufTy).Contents (Elt F)) (x15 : (⟨S4x128, .f32⟩ : BufTy).Contents (Elt F))
    (h_main_arg3 : V (Proc.devRef .tc main_arg3) = x3) (h_main_arg4 : V (Proc.devRef .tc main_arg4) = x4) (h_main_arg9 : V (Proc.devRef .tc main_arg9) = x9) (h_main_arg14 : V (Proc.devRef .tc main_arg14) = x14) (h_main_arg15 : V (Proc.devRef .tc main_arg15) = x15) (h_main_v1 : V (Proc.devRef .tc main_v1) = Cert.ReferenceIdeal.ReadP.val_main_v1 (F := F) x1) (h_main_v222 : V (Proc.devRef .tc main_v222) = Cert.ReferenceIdeal.ReadP.val_main_v222 (F := F) x13) (h_main_v221 : V (Proc.devRef .tc main_v221) = Cert.ReferenceIdeal.ReadP.val_main_v221 (F := F) x12) (h_main_v219 : V (Proc.devRef .tc main_v219) = Cert.ReferenceIdeal.ReadP.val_main_v219 (F := F) x0 x1 x3 x4 x5 x6 x7 x8 x9 x10 x11 x12 x13 x14 x15) (h_main_v3 : V (Proc.devRef .tc main_v3) = Cert.ReferenceIdeal.ReadP.val_main_v3 (F := F) x1) :
    after ops4 V (Proc.devRef .tc main_v267) = Cert.ReferenceIdeal.ReadP.val_main_v267 (F := F) x0 x1 x3 x4 x5 x6 x7 x8 x9 x10 x11 x12 x13 x14 x15 := by
  after_results_simp
  simp only [h_main_arg3, h_main_arg4, h_main_arg9, h_main_arg14, h_main_arg15, h_main_v1, h_main_v222, h_main_v221, h_main_v219, h_main_v3]
  rfl

set_option maxHeartbeats 8000000 in
set_option maxRecDepth 16384 in
/-- Stretch 4 read at main_v277. -/
theorem c4_main_v277 (V : Valuation τ sig (Elt F)) (x7 : (⟨S4x256, .f32⟩ : BufTy).Contents (Elt F))
    (h_main_arg7 : V (Proc.devRef .tc main_arg7) = x7) :
    after ops4 V (Proc.devRef .tc main_v277) = Cert.ReferenceIdeal.ReadP.val_main_v277 (F := F) x7 := by
  after_results_simp
  simp only [h_main_arg7]
  rfl

set_option maxHeartbeats 8000000 in
set_option maxRecDepth 16384 in
/-- Stretch 4 read at main_v275. -/
theorem c4_main_v275 (V : Valuation τ sig (Elt F)) (x8 : (⟨S4x256, .f32⟩ : BufTy).Contents (Elt F))
    (h_main_arg8 : V (Proc.devRef .tc main_arg8) = x8) :
    after ops4 V (Proc.devRef .tc main_v275) = Cert.ReferenceIdeal.ReadP.val_main_v275 (F := F) x8 := by
  after_results_simp
  simp only [h_main_arg8]
  rfl

set_option maxHeartbeats 8000000 in
set_option maxRecDepth 16384 in
/-- Stretch 4 read at main_v269. -/
theorem c4_main_v269 (V : Valuation τ sig (Elt F)) (x5 : (⟨S4x256, .f32⟩ : BufTy).Contents (Elt F))
    (h_main_arg5 : V (Proc.devRef .tc main_arg5) = x5) :
    after ops4 V (Proc.devRef .tc main_v269) = Cert.ReferenceIdeal.ReadP.val_main_v269 (F := F) x5 := by
  after_results_simp
  simp only [h_main_arg5]
  rfl

set_option maxHeartbeats 8000000 in
set_option maxRecDepth 16384 in
/-- Stretch 4 read at main_v271. -/
theorem c4_main_v271 (V : Valuation τ sig (Elt F)) (x6 : (⟨S4x256, .f32⟩ : BufTy).Contents (Elt F))
    (h_main_arg6 : V (Proc.devRef .tc main_arg6) = x6) :
    after ops4 V (Proc.devRef .tc main_v271) = Cert.ReferenceIdeal.ReadP.val_main_v271 (F := F) x6 := by
  after_results_simp
  simp only [h_main_arg6]
  rfl

set_option maxHeartbeats 8000000 in
set_option maxRecDepth 16384 in
/-- Stretch 5 read at main_cst_23. -/
theorem c5_main_cst_23 (V : Valuation τ sig (Elt F))
     :
    after ops5 V (Proc.devRef .tc main_cst_23) = Cert.ReferenceIdeal.ReadP.val_main_cst_23 (F := F) := by
  after_results_simp
  rfl

set_option maxHeartbeats 8000000 in
set_option maxRecDepth 16384 in
/-- Stretch 5 read at main_v333. -/
theorem c5_main_v333 (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S4x128x256, .f32⟩ : BufTy).Contents (Elt F)) (x4 : (⟨S4x256, .f32⟩ : BufTy).Contents (Elt F)) (x5 : (⟨S4x256, .f32⟩ : BufTy).Contents (Elt F)) (x6 : (⟨S4x256, .f32⟩ : BufTy).Contents (Elt F)) (x7 : (⟨S4x256, .f32⟩ : BufTy).Contents (Elt F)) (x8 : (⟨S4x256, .f32⟩ : BufTy).Contents (Elt F)) (x9 : (⟨S4, .f32⟩ : BufTy).Contents (Elt F)) (x10 : (⟨S4x256x128, .f32⟩ : BufTy).Contents (Elt F)) (x11 : (⟨S4x128, .f32⟩ : BufTy).Contents (Elt F)) (x12 : (⟨S4x128, .f32⟩ : BufTy).Contents (Elt F)) (x13 : (⟨S4x128, .f32⟩ : BufTy).Contents (Elt F)) (x14 : (⟨S4x128, .f32⟩ : BufTy).Contents (Elt F)) (x15 : (⟨S4x128, .f32⟩ : BufTy).Contents (Elt F)) (x16 : (⟨S128x128, .f32⟩ : BufTy).Contents (Elt F)) (x17 : (⟨S128, .f32⟩ : BufTy).Contents (Elt F)) (x20 : (⟨S128, .f32⟩ : BufTy).Contents (Elt F))
    (h_main_arg2 : V (Proc.devRef .tc main_arg2) = x2) (h_main_arg10 : V (Proc.devRef .tc main_arg10) = x10) (h_main_arg11 : V (Proc.devRef .tc main_arg11) = x11) (h_main_arg12 : V (Proc.devRef .tc main_arg12) = x12) (h_main_arg13 : V (Proc.devRef .tc main_arg13) = x13) (h_main_arg14 : V (Proc.devRef .tc main_arg14) = x14) (h_main_arg15 : V (Proc.devRef .tc main_arg15) = x15) (h_main_arg16 : V (Proc.devRef .tc main_arg16) = x16) (h_main_arg17 : V (Proc.devRef .tc main_arg17) = x17) (h_main_arg20 : V (Proc.devRef .tc main_arg20) = x20) (h_main_v271 : V (Proc.devRef .tc main_v271) = Cert.ReferenceIdeal.ReadP.val_main_v271 (F := F) x6) (h_main_v269 : V (Proc.devRef .tc main_v269) = Cert.ReferenceIdeal.ReadP.val_main_v269 (F := F) x5) (h_main_v275 : V (Proc.devRef .tc main_v275) = Cert.ReferenceIdeal.ReadP.val_main_v275 (F := F) x8) (h_main_v277 : V (Proc.devRef .tc main_v277) = Cert.ReferenceIdeal.ReadP.val_main_v277 (F := F) x7) (h_main_v267 : V (Proc.devRef .tc main_v267) = Cert.ReferenceIdeal.ReadP.val_main_v267 (F := F) x0 x1 x3 x4 x5 x6 x7 x8 x9 x10 x11 x12 x13 x14 x15) :
    after ops5 V (Proc.devRef .tc main_v333) = Cert.ReferenceIdeal.ReadP.val_main_v333 (F := F) x0 x1 x2 x3 x4 x5 x6 x7 x8 x9 x10 x11 x12 x13 x14 x15 x16 x17 x20 := by
  after_results_simp
  simp only [h_main_arg2, h_main_arg10, h_main_arg11, h_main_arg12, h_main_arg13, h_main_arg14, h_main_arg15, h_main_arg16, h_main_arg17, h_main_arg20, h_main_v271, h_main_v269, h_main_v275, h_main_v277, h_main_v267]
  rfl

set_option maxHeartbeats 8000000 in
set_option maxRecDepth 16384 in
/-- Stretch 6 read at main_v351. -/
theorem c6_main_v351 (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S4x128x256, .f32⟩ : BufTy).Contents (Elt F)) (x4 : (⟨S4x256, .f32⟩ : BufTy).Contents (Elt F)) (x5 : (⟨S4x256, .f32⟩ : BufTy).Contents (Elt F)) (x6 : (⟨S4x256, .f32⟩ : BufTy).Contents (Elt F)) (x7 : (⟨S4x256, .f32⟩ : BufTy).Contents (Elt F)) (x8 : (⟨S4x256, .f32⟩ : BufTy).Contents (Elt F)) (x9 : (⟨S4, .f32⟩ : BufTy).Contents (Elt F)) (x10 : (⟨S4x256x128, .f32⟩ : BufTy).Contents (Elt F)) (x11 : (⟨S4x128, .f32⟩ : BufTy).Contents (Elt F)) (x12 : (⟨S4x128, .f32⟩ : BufTy).Contents (Elt F)) (x13 : (⟨S4x128, .f32⟩ : BufTy).Contents (Elt F)) (x14 : (⟨S4x128, .f32⟩ : BufTy).Contents (Elt F)) (x15 : (⟨S4x128, .f32⟩ : BufTy).Contents (Elt F)) (x16 : (⟨S128x128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128, .f32⟩ : BufTy).Contents (Elt F)) (x22 : (⟨S128x10, .f32⟩ : BufTy).Contents (Elt F)) (x23 : (⟨S10, .f32⟩ : BufTy).Contents (Elt F))
    (h_main_arg18 : V (Proc.devRef .tc main_arg18) = x18) (h_main_arg19 : V (Proc.devRef .tc main_arg19) = x19) (h_main_arg21 : V (Proc.devRef .tc main_arg21) = x21) (h_main_arg22 : V (Proc.devRef .tc main_arg22) = x22) (h_main_arg23 : V (Proc.devRef .tc main_arg23) = x23) (h_main_cst_23 : V (Proc.devRef .tc main_cst_23) = Cert.ReferenceIdeal.ReadP.val_main_cst_23 (F := F)) (h_main_v333 : V (Proc.devRef .tc main_v333) = Cert.ReferenceIdeal.ReadP.val_main_v333 (F := F) x0 x1 x2 x3 x4 x5 x6 x7 x8 x9 x10 x11 x12 x13 x14 x15 x16 x17 x20) :
    after ops6 V (Proc.devRef .tc main_v351) = Cert.ReferenceIdeal.ReadP.val_main_v351 (F := F) x0 x1 x2 x3 x4 x5 x6 x7 x8 x9 x10 x11 x12 x13 x14 x15 x16 x17 x18 x19 x20 x21 x22 x23 := by
  after_results_simp
  simp only [h_main_arg18, h_main_arg19, h_main_arg21, h_main_arg22, h_main_arg23, h_main_cst_23, h_main_v333]
  rfl

/-! ## The stages along the run -/

theorem B1_main_v54 : V1 m c (Proc.devRef .tc main_v54) = Cert.ReferenceIdeal.ReadP.val_main_v54 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  c0_main_v54 (V0 m c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    (A0_0 m c) (A0_1 m c) (A0_3 m c) (A0_4 m c) (A0_5 m c) (A0_6 m c) (A0_7 m c) (A0_8 m c) (A0_9 m c) (A0_10 m c)
theorem B1_main_v1 : V1 m c (Proc.devRef .tc main_v1) = Cert.ReferenceIdeal.ReadP.val_main_v1 (F := F) (m ((c.tc : Thread nD τ).loc main_arg1)) :=
  c0_main_v1 (V0 m c) (m ((c.tc : Thread nD τ).loc main_arg1))
    (A0_1 m c)
theorem B1_main_v3 : V1 m c (Proc.devRef .tc main_v3) = Cert.ReferenceIdeal.ReadP.val_main_v3 (F := F) (m ((c.tc : Thread nD τ).loc main_arg1)) :=
  c0_main_v3 (V0 m c) (m ((c.tc : Thread nD τ).loc main_arg1))
    (A0_1 m c)
theorem B2_main_v107 : V2 m c (Proc.devRef .tc main_v107) = Cert.ReferenceIdeal.ReadP.val_main_v107 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  c1_main_v107 (V1 m c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
    (A1_3 m c) (A1_4 m c) (A1_9 m c) (A1_11 m c) (A1_12 m c) (A1_13 m c) (A1_14 m c) (A1_15 m c) (B1_main_v1 m c) (B1_main_v54 m c) (B1_main_v3 m c)
theorem B2_main_v109 : V2 m c (Proc.devRef .tc main_v109) = Cert.ReferenceIdeal.ReadP.val_main_v109 (F := F) (m ((c.tc : Thread nD τ).loc main_arg5)) :=
  c1_main_v109 (V1 m c) (m ((c.tc : Thread nD τ).loc main_arg5))
    (A1_5 m c)
theorem B2_main_v1 : V2 m c (Proc.devRef .tc main_v1) = Cert.ReferenceIdeal.ReadP.val_main_v1 (F := F) (m ((c.tc : Thread nD τ).loc main_arg1)) :=
  (carry1 (V1 m c) main_v1 (by decide)).trans (B1_main_v1 m c)
theorem B2_main_v3 : V2 m c (Proc.devRef .tc main_v3) = Cert.ReferenceIdeal.ReadP.val_main_v3 (F := F) (m ((c.tc : Thread nD τ).loc main_arg1)) :=
  (carry1 (V1 m c) main_v3 (by decide)).trans (B1_main_v3 m c)
theorem B3_main_c_11 : V3 m c (Proc.devRef .tc main_c_11) = Cert.ReferenceIdeal.ReadP.val_main_c_11 (F := F) :=
  c2_main_c_11 (V2 m c)

theorem B3_main_v165 : V3 m c (Proc.devRef .tc main_v165) = Cert.ReferenceIdeal.ReadP.val_main_v165 (F := F) (m ((c.tc : Thread nD τ).loc main_arg1)) :=
  c2_main_v165 (V2 m c) (m ((c.tc : Thread nD τ).loc main_arg1))
    (B2_main_v1 m c)
theorem B3_main_v163 : V3 m c (Proc.devRef .tc main_v163) = Cert.ReferenceIdeal.ReadP.val_main_v163 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  c2_main_v163 (V2 m c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
    (A2_6 m c) (A2_7 m c) (A2_8 m c) (A2_10 m c) (A2_11 m c) (A2_12 m c) (A2_13 m c) (A2_14 m c) (A2_15 m c) (B2_main_v109 m c) (B2_main_v107 m c)
theorem B3_main_v1 : V3 m c (Proc.devRef .tc main_v1) = Cert.ReferenceIdeal.ReadP.val_main_v1 (F := F) (m ((c.tc : Thread nD τ).loc main_arg1)) :=
  (carry2 (V2 m c) main_v1 (by decide)).trans (B2_main_v1 m c)
theorem B3_main_v3 : V3 m c (Proc.devRef .tc main_v3) = Cert.ReferenceIdeal.ReadP.val_main_v3 (F := F) (m ((c.tc : Thread nD τ).loc main_arg1)) :=
  (carry2 (V2 m c) main_v3 (by decide)).trans (B2_main_v3 m c)
theorem B4_main_v222 : V4 m c (Proc.devRef .tc main_v222) = Cert.ReferenceIdeal.ReadP.val_main_v222 (F := F) (m ((c.tc : Thread nD τ).loc main_arg13)) :=
  c3_main_v222 (V3 m c) (m ((c.tc : Thread nD τ).loc main_arg13))
    (A3_13 m c)
theorem B4_main_v219 : V4 m c (Proc.devRef .tc main_v219) = Cert.ReferenceIdeal.ReadP.val_main_v219 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  c3_main_v219 (V3 m c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
    (A3_3 m c) (A3_4 m c) (A3_5 m c) (A3_6 m c) (A3_7 m c) (A3_8 m c) (A3_9 m c) (A3_10 m c) (A3_11 m c) (B3_main_v1 m c) (B3_main_c_11 m c) (B3_main_v165 m c) (B3_main_v163 m c) (B3_main_v3 m c)
theorem B4_main_v221 : V4 m c (Proc.devRef .tc main_v221) = Cert.ReferenceIdeal.ReadP.val_main_v221 (F := F) (m ((c.tc : Thread nD τ).loc main_arg12)) :=
  c3_main_v221 (V3 m c) (m ((c.tc : Thread nD τ).loc main_arg12))
    (A3_12 m c)
theorem B4_main_v1 : V4 m c (Proc.devRef .tc main_v1) = Cert.ReferenceIdeal.ReadP.val_main_v1 (F := F) (m ((c.tc : Thread nD τ).loc main_arg1)) :=
  (carry3 (V3 m c) main_v1 (by decide)).trans (B3_main_v1 m c)
theorem B4_main_v3 : V4 m c (Proc.devRef .tc main_v3) = Cert.ReferenceIdeal.ReadP.val_main_v3 (F := F) (m ((c.tc : Thread nD τ).loc main_arg1)) :=
  (carry3 (V3 m c) main_v3 (by decide)).trans (B3_main_v3 m c)
theorem B5_main_v267 : V5 m c (Proc.devRef .tc main_v267) = Cert.ReferenceIdeal.ReadP.val_main_v267 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  c4_main_v267 (V4 m c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
    (A4_3 m c) (A4_4 m c) (A4_9 m c) (A4_14 m c) (A4_15 m c) (B4_main_v1 m c) (B4_main_v222 m c) (B4_main_v221 m c) (B4_main_v219 m c) (B4_main_v3 m c)
theorem B5_main_v277 : V5 m c (Proc.devRef .tc main_v277) = Cert.ReferenceIdeal.ReadP.val_main_v277 (F := F) (m ((c.tc : Thread nD τ).loc main_arg7)) :=
  c4_main_v277 (V4 m c) (m ((c.tc : Thread nD τ).loc main_arg7))
    (A4_7 m c)
theorem B5_main_v275 : V5 m c (Proc.devRef .tc main_v275) = Cert.ReferenceIdeal.ReadP.val_main_v275 (F := F) (m ((c.tc : Thread nD τ).loc main_arg8)) :=
  c4_main_v275 (V4 m c) (m ((c.tc : Thread nD τ).loc main_arg8))
    (A4_8 m c)
theorem B5_main_v269 : V5 m c (Proc.devRef .tc main_v269) = Cert.ReferenceIdeal.ReadP.val_main_v269 (F := F) (m ((c.tc : Thread nD τ).loc main_arg5)) :=
  c4_main_v269 (V4 m c) (m ((c.tc : Thread nD τ).loc main_arg5))
    (A4_5 m c)
theorem B5_main_v271 : V5 m c (Proc.devRef .tc main_v271) = Cert.ReferenceIdeal.ReadP.val_main_v271 (F := F) (m ((c.tc : Thread nD τ).loc main_arg6)) :=
  c4_main_v271 (V4 m c) (m ((c.tc : Thread nD τ).loc main_arg6))
    (A4_6 m c)
theorem B6_main_cst_23 : V6 m c (Proc.devRef .tc main_cst_23) = Cert.ReferenceIdeal.ReadP.val_main_cst_23 (F := F) :=
  c5_main_cst_23 (V5 m c)

theorem B6_main_v333 : V6 m c (Proc.devRef .tc main_v333) = Cert.ReferenceIdeal.ReadP.val_main_v333 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg20)) :=
  c5_main_v333 (V5 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg20))
    (A5_2 m c) (A5_10 m c) (A5_11 m c) (A5_12 m c) (A5_13 m c) (A5_14 m c) (A5_15 m c) (A5_16 m c) (A5_17 m c) (A5_20 m c) (B5_main_v271 m c) (B5_main_v269 m c) (B5_main_v275 m c) (B5_main_v277 m c) (B5_main_v267 m c)
theorem B7_main_v351 : V7 m c (Proc.devRef .tc main_v351) = Cert.ReferenceIdeal.ReadP.val_main_v351 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) :=
  c6_main_v351 (V6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
    (A6_18 m c) (A6_19 m c) (A6_21 m c) (A6_22 m c) (A6_23 m c) (B6_main_cst_23 m c) (B6_main_v333 m c)

/-! ## The run -/

/-- On every device, for any float values, from any memory with zero counters: every weakly fair execution of the program
    terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v351) = Cert.ReferenceIdeal.ReadP.val_main_v351 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v351).trans ((congrFun (after_all m c) _).trans (B7_main_v351 m c)),
      (h c main_arg0).trans ((congrFun (after_all m c) _).trans (A7_0 m c)),
      (h c main_arg1).trans ((congrFun (after_all m c) _).trans (A7_1 m c)),
      (h c main_arg2).trans ((congrFun (after_all m c) _).trans (A7_2 m c)),
      (h c main_arg3).trans ((congrFun (after_all m c) _).trans (A7_3 m c)),
      (h c main_arg4).trans ((congrFun (after_all m c) _).trans (A7_4 m c)),
      (h c main_arg5).trans ((congrFun (after_all m c) _).trans (A7_5 m c)),
      (h c main_arg6).trans ((congrFun (after_all m c) _).trans (A7_6 m c)),
      (h c main_arg7).trans ((congrFun (after_all m c) _).trans (A7_7 m c)),
      (h c main_arg8).trans ((congrFun (after_all m c) _).trans (A7_8 m c)),
      (h c main_arg9).trans ((congrFun (after_all m c) _).trans (A7_9 m c)),
      (h c main_arg10).trans ((congrFun (after_all m c) _).trans (A7_10 m c)),
      (h c main_arg11).trans ((congrFun (after_all m c) _).trans (A7_11 m c)),
      (h c main_arg12).trans ((congrFun (after_all m c) _).trans (A7_12 m c)),
      (h c main_arg13).trans ((congrFun (after_all m c) _).trans (A7_13 m c)),
      (h c main_arg14).trans ((congrFun (after_all m c) _).trans (A7_14 m c)),
      (h c main_arg15).trans ((congrFun (after_all m c) _).trans (A7_15 m c)),
      (h c main_arg16).trans ((congrFun (after_all m c) _).trans (A7_16 m c)),
      (h c main_arg17).trans ((congrFun (after_all m c) _).trans (A7_17 m c)),
      (h c main_arg18).trans ((congrFun (after_all m c) _).trans (A7_18 m c)),
      (h c main_arg19).trans ((congrFun (after_all m c) _).trans (A7_19 m c)),
      (h c main_arg20).trans ((congrFun (after_all m c) _).trans (A7_20 m c)),
      (h c main_arg21).trans ((congrFun (after_all m c) _).trans (A7_21 m c)),
      (h c main_arg22).trans ((congrFun (after_all m c) _).trans (A7_22 m c)),
      (h c main_arg23).trans ((congrFun (after_all m c) _).trans (A7_23 m c))⟩)
    (run0 m ρ)

end Cert.ReferenceIdeal.RunW

end
-- ==== Proof.LibRealValued.lean ====
/-
  Real-valued extended reals. A quantity is real-valued when it is the image of a real number, that is,
  neither of the two infinities. The arithmetic of the extended reals restricted to real-valued
  quantities is the arithmetic of the real numbers, and the exponential and the division by a nonzero
  real keep a real-valued argument real-valued.
-/
import Mathlib
import Idealize.ShloMosaic.PureOps.Ideal
import Idealize.ShloMosaic.PureOps.Ideal.Laws

namespace Cert.RealValued

open Idealize.ShloMosaic

/-- An extended real is real-valued when it is (the image of) a real number. -/
def IsReal (x : EReal) : Prop := ∃ r : ℝ, x = (r : EReal)

/-- The image of a real number is real-valued. -/
theorem IsReal.coe (r : ℝ) : IsReal (r : EReal) := ⟨r, rfl⟩

/-- Zero is real-valued. -/
theorem IsReal.zero : IsReal (0 : EReal) := ⟨0, EReal.coe_zero.symm⟩

/-- One is real-valued. -/
theorem IsReal.one : IsReal (1 : EReal) := ⟨1, EReal.coe_one.symm⟩

/-- A real-valued quantity is neither infinity. -/
theorem IsReal.ne_top {x : EReal} (hx : IsReal x) : x ≠ ⊤ := by
  obtain ⟨a, rfl⟩ := hx; exact EReal.coe_ne_top a

/-- A real-valued quantity is neither infinity. -/
theorem IsReal.ne_bot {x : EReal} (hx : IsReal x) : x ≠ ⊥ := by
  obtain ⟨a, rfl⟩ := hx; exact EReal.coe_ne_bot a

/-- The sum of two real-valued quantities is real-valued. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real-valued quantities is real-valued. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real-valued quantities is real-valued. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real-valued quantity is real-valued. -/
theorem IsReal.neg {x : EReal} (hx : IsReal x) : IsReal (-x) := by
  obtain ⟨a, rfl⟩ := hx
  exact ⟨-a, (EReal.coe_neg a).symm⟩

/-- The maximum of two real numbers, taken in the extended reals, is the image of their maximum. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The maximum of two real-valued quantities is real-valued. -/
theorem IsReal.max {x y : EReal} (hx : IsReal x) (hy : IsReal y) : IsReal (max x y) := by
  obtain ⟨a, rfl⟩ := hx; obtain ⟨b, rfl⟩ := hy
  exact ⟨Max.max a b, coe_max a b⟩

/-- A finite sum of real-valued quantities is real-valued. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add
      (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The exponential of a real-valued quantity is a positive real number. -/
theorem exp_coe_pos (r : ℝ) : ∃ e : ℝ, 0 < e ∧ Ideal.exp (r : EReal) = (e : EReal) :=
  ⟨Real.exp r, Real.exp_pos r, Ideal.exp_coe r⟩

/-- The exponential of a real-valued quantity is real-valued. -/
theorem isReal_exp {x : EReal} (h : IsReal x) : IsReal (Ideal.exp x) := by
  obtain ⟨a, rfl⟩ := h
  exact ⟨Real.exp a, Ideal.exp_coe a⟩

/-- A real-valued quantity divided by a nonzero real number is real-valued. -/
theorem isReal_div_coe {x : EReal} (h : IsReal x) {y : ℝ} (hy : y ≠ 0) :
    IsReal (Ideal.div x (y : EReal)) := by
  rw [Ideal.div_coe hy x]
  exact h.mul (IsReal.coe _)

end Cert.RealValued
-- ==== Proof.GinSpec.lean ====
/-
  One graph-isomorphism layer and the graph-level head, row by row, on the extended reals.

  A layer takes a node's feature row x (128 entries) and the sum a of its in-neighbours' rows, forms
  h = (1 + e) · x + a, and applies two affine maps, each followed by a batch normalisation with running statistics
  and a rectifier: z ↦ max ((z − μ) · (σ² + ε)^(−1/2) · γ + β, 0), entry by entry. The head applies one such
  map to a pooled row, a second affine map to ten logits, and the logarithm of the softmax of the logits.
  The float literals (1, 0, ε, −∞) are kept as the binary words the programs spell.
-/
import Idealize.ShloMosaic.PureOps.Ideal
import Idealize.ShloMosaic.PureOps.Ideal.Laws
import proofs.«113793_j3350074490963_2_alg».proof.Proof.LibRealValued

noncomputable section

open scoped BigOperators

namespace Cert.Gin

open Idealize.ShloMosaic Cert.RealValued

/-- The word of 1.0. -/
abbrev oneW : EReal := Ideal.ofBits .f32 0x3F800000#32
/-- The word of +0.0. -/
abbrev zeroW : EReal := Ideal.ofBits .f32 0x00000000#32
/-- The word of the batch-normalisation ε (the f32 nearest 1e-5). -/
abbrev epsW : EReal := Ideal.ofBits .f32 0x3727C5AC#32
/-- The word of −∞. -/
abbrev ninfW : EReal := Ideal.ofBits .f32 0xFF800000#32

/-- Batch normalisation with running mean μ and variance σ², scale γ and shift β, then the rectifier. -/
def bnRelu (z mu var g b : EReal) : EReal := max ((z - mu) * Ideal.rsqrt (var + epsW) * g + b) zeroW

/-- The first affine map of a layer at output column k: the row h = (1 + e)·x + a against column k of w1, plus the bias. -/
def lin1 (e : EReal) (x a : Fin 128 → EReal) (w1 : Fin 128 → Fin 256 → EReal) (b1 : Fin 256 → EReal) (k : Fin 256) : EReal :=
  (∑ j : Fin 128, ((oneW + e) * x j + a j) * w1 j k) + b1 k

/-- The hidden row of a layer: the first affine map, normalised and rectified. -/
def hid (e : EReal) (x a : Fin 128 → EReal) (w1 : Fin 128 → Fin 256 → EReal) (b1 g1 be1 m1 v1 : Fin 256 → EReal) (k : Fin 256) : EReal :=
  bnRelu (lin1 e x a w1 b1 k) (m1 k) (v1 k) (g1 k) (be1 k)

/-- One layer on one node: the output row at column q. -/
def ginRow (e : EReal) (x a : Fin 128 → EReal) (w1 : Fin 128 → Fin 256 → EReal) (b1 g1 be1 m1 v1 : Fin 256 → EReal)
    (w2 : Fin 256 → Fin 128 → EReal) (b2 g2 be2 m2 v2 : Fin 128 → EReal) (q : Fin 128) : EReal :=
  bnRelu ((∑ k : Fin 256, hid e x a w1 b1 g1 be1 m1 v1 k * w2 k q) + b2 q) (m2 q) (v2 q) (g2 q) (be2 q)

/-- The head's hidden row: one affine map of the pooled row p, normalised and rectified. -/
def headHid (p : Fin 128 → EReal) (w1 : Fin 128 → Fin 128 → EReal) (b1 g be mu var : Fin 128 → EReal) (k : Fin 128) : EReal :=
  bnRelu ((∑ j : Fin 128, p j * w1 j k) + b1 k) (mu k) (var k) (g k) (be k)

/-- The head's ten logits. -/
def logits (p : Fin 128 → EReal) (w1 : Fin 128 → Fin 128 → EReal) (b1 g be mu var : Fin 128 → EReal)
    (w2 : Fin 128 → Fin 10 → EReal) (b2 : Fin 10 → EReal) (o : Fin 10) : EReal :=
  (∑ k : Fin 128, headHid p w1 b1 g be mu var k * w2 k o) + b2 o

/-- The largest of ten values, from −∞. -/
def top10 (z : Fin 10 → EReal) : EReal := max ninfW (Finset.univ.fold max ninfW z)

/-- The logarithm of the softmax of ten values, shifted by their largest. -/
def logSoftmax (z : Fin 10 → EReal) (o : Fin 10) : EReal :=
  (z o - top10 z) - Ideal.log (zeroW + ∑ o' : Fin 10, Ideal.exp (z o' - top10 z))

/-- The head on one graph: the output row at class o. -/
def headRow (p : Fin 128 → EReal) (w1 : Fin 128 → Fin 128 → EReal) (b1 g be mu var : Fin 128 → EReal)
    (w2 : Fin 128 → Fin 10 → EReal) (b2 : Fin 10 → EReal) (o : Fin 10) : EReal :=
  logSoftmax (logits p w1 b1 g be mu var w2 b2) o

/-! ## The words' values -/

theorem oneW_eq : oneW = 1 := by
  simp [Ideal.ofBits, Ideal.ieee, -EReal.coe_mul]; norm_num

theorem zeroW_eq : zeroW = 0 := by
  simp [Ideal.ofBits, Ideal.ieee]

/-- ε is a positive real number. -/
theorem epsW_pos : ∃ r : ℝ, 0 < r ∧ epsW = (r : EReal) := by
  refine ⟨(1 + 2606508 / 8388608) * (2 : ℝ) ^ (-17 : ℤ), by positivity, ?_⟩
  simp [Ideal.ofBits, Ideal.ieee, -EReal.coe_mul]; norm_num

end Cert.Gin

end
-- ==== Proof.GinData.lean ====
/-
  The data one layer reads, as arrays, and what the layer leaves: the array whose row r is the layer's row function
  of row r of the node features and of the neighbour sums. The parameters are kept in the 1×n row form the kernel's
  windows hold them in.
-/
import proofs.«113793_j3350074490963_2_alg».proof.Proof.GinSpec
import Idealize.ShloMosaic.Lib.ValueIdx

noncomputable section

namespace Cert.Gin

open Idealize.ShloMosaic Idealize.ShloMosaic.ValueIdx Cert.RealValued

/-- The arrays a layer reads: node rows X, neighbour sums A, the 1×1 ε-weight E, and the two affine maps with
    their normalisation rows. -/
structure LayerData where
  X : (⟨2, ![100000, 128]⟩ : Shape).Idx → EReal
  A : (⟨2, ![100000, 128]⟩ : Shape).Idx → EReal
  E : (⟨2, ![1, 1]⟩ : Shape).Idx → EReal
  W1 : (⟨2, ![128, 256]⟩ : Shape).Idx → EReal
  B1 : (⟨2, ![1, 256]⟩ : Shape).Idx → EReal
  G1 : (⟨2, ![1, 256]⟩ : Shape).Idx → EReal
  BE1 : (⟨2, ![1, 256]⟩ : Shape).Idx → EReal
  M1 : (⟨2, ![1, 256]⟩ : Shape).Idx → EReal
  V1 : (⟨2, ![1, 256]⟩ : Shape).Idx → EReal
  W2 : (⟨2, ![256, 128]⟩ : Shape).Idx → EReal
  B2 : (⟨2, ![1, 128]⟩ : Shape).Idx → EReal
  G2 : (⟨2, ![1, 128]⟩ : Shape).Idx → EReal
  BE2 : (⟨2, ![1, 128]⟩ : Shape).Idx → EReal
  M2 : (⟨2, ![1, 128]⟩ : Shape).Idx → EReal
  V2 : (⟨2, ![1, 128]⟩ : Shape).Idx → EReal

/-- Every entry a layer reads is a real number, and the running variances are non-negative. -/
structure LayerData.Real (D : LayerData) : Prop where
  x : ∀ i, IsReal (D.X i)
  a : ∀ i, IsReal (D.A i)
  e : ∀ i, IsReal (D.E i)
  w1 : ∀ i, IsReal (D.W1 i)
  b1 : ∀ i, IsReal (D.B1 i)
  g1 : ∀ i, IsReal (D.G1 i)
  be1 : ∀ i, IsReal (D.BE1 i)
  m1 : ∀ i, IsReal (D.M1 i)
  v1 : ∀ i, ∃ r : ℝ, 0 ≤ r ∧ D.V1 i = (r : EReal)
  w2 : ∀ i, IsReal (D.W2 i)
  b2 : ∀ i, IsReal (D.B2 i)
  g2 : ∀ i, IsReal (D.G2 i)
  be2 : ∀ i, IsReal (D.BE2 i)
  m2 : ∀ i, IsReal (D.M2 i)
  v2 : ∀ i, ∃ r : ℝ, 0 ≤ r ∧ D.V2 i = (r : EReal)

/-- What the layer leaves: row (i 0), column (i 1). -/
def LayerData.out (D : LayerData) : (⟨2, ![100000, 128]⟩ : Shape).Idx → EReal := fun i =>
  ginRow (D.E (ix2 0 0)) (fun j => D.X (ix2 (i 0) j)) (fun j => D.A (ix2 (i 0) j)) (fun j k => D.W1 (ix2 j k))
    (fun k => D.B1 (ix2 0 k)) (fun k => D.G1 (ix2 0 k)) (fun k => D.BE1 (ix2 0 k)) (fun k => D.M1 (ix2 0 k)) (fun k => D.V1 (ix2 0 k))
    (fun k q => D.W2 (ix2 k q)) (fun q => D.B2 (ix2 0 q)) (fun q => D.G2 (ix2 0 q)) (fun q => D.BE2 (ix2 0 q)) (fun q => D.M2 (ix2 0 q)) (fun q => D.V2 (ix2 0 q)) (i 1)

/-- The arrays the head reads: pooled rows P and the head's two affine maps with the normalisation rows. -/
structure HeadData where
  P : (⟨2, ![512, 128]⟩ : Shape).Idx → EReal
  W1 : (⟨2, ![128, 128]⟩ : Shape).Idx → EReal
  B1 : (⟨2, ![1, 128]⟩ : Shape).Idx → EReal
  G : (⟨2, ![1, 128]⟩ : Shape).Idx → EReal
  BE : (⟨2, ![1, 128]⟩ : Shape).Idx → EReal
  MU : (⟨2, ![1, 128]⟩ : Shape).Idx → EReal
  VAR : (⟨2, ![1, 128]⟩ : Shape).Idx → EReal
  W2 : (⟨2, ![128, 10]⟩ : Shape).Idx → EReal
  B2 : (⟨2, ![1, 10]⟩ : Shape).Idx → EReal

/-- Every entry the head's matrix products read is a real number, and the running variance is non-negative. -/
structure HeadData.Real (D : HeadData) : Prop where
  p : ∀ i, IsReal (D.P i)
  w1 : ∀ i, IsReal (D.W1 i)
  b1 : ∀ i, IsReal (D.B1 i)
  g : ∀ i, IsReal (D.G i)
  be : ∀ i, IsReal (D.BE i)
  mu : ∀ i, IsReal (D.MU i)
  var : ∀ i, ∃ r : ℝ, 0 ≤ r ∧ D.VAR i = (r : EReal)
  w2 : ∀ i, IsReal (D.W2 i)

/-- What the head leaves: graph (i 0), class (i 1). -/
def HeadData.out (D : HeadData) : (⟨2, ![512, 10]⟩ : Shape).Idx → EReal := fun i =>
  headRow (fun j => D.P (ix2 (i 0) j)) (fun j k => D.W1 (ix2 j k)) (fun k => D.B1 (ix2 0 k)) (fun k => D.G (ix2 0 k))
    (fun k => D.BE (ix2 0 k)) (fun k => D.MU (ix2 0 k)) (fun k => D.VAR (ix2 0 k)) (fun k o => D.W2 (ix2 k o)) (fun o => D.B2 (ix2 0 o)) (i 1)

end Cert.Gin

end
-- ==== Proof.KData.lean ====
/-
  The arrays each region of the kernel program reads, as the region finds them in the buffers: per layer the node rows,
  the neighbour sums, the ε-weight and the two affine maps with their normalisation rows; for the head the pooled rows
  and its two affine maps.
-/
import proofs.«113793_j3350074490963_2_alg».proof.Proof.Gen.KernelIdeal.Frame
import proofs.«113793_j3350074490963_2_alg».proof.Proof.GinData

noncomputable section

namespace Cert.Gin.Kdata

open Cert.KernelIdeal Cert.KernelIdeal.Gen Idealize.ShloMosaic Idealize.ShloMosaic.TcCoe Idealize.SL.Sem Cert.Gin

variable (V : (c : Dev nD) → (b : Ref sig .tc) → Buf (Elt Ideal) ((c : Thread nD τ).loc b))

/-- Layer 1's arrays. -/
def data0 (c : Dev nD) : LayerData where
  X := V c main_arg0
  A := V c main_v13
  E := V c main_v50
  W1 := V c main_v17
  B1 := V c main_v40
  G1 := V c main_v41
  BE1 := V c main_v42
  M1 := V c main_v43
  V1 := V c main_v44
  W2 := V c main_v29
  B2 := V c main_v45
  G2 := V c main_v46
  BE2 := V c main_v47
  M2 := V c main_v48
  V2 := V c main_v49

/-- Layer 2's arrays. -/
def data1 (c : Dev nD) : LayerData where
  X := V c main_v51
  A := V c main_v61
  E := V c main_v98
  W1 := V c main_v65
  B1 := V c main_v88
  G1 := V c main_v89
  BE1 := V c main_v90
  M1 := V c main_v91
  V1 := V c main_v92
  W2 := V c main_v77
  B2 := V c main_v93
  G2 := V c main_v94
  BE2 := V c main_v95
  M2 := V c main_v96
  V2 := V c main_v97

/-- Layer 3's arrays. -/
def data2 (c : Dev nD) : LayerData where
  X := V c main_v99
  A := V c main_v109
  E := V c main_v146
  W1 := V c main_v113
  B1 := V c main_v136
  G1 := V c main_v137
  BE1 := V c main_v138
  M1 := V c main_v139
  V1 := V c main_v140
  W2 := V c main_v125
  B2 := V c main_v141
  G2 := V c main_v142
  BE2 := V c main_v143
  M2 := V c main_v144
  V2 := V c main_v145

/-- Layer 4's arrays. -/
def data3 (c : Dev nD) : LayerData where
  X := V c main_v147
  A := V c main_v157
  E := V c main_v194
  W1 := V c main_v161
  B1 := V c main_v184
  G1 := V c main_v185
  BE1 := V c main_v186
  M1 := V c main_v187
  V1 := V c main_v188
  W2 := V c main_v173
  B2 := V c main_v189
  G2 := V c main_v190
  BE2 := V c main_v191
  M2 := V c main_v192
  V2 := V c main_v193

/-- The head's arrays. -/
def data4 (c : Dev nD) : HeadData where
  P := V c main_v198
  W1 := V c main_arg16
  B1 := V c main_v199
  G := V c main_v200
  BE := V c main_v201
  MU := V c main_v202
  VAR := V c main_v203
  W2 := V c main_arg22
  B2 := V c main_v204

end Cert.Gin.Kdata

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibDense.lean ====
/-
  The product of an M×K array and a K×N array of extended reals as one function of the result's index: the entry at
  (r, c) is the sum over k of A(r, k) · B(k, c). The host's `dot_general` of the plain M×K by K×N contraction is this
  function, and so is, entry by entry, the vector unit's `tpu.matmul` of the same contraction into a zero accumulator.
-/
import proofs.«113793_j3350074490963_2_alg».proof.Proof.LibPlainDot

noncomputable section

open scoped BigOperators

namespace Cert.Dense

open Idealize.ShloMosaic Idealize.ShloMosaic.ValueIdx

variable {M K N : Nat}

/-- The matrix product, entry by entry. -/
def dense (M K N : Nat) (A : FVec Ideal ⟨2, ![M, K]⟩ .f32) (B : FVec Ideal ⟨2, ![K, N]⟩ .f32) :
    FVec Ideal ⟨2, ![M, N]⟩ .f32 :=
  fun i => ∑ k : Fin K, A (ix2 (i 0) k) * B (ix2 k (i 1))

/-- The product at an index whose two coordinates are known. -/
theorem dense_at (A : FVec Ideal ⟨2, ![M, K]⟩ .f32) (B : FVec Ideal ⟨2, ![K, N]⟩ .f32)
    (i : (⟨2, ![M, N]⟩ : Shape).Idx) (r : Fin M) (c : Fin N) (h0 : (i 0).val = r.val) (h1 : (i 1).val = c.val) :
    dense M K N A B i = ∑ k : Fin K, A (ix2 r k) * B (ix2 k c) := by
  obtain rfl : i = ix2 r c := funext fun a => Fin.ext (match a with | ⟨0, _⟩ => h0 | ⟨1, _⟩ => h1)
  rfl

/-- The host's `dot_general` of the plain contraction is the product. -/
theorem dotGeneral_eq_dense (prec : Option ContractPrecision) (sched : HostSchedule)
    (A : FVec Ideal ⟨2, ![M, K]⟩ .f32) (B : FVec Ideal ⟨2, ![K, N]⟩ .f32) :
    FloatOps.dotGeneral (DotDims.plain M K N) prec sched A B = dense M K N A B := by
  funext i
  obtain ⟨r, c, rfl⟩ : ∃ (r : Fin M) (c : Fin N), i = ix2 r c := ⟨i 0, i 1, eq_ix2 i⟩
  exact PlainDot.dotGeneral_apply prec sched A B r c

/-- The vector unit's product into the zero accumulator, at an index whose two coordinates are known, of operands of
    any float formats (a change of format is the identity on extended reals). -/
theorem matmul_zero_at {φ₁ φ₂ : FTy} (prec : Option ContractPrecision)
    (x : FVec Ideal ⟨2, ![M, K]⟩ φ₁) (w : FVec Ideal ⟨2, ![K, N]⟩ φ₂)
    (j : (⟨2, ![M, N]⟩ : Shape).Idx) (r : Fin M) (c : Fin N) (h0 : (j 0).val = r.val) (h1 : (j 1).val = c.val) :
    FloatOps.matmul (DotDims.plain M K N) prec x w (constant (⟨2, ![M, N]⟩ : Shape) .f32 0x00000000#32) j
      = ∑ k : Fin K, x (ix2 r k) * w (ix2 k c) := by
  obtain rfl : j = ix2 r c := funext fun a => Fin.ext (match a with | ⟨0, _⟩ => h0 | ⟨1, _⟩ => h1)
  exact PlainDot.matmul_zero_apply prec x w r c

end Cert.Dense

end
-- ==== Proof.GinKernelRow.lean ====
/-
  The body of one layer, row by row. What the layer's program leaves in its output block is, at row p and column q,
  the layer's row of the specification: h = (1 + e)·x + a, an affine map to 256 columns, normalised and rectified,
  a second affine map back to 128 columns, normalised and rectified. The program forms each of the two products in
  three passes, dot(A, B) + dot(A, B − B) + dot(A − A, B) (the low parts of a split whose high parts are the operands
  themselves on the extended reals); on real-valued operands B − B = 0 and A − A = 0, so the three passes sum to the
  plain product. Real-valuedness is what excludes ∞ − ∞.
-/
import proofs.«113793_j3350074490963_2_alg».proof.Proof.Gen.KernelIdeal.Frame
import proofs.«113793_j3350074490963_2_alg».proof.Proof.GinSpec
import proofs.«113793_j3350074490963_2_alg».proof.Proof.LibDense
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Gin.KernelRow

open Cert.KernelIdeal Cert.KernelIdeal.Gen Idealize.ShloMosaic Idealize.ShloMosaic.ValueIdx Cert.RealValued Cert.Gin

/-! ## Real-valued arithmetic -/

/-- A real-valued quantity less itself is zero (the infinities are the exceptions). -/
theorem isReal_sub_self {x : EReal} (h : IsReal x) : x - x = 0 := by
  obtain ⟨r, rfl⟩ := h
  rw [← EReal.coe_sub, sub_self, EReal.coe_zero]

/-- The three-pass product: with b − b and a − a in place of the low parts, the two correction sums vanish on real-valued
    operands and the sum of the three passes is the plain sum of products. -/
theorem three_pass {K : ℕ} (a b : Fin K → EReal) (ha : ∀ k, IsReal (a k)) (hb : ∀ k, IsReal (b k)) :
    (∑ k, a k * b k) + (∑ k, a k * (b k - b k)) + (∑ k, (a k - a k) * b k) = ∑ k, a k * b k := by
  have h1 : ∀ k, a k * (b k - b k) = 0 := fun k => by rw [isReal_sub_self (hb k), mul_zero]
  have h2 : ∀ k, (a k - a k) * b k = 0 := fun k => by rw [isReal_sub_self (ha k), zero_mul]
  simp only [h1, h2, Finset.sum_const_zero, add_zero]

/-- The word of 1.0 is real-valued. -/
theorem oneW_isReal : IsReal oneW := by rw [oneW_eq]; exact IsReal.one

/-- The word of +0.0 is real-valued. -/
theorem zeroW_isReal : IsReal zeroW := by rw [zeroW_eq]; exact IsReal.zero

/-- The reciprocal square root of a nonnegative real plus ε is real-valued: the argument is a positive real. -/
theorem rsqrt_isReal {v : EReal} (hv : ∃ r : ℝ, 0 ≤ r ∧ v = (r : EReal)) : IsReal (Ideal.rsqrt (v + epsW)) := by
  obtain ⟨r, hr, rfl⟩ := hv
  obtain ⟨e, he, hee⟩ := epsW_pos
  rw [hee, ← EReal.coe_add, Ideal.rsqrt_coe, if_neg (by linarith), if_neg (by linarith)]
  exact IsReal.coe _

/-- A normalised and rectified real-valued quantity is real-valued. -/
theorem bnRelu_isReal {z mu var g b : EReal} (hz : IsReal z) (hmu : IsReal mu)
    (hvar : ∃ r : ℝ, 0 ≤ r ∧ var = (r : EReal)) (hg : IsReal g) (hb : IsReal b) : IsReal (bnRelu z mu var g b) := by
  unfold bnRelu
  exact ((((hz.sub hmu).mul (rsqrt_isReal hvar)).mul hg).add hb).max zeroW_isReal

/-- The row h = (1 + e)·x + a is real-valued. -/
theorem hrow_isReal {e : EReal} {x a : Fin 128 → EReal} (he : IsReal e) (hx : ∀ j, IsReal (x j)) (ha : ∀ j, IsReal (a j))
    (j : Fin 128) : IsReal ((oneW + e) * x j + a j) :=
  ((oneW_isReal.add he).mul (hx j)).add (ha j)

/-- The first affine map of real-valued data is real-valued. -/
theorem lin1_isReal {e : EReal} {x a : Fin 128 → EReal} {w1 : Fin 128 → Fin 256 → EReal} {b1 : Fin 256 → EReal}
    (he : IsReal e) (hx : ∀ j, IsReal (x j)) (ha : ∀ j, IsReal (a j)) (hw1 : ∀ j k, IsReal (w1 j k))
    (hb1 : ∀ k, IsReal (b1 k)) (k : Fin 256) : IsReal (lin1 e x a w1 b1 k) := by
  unfold lin1
  exact (IsReal.sum _ _ fun j _ => (hrow_isReal he hx ha j).mul (hw1 j k)).add (hb1 k)

/-- The hidden row of real-valued data is real-valued. -/
theorem hid_isReal {e : EReal} {x a : Fin 128 → EReal} {w1 : Fin 128 → Fin 256 → EReal} {b1 g1 be1 m1 v1 : Fin 256 → EReal}
    (he : IsReal e) (hx : ∀ j, IsReal (x j)) (ha : ∀ j, IsReal (a j)) (hw1 : ∀ j k, IsReal (w1 j k))
    (hb1 : ∀ k, IsReal (b1 k)) (hg1 : ∀ k, IsReal (g1 k)) (hbe1 : ∀ k, IsReal (be1 k)) (hm1 : ∀ k, IsReal (m1 k))
    (hv1 : ∀ k, ∃ r : ℝ, 0 ≤ r ∧ v1 k = (r : EReal)) (k : Fin 256) : IsReal (hid e x a w1 b1 g1 be1 m1 v1 k) := by
  unfold hid
  exact bnRelu_isReal (lin1_isReal he hx ha hw1 hb1 k) (hm1 k) (hv1 k) (hg1 k) (hbe1 k)

/-! ## The layout operations of the body at an index -/

theorem hz : (![0, 0] : Fin 2 → Nat) = fun _ => 0 := funext fun a => by fin_cases a <;> rfl

/-- A 1×1 array broadcast to a×b reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The reciprocal square root of a vector at an index. -/
theorem rsqrt_apply {s : Shape} {φ : FTy} (a : FVec Ideal s φ) (i : s.Idx) : rsqrt a i = Ideal.rsqrt (a i) := rfl

/-! ## The products of the body at an index -/

/-- The first product into the zero accumulator, at (p, k). -/
theorem mm1 {φ₁ φ₂ : FTy} (A : FVec Ideal S10000x128 φ₁) (W : FVec Ideal S128x256 φ₂) (p : Fin 10000) (k : Fin 256) :
    matmul dot_S10000x128_S128x256_S10000x256_1_0_0_1_n_n none A W (constant S10000x256 .f32 0x00000000#32) (ix2 p k)
      = ∑ j : Fin 128, A (ix2 p j) * W (ix2 j k) :=
  Dense.matmul_zero_at none A W (ix2 p k) p k rfl rfl

/-- The second product into the zero accumulator, at (p, q). -/
theorem mm2 {φ₁ φ₂ : FTy} (A : FVec Ideal S10000x256 φ₁) (W : FVec Ideal S256x128 φ₂) (p : Fin 10000) (q : Fin 128) :
    matmul dot_S10000x256_S256x128_S10000x128_1_0_0_1_n_n none A W (constant S10000x128 .f32 0x00000000#32) (ix2 p q)
      = ∑ k : Fin 256, A (ix2 p k) * W (ix2 k q) :=
  Dense.matmul_zero_at none A W (ix2 p q) p q rfl rfl

/-! ## The body's payloads at an index -/

/-- The first affine map of the body at (p, k). -/
theorem pay2_row (x2 : Vec Ideal S1x1 .f32) (x0 x1 : Vec Ideal S10000x128 .f32) (x3 : Vec Ideal S128x256 .f32) (x4 : Vec Ideal S1x256 .f32)
    (p : Fin 10000) (k : Fin 256)
    (hx : ∀ j : Fin 128, IsReal (x0 (ix2 p j))) (ha : ∀ j : Fin 128, IsReal (x1 (ix2 p j))) (he : IsReal (x2 (ix2 0 0)))
    (hw1 : ∀ (j : Fin 128) (k : Fin 256), IsReal (x3 (ix2 j k))) :
    k0_pay2 (F := Ideal) x2 x0 x1 x3 x4 (ix2 p k)
      = lin1 (x2 (ix2 0 0)) (fun j => x0 (ix2 p j)) (fun j => x1 (ix2 p j)) (fun j k => x3 (ix2 j k)) (fun k => x4 (ix2 0 k)) k := by
  unfold k0_pay2
  simp only [shapeCast_self]
  simp only [addf_apply, mm1, truncf_apply, subf_apply, mulf_apply, broadcastTo_1b_ab_apply, broadcastTo_11_ab_apply,
    broadcast_apply, Ideal.ofBits_def]
  have key := three_pass (fun j : Fin 128 => (oneW + x2 (ix2 0 0)) * x0 (ix2 p j) + x1 (ix2 p j)) (fun j => x3 (ix2 j k))
    (hrow_isReal he hx ha) (fun j => hw1 j k)
  exact congrArg (fun t => t + x4 (ix2 0 k)) key

/-- The second affine map of the body, less the second running mean, at (p, q), from any first affine map v28 whose
    normalised and rectified row at p is real-valued. -/
theorem pay10_row (v28 : FVec Ideal S10000x256 .f32) (v30 v32 v34 v36 : FVec Ideal S1x256 .f32) (v50 : Vec Ideal S256x128 .f32)
    (v65 v73 : Vec Ideal S1x128 .f32) (p : Fin 10000) (q : Fin 128)
    (hh : ∀ k : Fin 256, IsReal (bnRelu (v28 (ix2 p k)) (v34 (ix2 0 k)) (v36 (ix2 0 k)) (v30 (ix2 0 k)) (v32 (ix2 0 k))))
    (hw2 : ∀ k : Fin 256, IsReal (v50 (ix2 k q))) :
    k0_pay10 (F := Ideal) v28 v30 v32 v34 v36 v50 v65 v73 (ix2 p q)
      = (∑ k : Fin 256, bnRelu (v28 (ix2 p k)) (v34 (ix2 0 k)) (v36 (ix2 0 k)) (v30 (ix2 0 k)) (v32 (ix2 0 k)) * v50 (ix2 k q))
          + v65 (ix2 0 q) - v73 (ix2 0 q) := by
  unfold k0_pay10
  simp only [shapeCast_self]
  simp only [subf_apply, addf_apply, mm2, truncf_apply, maximumf_apply, mulf_apply, rsqrt_apply, broadcastTo_1b_ab_apply,
    broadcast_apply, Ideal.ofBits_def]
  have key := three_pass (fun k : Fin 256 => bnRelu (v28 (ix2 p k)) (v34 (ix2 0 k)) (v36 (ix2 0 k)) (v30 (ix2 0 k)) (v32 (ix2 0 k)))
    (fun k => v50 (ix2 k q)) hh hw2
  exact congrArg (fun t => t + v65 (ix2 0 q) - v73 (ix2 0 q)) key

/-- The second normalisation and rectifier of the body at (p, q), from the second affine map less the running mean. -/
theorem pay1_row (v70 v72 v76 : FVec Ideal S1x128 .f32) (v78 : FVec Ideal S10000x128 .f32) (c : EReal) (p : Fin 10000) (q : Fin 128) :
    k0_pay1 (F := Ideal) v70 v72 v76 v78 c (ix2 p q)
      = max (v78 (ix2 p q) * Ideal.rsqrt (v76 (ix2 0 q) + c) * v70 (ix2 0 q) + v72 (ix2 0 q)) zeroW := by
  unfold k0_pay1
  simp only [subf_apply, addf_apply, maximumf_apply, mulf_apply, rsqrt_apply, broadcastTo_1b_ab_apply,
    broadcast_apply, Ideal.ofBits_def]

/-! ## The layer -/

/-- What the body of a layer leaves in its output block, at row p and column q: the layer's row of the specification,
    when the node's row, its neighbours' sum, the weights and the first normalisation's data are real-valued. -/
theorem out0_row (x0 x1 : Vec Ideal S10000x128 .f32) (x2 : Vec Ideal S1x1 .f32) (x3 : Vec Ideal S128x256 .f32)
    (x4 x5 x6 x7 x8 : Vec Ideal S1x256 .f32) (x9 : Vec Ideal S256x128 .f32) (x10 x11 x12 x13 x14 : Vec Ideal S1x128 .f32)
    (p : Fin 10000) (q : Fin 128)
    (hx : ∀ j : Fin 128, IsReal (x0 (ix2 p j))) (ha : ∀ j : Fin 128, IsReal (x1 (ix2 p j))) (he : IsReal (x2 (ix2 0 0)))
    (hw1 : ∀ (j : Fin 128) (k : Fin 256), IsReal (x3 (ix2 j k)))
    (hb1 : ∀ k : Fin 256, IsReal (x4 (ix2 0 k))) (hg1 : ∀ k : Fin 256, IsReal (x5 (ix2 0 k)))
    (hbe1 : ∀ k : Fin 256, IsReal (x6 (ix2 0 k))) (hm1 : ∀ k : Fin 256, IsReal (x7 (ix2 0 k)))
    (hv1 : ∀ k : Fin 256, ∃ r : ℝ, 0 ≤ r ∧ x8 (ix2 0 k) = (r : EReal))
    (hw2 : ∀ (k : Fin 256) (q : Fin 128), IsReal (x9 (ix2 k q))) :
    out0_15 (F := Ideal) x0 x1 x2 x3 x4 x5 x6 x7 x8 x9 x10 x11 x12 x13 x14 (ix2 p q)
      = ginRow (x2 (ix2 0 0)) (fun j => x0 (ix2 p j)) (fun j => x1 (ix2 p j)) (fun j k => x3 (ix2 j k))
          (fun k => x4 (ix2 0 k)) (fun k => x5 (ix2 0 k)) (fun k => x6 (ix2 0 k)) (fun k => x7 (ix2 0 k)) (fun k => x8 (ix2 0 k))
          (fun k q => x9 (ix2 k q)) (fun q => x10 (ix2 0 q)) (fun q => x11 (ix2 0 q)) (fun q => x12 (ix2 0 q)) (fun q => x13 (ix2 0 q))
          (fun q => x14 (ix2 0 q)) q := by
  unfold out0_15
  rw [View.canon_unit_zero hz]
  simp only [View.ld_unit_zero (S := S1x1) hz, View.ld_unit_zero (S := S10000x128) hz, View.ld_unit_zero (S := S128x256) hz,
    View.ld_unit_zero (S := S1x256) hz, View.ld_unit_zero (S := S256x128) hz, View.ld_unit_zero (S := S1x128) hz]
  unfold k0_pay3 k0_pay4 k0_pay5 k0_pay6 k0_pay7 k0_pay8 k0_pay9
  simp only [shapeCast_self]
  have e2 : ∀ k : Fin 256, k0_pay2 (F := Ideal) x2 x0 x1 x3 x4 (ix2 p k)
      = lin1 (x2 (ix2 0 0)) (fun j => x0 (ix2 p j)) (fun j => x1 (ix2 p j)) (fun j k => x3 (ix2 j k)) (fun k => x4 (ix2 0 k)) k :=
    fun k => pay2_row x2 x0 x1 x3 x4 p k hx ha he hw1
  have hh : ∀ k : Fin 256, IsReal (bnRelu (k0_pay2 (F := Ideal) x2 x0 x1 x3 x4 (ix2 p k)) (x7 (ix2 0 k)) (x8 (ix2 0 k)) (x5 (ix2 0 k)) (x6 (ix2 0 k))) :=
    fun k => by
      rw [e2 k]
      exact hid_isReal (e := x2 (ix2 0 0)) (x := fun j => x0 (ix2 p j)) (a := fun j => x1 (ix2 p j)) (w1 := fun j k => x3 (ix2 j k))
        (b1 := fun k => x4 (ix2 0 k)) (g1 := fun k => x5 (ix2 0 k)) (be1 := fun k => x6 (ix2 0 k)) (m1 := fun k => x7 (ix2 0 k))
        (v1 := fun k => x8 (ix2 0 k)) he hx ha hw1 hb1 hg1 hbe1 hm1 hv1 k
  rw [pay1_row, pay10_row _ _ _ _ _ _ _ _ p q hh (fun k => hw2 k q)]
  simp only [e2]
  rfl

/-- One layer's row of real-valued data, with nonnegative running variances, is real-valued. -/
theorem ginRow_isReal {e : EReal} {x a : Fin 128 → EReal} {w1 : Fin 128 → Fin 256 → EReal} {b1 g1 be1 m1 v1 : Fin 256 → EReal}
    {w2 : Fin 256 → Fin 128 → EReal} {b2 g2 be2 m2 v2 : Fin 128 → EReal}
    (he : IsReal e) (hx : ∀ j, IsReal (x j)) (ha : ∀ j, IsReal (a j)) (hw1 : ∀ j k, IsReal (w1 j k))
    (hb1 : ∀ k, IsReal (b1 k)) (hg1 : ∀ k, IsReal (g1 k)) (hbe1 : ∀ k, IsReal (be1 k)) (hm1 : ∀ k, IsReal (m1 k))
    (hv1 : ∀ k, ∃ r : ℝ, 0 ≤ r ∧ v1 k = (r : EReal)) (hw2 : ∀ k q, IsReal (w2 k q))
    (hb2 : ∀ q, IsReal (b2 q)) (hg2 : ∀ q, IsReal (g2 q)) (hbe2 : ∀ q, IsReal (be2 q)) (hm2 : ∀ q, IsReal (m2 q))
    (hv2 : ∀ q, ∃ r : ℝ, 0 ≤ r ∧ v2 q = (r : EReal)) (q : Fin 128) :
    IsReal (ginRow e x a w1 b1 g1 be1 m1 v1 w2 b2 g2 be2 m2 v2 q) := by
  unfold ginRow
  exact bnRelu_isReal
    ((IsReal.sum _ _ fun k _ => (hid_isReal he hx ha hw1 hb1 hg1 hbe1 hm1 hv1 k).mul (hw2 k q)).add (hb2 q))
    (hm2 q) (hv2 q) (hg2 q) (hbe2 q)

/-! ## Layer 1's body is layer 0's

The program of layer 1 is the program of layer 0 cut into pieces at other places, with a shape cast to the same shape
(the identity) on the node rows; piece by piece the two are the same function. -/

/-- The second normalisation and rectifier: the ε that layer 0's piece takes as an argument is spelled inside. -/
theorem k1_pay1_eq (v71 v73 v77 : FVec Ideal S1x128 .f32) (v79 : FVec Ideal S10000x128 .f32) :
    k1_pay1 (F := Ideal) v71 v73 v77 v79 = k0_pay1 v71 v73 v77 v79 (Scalar.ofBits .f32 0x3727C5AC#32) := by
  unfold k1_pay1 k0_pay1; rfl

/-- The first affine map: up to a shape cast to the same shape. -/
theorem k1_pay2_eq (v0 : Vec Ideal S1x1 .f32) (v4 v8 : Vec Ideal S10000x128 .f32) (v11 : Vec Ideal S128x256 .f32)
    (v26 : Vec Ideal S1x256 .f32) :
    k1_pay2 (F := Ideal) v0 v4 v8 v11 v26 = k0_pay2 v0 v4 v8 v11 v26 := by
  unfold k1_pay2 k0_pay2; simp only [shapeCast_self]

/-- The second affine map less the running mean: the running variance's shape cast is inside this piece. -/
theorem k1_pay9_eq (v29 : FVec Ideal S10000x256 .f32) (v31 v33 v35 : FVec Ideal S1x256 .f32) (v36 : Vec Ideal S1x256 .f32)
    (v51 : Vec Ideal S256x128 .f32) (v66 v74 : Vec Ideal S1x128 .f32) :
    k1_pay9 (F := Ideal) v29 v31 v33 v35 v36 v51 v66 v74 = k0_pay10 v29 v31 v33 v35 (k0_pay6 v36) v51 v66 v74 := by
  unfold k1_pay9 k0_pay10 k0_pay6; simp only [shapeCast_self]

/-- What layer 1's body leaves in its output block is the same function of its input blocks as layer 0's. -/
theorem out1_eq (x0 x1 : Vec Ideal S10000x128 .f32) (x2 : Vec Ideal S1x1 .f32) (x3 : Vec Ideal S128x256 .f32)
    (x4 x5 x6 x7 x8 : Vec Ideal S1x256 .f32) (x9 : Vec Ideal S256x128 .f32) (x10 x11 x12 x13 x14 : Vec Ideal S1x128 .f32) :
    out1_15 (F := Ideal) x0 x1 x2 x3 x4 x5 x6 x7 x8 x9 x10 x11 x12 x13 x14 = out0_15 x0 x1 x2 x3 x4 x5 x6 x7 x8 x9 x10 x11 x12 x13 x14 := by
  unfold out1_15 out0_15
  rw [k1_pay1_eq, k1_pay9_eq, k1_pay2_eq]
  rfl

/-- Layer 1's output block at row p and column q is the layer's row of the specification. -/
theorem out1_row (x0 x1 : Vec Ideal S10000x128 .f32) (x2 : Vec Ideal S1x1 .f32) (x3 : Vec Ideal S128x256 .f32)
    (x4 x5 x6 x7 x8 : Vec Ideal S1x256 .f32) (x9 : Vec Ideal S256x128 .f32) (x10 x11 x12 x13 x14 : Vec Ideal S1x128 .f32)
    (p : Fin 10000) (q : Fin 128)
    (hx : ∀ j : Fin 128, IsReal (x0 (ix2 p j))) (ha : ∀ j : Fin 128, IsReal (x1 (ix2 p j))) (he : IsReal (x2 (ix2 0 0)))
    (hw1 : ∀ (j : Fin 128) (k : Fin 256), IsReal (x3 (ix2 j k)))
    (hb1 : ∀ k : Fin 256, IsReal (x4 (ix2 0 k))) (hg1 : ∀ k : Fin 256, IsReal (x5 (ix2 0 k)))
    (hbe1 : ∀ k : Fin 256, IsReal (x6 (ix2 0 k))) (hm1 : ∀ k : Fin 256, IsReal (x7 (ix2 0 k)))
    (hv1 : ∀ k : Fin 256, ∃ r : ℝ, 0 ≤ r ∧ x8 (ix2 0 k) = (r : EReal))
    (hw2 : ∀ (k : Fin 256) (q : Fin 128), IsReal (x9 (ix2 k q))) :
    out1_15 (F := Ideal) x0 x1 x2 x3 x4 x5 x6 x7 x8 x9 x10 x11 x12 x13 x14 (ix2 p q)
      = ginRow (x2 (ix2 0 0)) (fun j => x0 (ix2 p j)) (fun j => x1 (ix2 p j)) (fun j k => x3 (ix2 j k))
          (fun k => x4 (ix2 0 k)) (fun k => x5 (ix2 0 k)) (fun k => x6 (ix2 0 k)) (fun k => x7 (ix2 0 k)) (fun k => x8 (ix2 0 k))
          (fun k q => x9 (ix2 k q)) (fun q => x10 (ix2 0 q)) (fun q => x11 (ix2 0 q)) (fun q => x12 (ix2 0 q)) (fun q => x13 (ix2 0 q))
          (fun q => x14 (ix2 0 q)) q := by
  rw [out1_eq]
  exact out0_row x0 x1 x2 x3 x4 x5 x6 x7 x8 x9 x10 x11 x12 x13 x14 p q hx ha he hw1 hb1 hg1 hbe1 hm1 hv1 hw2

/-! ## Layer 2's body is layer 0's

The program of layer 2 is the program of layer 0 cut into pieces at other places, with a shape cast to the same shape
(the identity) on the node rows; piece by piece the two are the same function. -/

/-- The second normalisation and rectifier: the ε that layer 0's piece takes as an argument is spelled inside. -/
theorem k2_pay1_eq (v71 v73 v77 : FVec Ideal S1x128 .f32) (v79 : FVec Ideal S10000x128 .f32) :
    k2_pay1 (F := Ideal) v71 v73 v77 v79 = k0_pay1 v71 v73 v77 v79 (Scalar.ofBits .f32 0x3727C5AC#32) := by
  unfold k2_pay1 k0_pay1; rfl

/-- The first affine map: up to a shape cast to the same shape. -/
theorem k2_pay2_eq (v0 : Vec Ideal S1x1 .f32) (v4 v8 : Vec Ideal S10000x128 .f32) (v11 : Vec Ideal S128x256 .f32)
    (v26 : Vec Ideal S1x256 .f32) :
    k2_pay2 (F := Ideal) v0 v4 v8 v11 v26 = k0_pay2 v0 v4 v8 v11 v26 := by
  unfold k2_pay2 k0_pay2; simp only [shapeCast_self]

/-- The second affine map less the running mean: the running variance's shape cast is inside this piece. -/
theorem k2_pay9_eq (v29 : FVec Ideal S10000x256 .f32) (v31 v33 v35 : FVec Ideal S1x256 .f32) (v36 : Vec Ideal S1x256 .f32)
    (v51 : Vec Ideal S256x128 .f32) (v66 v74 : Vec Ideal S1x128 .f32) :
    k2_pay9 (F := Ideal) v29 v31 v33 v35 v36 v51 v66 v74 = k0_pay10 v29 v31 v33 v35 (k0_pay6 v36) v51 v66 v74 := by
  unfold k2_pay9 k0_pay10 k0_pay6; simp only [shapeCast_self]

/-- What layer 2's body leaves in its output block is the same function of its input blocks as layer 0's. -/
theorem out2_eq (x0 x1 : Vec Ideal S10000x128 .f32) (x2 : Vec Ideal S1x1 .f32) (x3 : Vec Ideal S128x256 .f32)
    (x4 x5 x6 x7 x8 : Vec Ideal S1x256 .f32) (x9 : Vec Ideal S256x128 .f32) (x10 x11 x12 x13 x14 : Vec Ideal S1x128 .f32) :
    out2_15 (F := Ideal) x0 x1 x2 x3 x4 x5 x6 x7 x8 x9 x10 x11 x12 x13 x14 = out0_15 x0 x1 x2 x3 x4 x5 x6 x7 x8 x9 x10 x11 x12 x13 x14 := by
  unfold out2_15 out0_15
  rw [k2_pay1_eq, k2_pay9_eq, k2_pay2_eq]
  rfl

/-- Layer 2's output block at row p and column q is the layer's row of the specification. -/
theorem out2_row (x0 x1 : Vec Ideal S10000x128 .f32) (x2 : Vec Ideal S1x1 .f32) (x3 : Vec Ideal S128x256 .f32)
    (x4 x5 x6 x7 x8 : Vec Ideal S1x256 .f32) (x9 : Vec Ideal S256x128 .f32) (x10 x11 x12 x13 x14 : Vec Ideal S1x128 .f32)
    (p : Fin 10000) (q : Fin 128)
    (hx : ∀ j : Fin 128, IsReal (x0 (ix2 p j))) (ha : ∀ j : Fin 128, IsReal (x1 (ix2 p j))) (he : IsReal (x2 (ix2 0 0)))
    (hw1 : ∀ (j : Fin 128) (k : Fin 256), IsReal (x3 (ix2 j k)))
    (hb1 : ∀ k : Fin 256, IsReal (x4 (ix2 0 k))) (hg1 : ∀ k : Fin 256, IsReal (x5 (ix2 0 k)))
    (hbe1 : ∀ k : Fin 256, IsReal (x6 (ix2 0 k))) (hm1 : ∀ k : Fin 256, IsReal (x7 (ix2 0 k)))
    (hv1 : ∀ k : Fin 256, ∃ r : ℝ, 0 ≤ r ∧ x8 (ix2 0 k) = (r : EReal))
    (hw2 : ∀ (k : Fin 256) (q : Fin 128), IsReal (x9 (ix2 k q))) :
    out2_15 (F := Ideal) x0 x1 x2 x3 x4 x5 x6 x7 x8 x9 x10 x11 x12 x13 x14 (ix2 p q)
      = ginRow (x2 (ix2 0 0)) (fun j => x0 (ix2 p j)) (fun j => x1 (ix2 p j)) (fun j k => x3 (ix2 j k))
          (fun k => x4 (ix2 0 k)) (fun k => x5 (ix2 0 k)) (fun k => x6 (ix2 0 k)) (fun k => x7 (ix2 0 k)) (fun k => x8 (ix2 0 k))
          (fun k q => x9 (ix2 k q)) (fun q => x10 (ix2 0 q)) (fun q => x11 (ix2 0 q)) (fun q => x12 (ix2 0 q)) (fun q => x13 (ix2 0 q))
          (fun q => x14 (ix2 0 q)) q := by
  rw [out2_eq]
  exact out0_row x0 x1 x2 x3 x4 x5 x6 x7 x8 x9 x10 x11 x12 x13 x14 p q hx ha he hw1 hb1 hg1 hbe1 hm1 hv1 hw2

/-! ## Layer 3's body is layer 0's

The program of layer 3 is the program of layer 0 cut into pieces at other places, with a shape cast to the same shape
(the identity) on the node rows; piece by piece the two are the same function. -/

/-- The second normalisation and rectifier: the ε that layer 0's piece takes as an argument is spelled inside. -/
theorem k3_pay1_eq (v71 v73 v77 : FVec Ideal S1x128 .f32) (v79 : FVec Ideal S10000x128 .f32) :
    k3_pay1 (F := Ideal) v71 v73 v77 v79 = k0_pay1 v71 v73 v77 v79 (Scalar.ofBits .f32 0x3727C5AC#32) := by
  unfold k3_pay1 k0_pay1; rfl

/-- The first affine map: up to a shape cast to the same shape. -/
theorem k3_pay2_eq (v0 : Vec Ideal S1x1 .f32) (v4 v8 : Vec Ideal S10000x128 .f32) (v11 : Vec Ideal S128x256 .f32)
    (v26 : Vec Ideal S1x256 .f32) :
    k3_pay2 (F := Ideal) v0 v4 v8 v11 v26 = k0_pay2 v0 v4 v8 v11 v26 := by
  unfold k3_pay2 k0_pay2; simp only [shapeCast_self]

/-- The second affine map less the running mean: the running variance's shape cast is inside this piece. -/
theorem k3_pay9_eq (v29 : FVec Ideal S10000x256 .f32) (v31 v33 v35 : FVec Ideal S1x256 .f32) (v36 : Vec Ideal S1x256 .f32)
    (v51 : Vec Ideal S256x128 .f32) (v66 v74 : Vec Ideal S1x128 .f32) :
    k3_pay9 (F := Ideal) v29 v31 v33 v35 v36 v51 v66 v74 = k0_pay10 v29 v31 v33 v35 (k0_pay6 v36) v51 v66 v74 := by
  unfold k3_pay9 k0_pay10 k0_pay6; simp only [shapeCast_self]

/-- What layer 3's body leaves in its output block is the same function of its input blocks as layer 0's. -/
theorem out3_eq (x0 x1 : Vec Ideal S10000x128 .f32) (x2 : Vec Ideal S1x1 .f32) (x3 : Vec Ideal S128x256 .f32)
    (x4 x5 x6 x7 x8 : Vec Ideal S1x256 .f32) (x9 : Vec Ideal S256x128 .f32) (x10 x11 x12 x13 x14 : Vec Ideal S1x128 .f32) :
    out3_15 (F := Ideal) x0 x1 x2 x3 x4 x5 x6 x7 x8 x9 x10 x11 x12 x13 x14 = out0_15 x0 x1 x2 x3 x4 x5 x6 x7 x8 x9 x10 x11 x12 x13 x14 := by
  unfold out3_15 out0_15
  rw [k3_pay1_eq, k3_pay9_eq, k3_pay2_eq]
  rfl

/-- Layer 3's output block at row p and column q is the layer's row of the specification. -/
theorem out3_row (x0 x1 : Vec Ideal S10000x128 .f32) (x2 : Vec Ideal S1x1 .f32) (x3 : Vec Ideal S128x256 .f32)
    (x4 x5 x6 x7 x8 : Vec Ideal S1x256 .f32) (x9 : Vec Ideal S256x128 .f32) (x10 x11 x12 x13 x14 : Vec Ideal S1x128 .f32)
    (p : Fin 10000) (q : Fin 128)
    (hx : ∀ j : Fin 128, IsReal (x0 (ix2 p j))) (ha : ∀ j : Fin 128, IsReal (x1 (ix2 p j))) (he : IsReal (x2 (ix2 0 0)))
    (hw1 : ∀ (j : Fin 128) (k : Fin 256), IsReal (x3 (ix2 j k)))
    (hb1 : ∀ k : Fin 256, IsReal (x4 (ix2 0 k))) (hg1 : ∀ k : Fin 256, IsReal (x5 (ix2 0 k)))
    (hbe1 : ∀ k : Fin 256, IsReal (x6 (ix2 0 k))) (hm1 : ∀ k : Fin 256, IsReal (x7 (ix2 0 k)))
    (hv1 : ∀ k : Fin 256, ∃ r : ℝ, 0 ≤ r ∧ x8 (ix2 0 k) = (r : EReal))
    (hw2 : ∀ (k : Fin 256) (q : Fin 128), IsReal (x9 (ix2 k q))) :
    out3_15 (F := Ideal) x0 x1 x2 x3 x4 x5 x6 x7 x8 x9 x10 x11 x12 x13 x14 (ix2 p q)
      = ginRow (x2 (ix2 0 0)) (fun j => x0 (ix2 p j)) (fun j => x1 (ix2 p j)) (fun j k => x3 (ix2 j k))
          (fun k => x4 (ix2 0 k)) (fun k => x5 (ix2 0 k)) (fun k => x6 (ix2 0 k)) (fun k => x7 (ix2 0 k)) (fun k => x8 (ix2 0 k))
          (fun k q => x9 (ix2 k q)) (fun q => x10 (ix2 0 q)) (fun q => x11 (ix2 0 q)) (fun q => x12 (ix2 0 q)) (fun q => x13 (ix2 0 q))
          (fun q => x14 (ix2 0 q)) q := by
  rw [out3_eq]
  exact out0_row x0 x1 x2 x3 x4 x5 x6 x7 x8 x9 x10 x11 x12 x13 x14 p q hx ha he hw1 hb1 hg1 hbe1 hm1 hv1 hw2

end Cert.Gin.KernelRow

end
-- ==== Proof.KRegion0.lean ====
/-
  Layer 1 of the kernel as one array: after the grid's ten points, row r of the layer's output array is the layer's
  row function of row r of the node features and of the neighbour sums as the region found them. Point t holds rows
  10000·t … 10000·t + 9999; the parameter windows hold their whole arrays at every point; the ten blocks cover the array.
-/
import proofs.«113793_j3350074490963_2_alg».proof.Proof.Gen.KernelIdeal.Frame
import proofs.«113793_j3350074490963_2_alg».proof.Proof.KData
import proofs.«113793_j3350074490963_2_alg».proof.Proof.GinKernelRow
import Idealize.ShloMosaic.Lib.ValueIdx
import Idealize.ShloMosaic.Lib.Pipeline.Value

set_option maxRecDepth 16384

noncomputable section

namespace Cert.Gin.Region0

open Cert.KernelIdeal Cert.KernelIdeal.Gen Idealize.ShloMosaic Idealize.ShloMosaic.ValueIdx Idealize.ShloMosaic.TcCoe Idealize.SL.Sem
open Cert.RealValued Cert.Gin
open Cert.Gin.KernelRow

variable (V : (c : Dev nD) → (b : Ref sig .tc) → Buf (Elt Ideal) ((c : Thread nD τ).loc b))

/-- The arrays the region reads, as it finds them. -/
abbrev data (c : Dev nD) : LayerData := Cert.Gin.Kdata.data0 V c

/-- The printed index maps over the grid: the row windows and the output move with the point, every parameter window stays. -/
theorem idx_facts : ∀ t : Fin cfg0.N,
    win0_15.index t (0 : Fin 2) = t.val
    ∧ win0_15.index t (1 : Fin 2) = 0
    ∧ win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0 :=
  (by decide +kernel : ∀ t : Fin grid0.N, _)

/-- Window 0's block at point t is rows 10000·t … of its array. -/
theorem blk0 (c : Dev nD) (t : Fin cfg0.N) (y : S10000x128.Idx) (i : S100000x128.Idx)
    (h0 : (i 0).val = t.val * 10000 + (y 0).val) (h1 : (i 1).val = (y 1).val) : iblk0 V c 0 t y = V c main_arg0 i := by
  show V c main_arg0 (((cfg0.win 0).blk t).view.emb y) = V c main_arg0 i
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win0_0.index t (0 : Fin 2) * 10000 + 1 * (y 0).val = (i 0).val; omega
  | ⟨1, _⟩ => show win0_0.index t (1 : Fin 2) * 128 + 1 * (y 1).val = (i 1).val; omega

/-- Window 1's block at point t is rows 10000·t … of its array. -/
theorem blk1 (c : Dev nD) (t : Fin cfg0.N) (y : S10000x128.Idx) (i : S100000x128.Idx)
    (h0 : (i 0).val = t.val * 10000 + (y 0).val) (h1 : (i 1).val = (y 1).val) : iblk0 V c 1 t y = V c main_v13 i := by
  show V c main_v13 (((cfg0.win 1).blk t).view.emb y) = V c main_v13 i
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win0_1.index t (0 : Fin 2) * 10000 + 1 * (y 0).val = (i 0).val; omega
  | ⟨1, _⟩ => show win0_1.index t (1 : Fin 2) * 128 + 1 * (y 1).val = (i 1).val; omega

/-- Window 2's block is its whole array at every point. -/
theorem blk2 (c : Dev nD) (t : Fin cfg0.N) (y : S1x1.Idx) : iblk0 V c 2 t y = V c main_v50 y := by
  show V c main_v50 (((cfg0.win 2).blk t).view.emb y) = V c main_v50 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win0_2.index t (0 : Fin 2) * 1 + 1 * (y 0).val = (y 0).val; omega
  | ⟨1, _⟩ => show win0_2.index t (1 : Fin 2) * 1 + 1 * (y 1).val = (y 1).val; omega

/-- Window 3's block is its whole array at every point. -/
theorem blk3 (c : Dev nD) (t : Fin cfg0.N) (y : S128x256.Idx) : iblk0 V c 3 t y = V c main_v17 y := by
  show V c main_v17 (((cfg0.win 3).blk t).view.emb y) = V c main_v17 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win0_3.index t (0 : Fin 2) * 128 + 1 * (y 0).val = (y 0).val; omega
  | ⟨1, _⟩ => show win0_3.index t (1 : Fin 2) * 256 + 1 * (y 1).val = (y 1).val; omega

/-- Window 4's block is its whole array at every point. -/
theorem blk4 (c : Dev nD) (t : Fin cfg0.N) (y : S1x256.Idx) : iblk0 V c 4 t y = V c main_v40 y := by
  show V c main_v40 (((cfg0.win 4).blk t).view.emb y) = V c main_v40 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Window 5's block is its whole array at every point. -/
theorem blk5 (c : Dev nD) (t : Fin cfg0.N) (y : S1x256.Idx) : iblk0 V c 5 t y = V c main_v41 y := by
  show V c main_v41 (((cfg0.win 5).blk t).view.emb y) = V c main_v41 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- Window 6's block is its whole array at every point. -/
theorem blk6 (c : Dev nD) (t : Fin cfg0.N) (y : S1x256.Idx) : iblk0 V c 6 t y = V c main_v42 y := by
  show V c main_v42 (((cfg0.win 6).blk t).view.emb y) = V c main_v42 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win0_6.index t (0 : Fin 2) * 1 + 1 * (y 0).val = (y 0).val; omega
  | ⟨1, _⟩ => show win0_6.index t (1 : Fin 2) * 256 + 1 * (y 1).val = (y 1).val; omega

/-- Window 7's block is its whole array at every point. -/
theorem blk7 (c : Dev nD) (t : Fin cfg0.N) (y : S1x256.Idx) : iblk0 V c 7 t y = V c main_v43 y := by
  show V c main_v43 (((cfg0.win 7).blk t).view.emb y) = V c main_v43 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win0_7.index t (0 : Fin 2) * 1 + 1 * (y 0).val = (y 0).val; omega
  | ⟨1, _⟩ => show win0_7.index t (1 : Fin 2) * 256 + 1 * (y 1).val = (y 1).val; omega

/-- Window 8's block is its whole array at every point. -/
theorem blk8 (c : Dev nD) (t : Fin cfg0.N) (y : S1x256.Idx) : iblk0 V c 8 t y = V c main_v44 y := by
  show V c main_v44 (((cfg0.win 8).blk t).view.emb y) = V c main_v44 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win0_8.index t (0 : Fin 2) * 1 + 1 * (y 0).val = (y 0).val; omega
  | ⟨1, _⟩ => show win0_8.index t (1 : Fin 2) * 256 + 1 * (y 1).val = (y 1).val; omega

/-- Window 9's block is its whole array at every point. -/
theorem blk9 (c : Dev nD) (t : Fin cfg0.N) (y : S256x128.Idx) : iblk0 V c 9 t y = V c main_v29 y := by
  show V c main_v29 (((cfg0.win 9).blk t).view.emb y) = V c main_v29 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win0_9.index t (0 : Fin 2) * 256 + 1 * (y 0).val = (y 0).val; omega
  | ⟨1, _⟩ => show win0_9.index t (1 : Fin 2) * 128 + 1 * (y 1).val = (y 1).val; omega

/-- Window 10's block is its whole array at every point. -/
theorem blk10 (c : Dev nD) (t : Fin cfg0.N) (y : S1x128.Idx) : iblk0 V c 10 t y = V c main_v45 y := by
  show V c main_v45 (((cfg0.win 10).blk t).view.emb y) = V c main_v45 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- Window 11's block is its whole array at every point. -/
theorem blk11 (c : Dev nD) (t : Fin cfg0.N) (y : S1x128.Idx) : iblk0 V c 11 t y = V c main_v46 y := by
  show V c main_v46 (((cfg0.win 11).blk t).view.emb y) = V c main_v46 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win0_11.index t (0 : Fin 2) * 1 + 1 * (y 0).val = (y 0).val; omega
  | ⟨1, _⟩ => show win0_11.index t (1 : Fin 2) * 128 + 1 * (y 1).val = (y 1).val; omega

/-- Window 12's block is its whole array at every point. -/
theorem blk12 (c : Dev nD) (t : Fin cfg0.N) (y : S1x128.Idx) : iblk0 V c 12 t y = V c main_v47 y := by
  show V c main_v47 (((cfg0.win 12).blk t).view.emb y) = V c main_v47 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win0_12.index t (0 : Fin 2) * 1 + 1 * (y 0).val = (y 0).val; omega
  | ⟨1, _⟩ => show win0_12.index t (1 : Fin 2) * 128 + 1 * (y 1).val = (y 1).val; omega

/-- Window 13's block is its whole array at every point. -/
theorem blk13 (c : Dev nD) (t : Fin cfg0.N) (y : S1x128.Idx) : iblk0 V c 13 t y = V c main_v48 y := by
  show V c main_v48 (((cfg0.win 13).blk t).view.emb y) = V c main_v48 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win0_13.index t (0 : Fin 2) * 1 + 1 * (y 0).val = (y 0).val; omega
  | ⟨1, _⟩ => show win0_13.index t (1 : Fin 2) * 128 + 1 * (y 1).val = (y 1).val; omega

/-- Window 14's block is its whole array at every point. -/
theorem blk14 (c : Dev nD) (t : Fin cfg0.N) (y : S1x128.Idx) : iblk0 V c 14 t y = V c main_v49 y := by
  show V c main_v49 (((cfg0.win 14).blk t).view.emb y) = V c main_v49 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win0_14.index t (0 : Fin 2) * 1 + 1 * (y 0).val = (y 0).val; omega
  | ⟨1, _⟩ => show win0_14.index t (1 : Fin 2) * 128 + 1 * (y 1).val = (y 1).val; omega

/-- What point t writes back at (p, q) is the layer's row function at the array's row 10000·t + p. -/
theorem flushed_at (c : Dev nD) (hR : (data V c).Real) (t : Fin cfg0.N) (p : Fin 10000) (q : Fin 128) (i : S100000x128.Idx)
    (h0 : (i 0).val = t.val * 10000 + p.val) (h1 : (i 1).val = q.val) :
    out0_15 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (ix2 p q) = (data V c).out i := by
  refine (out0_row (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) p q
    (fun j => by rw [blk0 V c t (ix2 p j) (ix2 (i 0) j) h0 rfl]; exact hR.x _)
    (fun j => by rw [blk1 V c t (ix2 p j) (ix2 (i 0) j) h0 rfl]; exact hR.a _)
    (by rw [blk2 V c t]; exact hR.e _)
    (fun j k => by rw [blk3 V c t]; exact hR.w1 _)
    (fun k => by rw [blk4 V c t]; exact hR.b1 _)
    (fun k => by rw [blk5 V c t]; exact hR.g1 _)
    (fun k => by rw [blk6 V c t]; exact hR.be1 _)
    (fun k => by rw [blk7 V c t]; exact hR.m1 _)
    (fun k => by rw [blk8 V c t]; exact hR.v1 _)
    (fun k q => by rw [blk9 V c t]; exact hR.w2 _)).trans ?_
  have eq : (i 1) = q := Fin.ext h1
  unfold LayerData.out
  simp only [data, Cert.Gin.Kdata.data0, blk0 V c t (ix2 p _) (ix2 (i 0) _) h0 rfl, blk1 V c t (ix2 p _) (ix2 (i 0) _) h0 rfl,
    blk2 V c t, blk3 V c t, blk4 V c t, blk5 V c t, blk6 V c t, blk7 V c t, blk8 V c t, blk9 V c t, blk10 V c t, blk11 V c t,
    blk12 V c t, blk13 V c t, blk14 V c t, eq]

/-- Every index of the output array is in some point's block. -/
theorem cover (i : S100000x128.Idx) :
    ∃ t : Fin cfg0.N, (cfg0.win 15).flush t = true ∧ i ∈ ((cfg0.win 15).blk t).view.set := by
  have hi0 : (i 0).val < 100000 := (i 0).isLt
  have hi1 : (i 1).val < 128 := (i 1).isLt
  have hN : cfg0.N = 10 := N_0
  have hlt : (i 0).val / 10000 < cfg0.N := by rw [hN]; omega
  refine ⟨⟨(i 0).val / 10000, hlt⟩, flush0_15 _, ?_⟩
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts ⟨(i 0).val / 10000, hlt⟩
  show i ∈ ((View.whole main_v51).slice (win0_15.rect ⟨(i 0).val / 10000, hlt⟩)).set
  rw [View.set_slice_whole, Rect.mem_set_unit]
  intro a
  match a with
  | ⟨0, _⟩ => show win0_15.index ⟨(i 0).val / 10000, hlt⟩ (0 : Fin 2) * 10000 ≤ (i 0).val ∧ (i 0).val < win0_15.index ⟨(i 0).val / 10000, hlt⟩ (0 : Fin 2) * 10000 + 10000; rw [f15a]; show (i 0).val / 10000 * 10000 ≤ (i 0).val ∧ (i 0).val < (i 0).val / 10000 * 10000 + 10000; omega
  | ⟨1, _⟩ => show win0_15.index ⟨(i 0).val / 10000, hlt⟩ (1 : Fin 2) * 128 ≤ (i 1).val ∧ (i 1).val < win0_15.index ⟨(i 0).val / 10000, hlt⟩ (1 : Fin 2) * 128 + 128; rw [f15b]; omega

/-- THE LAYER'S OUTPUT ARRAY after the region: the layer's row function, row by row, of the arrays the region found. -/
theorem final (c : Dev nD) (hR : (data V c).Real) : (dat0 V c).arrAt 15 cfg0.N = (data V c).out := by
  funext i
  refine (dat0 V c).arrAt_forall_of_cover 15 (fun i v => v = (data V c).out i) (fun t _ y => ?_) (cover) i
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  show (dat0 V c).flushed 15 t y = (data V c).out (((cfg0.win 15).blk t).view.emb y)
  have hfl : (dat0 V c).flushed 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := after0_15 V c t
  rw [hfl, show y = ix2 (y 0) (y 1) from eq_ix2 y]
  refine flushed_at V c hR t (y 0) (y 1) _ ?_ ?_
  · show win0_15.index t (0 : Fin 2) * 10000 + 1 * ((ix2 (y 0) (y 1) : S10000x128.Idx) 0).val = t.val * 10000 + (y 0).val
    rw [f15a]; show t.val * 10000 + 1 * (y 0).val = _; omega
  · show win0_15.index t (1 : Fin 2) * 128 + 1 * ((ix2 (y 0) (y 1) : S10000x128.Idx) 1).val = (y 1).val
    rw [f15b]; show 0 * 128 + 1 * (y 1).val = _; omega

end Cert.Gin.Region0

end
-- ==== Proof.KRegion1.lean ====
/-
  Layer 2 of the kernel as one array: after the grid's ten points, row r of the layer's output array is the layer's
  row function of row r of the node features and of the neighbour sums as the region found them. Point t holds rows
  10000·t … 10000·t + 9999; the parameter windows hold their whole arrays at every point; the ten blocks cover the array.
-/
import proofs.«113793_j3350074490963_2_alg».proof.Proof.Gen.KernelIdeal.Frame
import proofs.«113793_j3350074490963_2_alg».proof.Proof.KData
import proofs.«113793_j3350074490963_2_alg».proof.Proof.GinKernelRow
import Idealize.ShloMosaic.Lib.ValueIdx
import Idealize.ShloMosaic.Lib.Pipeline.Value

set_option maxRecDepth 16384

noncomputable section

namespace Cert.Gin.Region1

open Cert.KernelIdeal Cert.KernelIdeal.Gen Idealize.ShloMosaic Idealize.ShloMosaic.ValueIdx Idealize.ShloMosaic.TcCoe Idealize.SL.Sem
open Cert.RealValued Cert.Gin
open Cert.Gin.KernelRow

variable (V : (c : Dev nD) → (b : Ref sig .tc) → Buf (Elt Ideal) ((c : Thread nD τ).loc b))

/-- The arrays the region reads, as it finds them. -/
abbrev data (c : Dev nD) : LayerData := Cert.Gin.Kdata.data1 V c

/-- The printed index maps over the grid: the row windows and the output move with the point, every parameter window stays. -/
theorem idx_facts : ∀ t : Fin cfg1.N,
    win1_15.index t (0 : Fin 2) = t.val
    ∧ win1_15.index t (1 : Fin 2) = 0
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = 0
    ∧ win1_12.index t (1 : Fin 2) = 0
    ∧ win1_13.index t (0 : Fin 2) = 0
    ∧ win1_13.index t (1 : Fin 2) = 0
    ∧ win1_14.index t (0 : Fin 2) = 0
    ∧ win1_14.index t (1 : Fin 2) = 0 :=
  (by decide +kernel : ∀ t : Fin grid1.N, _)

/-- Window 0's block at point t is rows 10000·t … of its array. -/
theorem blk0 (c : Dev nD) (t : Fin cfg1.N) (y : S10000x128.Idx) (i : S100000x128.Idx)
    (h0 : (i 0).val = t.val * 10000 + (y 0).val) (h1 : (i 1).val = (y 1).val) : iblk1 V c 0 t y = V c main_v51 i := by
  show V c main_v51 (((cfg1.win 0).blk t).view.emb y) = V c main_v51 i
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win1_0.index t (0 : Fin 2) * 10000 + 1 * (y 0).val = (i 0).val; omega
  | ⟨1, _⟩ => show win1_0.index t (1 : Fin 2) * 128 + 1 * (y 1).val = (i 1).val; omega

/-- Window 1's block at point t is rows 10000·t … of its array. -/
theorem blk1 (c : Dev nD) (t : Fin cfg1.N) (y : S10000x128.Idx) (i : S100000x128.Idx)
    (h0 : (i 0).val = t.val * 10000 + (y 0).val) (h1 : (i 1).val = (y 1).val) : iblk1 V c 1 t y = V c main_v61 i := by
  show V c main_v61 (((cfg1.win 1).blk t).view.emb y) = V c main_v61 i
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win1_1.index t (0 : Fin 2) * 10000 + 1 * (y 0).val = (i 0).val; omega
  | ⟨1, _⟩ => show win1_1.index t (1 : Fin 2) * 128 + 1 * (y 1).val = (i 1).val; omega

/-- Window 2's block is its whole array at every point. -/
theorem blk2 (c : Dev nD) (t : Fin cfg1.N) (y : S1x1.Idx) : iblk1 V c 2 t y = V c main_v98 y := by
  show V c main_v98 (((cfg1.win 2).blk t).view.emb y) = V c main_v98 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win1_2.index t (0 : Fin 2) * 1 + 1 * (y 0).val = (y 0).val; omega
  | ⟨1, _⟩ => show win1_2.index t (1 : Fin 2) * 1 + 1 * (y 1).val = (y 1).val; omega

/-- Window 3's block is its whole array at every point. -/
theorem blk3 (c : Dev nD) (t : Fin cfg1.N) (y : S128x256.Idx) : iblk1 V c 3 t y = V c main_v65 y := by
  show V c main_v65 (((cfg1.win 3).blk t).view.emb y) = V c main_v65 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win1_3.index t (0 : Fin 2) * 128 + 1 * (y 0).val = (y 0).val; omega
  | ⟨1, _⟩ => show win1_3.index t (1 : Fin 2) * 256 + 1 * (y 1).val = (y 1).val; omega

/-- Window 4's block is its whole array at every point. -/
theorem blk4 (c : Dev nD) (t : Fin cfg1.N) (y : S1x256.Idx) : iblk1 V c 4 t y = V c main_v88 y := by
  show V c main_v88 (((cfg1.win 4).blk t).view.emb y) = V c main_v88 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win1_4.index t (0 : Fin 2) * 1 + 1 * (y 0).val = (y 0).val; omega
  | ⟨1, _⟩ => show win1_4.index t (1 : Fin 2) * 256 + 1 * (y 1).val = (y 1).val; omega

/-- Window 5's block is its whole array at every point. -/
theorem blk5 (c : Dev nD) (t : Fin cfg1.N) (y : S1x256.Idx) : iblk1 V c 5 t y = V c main_v89 y := by
  show V c main_v89 (((cfg1.win 5).blk t).view.emb y) = V c main_v89 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win1_5.index t (0 : Fin 2) * 1 + 1 * (y 0).val = (y 0).val; omega
  | ⟨1, _⟩ => show win1_5.index t (1 : Fin 2) * 256 + 1 * (y 1).val = (y 1).val; omega

/-- Window 6's block is its whole array at every point. -/
theorem blk6 (c : Dev nD) (t : Fin cfg1.N) (y : S1x256.Idx) : iblk1 V c 6 t y = V c main_v90 y := by
  show V c main_v90 (((cfg1.win 6).blk t).view.emb y) = V c main_v90 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win1_6.index t (0 : Fin 2) * 1 + 1 * (y 0).val = (y 0).val; omega
  | ⟨1, _⟩ => show win1_6.index t (1 : Fin 2) * 256 + 1 * (y 1).val = (y 1).val; omega

/-- Window 7's block is its whole array at every point. -/
theorem blk7 (c : Dev nD) (t : Fin cfg1.N) (y : S1x256.Idx) : iblk1 V c 7 t y = V c main_v91 y := by
  show V c main_v91 (((cfg1.win 7).blk t).view.emb y) = V c main_v91 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win1_7.index t (0 : Fin 2) * 1 + 1 * (y 0).val = (y 0).val; omega
  | ⟨1, _⟩ => show win1_7.index t (1 : Fin 2) * 256 + 1 * (y 1).val = (y 1).val; omega

/-- Window 8's block is its whole array at every point. -/
theorem blk8 (c : Dev nD) (t : Fin cfg1.N) (y : S1x256.Idx) : iblk1 V c 8 t y = V c main_v92 y := by
  show V c main_v92 (((cfg1.win 8).blk t).view.emb y) = V c main_v92 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win1_8.index t (0 : Fin 2) * 1 + 1 * (y 0).val = (y 0).val; omega
  | ⟨1, _⟩ => show win1_8.index t (1 : Fin 2) * 256 + 1 * (y 1).val = (y 1).val; omega

/-- Window 9's block is its whole array at every point. -/
theorem blk9 (c : Dev nD) (t : Fin cfg1.N) (y : S256x128.Idx) : iblk1 V c 9 t y = V c main_v77 y := by
  show V c main_v77 (((cfg1.win 9).blk t).view.emb y) = V c main_v77 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win1_9.index t (0 : Fin 2) * 256 + 1 * (y 0).val = (y 0).val; omega
  | ⟨1, _⟩ => show win1_9.index t (1 : Fin 2) * 128 + 1 * (y 1).val = (y 1).val; omega

/-- Window 10's block is its whole array at every point. -/
theorem blk10 (c : Dev nD) (t : Fin cfg1.N) (y : S1x128.Idx) : iblk1 V c 10 t y = V c main_v93 y := by
  show V c main_v93 (((cfg1.win 10).blk t).view.emb y) = V c main_v93 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win1_10.index t (0 : Fin 2) * 1 + 1 * (y 0).val = (y 0).val; omega
  | ⟨1, _⟩ => show win1_10.index t (1 : Fin 2) * 128 + 1 * (y 1).val = (y 1).val; omega

/-- Window 11's block is its whole array at every point. -/
theorem blk11 (c : Dev nD) (t : Fin cfg1.N) (y : S1x128.Idx) : iblk1 V c 11 t y = V c main_v94 y := by
  show V c main_v94 (((cfg1.win 11).blk t).view.emb y) = V c main_v94 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win1_11.index t (0 : Fin 2) * 1 + 1 * (y 0).val = (y 0).val; omega
  | ⟨1, _⟩ => show win1_11.index t (1 : Fin 2) * 128 + 1 * (y 1).val = (y 1).val; omega

/-- Window 12's block is its whole array at every point. -/
theorem blk12 (c : Dev nD) (t : Fin cfg1.N) (y : S1x128.Idx) : iblk1 V c 12 t y = V c main_v95 y := by
  show V c main_v95 (((cfg1.win 12).blk t).view.emb y) = V c main_v95 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win1_12.index t (0 : Fin 2) * 1 + 1 * (y 0).val = (y 0).val; omega
  | ⟨1, _⟩ => show win1_12.index t (1 : Fin 2) * 128 + 1 * (y 1).val = (y 1).val; omega

/-- Window 13's block is its whole array at every point. -/
theorem blk13 (c : Dev nD) (t : Fin cfg1.N) (y : S1x128.Idx) : iblk1 V c 13 t y = V c main_v96 y := by
  show V c main_v96 (((cfg1.win 13).blk t).view.emb y) = V c main_v96 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win1_13.index t (0 : Fin 2) * 1 + 1 * (y 0).val = (y 0).val; omega
  | ⟨1, _⟩ => show win1_13.index t (1 : Fin 2) * 128 + 1 * (y 1).val = (y 1).val; omega

/-- Window 14's block is its whole array at every point. -/
theorem blk14 (c : Dev nD) (t : Fin cfg1.N) (y : S1x128.Idx) : iblk1 V c 14 t y = V c main_v97 y := by
  show V c main_v97 (((cfg1.win 14).blk t).view.emb y) = V c main_v97 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win1_14.index t (0 : Fin 2) * 1 + 1 * (y 0).val = (y 0).val; omega
  | ⟨1, _⟩ => show win1_14.index t (1 : Fin 2) * 128 + 1 * (y 1).val = (y 1).val; omega

/-- What point t writes back at (p, q) is the layer's row function at the array's row 10000·t + p. -/
theorem flushed_at (c : Dev nD) (hR : (data V c).Real) (t : Fin cfg1.N) (p : Fin 10000) (q : Fin 128) (i : S100000x128.Idx)
    (h0 : (i 0).val = t.val * 10000 + p.val) (h1 : (i 1).val = q.val) :
    out1_15 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (ix2 p q) = (data V c).out i := by
  refine (out1_row (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) p q
    (fun j => by rw [blk0 V c t (ix2 p j) (ix2 (i 0) j) h0 rfl]; exact hR.x _)
    (fun j => by rw [blk1 V c t (ix2 p j) (ix2 (i 0) j) h0 rfl]; exact hR.a _)
    (by rw [blk2 V c t]; exact hR.e _)
    (fun j k => by rw [blk3 V c t]; exact hR.w1 _)
    (fun k => by rw [blk4 V c t]; exact hR.b1 _)
    (fun k => by rw [blk5 V c t]; exact hR.g1 _)
    (fun k => by rw [blk6 V c t]; exact hR.be1 _)
    (fun k => by rw [blk7 V c t]; exact hR.m1 _)
    (fun k => by rw [blk8 V c t]; exact hR.v1 _)
    (fun k q => by rw [blk9 V c t]; exact hR.w2 _)).trans ?_
  have eq : (i 1) = q := Fin.ext h1
  unfold LayerData.out
  simp only [data, Cert.Gin.Kdata.data1, blk0 V c t (ix2 p _) (ix2 (i 0) _) h0 rfl, blk1 V c t (ix2 p _) (ix2 (i 0) _) h0 rfl,
    blk2 V c t, blk3 V c t, blk4 V c t, blk5 V c t, blk6 V c t, blk7 V c t, blk8 V c t, blk9 V c t, blk10 V c t, blk11 V c t,
    blk12 V c t, blk13 V c t, blk14 V c t, eq]

/-- Every index of the output array is in some point's block. -/
theorem cover (i : S100000x128.Idx) :
    ∃ t : Fin cfg1.N, (cfg1.win 15).flush t = true ∧ i ∈ ((cfg1.win 15).blk t).view.set := by
  have hi0 : (i 0).val < 100000 := (i 0).isLt
  have hi1 : (i 1).val < 128 := (i 1).isLt
  have hN : cfg1.N = 10 := N_1
  have hlt : (i 0).val / 10000 < cfg1.N := by rw [hN]; omega
  refine ⟨⟨(i 0).val / 10000, hlt⟩, flush1_15 _, ?_⟩
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts ⟨(i 0).val / 10000, hlt⟩
  show i ∈ ((View.whole main_v99).slice (win1_15.rect ⟨(i 0).val / 10000, hlt⟩)).set
  rw [View.set_slice_whole, Rect.mem_set_unit]
  intro a
  match a with
  | ⟨0, _⟩ => show win1_15.index ⟨(i 0).val / 10000, hlt⟩ (0 : Fin 2) * 10000 ≤ (i 0).val ∧ (i 0).val < win1_15.index ⟨(i 0).val / 10000, hlt⟩ (0 : Fin 2) * 10000 + 10000; rw [f15a]; show (i 0).val / 10000 * 10000 ≤ (i 0).val ∧ (i 0).val < (i 0).val / 10000 * 10000 + 10000; omega
  | ⟨1, _⟩ => show win1_15.index ⟨(i 0).val / 10000, hlt⟩ (1 : Fin 2) * 128 ≤ (i 1).val ∧ (i 1).val < win1_15.index ⟨(i 0).val / 10000, hlt⟩ (1 : Fin 2) * 128 + 128; rw [f15b]; omega

/-- THE LAYER'S OUTPUT ARRAY after the region: the layer's row function, row by row, of the arrays the region found. -/
theorem final (c : Dev nD) (hR : (data V c).Real) : (dat1 V c).arrAt 15 cfg1.N = (data V c).out := by
  funext i
  refine (dat1 V c).arrAt_forall_of_cover 15 (fun i v => v = (data V c).out i) (fun t _ y => ?_) (cover) i
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  show (dat1 V c).flushed 15 t y = (data V c).out (((cfg1.win 15).blk t).view.emb y)
  have hfl : (dat1 V c).flushed 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := after1_15 V c t
  rw [hfl, show y = ix2 (y 0) (y 1) from eq_ix2 y]
  refine flushed_at V c hR t (y 0) (y 1) _ ?_ ?_
  · show win1_15.index t (0 : Fin 2) * 10000 + 1 * ((ix2 (y 0) (y 1) : S10000x128.Idx) 0).val = t.val * 10000 + (y 0).val
    rw [f15a]; show t.val * 10000 + 1 * (y 0).val = _; omega
  · show win1_15.index t (1 : Fin 2) * 128 + 1 * ((ix2 (y 0) (y 1) : S10000x128.Idx) 1).val = (y 1).val
    rw [f15b]; show 0 * 128 + 1 * (y 1).val = _; omega

end Cert.Gin.Region1

end
-- ==== Proof.KRegion2.lean ====
/-
  Layer 3 of the kernel as one array: after the grid's ten points, row r of the layer's output array is the layer's
  row function of row r of the node features and of the neighbour sums as the region found them. Point t holds rows
  10000·t … 10000·t + 9999; the parameter windows hold their whole arrays at every point; the ten blocks cover the array.
-/
import proofs.«113793_j3350074490963_2_alg».proof.Proof.Gen.KernelIdeal.Frame
import proofs.«113793_j3350074490963_2_alg».proof.Proof.KData
import proofs.«113793_j3350074490963_2_alg».proof.Proof.GinKernelRow
import Idealize.ShloMosaic.Lib.ValueIdx
import Idealize.ShloMosaic.Lib.Pipeline.Value

set_option maxRecDepth 16384

noncomputable section

namespace Cert.Gin.Region2

open Cert.KernelIdeal Cert.KernelIdeal.Gen Idealize.ShloMosaic Idealize.ShloMosaic.ValueIdx Idealize.ShloMosaic.TcCoe Idealize.SL.Sem
open Cert.RealValued Cert.Gin
open Cert.Gin.KernelRow

variable (V : (c : Dev nD) → (b : Ref sig .tc) → Buf (Elt Ideal) ((c : Thread nD τ).loc b))

/-- The arrays the region reads, as it finds them. -/
abbrev data (c : Dev nD) : LayerData := Cert.Gin.Kdata.data2 V c

/-- The printed index maps over the grid: the row windows and the output move with the point, every parameter window stays. -/
theorem idx_facts : ∀ t : Fin cfg2.N,
    win2_15.index t (0 : Fin 2) = t.val
    ∧ win2_15.index t (1 : Fin 2) = 0
    ∧ win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = 0
    ∧ win2_11.index t (1 : Fin 2) = 0
    ∧ win2_12.index t (0 : Fin 2) = 0
    ∧ win2_12.index t (1 : Fin 2) = 0
    ∧ win2_13.index t (0 : Fin 2) = 0
    ∧ win2_13.index t (1 : Fin 2) = 0
    ∧ win2_14.index t (0 : Fin 2) = 0
    ∧ win2_14.index t (1 : Fin 2) = 0 :=
  (by decide +kernel : ∀ t : Fin grid2.N, _)

/-- Window 0's block at point t is rows 10000·t … of its array. -/
theorem blk0 (c : Dev nD) (t : Fin cfg2.N) (y : S10000x128.Idx) (i : S100000x128.Idx)
    (h0 : (i 0).val = t.val * 10000 + (y 0).val) (h1 : (i 1).val = (y 1).val) : iblk2 V c 0 t y = V c main_v99 i := by
  show V c main_v99 (((cfg2.win 0).blk t).view.emb y) = V c main_v99 i
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win2_0.index t (0 : Fin 2) * 10000 + 1 * (y 0).val = (i 0).val; omega
  | ⟨1, _⟩ => show win2_0.index t (1 : Fin 2) * 128 + 1 * (y 1).val = (i 1).val; omega

/-- Window 1's block at point t is rows 10000·t … of its array. -/
theorem blk1 (c : Dev nD) (t : Fin cfg2.N) (y : S10000x128.Idx) (i : S100000x128.Idx)
    (h0 : (i 0).val = t.val * 10000 + (y 0).val) (h1 : (i 1).val = (y 1).val) : iblk2 V c 1 t y = V c main_v109 i := by
  show V c main_v109 (((cfg2.win 1).blk t).view.emb y) = V c main_v109 i
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win2_1.index t (0 : Fin 2) * 10000 + 1 * (y 0).val = (i 0).val; omega
  | ⟨1, _⟩ => show win2_1.index t (1 : Fin 2) * 128 + 1 * (y 1).val = (i 1).val; omega

/-- Window 2's block is its whole array at every point. -/
theorem blk2 (c : Dev nD) (t : Fin cfg2.N) (y : S1x1.Idx) : iblk2 V c 2 t y = V c main_v146 y := by
  show V c main_v146 (((cfg2.win 2).blk t).view.emb y) = V c main_v146 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win2_2.index t (0 : Fin 2) * 1 + 1 * (y 0).val = (y 0).val; omega
  | ⟨1, _⟩ => show win2_2.index t (1 : Fin 2) * 1 + 1 * (y 1).val = (y 1).val; omega

/-- Window 3's block is its whole array at every point. -/
theorem blk3 (c : Dev nD) (t : Fin cfg2.N) (y : S128x256.Idx) : iblk2 V c 3 t y = V c main_v113 y := by
  show V c main_v113 (((cfg2.win 3).blk t).view.emb y) = V c main_v113 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win2_3.index t (0 : Fin 2) * 128 + 1 * (y 0).val = (y 0).val; omega
  | ⟨1, _⟩ => show win2_3.index t (1 : Fin 2) * 256 + 1 * (y 1).val = (y 1).val; omega

/-- Window 4's block is its whole array at every point. -/
theorem blk4 (c : Dev nD) (t : Fin cfg2.N) (y : S1x256.Idx) : iblk2 V c 4 t y = V c main_v136 y := by
  show V c main_v136 (((cfg2.win 4).blk t).view.emb y) = V c main_v136 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win2_4.index t (0 : Fin 2) * 1 + 1 * (y 0).val = (y 0).val; omega
  | ⟨1, _⟩ => show win2_4.index t (1 : Fin 2) * 256 + 1 * (y 1).val = (y 1).val; omega

/-- Window 5's block is its whole array at every point. -/
theorem blk5 (c : Dev nD) (t : Fin cfg2.N) (y : S1x256.Idx) : iblk2 V c 5 t y = V c main_v137 y := by
  show V c main_v137 (((cfg2.win 5).blk t).view.emb y) = V c main_v137 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win2_5.index t (0 : Fin 2) * 1 + 1 * (y 0).val = (y 0).val; omega
  | ⟨1, _⟩ => show win2_5.index t (1 : Fin 2) * 256 + 1 * (y 1).val = (y 1).val; omega

/-- Window 6's block is its whole array at every point. -/
theorem blk6 (c : Dev nD) (t : Fin cfg2.N) (y : S1x256.Idx) : iblk2 V c 6 t y = V c main_v138 y := by
  show V c main_v138 (((cfg2.win 6).blk t).view.emb y) = V c main_v138 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win2_6.index t (0 : Fin 2) * 1 + 1 * (y 0).val = (y 0).val; omega
  | ⟨1, _⟩ => show win2_6.index t (1 : Fin 2) * 256 + 1 * (y 1).val = (y 1).val; omega

/-- Window 7's block is its whole array at every point. -/
theorem blk7 (c : Dev nD) (t : Fin cfg2.N) (y : S1x256.Idx) : iblk2 V c 7 t y = V c main_v139 y := by
  show V c main_v139 (((cfg2.win 7).blk t).view.emb y) = V c main_v139 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win2_7.index t (0 : Fin 2) * 1 + 1 * (y 0).val = (y 0).val; omega
  | ⟨1, _⟩ => show win2_7.index t (1 : Fin 2) * 256 + 1 * (y 1).val = (y 1).val; omega

/-- Window 8's block is its whole array at every point. -/
theorem blk8 (c : Dev nD) (t : Fin cfg2.N) (y : S1x256.Idx) : iblk2 V c 8 t y = V c main_v140 y := by
  show V c main_v140 (((cfg2.win 8).blk t).view.emb y) = V c main_v140 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win2_8.index t (0 : Fin 2) * 1 + 1 * (y 0).val = (y 0).val; omega
  | ⟨1, _⟩ => show win2_8.index t (1 : Fin 2) * 256 + 1 * (y 1).val = (y 1).val; omega

/-- Window 9's block is its whole array at every point. -/
theorem blk9 (c : Dev nD) (t : Fin cfg2.N) (y : S256x128.Idx) : iblk2 V c 9 t y = V c main_v125 y := by
  show V c main_v125 (((cfg2.win 9).blk t).view.emb y) = V c main_v125 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win2_9.index t (0 : Fin 2) * 256 + 1 * (y 0).val = (y 0).val; omega
  | ⟨1, _⟩ => show win2_9.index t (1 : Fin 2) * 128 + 1 * (y 1).val = (y 1).val; omega

/-- Window 10's block is its whole array at every point. -/
theorem blk10 (c : Dev nD) (t : Fin cfg2.N) (y : S1x128.Idx) : iblk2 V c 10 t y = V c main_v141 y := by
  show V c main_v141 (((cfg2.win 10).blk t).view.emb y) = V c main_v141 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win2_10.index t (0 : Fin 2) * 1 + 1 * (y 0).val = (y 0).val; omega
  | ⟨1, _⟩ => show win2_10.index t (1 : Fin 2) * 128 + 1 * (y 1).val = (y 1).val; omega

/-- Window 11's block is its whole array at every point. -/
theorem blk11 (c : Dev nD) (t : Fin cfg2.N) (y : S1x128.Idx) : iblk2 V c 11 t y = V c main_v142 y := by
  show V c main_v142 (((cfg2.win 11).blk t).view.emb y) = V c main_v142 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win2_11.index t (0 : Fin 2) * 1 + 1 * (y 0).val = (y 0).val; omega
  | ⟨1, _⟩ => show win2_11.index t (1 : Fin 2) * 128 + 1 * (y 1).val = (y 1).val; omega

/-- Window 12's block is its whole array at every point. -/
theorem blk12 (c : Dev nD) (t : Fin cfg2.N) (y : S1x128.Idx) : iblk2 V c 12 t y = V c main_v143 y := by
  show V c main_v143 (((cfg2.win 12).blk t).view.emb y) = V c main_v143 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win2_12.index t (0 : Fin 2) * 1 + 1 * (y 0).val = (y 0).val; omega
  | ⟨1, _⟩ => show win2_12.index t (1 : Fin 2) * 128 + 1 * (y 1).val = (y 1).val; omega

/-- Window 13's block is its whole array at every point. -/
theorem blk13 (c : Dev nD) (t : Fin cfg2.N) (y : S1x128.Idx) : iblk2 V c 13 t y = V c main_v144 y := by
  show V c main_v144 (((cfg2.win 13).blk t).view.emb y) = V c main_v144 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win2_13.index t (0 : Fin 2) * 1 + 1 * (y 0).val = (y 0).val; omega
  | ⟨1, _⟩ => show win2_13.index t (1 : Fin 2) * 128 + 1 * (y 1).val = (y 1).val; omega

/-- Window 14's block is its whole array at every point. -/
theorem blk14 (c : Dev nD) (t : Fin cfg2.N) (y : S1x128.Idx) : iblk2 V c 14 t y = V c main_v145 y := by
  show V c main_v145 (((cfg2.win 14).blk t).view.emb y) = V c main_v145 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win2_14.index t (0 : Fin 2) * 1 + 1 * (y 0).val = (y 0).val; omega
  | ⟨1, _⟩ => show win2_14.index t (1 : Fin 2) * 128 + 1 * (y 1).val = (y 1).val; omega

/-- What point t writes back at (p, q) is the layer's row function at the array's row 10000·t + p. -/
theorem flushed_at (c : Dev nD) (hR : (data V c).Real) (t : Fin cfg2.N) (p : Fin 10000) (q : Fin 128) (i : S100000x128.Idx)
    (h0 : (i 0).val = t.val * 10000 + p.val) (h1 : (i 1).val = q.val) :
    out2_15 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (ix2 p q) = (data V c).out i := by
  refine (out2_row (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) p q
    (fun j => by rw [blk0 V c t (ix2 p j) (ix2 (i 0) j) h0 rfl]; exact hR.x _)
    (fun j => by rw [blk1 V c t (ix2 p j) (ix2 (i 0) j) h0 rfl]; exact hR.a _)
    (by rw [blk2 V c t]; exact hR.e _)
    (fun j k => by rw [blk3 V c t]; exact hR.w1 _)
    (fun k => by rw [blk4 V c t]; exact hR.b1 _)
    (fun k => by rw [blk5 V c t]; exact hR.g1 _)
    (fun k => by rw [blk6 V c t]; exact hR.be1 _)
    (fun k => by rw [blk7 V c t]; exact hR.m1 _)
    (fun k => by rw [blk8 V c t]; exact hR.v1 _)
    (fun k q => by rw [blk9 V c t]; exact hR.w2 _)).trans ?_
  have eq : (i 1) = q := Fin.ext h1
  unfold LayerData.out
  simp only [data, Cert.Gin.Kdata.data2, blk0 V c t (ix2 p _) (ix2 (i 0) _) h0 rfl, blk1 V c t (ix2 p _) (ix2 (i 0) _) h0 rfl,
    blk2 V c t, blk3 V c t, blk4 V c t, blk5 V c t, blk6 V c t, blk7 V c t, blk8 V c t, blk9 V c t, blk10 V c t, blk11 V c t,
    blk12 V c t, blk13 V c t, blk14 V c t, eq]

/-- Every index of the output array is in some point's block. -/
theorem cover (i : S100000x128.Idx) :
    ∃ t : Fin cfg2.N, (cfg2.win 15).flush t = true ∧ i ∈ ((cfg2.win 15).blk t).view.set := by
  have hi0 : (i 0).val < 100000 := (i 0).isLt
  have hi1 : (i 1).val < 128 := (i 1).isLt
  have hN : cfg2.N = 10 := N_2
  have hlt : (i 0).val / 10000 < cfg2.N := by rw [hN]; omega
  refine ⟨⟨(i 0).val / 10000, hlt⟩, flush2_15 _, ?_⟩
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts ⟨(i 0).val / 10000, hlt⟩
  show i ∈ ((View.whole main_v147).slice (win2_15.rect ⟨(i 0).val / 10000, hlt⟩)).set
  rw [View.set_slice_whole, Rect.mem_set_unit]
  intro a
  match a with
  | ⟨0, _⟩ => show win2_15.index ⟨(i 0).val / 10000, hlt⟩ (0 : Fin 2) * 10000 ≤ (i 0).val ∧ (i 0).val < win2_15.index ⟨(i 0).val / 10000, hlt⟩ (0 : Fin 2) * 10000 + 10000; rw [f15a]; show (i 0).val / 10000 * 10000 ≤ (i 0).val ∧ (i 0).val < (i 0).val / 10000 * 10000 + 10000; omega
  | ⟨1, _⟩ => show win2_15.index ⟨(i 0).val / 10000, hlt⟩ (1 : Fin 2) * 128 ≤ (i 1).val ∧ (i 1).val < win2_15.index ⟨(i 0).val / 10000, hlt⟩ (1 : Fin 2) * 128 + 128; rw [f15b]; omega

/-- THE LAYER'S OUTPUT ARRAY after the region: the layer's row function, row by row, of the arrays the region found. -/
theorem final (c : Dev nD) (hR : (data V c).Real) : (dat2 V c).arrAt 15 cfg2.N = (data V c).out := by
  funext i
  refine (dat2 V c).arrAt_forall_of_cover 15 (fun i v => v = (data V c).out i) (fun t _ y => ?_) (cover) i
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  show (dat2 V c).flushed 15 t y = (data V c).out (((cfg2.win 15).blk t).view.emb y)
  have hfl : (dat2 V c).flushed 15 t = out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) := after2_15 V c t
  rw [hfl, show y = ix2 (y 0) (y 1) from eq_ix2 y]
  refine flushed_at V c hR t (y 0) (y 1) _ ?_ ?_
  · show win2_15.index t (0 : Fin 2) * 10000 + 1 * ((ix2 (y 0) (y 1) : S10000x128.Idx) 0).val = t.val * 10000 + (y 0).val
    rw [f15a]; show t.val * 10000 + 1 * (y 0).val = _; omega
  · show win2_15.index t (1 : Fin 2) * 128 + 1 * ((ix2 (y 0) (y 1) : S10000x128.Idx) 1).val = (y 1).val
    rw [f15b]; show 0 * 128 + 1 * (y 1).val = _; omega

end Cert.Gin.Region2

end
-- ==== Proof.KRegion3.lean ====
/-
  Layer 4 of the kernel as one array: after the grid's ten points, row r of the layer's output array is the layer's
  row function of row r of the node features and of the neighbour sums as the region found them. Point t holds rows
  10000·t … 10000·t + 9999; the parameter windows hold their whole arrays at every point; the ten blocks cover the array.
-/
import proofs.«113793_j3350074490963_2_alg».proof.Proof.Gen.KernelIdeal.Frame
import proofs.«113793_j3350074490963_2_alg».proof.Proof.KData
import proofs.«113793_j3350074490963_2_alg».proof.Proof.GinKernelRow
import Idealize.ShloMosaic.Lib.ValueIdx
import Idealize.ShloMosaic.Lib.Pipeline.Value

set_option maxRecDepth 16384

noncomputable section

namespace Cert.Gin.Region3

open Cert.KernelIdeal Cert.KernelIdeal.Gen Idealize.ShloMosaic Idealize.ShloMosaic.ValueIdx Idealize.ShloMosaic.TcCoe Idealize.SL.Sem
open Cert.RealValued Cert.Gin
open Cert.Gin.KernelRow

variable (V : (c : Dev nD) → (b : Ref sig .tc) → Buf (Elt Ideal) ((c : Thread nD τ).loc b))

/-- The arrays the region reads, as it finds them. -/
abbrev data (c : Dev nD) : LayerData := Cert.Gin.Kdata.data3 V c

/-- The printed index maps over the grid: the row windows and the output move with the point, every parameter window stays. -/
theorem idx_facts : ∀ t : Fin cfg3.N,
    win3_15.index t (0 : Fin 2) = t.val
    ∧ win3_15.index t (1 : Fin 2) = 0
    ∧ win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0
    ∧ win3_11.index t (0 : Fin 2) = 0
    ∧ win3_11.index t (1 : Fin 2) = 0
    ∧ win3_12.index t (0 : Fin 2) = 0
    ∧ win3_12.index t (1 : Fin 2) = 0
    ∧ win3_13.index t (0 : Fin 2) = 0
    ∧ win3_13.index t (1 : Fin 2) = 0
    ∧ win3_14.index t (0 : Fin 2) = 0
    ∧ win3_14.index t (1 : Fin 2) = 0 :=
  (by decide +kernel : ∀ t : Fin grid3.N, _)

/-- Window 0's block at point t is rows 10000·t … of its array. -/
theorem blk0 (c : Dev nD) (t : Fin cfg3.N) (y : S10000x128.Idx) (i : S100000x128.Idx)
    (h0 : (i 0).val = t.val * 10000 + (y 0).val) (h1 : (i 1).val = (y 1).val) : iblk3 V c 0 t y = V c main_v147 i := by
  show V c main_v147 (((cfg3.win 0).blk t).view.emb y) = V c main_v147 i
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win3_0.index t (0 : Fin 2) * 10000 + 1 * (y 0).val = (i 0).val; omega
  | ⟨1, _⟩ => show win3_0.index t (1 : Fin 2) * 128 + 1 * (y 1).val = (i 1).val; omega

/-- Window 1's block at point t is rows 10000·t … of its array. -/
theorem blk1 (c : Dev nD) (t : Fin cfg3.N) (y : S10000x128.Idx) (i : S100000x128.Idx)
    (h0 : (i 0).val = t.val * 10000 + (y 0).val) (h1 : (i 1).val = (y 1).val) : iblk3 V c 1 t y = V c main_v157 i := by
  show V c main_v157 (((cfg3.win 1).blk t).view.emb y) = V c main_v157 i
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win3_1.index t (0 : Fin 2) * 10000 + 1 * (y 0).val = (i 0).val; omega
  | ⟨1, _⟩ => show win3_1.index t (1 : Fin 2) * 128 + 1 * (y 1).val = (i 1).val; omega

/-- Window 2's block is its whole array at every point. -/
theorem blk2 (c : Dev nD) (t : Fin cfg3.N) (y : S1x1.Idx) : iblk3 V c 2 t y = V c main_v194 y := by
  show V c main_v194 (((cfg3.win 2).blk t).view.emb y) = V c main_v194 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win3_2.index t (0 : Fin 2) * 1 + 1 * (y 0).val = (y 0).val; omega
  | ⟨1, _⟩ => show win3_2.index t (1 : Fin 2) * 1 + 1 * (y 1).val = (y 1).val; omega

/-- Window 3's block is its whole array at every point. -/
theorem blk3 (c : Dev nD) (t : Fin cfg3.N) (y : S128x256.Idx) : iblk3 V c 3 t y = V c main_v161 y := by
  show V c main_v161 (((cfg3.win 3).blk t).view.emb y) = V c main_v161 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win3_3.index t (0 : Fin 2) * 128 + 1 * (y 0).val = (y 0).val; omega
  | ⟨1, _⟩ => show win3_3.index t (1 : Fin 2) * 256 + 1 * (y 1).val = (y 1).val; omega

/-- Window 4's block is its whole array at every point. -/
theorem blk4 (c : Dev nD) (t : Fin cfg3.N) (y : S1x256.Idx) : iblk3 V c 4 t y = V c main_v184 y := by
  show V c main_v184 (((cfg3.win 4).blk t).view.emb y) = V c main_v184 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win3_4.index t (0 : Fin 2) * 1 + 1 * (y 0).val = (y 0).val; omega
  | ⟨1, _⟩ => show win3_4.index t (1 : Fin 2) * 256 + 1 * (y 1).val = (y 1).val; omega

/-- Window 5's block is its whole array at every point. -/
theorem blk5 (c : Dev nD) (t : Fin cfg3.N) (y : S1x256.Idx) : iblk3 V c 5 t y = V c main_v185 y := by
  show V c main_v185 (((cfg3.win 5).blk t).view.emb y) = V c main_v185 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win3_5.index t (0 : Fin 2) * 1 + 1 * (y 0).val = (y 0).val; omega
  | ⟨1, _⟩ => show win3_5.index t (1 : Fin 2) * 256 + 1 * (y 1).val = (y 1).val; omega

/-- Window 6's block is its whole array at every point. -/
theorem blk6 (c : Dev nD) (t : Fin cfg3.N) (y : S1x256.Idx) : iblk3 V c 6 t y = V c main_v186 y := by
  show V c main_v186 (((cfg3.win 6).blk t).view.emb y) = V c main_v186 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win3_6.index t (0 : Fin 2) * 1 + 1 * (y 0).val = (y 0).val; omega
  | ⟨1, _⟩ => show win3_6.index t (1 : Fin 2) * 256 + 1 * (y 1).val = (y 1).val; omega

/-- Window 7's block is its whole array at every point. -/
theorem blk7 (c : Dev nD) (t : Fin cfg3.N) (y : S1x256.Idx) : iblk3 V c 7 t y = V c main_v187 y := by
  show V c main_v187 (((cfg3.win 7).blk t).view.emb y) = V c main_v187 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win3_7.index t (0 : Fin 2) * 1 + 1 * (y 0).val = (y 0).val; omega
  | ⟨1, _⟩ => show win3_7.index t (1 : Fin 2) * 256 + 1 * (y 1).val = (y 1).val; omega

/-- Window 8's block is its whole array at every point. -/
theorem blk8 (c : Dev nD) (t : Fin cfg3.N) (y : S1x256.Idx) : iblk3 V c 8 t y = V c main_v188 y := by
  show V c main_v188 (((cfg3.win 8).blk t).view.emb y) = V c main_v188 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win3_8.index t (0 : Fin 2) * 1 + 1 * (y 0).val = (y 0).val; omega
  | ⟨1, _⟩ => show win3_8.index t (1 : Fin 2) * 256 + 1 * (y 1).val = (y 1).val; omega

/-- Window 9's block is its whole array at every point. -/
theorem blk9 (c : Dev nD) (t : Fin cfg3.N) (y : S256x128.Idx) : iblk3 V c 9 t y = V c main_v173 y := by
  show V c main_v173 (((cfg3.win 9).blk t).view.emb y) = V c main_v173 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win3_9.index t (0 : Fin 2) * 256 + 1 * (y 0).val = (y 0).val; omega
  | ⟨1, _⟩ => show win3_9.index t (1 : Fin 2) * 128 + 1 * (y 1).val = (y 1).val; omega

/-- Window 10's block is its whole array at every point. -/
theorem blk10 (c : Dev nD) (t : Fin cfg3.N) (y : S1x128.Idx) : iblk3 V c 10 t y = V c main_v189 y := by
  show V c main_v189 (((cfg3.win 10).blk t).view.emb y) = V c main_v189 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win3_10.index t (0 : Fin 2) * 1 + 1 * (y 0).val = (y 0).val; omega
  | ⟨1, _⟩ => show win3_10.index t (1 : Fin 2) * 128 + 1 * (y 1).val = (y 1).val; omega

/-- Window 11's block is its whole array at every point. -/
theorem blk11 (c : Dev nD) (t : Fin cfg3.N) (y : S1x128.Idx) : iblk3 V c 11 t y = V c main_v190 y := by
  show V c main_v190 (((cfg3.win 11).blk t).view.emb y) = V c main_v190 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win3_11.index t (0 : Fin 2) * 1 + 1 * (y 0).val = (y 0).val; omega
  | ⟨1, _⟩ => show win3_11.index t (1 : Fin 2) * 128 + 1 * (y 1).val = (y 1).val; omega

/-- Window 12's block is its whole array at every point. -/
theorem blk12 (c : Dev nD) (t : Fin cfg3.N) (y : S1x128.Idx) : iblk3 V c 12 t y = V c main_v191 y := by
  show V c main_v191 (((cfg3.win 12).blk t).view.emb y) = V c main_v191 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win3_12.index t (0 : Fin 2) * 1 + 1 * (y 0).val = (y 0).val; omega
  | ⟨1, _⟩ => show win3_12.index t (1 : Fin 2) * 128 + 1 * (y 1).val = (y 1).val; omega

/-- Window 13's block is its whole array at every point. -/
theorem blk13 (c : Dev nD) (t : Fin cfg3.N) (y : S1x128.Idx) : iblk3 V c 13 t y = V c main_v192 y := by
  show V c main_v192 (((cfg3.win 13).blk t).view.emb y) = V c main_v192 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win3_13.index t (0 : Fin 2) * 1 + 1 * (y 0).val = (y 0).val; omega
  | ⟨1, _⟩ => show win3_13.index t (1 : Fin 2) * 128 + 1 * (y 1).val = (y 1).val; omega

/-- Window 14's block is its whole array at every point. -/
theorem blk14 (c : Dev nD) (t : Fin cfg3.N) (y : S1x128.Idx) : iblk3 V c 14 t y = V c main_v193 y := by
  show V c main_v193 (((cfg3.win 14).blk t).view.emb y) = V c main_v193 y
  congr 1; funext a; apply Fin.ext
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  match a with
  | ⟨0, _⟩ => show win3_14.index t (0 : Fin 2) * 1 + 1 * (y 0).val = (y 0).val; omega
  | ⟨1, _⟩ => show win3_14.index t (1 : Fin 2) * 128 + 1 * (y 1).val = (y 1).val; omega

/-- What point t writes back at (p, q) is the layer's row function at the array's row 10000·t + p. -/
theorem flushed_at (c : Dev nD) (hR : (data V c).Real) (t : Fin cfg3.N) (p : Fin 10000) (q : Fin 128) (i : S100000x128.Idx)
    (h0 : (i 0).val = t.val * 10000 + p.val) (h1 : (i 1).val = q.val) :
    out3_15 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (ix2 p q) = (data V c).out i := by
  refine (out3_row (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) p q
    (fun j => by rw [blk0 V c t (ix2 p j) (ix2 (i 0) j) h0 rfl]; exact hR.x _)
    (fun j => by rw [blk1 V c t (ix2 p j) (ix2 (i 0) j) h0 rfl]; exact hR.a _)
    (by rw [blk2 V c t]; exact hR.e _)
    (fun j k => by rw [blk3 V c t]; exact hR.w1 _)
    (fun k => by rw [blk4 V c t]; exact hR.b1 _)
    (fun k => by rw [blk5 V c t]; exact hR.g1 _)
    (fun k => by rw [blk6 V c t]; exact hR.be1 _)
    (fun k => by rw [blk7 V c t]; exact hR.m1 _)
    (fun k => by rw [blk8 V c t]; exact hR.v1 _)
    (fun k q => by rw [blk9 V c t]; exact hR.w2 _)).trans ?_
  have eq : (i 1) = q := Fin.ext h1
  unfold LayerData.out
  simp only [data, Cert.Gin.Kdata.data3, blk0 V c t (ix2 p _) (ix2 (i 0) _) h0 rfl, blk1 V c t (ix2 p _) (ix2 (i 0) _) h0 rfl,
    blk2 V c t, blk3 V c t, blk4 V c t, blk5 V c t, blk6 V c t, blk7 V c t, blk8 V c t, blk9 V c t, blk10 V c t, blk11 V c t,
    blk12 V c t, blk13 V c t, blk14 V c t, eq]

/-- Every index of the output array is in some point's block. -/
theorem cover (i : S100000x128.Idx) :
    ∃ t : Fin cfg3.N, (cfg3.win 15).flush t = true ∧ i ∈ ((cfg3.win 15).blk t).view.set := by
  have hi0 : (i 0).val < 100000 := (i 0).isLt
  have hi1 : (i 1).val < 128 := (i 1).isLt
  have hN : cfg3.N = 10 := N_3
  have hlt : (i 0).val / 10000 < cfg3.N := by rw [hN]; omega
  refine ⟨⟨(i 0).val / 10000, hlt⟩, flush3_15 _, ?_⟩
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts ⟨(i 0).val / 10000, hlt⟩
  show i ∈ ((View.whole main_v195).slice (win3_15.rect ⟨(i 0).val / 10000, hlt⟩)).set
  rw [View.set_slice_whole, Rect.mem_set_unit]
  intro a
  match a with
  | ⟨0, _⟩ => show win3_15.index ⟨(i 0).val / 10000, hlt⟩ (0 : Fin 2) * 10000 ≤ (i 0).val ∧ (i 0).val < win3_15.index ⟨(i 0).val / 10000, hlt⟩ (0 : Fin 2) * 10000 + 10000; rw [f15a]; show (i 0).val / 10000 * 10000 ≤ (i 0).val ∧ (i 0).val < (i 0).val / 10000 * 10000 + 10000; omega
  | ⟨1, _⟩ => show win3_15.index ⟨(i 0).val / 10000, hlt⟩ (1 : Fin 2) * 128 ≤ (i 1).val ∧ (i 1).val < win3_15.index ⟨(i 0).val / 10000, hlt⟩ (1 : Fin 2) * 128 + 128; rw [f15b]; omega

/-- THE LAYER'S OUTPUT ARRAY after the region: the layer's row function, row by row, of the arrays the region found. -/
theorem final (c : Dev nD) (hR : (data V c).Real) : (dat3 V c).arrAt 15 cfg3.N = (data V c).out := by
  funext i
  refine (dat3 V c).arrAt_forall_of_cover 15 (fun i v => v = (data V c).out i) (fun t _ y => ?_) (cover) i
  obtain ⟨f15a, f15b, f0a, f0b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  show (dat3 V c).flushed 15 t y = (data V c).out (((cfg3.win 15).blk t).view.emb y)
  have hfl : (dat3 V c).flushed 15 t = out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) := after3_15 V c t
  rw [hfl, show y = ix2 (y 0) (y 1) from eq_ix2 y]
  refine flushed_at V c hR t (y 0) (y 1) _ ?_ ?_
  · show win3_15.index t (0 : Fin 2) * 10000 + 1 * ((ix2 (y 0) (y 1) : S10000x128.Idx) 0).val = t.val * 10000 + (y 0).val
    rw [f15a]; show t.val * 10000 + 1 * (y 0).val = _; omega
  · show win3_15.index t (1 : Fin 2) * 128 + 1 * ((ix2 (y 0) (y 1) : S10000x128.Idx) 1).val = (y 1).val
    rw [f15b]; show 0 * 128 + 1 * (y 1).val = _; omega

end Cert.Gin.Region3

end
-- ==== Proof.HeadKernelRow.lean ====
/-
  The body of the graph-level head, row by row. What the head's program leaves in its output block is, at graph r and
  class o, the head's row of the specification: an affine map of the pooled row, normalised and rectified, a second
  affine map to ten logits, and the logarithm of the softmax of the logits, shifted by their largest. Each of the two
  products is formed in three passes, dot(A, B) + dot(A, B − B) + dot(A − A, B), which on real-valued operands sum to
  the plain product. The largest logit is the fold of max from −∞ over the ten columns, the normaliser the sum over them.
-/
import proofs.«113793_j3350074490963_2_alg».proof.Proof.Gen.KernelIdeal.Frame
import proofs.«113793_j3350074490963_2_alg».proof.Proof.GinSpec
import proofs.«113793_j3350074490963_2_alg».proof.Proof.LibDense
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Gin.KernelHead

open Cert.KernelIdeal Cert.KernelIdeal.Gen Idealize.ShloMosaic Idealize.ShloMosaic.ValueIdx Cert.RealValued Cert.Gin

/-! ## Real-valued arithmetic -/

/-- A real-valued quantity less itself is zero (the infinities are the exceptions). -/
theorem isReal_sub_self {x : EReal} (h : IsReal x) : x - x = 0 := by
  obtain ⟨r, rfl⟩ := h
  rw [← EReal.coe_sub, sub_self, EReal.coe_zero]

/-- The three-pass product: with b − b and a − a in place of the low parts, the two correction sums vanish on real-valued
    operands and the sum of the three passes is the plain sum of products. -/
theorem three_pass {K : ℕ} (a b : Fin K → EReal) (ha : ∀ k, IsReal (a k)) (hb : ∀ k, IsReal (b k)) :
    (∑ k, a k * b k) + (∑ k, a k * (b k - b k)) + (∑ k, (a k - a k) * b k) = ∑ k, a k * b k := by
  have h1 : ∀ k, a k * (b k - b k) = 0 := fun k => by rw [isReal_sub_self (hb k), mul_zero]
  have h2 : ∀ k, (a k - a k) * b k = 0 := fun k => by rw [isReal_sub_self (ha k), zero_mul]
  simp only [h1, h2, Finset.sum_const_zero, add_zero]

/-- The word of +0.0 is real-valued. -/
theorem zeroW_isReal : IsReal zeroW := by rw [zeroW_eq]; exact IsReal.zero

/-- The reciprocal square root of a nonnegative real plus ε is real-valued: the argument is a positive real. -/
theorem rsqrt_isReal {v : EReal} (hv : ∃ r : ℝ, 0 ≤ r ∧ v = (r : EReal)) : IsReal (Ideal.rsqrt (v + epsW)) := by
  obtain ⟨r, hr, rfl⟩ := hv
  obtain ⟨e, he, hee⟩ := epsW_pos
  rw [hee, ← EReal.coe_add, Ideal.rsqrt_coe, if_neg (by linarith), if_neg (by linarith)]
  exact IsReal.coe _

/-- A normalised and rectified real-valued quantity is real-valued. -/
theorem bnRelu_isReal {z mu var g b : EReal} (hz : IsReal z) (hmu : IsReal mu)
    (hvar : ∃ r : ℝ, 0 ≤ r ∧ var = (r : EReal)) (hg : IsReal g) (hb : IsReal b) : IsReal (bnRelu z mu var g b) := by
  unfold bnRelu
  exact ((((hz.sub hmu).mul (rsqrt_isReal hvar)).mul hg).add hb).max zeroW_isReal

/-! ## The layout operations of the body at an index -/

theorem hz : (![0, 0] : Fin 2 → Nat) = fun _ => 0 := funext fun a => by fin_cases a <;> rfl

/-- An a×1 array broadcast to a×b reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A length-a vector cast to a×1 reads, at (p, 0), the vector at p. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_two, Shape.rowMajor_val_one]
    show p.val = p.val * 1 + 0
    rw [Nat.mul_one, Nat.add_zero])

/-- The reciprocal square root of a vector at an index. -/
theorem rsqrt_apply {s : Shape} {φ : FTy} (a : FVec Ideal s φ) (i : s.Idx) : rsqrt a i = Ideal.rsqrt (a i) := rfl

/-- The exponential of a vector at an index. -/
theorem exp_apply {s : Shape} {φ : FTy} (a : FVec Ideal s φ) (i : s.Idx) :
    Idealize.ShloMosaic.exp a i = Ideal.exp (a i) := rfl

/-- The logarithm of a vector at an index. -/
theorem log_apply {s : Shape} {φ : FTy} (a : FVec Ideal s φ) (i : s.Idx) :
    Idealize.ShloMosaic.log a i = Ideal.log (a i) := rfl

/-! ## The reductions over the ten columns at a row -/

/-- Row r with column o put back on the reduced axis is (r, o). -/
theorem lift_row (h : S512x10.Reduces [1] S512) (r : Fin 512) (o : Fin 10) : h.lift (ix1 r) o = ix2 r o := by
  funext c
  apply Fin.ext
  match c with
  | ⟨0, _⟩ => rfl
  | ⟨1, _⟩ => rfl

/-- The maximum over the columns, from −∞, at row r: the fold of max over the ten entries of the row. -/
theorem rowMax_apply (V : FVec Ideal S512x10 .f32) (h : S512x10.Reduces [1] S512) (r : Fin 512) :
    reduceFold h (FloatOps.maximumf (F := Ideal) (φ := .f32)) ninfW V (ix1 r)
      = (Finset.univ : Finset (Fin 10)).fold max ninfW (fun o => V (ix2 r o)) := by
  refine (Ideal.multiReduction_maximumf_single V 0xFF800000#32 h (.inl rfl) rfl (ix1 r)).trans ?_
  have e : (V ∘ h.lift (ix1 r)) = fun o : Fin 10 => V (ix2 r o) := funext fun o => congrArg V (lift_row h r o)
  rw [e]
  rfl

/-- The sum over the columns at row r: the sum of the ten entries of the row. -/
theorem rowSum_apply (V : S512x10.Idx → EReal) (h : S512x10.Reduces [1] S512) (r : Fin 512) :
    Ideal.reduceAdd h V (ix1 r) = ∑ o : Fin 10, V (ix2 r o) := by
  refine (Ideal.reduceAdd_single h V (ix1 r)).trans ?_
  exact Finset.sum_congr rfl fun o _ => congrArg V (lift_row h r o)

/-! ## The products of the body at an index -/

/-- The first product into the zero accumulator, at (r, k). -/
theorem mmA {φ₁ φ₂ : FTy} (A : FVec Ideal S512x128 φ₁) (W : FVec Ideal S128x128 φ₂) (r : Fin 512) (k : Fin 128) :
    matmul dot_S512x128_S128x128_S512x128_1_0_0_1_n_n none A W (constant S512x128 .f32 0x00000000#32) (ix2 r k)
      = ∑ j : Fin 128, A (ix2 r j) * W (ix2 j k) :=
  Dense.matmul_zero_at none A W (ix2 r k) r k rfl rfl

/-- The second product into the zero accumulator, at (r, o). -/
theorem mmB {φ₁ φ₂ : FTy} (A : FVec Ideal S512x128 φ₁) (W : FVec Ideal S128x10 φ₂) (r : Fin 512) (o : Fin 10) :
    matmul dot_S512x128_S128x10_S512x10_1_0_0_1_n_n none A W (constant S512x10 .f32 0x00000000#32) (ix2 r o)
      = ∑ k : Fin 128, A (ix2 r k) * W (ix2 k o) :=
  Dense.matmul_zero_at none A W (ix2 r o) r o rfl rfl

/-! ## The body's payloads at an index -/

/-- The first affine map of the head, normalised, at (r, k). -/
theorem pay2_row (v0 : Vec Ideal S512x128 .f32) (v2 : Vec Ideal S128x128 .f32) (v16 v20 v22 v24 v26 : Vec Ideal S1x128 .f32)
    (r : Fin 512) (k : Fin 128) (hp : ∀ j : Fin 128, IsReal (v0 (ix2 r j))) (hw1 : ∀ j : Fin 128, IsReal (v2 (ix2 j k))) :
    k4_pay2 (F := Ideal) v0 v2 v16 v20 v22 v24 v26 (ix2 r k)
      = ((∑ j : Fin 128, v0 (ix2 r j) * v2 (ix2 j k)) + v16 (ix2 0 k) - v24 (ix2 0 k)) * Ideal.rsqrt (v26 (ix2 0 k) + epsW)
          * v20 (ix2 0 k) + v22 (ix2 0 k) := by
  unfold k4_pay2
  simp only [shapeCast_self]
  simp only [addf_apply, subf_apply, mulf_apply, mmA, truncf_apply, rsqrt_apply, broadcastTo_1b_ab_apply, broadcast_apply,
    Ideal.ofBits_def]
  have key := three_pass (fun j : Fin 128 => v0 (ix2 r j)) (fun j => v2 (ix2 j k)) hp hw1
  exact congrArg (fun t => (t + v16 (ix2 0 k) - v24 (ix2 0 k)) * Ideal.rsqrt (v26 (ix2 0 k) + epsW) * v20 (ix2 0 k)
    + v22 (ix2 0 k)) key

/-- The rectifier, the second affine map and the logarithm of the softmax, at (r, o), from any normalised first map v38
    and rectifier floor v39 whose maximum is real-valued along row r. -/
theorem pay1_row (v38 v39 : FVec Ideal S512x128 .f32) (v41 : Vec Ideal S128x10 .f32) (v55 : Vec Ideal S1x10 .f32)
    (r : Fin 512) (o : Fin 10)
    (hh : ∀ k : Fin 128, IsReal (max (v38 (ix2 r k)) (v39 (ix2 r k))))
    (hw2 : ∀ (k : Fin 128) (o : Fin 10), IsReal (v41 (ix2 k o))) :
    k4_pay1 (F := Ideal) v38 v39 v41 v55 (ix2 r o)
      = logSoftmax (fun o' => (∑ k : Fin 128, max (v38 (ix2 r k)) (v39 (ix2 r k)) * v41 (ix2 k o')) + v55 (ix2 0 o')) o := by
  unfold k4_pay1
  simp only [shapeCast_self]
  simp only [multiReduction, Ideal.reduceAdd_def, subf_apply, broadcastTo_a1_ab_apply, log_apply, shapeCast_a_a1_apply, rowSum_apply, exp_apply,
    maximumf_apply, broadcast_apply, rowMax_apply, addf_apply, mmB, truncf_apply, broadcastTo_1b_ab_apply, Ideal.ofBits_def]
  have key : ∀ o' : Fin 10,
      (∑ k : Fin 128, max (v38 (ix2 r k)) (v39 (ix2 r k)) * v41 (ix2 k o'))
        + (∑ k : Fin 128, max (v38 (ix2 r k)) (v39 (ix2 r k)) * (v41 (ix2 k o') - v41 (ix2 k o')))
        + (∑ k : Fin 128, (max (v38 (ix2 r k)) (v39 (ix2 r k)) - max (v38 (ix2 r k)) (v39 (ix2 r k))) * v41 (ix2 k o'))
      = ∑ k : Fin 128, max (v38 (ix2 r k)) (v39 (ix2 r k)) * v41 (ix2 k o') :=
    fun o' => three_pass (fun k : Fin 128 => max (v38 (ix2 r k)) (v39 (ix2 r k))) (fun k => v41 (ix2 k o')) hh
      (fun k => hw2 k o')
  simp only [key]
  unfold logSoftmax top10
  rw [zeroW_eq, zero_add]

/-! ## The head -/

/-- What the head's body leaves in its output block, at graph r and class o: the head's row of the specification, when
    the pooled row, the weights and the normalisation's data are real-valued. -/
theorem out4_row (x0 : Vec Ideal S512x128 .f32) (x1 : Vec Ideal S128x128 .f32) (x2 x3 x4 x5 x6 : Vec Ideal S1x128 .f32)
    (x7 : Vec Ideal S128x10 .f32) (x8 : Vec Ideal S1x10 .f32) (r : Fin 512) (o : Fin 10)
    (hp : ∀ j : Fin 128, IsReal (x0 (ix2 r j))) (hw1 : ∀ j k : Fin 128, IsReal (x1 (ix2 j k)))
    (hb1 : ∀ k : Fin 128, IsReal (x2 (ix2 0 k))) (hg : ∀ k : Fin 128, IsReal (x3 (ix2 0 k)))
    (hbe : ∀ k : Fin 128, IsReal (x4 (ix2 0 k))) (hmu : ∀ k : Fin 128, IsReal (x5 (ix2 0 k)))
    (hvar : ∀ k : Fin 128, ∃ s : ℝ, 0 ≤ s ∧ x6 (ix2 0 k) = (s : EReal))
    (hw2 : ∀ (k : Fin 128) (o : Fin 10), IsReal (x7 (ix2 k o))) :
    out4_9 (F := Ideal) x0 x1 x2 x3 x4 x5 x6 x7 x8 (ix2 r o)
      = headRow (fun j => x0 (ix2 r j)) (fun j k => x1 (ix2 j k)) (fun k => x2 (ix2 0 k)) (fun k => x3 (ix2 0 k))
          (fun k => x4 (ix2 0 k)) (fun k => x5 (ix2 0 k)) (fun k => x6 (ix2 0 k)) (fun k o => x7 (ix2 k o))
          (fun o => x8 (ix2 0 o)) o := by
  unfold out4_9
  rw [View.canon_unit_zero hz]
  simp only [View.ld_unit_zero (S := S512x128) hz, View.ld_unit_zero (S := S128x128) hz, View.ld_unit_zero (S := S1x128) hz,
    View.ld_unit_zero (S := S128x10) hz, View.ld_unit_zero (S := S1x10) hz]
  have e2 : ∀ k : Fin 128, k4_pay2 (F := Ideal) x0 x1 x2 x3 x4 x5 x6 (ix2 r k)
      = ((∑ j : Fin 128, x0 (ix2 r j) * x1 (ix2 j k)) + x2 (ix2 0 k) - x5 (ix2 0 k)) * Ideal.rsqrt (x6 (ix2 0 k) + epsW)
          * x3 (ix2 0 k) + x4 (ix2 0 k) :=
    fun k => pay2_row x0 x1 x2 x3 x4 x5 x6 r k hp (fun j => hw1 j k)
  have e3 : ∀ k : Fin 128, k4_pay3 (F := Ideal) (ix2 r k) = zeroW := fun _ => rfl
  have hh : ∀ k : Fin 128, IsReal (max (k4_pay2 (F := Ideal) x0 x1 x2 x3 x4 x5 x6 (ix2 r k)) (k4_pay3 (F := Ideal) (ix2 r k))) :=
    fun k => by
      rw [e2 k, e3 k]
      exact bnRelu_isReal ((IsReal.sum _ _ fun j _ => (hp j).mul (hw1 j k)).add (hb1 k)) (hmu k) (hvar k) (hg k) (hbe k)
  rw [pay1_row (k4_pay2 x0 x1 x2 x3 x4 x5 x6) k4_pay3 x7 x8 r o hh hw2]
  simp only [e2, e3]
  rfl

end Cert.Gin.KernelHead

end
-- ==== Proof.KRegion4.lean ====
/-
  The head of the kernel as one array: the grid has one point, every window holds its whole array, and the output array
  after the region is, row by row, the head's row function of the pooled rows and the head's parameters as the region
  found them.
-/
import proofs.«113793_j3350074490963_2_alg».proof.Proof.Gen.KernelIdeal.Frame
import proofs.«113793_j3350074490963_2_alg».proof.Proof.KData
import proofs.«113793_j3350074490963_2_alg».proof.Proof.HeadKernelRow
import Idealize.ShloMosaic.Lib.ValueIdx
import Idealize.ShloMosaic.Lib.Pipeline.Value

set_option maxRecDepth 16384

noncomputable section

namespace Cert.Gin.Region4

open Cert.KernelIdeal Cert.KernelIdeal.Gen Idealize.ShloMosaic Idealize.ShloMosaic.ValueIdx Idealize.ShloMosaic.TcCoe Idealize.SL.Sem
open Cert.RealValued Cert.Gin Cert.Gin.KernelHead

variable (V : (c : Dev nD) → (b : Ref sig .tc) → Buf (Elt Ideal) ((c : Thread nD τ).loc b))

/-- The arrays the region reads, as it finds them. -/
abbrev data (c : Dev nD) : HeadData := Cert.Gin.Kdata.data4 V c

/-- The printed index maps at the grid's one point: every window's block index is zero on both axes. -/
theorem idx_facts : ∀ t : Fin cfg4.N,
    win4_0.index t (0 : Fin 2) = 0
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0
    ∧ win4_9.index t (0 : Fin 2) = 0
    ∧ win4_9.index t (1 : Fin 2) = 0 :=
  (by decide +kernel : ∀ t : Fin grid4.N, _)

/-- Window 0's block is its whole array. -/
theorem blk0 (c : Dev nD) (t : Fin cfg4.N) (y : S512x128.Idx) : iblk4 V c 0 t y = V c main_v198 y := by
  show V c main_v198 (((cfg4.win 0).blk t).view.emb y) = V c main_v198 y
  congr 1; funext a; apply Fin.ext
  obtain ⟨f0a, f0b, f1a, f1b, f2a, f2b, f3a, f3b, f4a, f4b, f5a, f5b, f6a, f6b, f7a, f7b, f8a, f8b, f9a, f9b⟩ := idx_facts t
  match a with
  | ⟨0, _⟩ => show win4_0.index t (0 : Fin 2) * 512 + 1 * (y 0).val = (y 0).val; omega
  | ⟨1, _⟩ => show win4_0.index t (1 : Fin 2) * 128 + 1 * (y 1).val = (y 1).val; omega

/-- Window 1's block is its whole array. -/
theorem blk1 (c : Dev nD) (t : Fin cfg4.N) (y : S128x128.Idx) : iblk4 V c 1 t y = V c main_arg16 y := by
  show V c main_arg16 (((cfg4.win 1).blk t).view.emb y) = V c main_arg16 y
  congr 1; funext a; apply Fin.ext
  obtain ⟨f0a, f0b, f1a, f1b, f2a, f2b, f3a, f3b, f4a, f4b, f5a, f5b, f6a, f6b, f7a, f7b, f8a, f8b, f9a, f9b⟩ := idx_facts t
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- Window 2's block is its whole array. -/
theorem blk2 (c : Dev nD) (t : Fin cfg4.N) (y : S1x128.Idx) : iblk4 V c 2 t y = V c main_v199 y := by
  show V c main_v199 (((cfg4.win 2).blk t).view.emb y) = V c main_v199 y
  congr 1; funext a; apply Fin.ext
  obtain ⟨f0a, f0b, f1a, f1b, f2a, f2b, f3a, f3b, f4a, f4b, f5a, f5b, f6a, f6b, f7a, f7b, f8a, f8b, f9a, f9b⟩ := idx_facts t
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- Window 3's block is its whole array. -/
theorem blk3 (c : Dev nD) (t : Fin cfg4.N) (y : S1x128.Idx) : iblk4 V c 3 t y = V c main_v200 y := by
  show V c main_v200 (((cfg4.win 3).blk t).view.emb y) = V c main_v200 y
  congr 1; funext a; apply Fin.ext
  obtain ⟨f0a, f0b, f1a, f1b, f2a, f2b, f3a, f3b, f4a, f4b, f5a, f5b, f6a, f6b, f7a, f7b, f8a, f8b, f9a, f9b⟩ := idx_facts t
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- Window 4's block is its whole array. -/
theorem blk4 (c : Dev nD) (t : Fin cfg4.N) (y : S1x128.Idx) : iblk4 V c 4 t y = V c main_v201 y := by
  show V c main_v201 (((cfg4.win 4).blk t).view.emb y) = V c main_v201 y
  congr 1; funext a; apply Fin.ext
  obtain ⟨f0a, f0b, f1a, f1b, f2a, f2b, f3a, f3b, f4a, f4b, f5a, f5b, f6a, f6b, f7a, f7b, f8a, f8b, f9a, f9b⟩ := idx_facts t
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- Window 5's block is its whole array. -/
theorem blk5 (c : Dev nD) (t : Fin cfg4.N) (y : S1x128.Idx) : iblk4 V c 5 t y = V c main_v202 y := by
  show V c main_v202 (((cfg4.win 5).blk t).view.emb y) = V c main_v202 y
  congr 1; funext a; apply Fin.ext
  obtain ⟨f0a, f0b, f1a, f1b, f2a, f2b, f3a, f3b, f4a, f4b, f5a, f5b, f6a, f6b, f7a, f7b, f8a, f8b, f9a, f9b⟩ := idx_facts t
  match a with
  | ⟨0, _⟩ => show win4_5.index t (0 : Fin 2) * 1 + 1 * (y 0).val = (y 0).val; omega
  | ⟨1, _⟩ => show win4_5.index t (1 : Fin 2) * 128 + 1 * (y 1).val = (y 1).val; omega

/-- Window 6's block is its whole array. -/
theorem blk6 (c : Dev nD) (t : Fin cfg4.N) (y : S1x128.Idx) : iblk4 V c 6 t y = V c main_v203 y := by
  show V c main_v203 (((cfg4.win 6).blk t).view.emb y) = V c main_v203 y
  congr 1; funext a; apply Fin.ext
  obtain ⟨f0a, f0b, f1a, f1b, f2a, f2b, f3a, f3b, f4a, f4b, f5a, f5b, f6a, f6b, f7a, f7b, f8a, f8b, f9a, f9b⟩ := idx_facts t
  match a with
  | ⟨0, _⟩ => show win4_6.index t (0 : Fin 2) * 1 + 1 * (y 0).val = (y 0).val; omega
  | ⟨1, _⟩ => show win4_6.index t (1 : Fin 2) * 128 + 1 * (y 1).val = (y 1).val; omega

/-- Window 7's block is its whole array. -/
theorem blk7 (c : Dev nD) (t : Fin cfg4.N) (y : S128x10.Idx) : iblk4 V c 7 t y = V c main_arg22 y := by
  show V c main_arg22 (((cfg4.win 7).blk t).view.emb y) = V c main_arg22 y
  congr 1; funext a; apply Fin.ext
  obtain ⟨f0a, f0b, f1a, f1b, f2a, f2b, f3a, f3b, f4a, f4b, f5a, f5b, f6a, f6b, f7a, f7b, f8a, f8b, f9a, f9b⟩ := idx_facts t
  match a with
  | ⟨0, _⟩ => show win4_7.index t (0 : Fin 2) * 128 + 1 * (y 0).val = (y 0).val; omega
  | ⟨1, _⟩ => show win4_7.index t (1 : Fin 2) * 10 + 1 * (y 1).val = (y 1).val; omega

/-- Window 8's block is its whole array. -/
theorem blk8 (c : Dev nD) (t : Fin cfg4.N) (y : S1x10.Idx) : iblk4 V c 8 t y = V c main_v204 y := by
  show V c main_v204 (((cfg4.win 8).blk t).view.emb y) = V c main_v204 y
  congr 1; funext a; apply Fin.ext
  obtain ⟨f0a, f0b, f1a, f1b, f2a, f2b, f3a, f3b, f4a, f4b, f5a, f5b, f6a, f6b, f7a, f7b, f8a, f8b, f9a, f9b⟩ := idx_facts t
  match a with
  | ⟨0, _⟩ => show win4_8.index t (0 : Fin 2) * 1 + 1 * (y 0).val = (y 0).val; omega
  | ⟨1, _⟩ => show win4_8.index t (1 : Fin 2) * 10 + 1 * (y 1).val = (y 1).val; omega

/-- What the point writes back at (r, o) is the head's row function at row r. -/
theorem flushed_at (c : Dev nD) (hR : (data V c).Real) (t : Fin cfg4.N) (r : Fin 512) (o : Fin 10) :
    out4_9 (F := Ideal) (iblk4 V c 0 t) (iblk4 V c 1 t) (iblk4 V c 2 t) (iblk4 V c 3 t) (iblk4 V c 4 t) (iblk4 V c 5 t) (iblk4 V c 6 t) (iblk4 V c 7 t) (iblk4 V c 8 t) (ix2 r o) = (data V c).out (ix2 r o) := by
  refine (out4_row (iblk4 V c 0 t) (iblk4 V c 1 t) (iblk4 V c 2 t) (iblk4 V c 3 t) (iblk4 V c 4 t) (iblk4 V c 5 t) (iblk4 V c 6 t) (iblk4 V c 7 t) (iblk4 V c 8 t) r o
    (fun j => by rw [blk0 V c t]; exact hR.p _)
    (fun j k => by rw [blk1 V c t]; exact hR.w1 _)
    (fun k => by rw [blk2 V c t]; exact hR.b1 _)
    (fun k => by rw [blk3 V c t]; exact hR.g _)
    (fun k => by rw [blk4 V c t]; exact hR.be _)
    (fun k => by rw [blk5 V c t]; exact hR.mu _)
    (fun k => by rw [blk6 V c t]; exact hR.var _)
    (fun k o => by rw [blk7 V c t]; exact hR.w2 _)).trans ?_
  unfold HeadData.out
  simp only [data, Cert.Gin.Kdata.data4, blk0 V c t, blk1 V c t, blk2 V c t, blk3 V c t, blk4 V c t, blk5 V c t, blk6 V c t, blk7 V c t, blk8 V c t]

/-- Every index of the output array is in the one point's block. -/
theorem cover (i : S512x10.Idx) :
    ∃ t : Fin cfg4.N, (cfg4.win 9).flush t = true ∧ i ∈ ((cfg4.win 9).blk t).view.set := by
  have hi0 : (i 0).val < 512 := (i 0).isLt
  have hi1 : (i 1).val < 10 := (i 1).isLt
  have hN : cfg4.N = 1 := N_4
  have hlt : 0 < cfg4.N := by rw [hN]; omega
  refine ⟨⟨0, hlt⟩, flush4_9 _, ?_⟩
  obtain ⟨f0a, f0b, f1a, f1b, f2a, f2b, f3a, f3b, f4a, f4b, f5a, f5b, f6a, f6b, f7a, f7b, f8a, f8b, f9a, f9b⟩ := idx_facts ⟨0, hlt⟩
  show i ∈ ((View.whole main_v205).slice (win4_9.rect ⟨0, hlt⟩)).set
  rw [View.set_slice_whole, Rect.mem_set_unit]
  intro a
  match a with
  | ⟨0, _⟩ => show win4_9.index ⟨0, hlt⟩ (0 : Fin 2) * 512 ≤ (i 0).val ∧ (i 0).val < win4_9.index ⟨0, hlt⟩ (0 : Fin 2) * 512 + 512; rw [f9a]; omega
  | ⟨1, _⟩ => show win4_9.index ⟨0, hlt⟩ (1 : Fin 2) * 10 ≤ (i 1).val ∧ (i 1).val < win4_9.index ⟨0, hlt⟩ (1 : Fin 2) * 10 + 10; rw [f9b]; omega

/-- THE HEAD'S OUTPUT ARRAY after the region: the head's row function, row by row, of the arrays the region found. -/
theorem final (c : Dev nD) (hR : (data V c).Real) : (dat4 V c).arrAt 9 cfg4.N = (data V c).out := by
  funext i
  refine (dat4 V c).arrAt_forall_of_cover 9 (fun i v => v = (data V c).out i) (fun t _ y => ?_) (cover) i
  obtain ⟨f0a, f0b, f1a, f1b, f2a, f2b, f3a, f3b, f4a, f4b, f5a, f5b, f6a, f6b, f7a, f7b, f8a, f8b, f9a, f9b⟩ := idx_facts t
  show (dat4 V c).flushed 9 t y = (data V c).out (((cfg4.win 9).blk t).view.emb y)
  have hfl : (dat4 V c).flushed 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := after4_9 V c t
  have hemb : ((cfg4.win 9).blk t).view.emb y = ix2 (y 0) (y 1) := by
    funext a; apply Fin.ext
    match a with
    | ⟨0, _⟩ => show win4_9.index t (0 : Fin 2) * 512 + 1 * (y 0).val = (y 0).val; omega
    | ⟨1, _⟩ => show win4_9.index t (1 : Fin 2) * 10 + 1 * (y 1).val = (y 1).val; omega
  rw [hfl, hemb, show y = ix2 (y 0) (y 1) from eq_ix2 y]
  exact flushed_at V c hR t (y 0) (y 1)

end Cert.Gin.Region4

end
-- ==== Proof.KeptArgs.lean ====
/-
  Buffers the run leaves alone. The program's buffer contents at the segment boundaries are a fold through its
  segments: a stretch of host operations rewrites exactly the buffers its operations write, and a kernel region
  rewrites exactly its windows' arrays. A buffer that is neither written by a stretch nor an array of a region
  holds after it what it held before it. So the arguments 1 … 23 hold at every region's exit what the launch
  memory holds, the two edge-index buffers the first stretch computes hold at every region's exit what that
  stretch left in them, and a layer's output holds after the next stretch what the layer's region left in it.
-/
import proofs.«113793_j3350074490963_2_alg».proof.Proof.Gen.KernelIdeal.Frame
import Idealize.ShloMosaic.PureOps.Ideal

set_option maxRecDepth 16384

noncomputable section

namespace Cert.KernelIdeal.Kept

open Cert.KernelIdeal Cert.KernelIdeal.Gen Idealize.ShloMosaic Idealize.ShloMosaic.TcCoe Idealize.SL.Sem

/-- A reference of a list is, as a device buffer, among the list's device buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

/-! ## What each stretch of host operations writes -/

/-- The references host stretch 0 writes, in order: one per operation, its result. -/
abbrev writes0 : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50]

/-- Every operation of host stretch 0 writes a reference of that list. -/
theorem hW0 : (hostOps0 (F := Ideal)).Forall fun op => op.writes ⊆ (writes0.map (Proc.devRef (τ := τ) .tc)).toFinset :=
  ⟨sub_of_mem (y := main_v0) (by decide),
   sub_of_mem (y := main_v1) (by decide),
   sub_of_mem (y := main_v2) (by decide),
   sub_of_mem (y := main_v3) (by decide),
   sub_of_mem (y := main_c) (by decide),
   sub_of_mem (y := main_v4) (by decide),
   sub_of_mem (y := main_v5) (by decide),
   sub_of_mem (y := main_c_0) (by decide),
   sub_of_mem (y := main_v6) (by decide),
   sub_of_mem (y := main_v7) (by decide),
   sub_of_mem (y := main_v8) (by decide),
   sub_of_mem (y := main_v9) (by decide),
   sub_of_mem (y := main_v10) (by decide),
   sub_of_mem (y := main_cst) (by decide),
   sub_of_mem (y := main_v11) (by decide),
   sub_of_mem (y := main_v12) (by decide),
   sub_of_mem (y := main_v13) (by decide),
   sub_of_mem (y := main_v14) (by decide),
   sub_of_mem (y := main_v15) (by decide),
   sub_of_mem (y := main_v16) (by decide),
   sub_of_mem (y := main_v17) (by decide),
   sub_of_mem (y := main_v18) (by decide),
   sub_of_mem (y := main_v19) (by decide),
   sub_of_mem (y := main_v20) (by decide),
   sub_of_mem (y := main_v21) (by decide),
   sub_of_mem (y := main_v22) (by decide),
   sub_of_mem (y := main_v23) (by decide),
   sub_of_mem (y := main_v24) (by decide),
   sub_of_mem (y := main_v25) (by decide),
   sub_of_mem (y := main_v26) (by decide),
   sub_of_mem (y := main_v27) (by decide),
   sub_of_mem (y := main_v28) (by decide),
   sub_of_mem (y := main_v29) (by decide),
   sub_of_mem (y := main_v30) (by decide),
   sub_of_mem (y := main_v31) (by decide),
   sub_of_mem (y := main_v32) (by decide),
   sub_of_mem (y := main_v33) (by decide),
   sub_of_mem (y := main_v34) (by decide),
   sub_of_mem (y := main_v35) (by decide),
   sub_of_mem (y := main_v36) (by decide),
   sub_of_mem (y := main_v37) (by decide),
   sub_of_mem (y := main_v38) (by decide),
   sub_of_mem (y := main_v39) (by decide),
   sub_of_mem (y := main_v40) (by decide),
   sub_of_mem (y := main_v41) (by decide),
   sub_of_mem (y := main_v42) (by decide),
   sub_of_mem (y := main_v43) (by decide),
   sub_of_mem (y := main_v44) (by decide),
   sub_of_mem (y := main_v45) (by decide),
   sub_of_mem (y := main_v46) (by decide),
   sub_of_mem (y := main_v47) (by decide),
   sub_of_mem (y := main_v48) (by decide),
   sub_of_mem (y := main_v49) (by decide),
   sub_of_mem (y := main_v50) (by decide)⟩

/-- A reference host stretch 0 does not write holds after it what it held before it. -/
theorem host0_keeps (V : Valuation τ sig (Elt Ideal)) (r : Ref sig .tc) (hr : r ∉ writes0) :
    StableHlo.after hostOps0 V (Proc.devRef .tc r) = V (Proc.devRef .tc r) :=
  StableHlo.after_of_writes_sub hostOps0 V hW0 hr

/-- The references host stretch 1 writes, in order: one per operation, its result. -/
abbrev writes1 : List (Ref sig .tc) :=
  [main_c_1, main_v52, main_v53, main_c_2, main_v54, main_v55, main_v56, main_v57, main_v58, main_cst_3, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98]

/-- Every operation of host stretch 1 writes a reference of that list. -/
theorem hW1 : (hostOps1 (F := Ideal)).Forall fun op => op.writes ⊆ (writes1.map (Proc.devRef (τ := τ) .tc)).toFinset :=
  ⟨sub_of_mem (y := main_c_1) (by decide),
   sub_of_mem (y := main_v52) (by decide),
   sub_of_mem (y := main_v53) (by decide),
   sub_of_mem (y := main_c_2) (by decide),
   sub_of_mem (y := main_v54) (by decide),
   sub_of_mem (y := main_v55) (by decide),
   sub_of_mem (y := main_v56) (by decide),
   sub_of_mem (y := main_v57) (by decide),
   sub_of_mem (y := main_v58) (by decide),
   sub_of_mem (y := main_cst_3) (by decide),
   sub_of_mem (y := main_v59) (by decide),
   sub_of_mem (y := main_v60) (by decide),
   sub_of_mem (y := main_v61) (by decide),
   sub_of_mem (y := main_v62) (by decide),
   sub_of_mem (y := main_v63) (by decide),
   sub_of_mem (y := main_v64) (by decide),
   sub_of_mem (y := main_v65) (by decide),
   sub_of_mem (y := main_v66) (by decide),
   sub_of_mem (y := main_v67) (by decide),
   sub_of_mem (y := main_v68) (by decide),
   sub_of_mem (y := main_v69) (by decide),
   sub_of_mem (y := main_v70) (by decide),
   sub_of_mem (y := main_v71) (by decide),
   sub_of_mem (y := main_v72) (by decide),
   sub_of_mem (y := main_v73) (by decide),
   sub_of_mem (y := main_v74) (by decide),
   sub_of_mem (y := main_v75) (by decide),
   sub_of_mem (y := main_v76) (by decide),
   sub_of_mem (y := main_v77) (by decide),
   sub_of_mem (y := main_v78) (by decide),
   sub_of_mem (y := main_v79) (by decide),
   sub_of_mem (y := main_v80) (by decide),
   sub_of_mem (y := main_v81) (by decide),
   sub_of_mem (y := main_v82) (by decide),
   sub_of_mem (y := main_v83) (by decide),
   sub_of_mem (y := main_v84) (by decide),
   sub_of_mem (y := main_v85) (by decide),
   sub_of_mem (y := main_v86) (by decide),
   sub_of_mem (y := main_v87) (by decide),
   sub_of_mem (y := main_v88) (by decide),
   sub_of_mem (y := main_v89) (by decide),
   sub_of_mem (y := main_v90) (by decide),
   sub_of_mem (y := main_v91) (by decide),
   sub_of_mem (y := main_v92) (by decide),
   sub_of_mem (y := main_v93) (by decide),
   sub_of_mem (y := main_v94) (by decide),
   sub_of_mem (y := main_v95) (by decide),
   sub_of_mem (y := main_v96) (by decide),
   sub_of_mem (y := main_v97) (by decide),
   sub_of_mem (y := main_v98) (by decide)⟩

/-- A reference host stretch 1 does not write holds after it what it held before it. -/
theorem host1_keeps (V : Valuation τ sig (Elt Ideal)) (r : Ref sig .tc) (hr : r ∉ writes1) :
    StableHlo.after hostOps1 V (Proc.devRef .tc r) = V (Proc.devRef .tc r) :=
  StableHlo.after_of_writes_sub hostOps1 V hW1 hr

/-- The references host stretch 2 writes, in order: one per operation, its result. -/
abbrev writes2 : List (Ref sig .tc) :=
  [main_c_4, main_v100, main_v101, main_c_5, main_v102, main_v103, main_v104, main_v105, main_v106, main_cst_6, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146]

/-- Every operation of host stretch 2 writes a reference of that list. -/
theorem hW2 : (hostOps2 (F := Ideal)).Forall fun op => op.writes ⊆ (writes2.map (Proc.devRef (τ := τ) .tc)).toFinset :=
  ⟨sub_of_mem (y := main_c_4) (by decide),
   sub_of_mem (y := main_v100) (by decide),
   sub_of_mem (y := main_v101) (by decide),
   sub_of_mem (y := main_c_5) (by decide),
   sub_of_mem (y := main_v102) (by decide),
   sub_of_mem (y := main_v103) (by decide),
   sub_of_mem (y := main_v104) (by decide),
   sub_of_mem (y := main_v105) (by decide),
   sub_of_mem (y := main_v106) (by decide),
   sub_of_mem (y := main_cst_6) (by decide),
   sub_of_mem (y := main_v107) (by decide),
   sub_of_mem (y := main_v108) (by decide),
   sub_of_mem (y := main_v109) (by decide),
   sub_of_mem (y := main_v110) (by decide),
   sub_of_mem (y := main_v111) (by decide),
   sub_of_mem (y := main_v112) (by decide),
   sub_of_mem (y := main_v113) (by decide),
   sub_of_mem (y := main_v114) (by decide),
   sub_of_mem (y := main_v115) (by decide),
   sub_of_mem (y := main_v116) (by decide),
   sub_of_mem (y := main_v117) (by decide),
   sub_of_mem (y := main_v118) (by decide),
   sub_of_mem (y := main_v119) (by decide),
   sub_of_mem (y := main_v120) (by decide),
   sub_of_mem (y := main_v121) (by decide),
   sub_of_mem (y := main_v122) (by decide),
   sub_of_mem (y := main_v123) (by decide),
   sub_of_mem (y := main_v124) (by decide),
   sub_of_mem (y := main_v125) (by decide),
   sub_of_mem (y := main_v126) (by decide),
   sub_of_mem (y := main_v127) (by decide),
   sub_of_mem (y := main_v128) (by decide),
   sub_of_mem (y := main_v129) (by decide),
   sub_of_mem (y := main_v130) (by decide),
   sub_of_mem (y := main_v131) (by decide),
   sub_of_mem (y := main_v132) (by decide),
   sub_of_mem (y := main_v133) (by decide),
   sub_of_mem (y := main_v134) (by decide),
   sub_of_mem (y := main_v135) (by decide),
   sub_of_mem (y := main_v136) (by decide),
   sub_of_mem (y := main_v137) (by decide),
   sub_of_mem (y := main_v138) (by decide),
   sub_of_mem (y := main_v139) (by decide),
   sub_of_mem (y := main_v140) (by decide),
   sub_of_mem (y := main_v141) (by decide),
   sub_of_mem (y := main_v142) (by decide),
   sub_of_mem (y := main_v143) (by decide),
   sub_of_mem (y := main_v144) (by decide),
   sub_of_mem (y := main_v145) (by decide),
   sub_of_mem (y := main_v146) (by decide)⟩

/-- A reference host stretch 2 does not write holds after it what it held before it. -/
theorem host2_keeps (V : Valuation τ sig (Elt Ideal)) (r : Ref sig .tc) (hr : r ∉ writes2) :
    StableHlo.after hostOps2 V (Proc.devRef .tc r) = V (Proc.devRef .tc r) :=
  StableHlo.after_of_writes_sub hostOps2 V hW2 hr

/-- The references host stretch 3 writes, in order: one per operation, its result. -/
abbrev writes3 : List (Ref sig .tc) :=
  [main_c_7, main_v148, main_v149, main_c_8, main_v150, main_v151, main_v152, main_v153, main_v154, main_cst_9, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194]

/-- Every operation of host stretch 3 writes a reference of that list. -/
theorem hW3 : (hostOps3 (F := Ideal)).Forall fun op => op.writes ⊆ (writes3.map (Proc.devRef (τ := τ) .tc)).toFinset :=
  ⟨sub_of_mem (y := main_c_7) (by decide),
   sub_of_mem (y := main_v148) (by decide),
   sub_of_mem (y := main_v149) (by decide),
   sub_of_mem (y := main_c_8) (by decide),
   sub_of_mem (y := main_v150) (by decide),
   sub_of_mem (y := main_v151) (by decide),
   sub_of_mem (y := main_v152) (by decide),
   sub_of_mem (y := main_v153) (by decide),
   sub_of_mem (y := main_v154) (by decide),
   sub_of_mem (y := main_cst_9) (by decide),
   sub_of_mem (y := main_v155) (by decide),
   sub_of_mem (y := main_v156) (by decide),
   sub_of_mem (y := main_v157) (by decide),
   sub_of_mem (y := main_v158) (by decide),
   sub_of_mem (y := main_v159) (by decide),
   sub_of_mem (y := main_v160) (by decide),
   sub_of_mem (y := main_v161) (by decide),
   sub_of_mem (y := main_v162) (by decide),
   sub_of_mem (y := main_v163) (by decide),
   sub_of_mem (y := main_v164) (by decide),
   sub_of_mem (y := main_v165) (by decide),
   sub_of_mem (y := main_v166) (by decide),
   sub_of_mem (y := main_v167) (by decide),
   sub_of_mem (y := main_v168) (by decide),
   sub_of_mem (y := main_v169) (by decide),
   sub_of_mem (y := main_v170) (by decide),
   sub_of_mem (y := main_v171) (by decide),
   sub_of_mem (y := main_v172) (by decide),
   sub_of_mem (y := main_v173) (by decide),
   sub_of_mem (y := main_v174) (by decide),
   sub_of_mem (y := main_v175) (by decide),
   sub_of_mem (y := main_v176) (by decide),
   sub_of_mem (y := main_v177) (by decide),
   sub_of_mem (y := main_v178) (by decide),
   sub_of_mem (y := main_v179) (by decide),
   sub_of_mem (y := main_v180) (by decide),
   sub_of_mem (y := main_v181) (by decide),
   sub_of_mem (y := main_v182) (by decide),
   sub_of_mem (y := main_v183) (by decide),
   sub_of_mem (y := main_v184) (by decide),
   sub_of_mem (y := main_v185) (by decide),
   sub_of_mem (y := main_v186) (by decide),
   sub_of_mem (y := main_v187) (by decide),
   sub_of_mem (y := main_v188) (by decide),
   sub_of_mem (y := main_v189) (by decide),
   sub_of_mem (y := main_v190) (by decide),
   sub_of_mem (y := main_v191) (by decide),
   sub_of_mem (y := main_v192) (by decide),
   sub_of_mem (y := main_v193) (by decide),
   sub_of_mem (y := main_v194) (by decide)⟩

/-- A reference host stretch 3 does not write holds after it what it held before it. -/
theorem host3_keeps (V : Valuation τ sig (Elt Ideal)) (r : Ref sig .tc) (hr : r ∉ writes3) :
    StableHlo.after hostOps3 V (Proc.devRef .tc r) = V (Proc.devRef .tc r) :=
  StableHlo.after_of_writes_sub hostOps3 V hW3 hr

/-- The references host stretch 4 writes, in order: one per operation, its result. -/
abbrev writes4 : List (Ref sig .tc) :=
  [main_cst_10, main_v196, main_v197, main_v198, main_v199, main_v200, main_v201, main_v202, main_v203, main_v204]

/-- Every operation of host stretch 4 writes a reference of that list. -/
theorem hW4 : (hostOps4 (F := Ideal)).Forall fun op => op.writes ⊆ (writes4.map (Proc.devRef (τ := τ) .tc)).toFinset :=
  ⟨sub_of_mem (y := main_cst_10) (by decide),
   sub_of_mem (y := main_v196) (by decide),
   sub_of_mem (y := main_v197) (by decide),
   sub_of_mem (y := main_v198) (by decide),
   sub_of_mem (y := main_v199) (by decide),
   sub_of_mem (y := main_v200) (by decide),
   sub_of_mem (y := main_v201) (by decide),
   sub_of_mem (y := main_v202) (by decide),
   sub_of_mem (y := main_v203) (by decide),
   sub_of_mem (y := main_v204) (by decide)⟩

/-- A reference host stretch 4 does not write holds after it what it held before it. -/
theorem host4_keeps (V : Valuation τ sig (Elt Ideal)) (r : Ref sig .tc) (hr : r ∉ writes4) :
    StableHlo.after hostOps4 V (Proc.devRef .tc r) = V (Proc.devRef .tc r) :=
  StableHlo.after_of_writes_sub hostOps4 V hW4 hr

variable (m : (ℓ : Loc nD τ sig) → Buf (Elt Ideal) ℓ) (ρ : Dev nD → PrngReg)

/-! ## The arguments 1 … 23 at every region's exit: the launch memory -/

theorem W1_arg1 (c : Dev nD) : W1 m ρ c (Proc.devRef .tc main_arg1) = m ((c : Thread nD τ).loc main_arg1) :=
  (host0_keeps (W0 m ρ c) main_arg1 (by decide)).trans rfl
theorem W2_arg1 (c : Dev nD) : W2 m ρ c (Proc.devRef .tc main_arg1) = m ((c : Thread nD τ).loc main_arg1) :=
  (W2_of_ne m ρ c main_arg1 (by decide)).trans (W1_arg1 m ρ c)
theorem W4_arg1 (c : Dev nD) : W4 m ρ c (Proc.devRef .tc main_arg1) = m ((c : Thread nD τ).loc main_arg1) :=
  (W4_of_ne m ρ c main_arg1 (by decide)).trans ((host1_keeps (W2 m ρ c) main_arg1 (by decide)).trans (W2_arg1 m ρ c))
theorem W6_arg1 (c : Dev nD) : W6 m ρ c (Proc.devRef .tc main_arg1) = m ((c : Thread nD τ).loc main_arg1) :=
  (W6_of_ne m ρ c main_arg1 (by decide)).trans ((host2_keeps (W4 m ρ c) main_arg1 (by decide)).trans (W4_arg1 m ρ c))
theorem W8_arg1 (c : Dev nD) : W8 m ρ c (Proc.devRef .tc main_arg1) = m ((c : Thread nD τ).loc main_arg1) :=
  (W8_of_ne m ρ c main_arg1 (by decide)).trans ((host3_keeps (W6 m ρ c) main_arg1 (by decide)).trans (W6_arg1 m ρ c))

theorem W1_arg2 (c : Dev nD) : W1 m ρ c (Proc.devRef .tc main_arg2) = m ((c : Thread nD τ).loc main_arg2) :=
  (host0_keeps (W0 m ρ c) main_arg2 (by decide)).trans rfl
theorem W2_arg2 (c : Dev nD) : W2 m ρ c (Proc.devRef .tc main_arg2) = m ((c : Thread nD τ).loc main_arg2) :=
  (W2_of_ne m ρ c main_arg2 (by decide)).trans (W1_arg2 m ρ c)
theorem W4_arg2 (c : Dev nD) : W4 m ρ c (Proc.devRef .tc main_arg2) = m ((c : Thread nD τ).loc main_arg2) :=
  (W4_of_ne m ρ c main_arg2 (by decide)).trans ((host1_keeps (W2 m ρ c) main_arg2 (by decide)).trans (W2_arg2 m ρ c))
theorem W6_arg2 (c : Dev nD) : W6 m ρ c (Proc.devRef .tc main_arg2) = m ((c : Thread nD τ).loc main_arg2) :=
  (W6_of_ne m ρ c main_arg2 (by decide)).trans ((host2_keeps (W4 m ρ c) main_arg2 (by decide)).trans (W4_arg2 m ρ c))
theorem W8_arg2 (c : Dev nD) : W8 m ρ c (Proc.devRef .tc main_arg2) = m ((c : Thread nD τ).loc main_arg2) :=
  (W8_of_ne m ρ c main_arg2 (by decide)).trans ((host3_keeps (W6 m ρ c) main_arg2 (by decide)).trans (W6_arg2 m ρ c))

theorem W1_arg3 (c : Dev nD) : W1 m ρ c (Proc.devRef .tc main_arg3) = m ((c : Thread nD τ).loc main_arg3) :=
  (host0_keeps (W0 m ρ c) main_arg3 (by decide)).trans rfl
theorem W2_arg3 (c : Dev nD) : W2 m ρ c (Proc.devRef .tc main_arg3) = m ((c : Thread nD τ).loc main_arg3) :=
  (W2_of_ne m ρ c main_arg3 (by decide)).trans (W1_arg3 m ρ c)
theorem W4_arg3 (c : Dev nD) : W4 m ρ c (Proc.devRef .tc main_arg3) = m ((c : Thread nD τ).loc main_arg3) :=
  (W4_of_ne m ρ c main_arg3 (by decide)).trans ((host1_keeps (W2 m ρ c) main_arg3 (by decide)).trans (W2_arg3 m ρ c))
theorem W6_arg3 (c : Dev nD) : W6 m ρ c (Proc.devRef .tc main_arg3) = m ((c : Thread nD τ).loc main_arg3) :=
  (W6_of_ne m ρ c main_arg3 (by decide)).trans ((host2_keeps (W4 m ρ c) main_arg3 (by decide)).trans (W4_arg3 m ρ c))
theorem W8_arg3 (c : Dev nD) : W8 m ρ c (Proc.devRef .tc main_arg3) = m ((c : Thread nD τ).loc main_arg3) :=
  (W8_of_ne m ρ c main_arg3 (by decide)).trans ((host3_keeps (W6 m ρ c) main_arg3 (by decide)).trans (W6_arg3 m ρ c))

theorem W1_arg4 (c : Dev nD) : W1 m ρ c (Proc.devRef .tc main_arg4) = m ((c : Thread nD τ).loc main_arg4) :=
  (host0_keeps (W0 m ρ c) main_arg4 (by decide)).trans rfl
theorem W2_arg4 (c : Dev nD) : W2 m ρ c (Proc.devRef .tc main_arg4) = m ((c : Thread nD τ).loc main_arg4) :=
  (W2_of_ne m ρ c main_arg4 (by decide)).trans (W1_arg4 m ρ c)
theorem W4_arg4 (c : Dev nD) : W4 m ρ c (Proc.devRef .tc main_arg4) = m ((c : Thread nD τ).loc main_arg4) :=
  (W4_of_ne m ρ c main_arg4 (by decide)).trans ((host1_keeps (W2 m ρ c) main_arg4 (by decide)).trans (W2_arg4 m ρ c))
theorem W6_arg4 (c : Dev nD) : W6 m ρ c (Proc.devRef .tc main_arg4) = m ((c : Thread nD τ).loc main_arg4) :=
  (W6_of_ne m ρ c main_arg4 (by decide)).trans ((host2_keeps (W4 m ρ c) main_arg4 (by decide)).trans (W4_arg4 m ρ c))
theorem W8_arg4 (c : Dev nD) : W8 m ρ c (Proc.devRef .tc main_arg4) = m ((c : Thread nD τ).loc main_arg4) :=
  (W8_of_ne m ρ c main_arg4 (by decide)).trans ((host3_keeps (W6 m ρ c) main_arg4 (by decide)).trans (W6_arg4 m ρ c))

theorem W1_arg5 (c : Dev nD) : W1 m ρ c (Proc.devRef .tc main_arg5) = m ((c : Thread nD τ).loc main_arg5) :=
  (host0_keeps (W0 m ρ c) main_arg5 (by decide)).trans rfl
theorem W2_arg5 (c : Dev nD) : W2 m ρ c (Proc.devRef .tc main_arg5) = m ((c : Thread nD τ).loc main_arg5) :=
  (W2_of_ne m ρ c main_arg5 (by decide)).trans (W1_arg5 m ρ c)
theorem W4_arg5 (c : Dev nD) : W4 m ρ c (Proc.devRef .tc main_arg5) = m ((c : Thread nD τ).loc main_arg5) :=
  (W4_of_ne m ρ c main_arg5 (by decide)).trans ((host1_keeps (W2 m ρ c) main_arg5 (by decide)).trans (W2_arg5 m ρ c))
theorem W6_arg5 (c : Dev nD) : W6 m ρ c (Proc.devRef .tc main_arg5) = m ((c : Thread nD τ).loc main_arg5) :=
  (W6_of_ne m ρ c main_arg5 (by decide)).trans ((host2_keeps (W4 m ρ c) main_arg5 (by decide)).trans (W4_arg5 m ρ c))
theorem W8_arg5 (c : Dev nD) : W8 m ρ c (Proc.devRef .tc main_arg5) = m ((c : Thread nD τ).loc main_arg5) :=
  (W8_of_ne m ρ c main_arg5 (by decide)).trans ((host3_keeps (W6 m ρ c) main_arg5 (by decide)).trans (W6_arg5 m ρ c))

theorem W1_arg6 (c : Dev nD) : W1 m ρ c (Proc.devRef .tc main_arg6) = m ((c : Thread nD τ).loc main_arg6) :=
  (host0_keeps (W0 m ρ c) main_arg6 (by decide)).trans rfl
theorem W2_arg6 (c : Dev nD) : W2 m ρ c (Proc.devRef .tc main_arg6) = m ((c : Thread nD τ).loc main_arg6) :=
  (W2_of_ne m ρ c main_arg6 (by decide)).trans (W1_arg6 m ρ c)
theorem W4_arg6 (c : Dev nD) : W4 m ρ c (Proc.devRef .tc main_arg6) = m ((c : Thread nD τ).loc main_arg6) :=
  (W4_of_ne m ρ c main_arg6 (by decide)).trans ((host1_keeps (W2 m ρ c) main_arg6 (by decide)).trans (W2_arg6 m ρ c))
theorem W6_arg6 (c : Dev nD) : W6 m ρ c (Proc.devRef .tc main_arg6) = m ((c : Thread nD τ).loc main_arg6) :=
  (W6_of_ne m ρ c main_arg6 (by decide)).trans ((host2_keeps (W4 m ρ c) main_arg6 (by decide)).trans (W4_arg6 m ρ c))
theorem W8_arg6 (c : Dev nD) : W8 m ρ c (Proc.devRef .tc main_arg6) = m ((c : Thread nD τ).loc main_arg6) :=
  (W8_of_ne m ρ c main_arg6 (by decide)).trans ((host3_keeps (W6 m ρ c) main_arg6 (by decide)).trans (W6_arg6 m ρ c))

theorem W1_arg7 (c : Dev nD) : W1 m ρ c (Proc.devRef .tc main_arg7) = m ((c : Thread nD τ).loc main_arg7) :=
  (host0_keeps (W0 m ρ c) main_arg7 (by decide)).trans rfl
theorem W2_arg7 (c : Dev nD) : W2 m ρ c (Proc.devRef .tc main_arg7) = m ((c : Thread nD τ).loc main_arg7) :=
  (W2_of_ne m ρ c main_arg7 (by decide)).trans (W1_arg7 m ρ c)
theorem W4_arg7 (c : Dev nD) : W4 m ρ c (Proc.devRef .tc main_arg7) = m ((c : Thread nD τ).loc main_arg7) :=
  (W4_of_ne m ρ c main_arg7 (by decide)).trans ((host1_keeps (W2 m ρ c) main_arg7 (by decide)).trans (W2_arg7 m ρ c))
theorem W6_arg7 (c : Dev nD) : W6 m ρ c (Proc.devRef .tc main_arg7) = m ((c : Thread nD τ).loc main_arg7) :=
  (W6_of_ne m ρ c main_arg7 (by decide)).trans ((host2_keeps (W4 m ρ c) main_arg7 (by decide)).trans (W4_arg7 m ρ c))
theorem W8_arg7 (c : Dev nD) : W8 m ρ c (Proc.devRef .tc main_arg7) = m ((c : Thread nD τ).loc main_arg7) :=
  (W8_of_ne m ρ c main_arg7 (by decide)).trans ((host3_keeps (W6 m ρ c) main_arg7 (by decide)).trans (W6_arg7 m ρ c))

theorem W1_arg8 (c : Dev nD) : W1 m ρ c (Proc.devRef .tc main_arg8) = m ((c : Thread nD τ).loc main_arg8) :=
  (host0_keeps (W0 m ρ c) main_arg8 (by decide)).trans rfl
theorem W2_arg8 (c : Dev nD) : W2 m ρ c (Proc.devRef .tc main_arg8) = m ((c : Thread nD τ).loc main_arg8) :=
  (W2_of_ne m ρ c main_arg8 (by decide)).trans (W1_arg8 m ρ c)
theorem W4_arg8 (c : Dev nD) : W4 m ρ c (Proc.devRef .tc main_arg8) = m ((c : Thread nD τ).loc main_arg8) :=
  (W4_of_ne m ρ c main_arg8 (by decide)).trans ((host1_keeps (W2 m ρ c) main_arg8 (by decide)).trans (W2_arg8 m ρ c))
theorem W6_arg8 (c : Dev nD) : W6 m ρ c (Proc.devRef .tc main_arg8) = m ((c : Thread nD τ).loc main_arg8) :=
  (W6_of_ne m ρ c main_arg8 (by decide)).trans ((host2_keeps (W4 m ρ c) main_arg8 (by decide)).trans (W4_arg8 m ρ c))
theorem W8_arg8 (c : Dev nD) : W8 m ρ c (Proc.devRef .tc main_arg8) = m ((c : Thread nD τ).loc main_arg8) :=
  (W8_of_ne m ρ c main_arg8 (by decide)).trans ((host3_keeps (W6 m ρ c) main_arg8 (by decide)).trans (W6_arg8 m ρ c))

theorem W1_arg9 (c : Dev nD) : W1 m ρ c (Proc.devRef .tc main_arg9) = m ((c : Thread nD τ).loc main_arg9) :=
  (host0_keeps (W0 m ρ c) main_arg9 (by decide)).trans rfl
theorem W2_arg9 (c : Dev nD) : W2 m ρ c (Proc.devRef .tc main_arg9) = m ((c : Thread nD τ).loc main_arg9) :=
  (W2_of_ne m ρ c main_arg9 (by decide)).trans (W1_arg9 m ρ c)
theorem W4_arg9 (c : Dev nD) : W4 m ρ c (Proc.devRef .tc main_arg9) = m ((c : Thread nD τ).loc main_arg9) :=
  (W4_of_ne m ρ c main_arg9 (by decide)).trans ((host1_keeps (W2 m ρ c) main_arg9 (by decide)).trans (W2_arg9 m ρ c))
theorem W6_arg9 (c : Dev nD) : W6 m ρ c (Proc.devRef .tc main_arg9) = m ((c : Thread nD τ).loc main_arg9) :=
  (W6_of_ne m ρ c main_arg9 (by decide)).trans ((host2_keeps (W4 m ρ c) main_arg9 (by decide)).trans (W4_arg9 m ρ c))
theorem W8_arg9 (c : Dev nD) : W8 m ρ c (Proc.devRef .tc main_arg9) = m ((c : Thread nD τ).loc main_arg9) :=
  (W8_of_ne m ρ c main_arg9 (by decide)).trans ((host3_keeps (W6 m ρ c) main_arg9 (by decide)).trans (W6_arg9 m ρ c))

theorem W1_arg10 (c : Dev nD) : W1 m ρ c (Proc.devRef .tc main_arg10) = m ((c : Thread nD τ).loc main_arg10) :=
  (host0_keeps (W0 m ρ c) main_arg10 (by decide)).trans rfl
theorem W2_arg10 (c : Dev nD) : W2 m ρ c (Proc.devRef .tc main_arg10) = m ((c : Thread nD τ).loc main_arg10) :=
  (W2_of_ne m ρ c main_arg10 (by decide)).trans (W1_arg10 m ρ c)
theorem W4_arg10 (c : Dev nD) : W4 m ρ c (Proc.devRef .tc main_arg10) = m ((c : Thread nD τ).loc main_arg10) :=
  (W4_of_ne m ρ c main_arg10 (by decide)).trans ((host1_keeps (W2 m ρ c) main_arg10 (by decide)).trans (W2_arg10 m ρ c))
theorem W6_arg10 (c : Dev nD) : W6 m ρ c (Proc.devRef .tc main_arg10) = m ((c : Thread nD τ).loc main_arg10) :=
  (W6_of_ne m ρ c main_arg10 (by decide)).trans ((host2_keeps (W4 m ρ c) main_arg10 (by decide)).trans (W4_arg10 m ρ c))
theorem W8_arg10 (c : Dev nD) : W8 m ρ c (Proc.devRef .tc main_arg10) = m ((c : Thread nD τ).loc main_arg10) :=
  (W8_of_ne m ρ c main_arg10 (by decide)).trans ((host3_keeps (W6 m ρ c) main_arg10 (by decide)).trans (W6_arg10 m ρ c))

theorem W1_arg11 (c : Dev nD) : W1 m ρ c (Proc.devRef .tc main_arg11) = m ((c : Thread nD τ).loc main_arg11) :=
  (host0_keeps (W0 m ρ c) main_arg11 (by decide)).trans rfl
theorem W2_arg11 (c : Dev nD) : W2 m ρ c (Proc.devRef .tc main_arg11) = m ((c : Thread nD τ).loc main_arg11) :=
  (W2_of_ne m ρ c main_arg11 (by decide)).trans (W1_arg11 m ρ c)
theorem W4_arg11 (c : Dev nD) : W4 m ρ c (Proc.devRef .tc main_arg11) = m ((c : Thread nD τ).loc main_arg11) :=
  (W4_of_ne m ρ c main_arg11 (by decide)).trans ((host1_keeps (W2 m ρ c) main_arg11 (by decide)).trans (W2_arg11 m ρ c))
theorem W6_arg11 (c : Dev nD) : W6 m ρ c (Proc.devRef .tc main_arg11) = m ((c : Thread nD τ).loc main_arg11) :=
  (W6_of_ne m ρ c main_arg11 (by decide)).trans ((host2_keeps (W4 m ρ c) main_arg11 (by decide)).trans (W4_arg11 m ρ c))
theorem W8_arg11 (c : Dev nD) : W8 m ρ c (Proc.devRef .tc main_arg11) = m ((c : Thread nD τ).loc main_arg11) :=
  (W8_of_ne m ρ c main_arg11 (by decide)).trans ((host3_keeps (W6 m ρ c) main_arg11 (by decide)).trans (W6_arg11 m ρ c))

theorem W1_arg12 (c : Dev nD) : W1 m ρ c (Proc.devRef .tc main_arg12) = m ((c : Thread nD τ).loc main_arg12) :=
  (host0_keeps (W0 m ρ c) main_arg12 (by decide)).trans rfl
theorem W2_arg12 (c : Dev nD) : W2 m ρ c (Proc.devRef .tc main_arg12) = m ((c : Thread nD τ).loc main_arg12) :=
  (W2_of_ne m ρ c main_arg12 (by decide)).trans (W1_arg12 m ρ c)
theorem W4_arg12 (c : Dev nD) : W4 m ρ c (Proc.devRef .tc main_arg12) = m ((c : Thread nD τ).loc main_arg12) :=
  (W4_of_ne m ρ c main_arg12 (by decide)).trans ((host1_keeps (W2 m ρ c) main_arg12 (by decide)).trans (W2_arg12 m ρ c))
theorem W6_arg12 (c : Dev nD) : W6 m ρ c (Proc.devRef .tc main_arg12) = m ((c : Thread nD τ).loc main_arg12) :=
  (W6_of_ne m ρ c main_arg12 (by decide)).trans ((host2_keeps (W4 m ρ c) main_arg12 (by decide)).trans (W4_arg12 m ρ c))
theorem W8_arg12 (c : Dev nD) : W8 m ρ c (Proc.devRef .tc main_arg12) = m ((c : Thread nD τ).loc main_arg12) :=
  (W8_of_ne m ρ c main_arg12 (by decide)).trans ((host3_keeps (W6 m ρ c) main_arg12 (by decide)).trans (W6_arg12 m ρ c))

theorem W1_arg13 (c : Dev nD) : W1 m ρ c (Proc.devRef .tc main_arg13) = m ((c : Thread nD τ).loc main_arg13) :=
  (host0_keeps (W0 m ρ c) main_arg13 (by decide)).trans rfl
theorem W2_arg13 (c : Dev nD) : W2 m ρ c (Proc.devRef .tc main_arg13) = m ((c : Thread nD τ).loc main_arg13) :=
  (W2_of_ne m ρ c main_arg13 (by decide)).trans (W1_arg13 m ρ c)
theorem W4_arg13 (c : Dev nD) : W4 m ρ c (Proc.devRef .tc main_arg13) = m ((c : Thread nD τ).loc main_arg13) :=
  (W4_of_ne m ρ c main_arg13 (by decide)).trans ((host1_keeps (W2 m ρ c) main_arg13 (by decide)).trans (W2_arg13 m ρ c))
theorem W6_arg13 (c : Dev nD) : W6 m ρ c (Proc.devRef .tc main_arg13) = m ((c : Thread nD τ).loc main_arg13) :=
  (W6_of_ne m ρ c main_arg13 (by decide)).trans ((host2_keeps (W4 m ρ c) main_arg13 (by decide)).trans (W4_arg13 m ρ c))
theorem W8_arg13 (c : Dev nD) : W8 m ρ c (Proc.devRef .tc main_arg13) = m ((c : Thread nD τ).loc main_arg13) :=
  (W8_of_ne m ρ c main_arg13 (by decide)).trans ((host3_keeps (W6 m ρ c) main_arg13 (by decide)).trans (W6_arg13 m ρ c))

theorem W1_arg14 (c : Dev nD) : W1 m ρ c (Proc.devRef .tc main_arg14) = m ((c : Thread nD τ).loc main_arg14) :=
  (host0_keeps (W0 m ρ c) main_arg14 (by decide)).trans rfl
theorem W2_arg14 (c : Dev nD) : W2 m ρ c (Proc.devRef .tc main_arg14) = m ((c : Thread nD τ).loc main_arg14) :=
  (W2_of_ne m ρ c main_arg14 (by decide)).trans (W1_arg14 m ρ c)
theorem W4_arg14 (c : Dev nD) : W4 m ρ c (Proc.devRef .tc main_arg14) = m ((c : Thread nD τ).loc main_arg14) :=
  (W4_of_ne m ρ c main_arg14 (by decide)).trans ((host1_keeps (W2 m ρ c) main_arg14 (by decide)).trans (W2_arg14 m ρ c))
theorem W6_arg14 (c : Dev nD) : W6 m ρ c (Proc.devRef .tc main_arg14) = m ((c : Thread nD τ).loc main_arg14) :=
  (W6_of_ne m ρ c main_arg14 (by decide)).trans ((host2_keeps (W4 m ρ c) main_arg14 (by decide)).trans (W4_arg14 m ρ c))
theorem W8_arg14 (c : Dev nD) : W8 m ρ c (Proc.devRef .tc main_arg14) = m ((c : Thread nD τ).loc main_arg14) :=
  (W8_of_ne m ρ c main_arg14 (by decide)).trans ((host3_keeps (W6 m ρ c) main_arg14 (by decide)).trans (W6_arg14 m ρ c))

theorem W1_arg15 (c : Dev nD) : W1 m ρ c (Proc.devRef .tc main_arg15) = m ((c : Thread nD τ).loc main_arg15) :=
  (host0_keeps (W0 m ρ c) main_arg15 (by decide)).trans rfl
theorem W2_arg15 (c : Dev nD) : W2 m ρ c (Proc.devRef .tc main_arg15) = m ((c : Thread nD τ).loc main_arg15) :=
  (W2_of_ne m ρ c main_arg15 (by decide)).trans (W1_arg15 m ρ c)
theorem W4_arg15 (c : Dev nD) : W4 m ρ c (Proc.devRef .tc main_arg15) = m ((c : Thread nD τ).loc main_arg15) :=
  (W4_of_ne m ρ c main_arg15 (by decide)).trans ((host1_keeps (W2 m ρ c) main_arg15 (by decide)).trans (W2_arg15 m ρ c))
theorem W6_arg15 (c : Dev nD) : W6 m ρ c (Proc.devRef .tc main_arg15) = m ((c : Thread nD τ).loc main_arg15) :=
  (W6_of_ne m ρ c main_arg15 (by decide)).trans ((host2_keeps (W4 m ρ c) main_arg15 (by decide)).trans (W4_arg15 m ρ c))
theorem W8_arg15 (c : Dev nD) : W8 m ρ c (Proc.devRef .tc main_arg15) = m ((c : Thread nD τ).loc main_arg15) :=
  (W8_of_ne m ρ c main_arg15 (by decide)).trans ((host3_keeps (W6 m ρ c) main_arg15 (by decide)).trans (W6_arg15 m ρ c))

theorem W1_arg16 (c : Dev nD) : W1 m ρ c (Proc.devRef .tc main_arg16) = m ((c : Thread nD τ).loc main_arg16) :=
  (host0_keeps (W0 m ρ c) main_arg16 (by decide)).trans rfl
theorem W2_arg16 (c : Dev nD) : W2 m ρ c (Proc.devRef .tc main_arg16) = m ((c : Thread nD τ).loc main_arg16) :=
  (W2_of_ne m ρ c main_arg16 (by decide)).trans (W1_arg16 m ρ c)
theorem W4_arg16 (c : Dev nD) : W4 m ρ c (Proc.devRef .tc main_arg16) = m ((c : Thread nD τ).loc main_arg16) :=
  (W4_of_ne m ρ c main_arg16 (by decide)).trans ((host1_keeps (W2 m ρ c) main_arg16 (by decide)).trans (W2_arg16 m ρ c))
theorem W6_arg16 (c : Dev nD) : W6 m ρ c (Proc.devRef .tc main_arg16) = m ((c : Thread nD τ).loc main_arg16) :=
  (W6_of_ne m ρ c main_arg16 (by decide)).trans ((host2_keeps (W4 m ρ c) main_arg16 (by decide)).trans (W4_arg16 m ρ c))
theorem W8_arg16 (c : Dev nD) : W8 m ρ c (Proc.devRef .tc main_arg16) = m ((c : Thread nD τ).loc main_arg16) :=
  (W8_of_ne m ρ c main_arg16 (by decide)).trans ((host3_keeps (W6 m ρ c) main_arg16 (by decide)).trans (W6_arg16 m ρ c))

theorem W1_arg17 (c : Dev nD) : W1 m ρ c (Proc.devRef .tc main_arg17) = m ((c : Thread nD τ).loc main_arg17) :=
  (host0_keeps (W0 m ρ c) main_arg17 (by decide)).trans rfl
theorem W2_arg17 (c : Dev nD) : W2 m ρ c (Proc.devRef .tc main_arg17) = m ((c : Thread nD τ).loc main_arg17) :=
  (W2_of_ne m ρ c main_arg17 (by decide)).trans (W1_arg17 m ρ c)
theorem W4_arg17 (c : Dev nD) : W4 m ρ c (Proc.devRef .tc main_arg17) = m ((c : Thread nD τ).loc main_arg17) :=
  (W4_of_ne m ρ c main_arg17 (by decide)).trans ((host1_keeps (W2 m ρ c) main_arg17 (by decide)).trans (W2_arg17 m ρ c))
theorem W6_arg17 (c : Dev nD) : W6 m ρ c (Proc.devRef .tc main_arg17) = m ((c : Thread nD τ).loc main_arg17) :=
  (W6_of_ne m ρ c main_arg17 (by decide)).trans ((host2_keeps (W4 m ρ c) main_arg17 (by decide)).trans (W4_arg17 m ρ c))
theorem W8_arg17 (c : Dev nD) : W8 m ρ c (Proc.devRef .tc main_arg17) = m ((c : Thread nD τ).loc main_arg17) :=
  (W8_of_ne m ρ c main_arg17 (by decide)).trans ((host3_keeps (W6 m ρ c) main_arg17 (by decide)).trans (W6_arg17 m ρ c))

theorem W1_arg18 (c : Dev nD) : W1 m ρ c (Proc.devRef .tc main_arg18) = m ((c : Thread nD τ).loc main_arg18) :=
  (host0_keeps (W0 m ρ c) main_arg18 (by decide)).trans rfl
theorem W2_arg18 (c : Dev nD) : W2 m ρ c (Proc.devRef .tc main_arg18) = m ((c : Thread nD τ).loc main_arg18) :=
  (W2_of_ne m ρ c main_arg18 (by decide)).trans (W1_arg18 m ρ c)
theorem W4_arg18 (c : Dev nD) : W4 m ρ c (Proc.devRef .tc main_arg18) = m ((c : Thread nD τ).loc main_arg18) :=
  (W4_of_ne m ρ c main_arg18 (by decide)).trans ((host1_keeps (W2 m ρ c) main_arg18 (by decide)).trans (W2_arg18 m ρ c))
theorem W6_arg18 (c : Dev nD) : W6 m ρ c (Proc.devRef .tc main_arg18) = m ((c : Thread nD τ).loc main_arg18) :=
  (W6_of_ne m ρ c main_arg18 (by decide)).trans ((host2_keeps (W4 m ρ c) main_arg18 (by decide)).trans (W4_arg18 m ρ c))
theorem W8_arg18 (c : Dev nD) : W8 m ρ c (Proc.devRef .tc main_arg18) = m ((c : Thread nD τ).loc main_arg18) :=
  (W8_of_ne m ρ c main_arg18 (by decide)).trans ((host3_keeps (W6 m ρ c) main_arg18 (by decide)).trans (W6_arg18 m ρ c))

theorem W1_arg19 (c : Dev nD) : W1 m ρ c (Proc.devRef .tc main_arg19) = m ((c : Thread nD τ).loc main_arg19) :=
  (host0_keeps (W0 m ρ c) main_arg19 (by decide)).trans rfl
theorem W2_arg19 (c : Dev nD) : W2 m ρ c (Proc.devRef .tc main_arg19) = m ((c : Thread nD τ).loc main_arg19) :=
  (W2_of_ne m ρ c main_arg19 (by decide)).trans (W1_arg19 m ρ c)
theorem W4_arg19 (c : Dev nD) : W4 m ρ c (Proc.devRef .tc main_arg19) = m ((c : Thread nD τ).loc main_arg19) :=
  (W4_of_ne m ρ c main_arg19 (by decide)).trans ((host1_keeps (W2 m ρ c) main_arg19 (by decide)).trans (W2_arg19 m ρ c))
theorem W6_arg19 (c : Dev nD) : W6 m ρ c (Proc.devRef .tc main_arg19) = m ((c : Thread nD τ).loc main_arg19) :=
  (W6_of_ne m ρ c main_arg19 (by decide)).trans ((host2_keeps (W4 m ρ c) main_arg19 (by decide)).trans (W4_arg19 m ρ c))
theorem W8_arg19 (c : Dev nD) : W8 m ρ c (Proc.devRef .tc main_arg19) = m ((c : Thread nD τ).loc main_arg19) :=
  (W8_of_ne m ρ c main_arg19 (by decide)).trans ((host3_keeps (W6 m ρ c) main_arg19 (by decide)).trans (W6_arg19 m ρ c))

theorem W1_arg20 (c : Dev nD) : W1 m ρ c (Proc.devRef .tc main_arg20) = m ((c : Thread nD τ).loc main_arg20) :=
  (host0_keeps (W0 m ρ c) main_arg20 (by decide)).trans rfl
theorem W2_arg20 (c : Dev nD) : W2 m ρ c (Proc.devRef .tc main_arg20) = m ((c : Thread nD τ).loc main_arg20) :=
  (W2_of_ne m ρ c main_arg20 (by decide)).trans (W1_arg20 m ρ c)
theorem W4_arg20 (c : Dev nD) : W4 m ρ c (Proc.devRef .tc main_arg20) = m ((c : Thread nD τ).loc main_arg20) :=
  (W4_of_ne m ρ c main_arg20 (by decide)).trans ((host1_keeps (W2 m ρ c) main_arg20 (by decide)).trans (W2_arg20 m ρ c))
theorem W6_arg20 (c : Dev nD) : W6 m ρ c (Proc.devRef .tc main_arg20) = m ((c : Thread nD τ).loc main_arg20) :=
  (W6_of_ne m ρ c main_arg20 (by decide)).trans ((host2_keeps (W4 m ρ c) main_arg20 (by decide)).trans (W4_arg20 m ρ c))
theorem W8_arg20 (c : Dev nD) : W8 m ρ c (Proc.devRef .tc main_arg20) = m ((c : Thread nD τ).loc main_arg20) :=
  (W8_of_ne m ρ c main_arg20 (by decide)).trans ((host3_keeps (W6 m ρ c) main_arg20 (by decide)).trans (W6_arg20 m ρ c))

theorem W1_arg21 (c : Dev nD) : W1 m ρ c (Proc.devRef .tc main_arg21) = m ((c : Thread nD τ).loc main_arg21) :=
  (host0_keeps (W0 m ρ c) main_arg21 (by decide)).trans rfl
theorem W2_arg21 (c : Dev nD) : W2 m ρ c (Proc.devRef .tc main_arg21) = m ((c : Thread nD τ).loc main_arg21) :=
  (W2_of_ne m ρ c main_arg21 (by decide)).trans (W1_arg21 m ρ c)
theorem W4_arg21 (c : Dev nD) : W4 m ρ c (Proc.devRef .tc main_arg21) = m ((c : Thread nD τ).loc main_arg21) :=
  (W4_of_ne m ρ c main_arg21 (by decide)).trans ((host1_keeps (W2 m ρ c) main_arg21 (by decide)).trans (W2_arg21 m ρ c))
theorem W6_arg21 (c : Dev nD) : W6 m ρ c (Proc.devRef .tc main_arg21) = m ((c : Thread nD τ).loc main_arg21) :=
  (W6_of_ne m ρ c main_arg21 (by decide)).trans ((host2_keeps (W4 m ρ c) main_arg21 (by decide)).trans (W4_arg21 m ρ c))
theorem W8_arg21 (c : Dev nD) : W8 m ρ c (Proc.devRef .tc main_arg21) = m ((c : Thread nD τ).loc main_arg21) :=
  (W8_of_ne m ρ c main_arg21 (by decide)).trans ((host3_keeps (W6 m ρ c) main_arg21 (by decide)).trans (W6_arg21 m ρ c))

theorem W1_arg22 (c : Dev nD) : W1 m ρ c (Proc.devRef .tc main_arg22) = m ((c : Thread nD τ).loc main_arg22) :=
  (host0_keeps (W0 m ρ c) main_arg22 (by decide)).trans rfl
theorem W2_arg22 (c : Dev nD) : W2 m ρ c (Proc.devRef .tc main_arg22) = m ((c : Thread nD τ).loc main_arg22) :=
  (W2_of_ne m ρ c main_arg22 (by decide)).trans (W1_arg22 m ρ c)
theorem W4_arg22 (c : Dev nD) : W4 m ρ c (Proc.devRef .tc main_arg22) = m ((c : Thread nD τ).loc main_arg22) :=
  (W4_of_ne m ρ c main_arg22 (by decide)).trans ((host1_keeps (W2 m ρ c) main_arg22 (by decide)).trans (W2_arg22 m ρ c))
theorem W6_arg22 (c : Dev nD) : W6 m ρ c (Proc.devRef .tc main_arg22) = m ((c : Thread nD τ).loc main_arg22) :=
  (W6_of_ne m ρ c main_arg22 (by decide)).trans ((host2_keeps (W4 m ρ c) main_arg22 (by decide)).trans (W4_arg22 m ρ c))
theorem W8_arg22 (c : Dev nD) : W8 m ρ c (Proc.devRef .tc main_arg22) = m ((c : Thread nD τ).loc main_arg22) :=
  (W8_of_ne m ρ c main_arg22 (by decide)).trans ((host3_keeps (W6 m ρ c) main_arg22 (by decide)).trans (W6_arg22 m ρ c))

theorem W1_arg23 (c : Dev nD) : W1 m ρ c (Proc.devRef .tc main_arg23) = m ((c : Thread nD τ).loc main_arg23) :=
  (host0_keeps (W0 m ρ c) main_arg23 (by decide)).trans rfl
theorem W2_arg23 (c : Dev nD) : W2 m ρ c (Proc.devRef .tc main_arg23) = m ((c : Thread nD τ).loc main_arg23) :=
  (W2_of_ne m ρ c main_arg23 (by decide)).trans (W1_arg23 m ρ c)
theorem W4_arg23 (c : Dev nD) : W4 m ρ c (Proc.devRef .tc main_arg23) = m ((c : Thread nD τ).loc main_arg23) :=
  (W4_of_ne m ρ c main_arg23 (by decide)).trans ((host1_keeps (W2 m ρ c) main_arg23 (by decide)).trans (W2_arg23 m ρ c))
theorem W6_arg23 (c : Dev nD) : W6 m ρ c (Proc.devRef .tc main_arg23) = m ((c : Thread nD τ).loc main_arg23) :=
  (W6_of_ne m ρ c main_arg23 (by decide)).trans ((host2_keeps (W4 m ρ c) main_arg23 (by decide)).trans (W4_arg23 m ρ c))
theorem W8_arg23 (c : Dev nD) : W8 m ρ c (Proc.devRef .tc main_arg23) = m ((c : Thread nD τ).loc main_arg23) :=
  (W8_of_ne m ρ c main_arg23 (by decide)).trans ((host3_keeps (W6 m ρ c) main_arg23 (by decide)).trans (W6_arg23 m ρ c))

/-! ## The two edge-index buffers of the first stretch at every region's exit -/

theorem W2_v1 (c : Dev nD) : W2 m ρ c (Proc.devRef .tc main_v1) = W1 m ρ c (Proc.devRef .tc main_v1) :=
  W2_of_ne m ρ c main_v1 (by decide)
theorem W4_v1 (c : Dev nD) : W4 m ρ c (Proc.devRef .tc main_v1) = W1 m ρ c (Proc.devRef .tc main_v1) :=
  (W4_of_ne m ρ c main_v1 (by decide)).trans ((host1_keeps (W2 m ρ c) main_v1 (by decide)).trans (W2_v1 m ρ c))
theorem W6_v1 (c : Dev nD) : W6 m ρ c (Proc.devRef .tc main_v1) = W1 m ρ c (Proc.devRef .tc main_v1) :=
  (W6_of_ne m ρ c main_v1 (by decide)).trans ((host2_keeps (W4 m ρ c) main_v1 (by decide)).trans (W4_v1 m ρ c))
theorem W8_v1 (c : Dev nD) : W8 m ρ c (Proc.devRef .tc main_v1) = W1 m ρ c (Proc.devRef .tc main_v1) :=
  (W8_of_ne m ρ c main_v1 (by decide)).trans ((host3_keeps (W6 m ρ c) main_v1 (by decide)).trans (W6_v1 m ρ c))

theorem W2_v3 (c : Dev nD) : W2 m ρ c (Proc.devRef .tc main_v3) = W1 m ρ c (Proc.devRef .tc main_v3) :=
  W2_of_ne m ρ c main_v3 (by decide)
theorem W4_v3 (c : Dev nD) : W4 m ρ c (Proc.devRef .tc main_v3) = W1 m ρ c (Proc.devRef .tc main_v3) :=
  (W4_of_ne m ρ c main_v3 (by decide)).trans ((host1_keeps (W2 m ρ c) main_v3 (by decide)).trans (W2_v3 m ρ c))
theorem W6_v3 (c : Dev nD) : W6 m ρ c (Proc.devRef .tc main_v3) = W1 m ρ c (Proc.devRef .tc main_v3) :=
  (W6_of_ne m ρ c main_v3 (by decide)).trans ((host2_keeps (W4 m ρ c) main_v3 (by decide)).trans (W4_v3 m ρ c))
theorem W8_v3 (c : Dev nD) : W8 m ρ c (Proc.devRef .tc main_v3) = W1 m ρ c (Proc.devRef .tc main_v3) :=
  (W8_of_ne m ρ c main_v3 (by decide)).trans ((host3_keeps (W6 m ρ c) main_v3 (by decide)).trans (W6_v3 m ρ c))

/-! ## A layer's output after the next host stretch -/

theorem W3_v51 (c : Dev nD) : W3 m ρ c (Proc.devRef .tc main_v51) = W2 m ρ c (Proc.devRef .tc main_v51) :=
  host1_keeps (W2 m ρ c) main_v51 (by decide)
theorem W5_v99 (c : Dev nD) : W5 m ρ c (Proc.devRef .tc main_v99) = W4 m ρ c (Proc.devRef .tc main_v99) :=
  host2_keeps (W4 m ρ c) main_v99 (by decide)
theorem W7_v147 (c : Dev nD) : W7 m ρ c (Proc.devRef .tc main_v147) = W6 m ρ c (Proc.devRef .tc main_v147) :=
  host3_keeps (W6 m ρ c) main_v147 (by decide)
theorem W9_v195 (c : Dev nD) : W9 m ρ c (Proc.devRef .tc main_v195) = W8 m ρ c (Proc.devRef .tc main_v195) :=
  host4_keeps (W8 m ρ c) main_v195 (by decide)

end Cert.KernelIdeal.Kept

end
-- ==== Proof.KEntry0.lean ====
/-
  What layer 1's region finds in its windows' arrays: each is a term of host operations over the node rows, the edge list and slices of the parameter stacks, the arguments read at their launch contents.
-/
import proofs.«113793_j3350074490963_2_alg».proof.Proof.KData
import proofs.«113793_j3350074490963_2_alg».proof.Proof.KeptArgs
import Idealize.ShloMosaic.Lib.StableHlo.Run
import Idealize.ShloMosaic.PureOps.Ideal

set_option maxRecDepth 16384

noncomputable section

namespace Cert.KernelIdeal.Named

open Cert.KernelIdeal Cert.KernelIdeal.Gen Idealize.ShloMosaic Idealize.ShloMosaic.TcCoe Idealize.SL.Sem Idealize.ShloMosaic.StableHlo Cert.Gin

/-- The region's arrays as one function of the node rows X, the edge list and the parameter stacks. -/
def klayer0 (X : FVec Ideal S100000x128 .f32) (a1 : IVec S2x1600000 32) (a3 : FVec Ideal S4x128x256 .f32) (a4 a5 a6 a7 a8 : FVec Ideal S4x256 .f32) (a9 : FVec Ideal S4 .f32) (a10 : FVec Ideal S4x256x128 .f32) (a11 a12 a13 a14 a15 : FVec Ideal S4x128 .f32) : LayerData where
  X := X
  A := (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] a1 slices_S2x1600000_S1x1600000_1_0) shapeCasts_S1x1600000_S1600000)) (Host.gather gather_S100000x128_S1600000x1_S1600000x128_1_0_n_n_0_1_1128 X (broadcastInDim S1600000x1 ![0] bcast_S1600000_S1600000x1_0 (select (cmpi .slt (shapeCast _ (extractStridedSlice S1x1600000 ![0, 0] a1 slices_S2x1600000_S1x1600000_0_0) shapeCasts_S1x1600000_S1600000) (broadcastInDim S1600000 ![] bcast_S_S1600000 (constantI S_ 32 0#32))) (addi (shapeCast _ (extractStridedSlice S1x1600000 ![0, 0] a1 slices_S2x1600000_S1x1600000_0_0) shapeCasts_S1x1600000_S1600000) (broadcastInDim S1600000 ![] bcast_S_S1600000 (constantI S_ 32 100000#32))) (shapeCast _ (extractStridedSlice S1x1600000 ![0, 0] a1 slices_S2x1600000_S1x1600000_0_0) shapeCasts_S1x1600000_S1600000)))))
  E := (shapeCast _ (shapeCast _ (extractStridedSlice S1 ![0] a9 slices_S4_S1_0) shapeCasts_S1_S_) shapeCasts_S_S1x1)
  W1 := (shapeCast _ (extractStridedSlice S1x128x256 ![0, 0, 0] a3 slices_S4x128x256_S1x128x256_0_0_0) shapeCasts_S1x128x256_S128x256)
  B1 := (shapeCast _ (shapeCast _ (extractStridedSlice S1x256 ![0, 0] a4 slices_S4x256_S1x256_0_0) shapeCasts_S1x256_S256) shapeCasts_S256_S1x256)
  G1 := (shapeCast _ (shapeCast _ (extractStridedSlice S1x256 ![0, 0] a5 slices_S4x256_S1x256_0_0) shapeCasts_S1x256_S256) shapeCasts_S256_S1x256)
  BE1 := (shapeCast _ (shapeCast _ (extractStridedSlice S1x256 ![0, 0] a6 slices_S4x256_S1x256_0_0) shapeCasts_S1x256_S256) shapeCasts_S256_S1x256)
  M1 := (shapeCast _ (shapeCast _ (extractStridedSlice S1x256 ![0, 0] a7 slices_S4x256_S1x256_0_0) shapeCasts_S1x256_S256) shapeCasts_S256_S1x256)
  V1 := (shapeCast _ (shapeCast _ (extractStridedSlice S1x256 ![0, 0] a8 slices_S4x256_S1x256_0_0) shapeCasts_S1x256_S256) shapeCasts_S256_S1x256)
  W2 := (shapeCast _ (extractStridedSlice S1x256x128 ![0, 0, 0] a10 slices_S4x256x128_S1x256x128_0_0_0) shapeCasts_S1x256x128_S256x128)
  B2 := (shapeCast _ (shapeCast _ (extractStridedSlice S1x128 ![0, 0] a11 slices_S4x128_S1x128_0_0) shapeCasts_S1x128_S128) shapeCasts_S128_S1x128)
  G2 := (shapeCast _ (shapeCast _ (extractStridedSlice S1x128 ![0, 0] a12 slices_S4x128_S1x128_0_0) shapeCasts_S1x128_S128) shapeCasts_S128_S1x128)
  BE2 := (shapeCast _ (shapeCast _ (extractStridedSlice S1x128 ![0, 0] a13 slices_S4x128_S1x128_0_0) shapeCasts_S1x128_S128) shapeCasts_S128_S1x128)
  M2 := (shapeCast _ (shapeCast _ (extractStridedSlice S1x128 ![0, 0] a14 slices_S4x128_S1x128_0_0) shapeCasts_S1x128_S128) shapeCasts_S128_S1x128)
  V2 := (shapeCast _ (shapeCast _ (extractStridedSlice S1x128 ![0, 0] a15 slices_S4x128_S1x128_0_0) shapeCasts_S1x128_S128) shapeCasts_S128_S1x128)

variable (m : (ℓ : Loc nD τ sig) → Buf (Elt Ideal) ℓ) (ρ : Dev nD → PrngReg)

/-- The source-index vector the first stretch computes: row 0 of the edge list. -/
theorem W1_v1 (c : Dev nD) : W1 m ρ c (Proc.devRef .tc main_v1) = shapeCast _ (extractStridedSlice S1x1600000 ![0, 0] (m ((c : Thread nD τ).loc main_arg1)) slices_S2x1600000_S1x1600000_0_0) shapeCasts_S1x1600000_S1600000 := by
  show StableHlo.after hostOps0 (W0 m ρ c) (Proc.devRef .tc main_v1) = _
  after_results_simp
  rfl

/-- The destination-index vector the first stretch computes: row 1 of the edge list. -/
theorem W1_v3 (c : Dev nD) : W1 m ρ c (Proc.devRef .tc main_v3) = shapeCast _ (extractStridedSlice S1x1600000 ![1, 0] (m ((c : Thread nD τ).loc main_arg1)) slices_S2x1600000_S1x1600000_1_0) shapeCasts_S1x1600000_S1600000 := by
  show StableHlo.after hostOps0 (W0 m ρ c) (Proc.devRef .tc main_v3) = _
  after_results_simp
  rfl

/-- The region's arrays as terms over the buffers at the stretch's head. -/
def entry0 (c : Dev nD) : LayerData where
  X := (W0 m ρ c (Proc.devRef .tc main_arg0))
  A := (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] (W0 m ρ c (Proc.devRef .tc main_arg1)) slices_S2x1600000_S1x1600000_1_0) shapeCasts_S1x1600000_S1600000)) (Host.gather gather_S100000x128_S1600000x1_S1600000x128_1_0_n_n_0_1_1128 (W0 m ρ c (Proc.devRef .tc main_arg0)) (broadcastInDim S1600000x1 ![0] bcast_S1600000_S1600000x1_0 (select (cmpi .slt (shapeCast _ (extractStridedSlice S1x1600000 ![0, 0] (W0 m ρ c (Proc.devRef .tc main_arg1)) slices_S2x1600000_S1x1600000_0_0) shapeCasts_S1x1600000_S1600000) (broadcastInDim S1600000 ![] bcast_S_S1600000 (constantI S_ 32 0#32))) (addi (shapeCast _ (extractStridedSlice S1x1600000 ![0, 0] (W0 m ρ c (Proc.devRef .tc main_arg1)) slices_S2x1600000_S1x1600000_0_0) shapeCasts_S1x1600000_S1600000) (broadcastInDim S1600000 ![] bcast_S_S1600000 (constantI S_ 32 100000#32))) (shapeCast _ (extractStridedSlice S1x1600000 ![0, 0] (W0 m ρ c (Proc.devRef .tc main_arg1)) slices_S2x1600000_S1x1600000_0_0) shapeCasts_S1x1600000_S1600000)))))
  E := (shapeCast _ (shapeCast _ (extractStridedSlice S1 ![0] (W0 m ρ c (Proc.devRef .tc main_arg9)) slices_S4_S1_0) shapeCasts_S1_S_) shapeCasts_S_S1x1)
  W1 := (shapeCast _ (extractStridedSlice S1x128x256 ![0, 0, 0] (W0 m ρ c (Proc.devRef .tc main_arg3)) slices_S4x128x256_S1x128x256_0_0_0) shapeCasts_S1x128x256_S128x256)
  B1 := (shapeCast _ (shapeCast _ (extractStridedSlice S1x256 ![0, 0] (W0 m ρ c (Proc.devRef .tc main_arg4)) slices_S4x256_S1x256_0_0) shapeCasts_S1x256_S256) shapeCasts_S256_S1x256)
  G1 := (shapeCast _ (shapeCast _ (extractStridedSlice S1x256 ![0, 0] (W0 m ρ c (Proc.devRef .tc main_arg5)) slices_S4x256_S1x256_0_0) shapeCasts_S1x256_S256) shapeCasts_S256_S1x256)
  BE1 := (shapeCast _ (shapeCast _ (extractStridedSlice S1x256 ![0, 0] (W0 m ρ c (Proc.devRef .tc main_arg6)) slices_S4x256_S1x256_0_0) shapeCasts_S1x256_S256) shapeCasts_S256_S1x256)
  M1 := (shapeCast _ (shapeCast _ (extractStridedSlice S1x256 ![0, 0] (W0 m ρ c (Proc.devRef .tc main_arg7)) slices_S4x256_S1x256_0_0) shapeCasts_S1x256_S256) shapeCasts_S256_S1x256)
  V1 := (shapeCast _ (shapeCast _ (extractStridedSlice S1x256 ![0, 0] (W0 m ρ c (Proc.devRef .tc main_arg8)) slices_S4x256_S1x256_0_0) shapeCasts_S1x256_S256) shapeCasts_S256_S1x256)
  W2 := (shapeCast _ (extractStridedSlice S1x256x128 ![0, 0, 0] (W0 m ρ c (Proc.devRef .tc main_arg10)) slices_S4x256x128_S1x256x128_0_0_0) shapeCasts_S1x256x128_S256x128)
  B2 := (shapeCast _ (shapeCast _ (extractStridedSlice S1x128 ![0, 0] (W0 m ρ c (Proc.devRef .tc main_arg11)) slices_S4x128_S1x128_0_0) shapeCasts_S1x128_S128) shapeCasts_S128_S1x128)
  G2 := (shapeCast _ (shapeCast _ (extractStridedSlice S1x128 ![0, 0] (W0 m ρ c (Proc.devRef .tc main_arg12)) slices_S4x128_S1x128_0_0) shapeCasts_S1x128_S128) shapeCasts_S128_S1x128)
  BE2 := (shapeCast _ (shapeCast _ (extractStridedSlice S1x128 ![0, 0] (W0 m ρ c (Proc.devRef .tc main_arg13)) slices_S4x128_S1x128_0_0) shapeCasts_S1x128_S128) shapeCasts_S128_S1x128)
  M2 := (shapeCast _ (shapeCast _ (extractStridedSlice S1x128 ![0, 0] (W0 m ρ c (Proc.devRef .tc main_arg14)) slices_S4x128_S1x128_0_0) shapeCasts_S1x128_S128) shapeCasts_S128_S1x128)
  V2 := (shapeCast _ (shapeCast _ (extractStridedSlice S1x128 ![0, 0] (W0 m ρ c (Proc.devRef .tc main_arg15)) slices_S4x128_S1x128_0_0) shapeCasts_S1x128_S128) shapeCasts_S128_S1x128)

set_option maxHeartbeats 4000000 in
/-- The stretch of host operations read at each of the region's arrays. -/
theorem data0_entry (c : Dev nD) : Cert.Gin.Kdata.data0 (V1 m ρ) c = entry0 m ρ c := by
  unfold Cert.Gin.Kdata.data0 entry0
  show LayerData.mk (StableHlo.after hostOps0 (W0 m ρ c) (Proc.devRef .tc main_arg0)) (StableHlo.after hostOps0 (W0 m ρ c) (Proc.devRef .tc main_v13)) (StableHlo.after hostOps0 (W0 m ρ c) (Proc.devRef .tc main_v50)) (StableHlo.after hostOps0 (W0 m ρ c) (Proc.devRef .tc main_v17)) (StableHlo.after hostOps0 (W0 m ρ c) (Proc.devRef .tc main_v40)) (StableHlo.after hostOps0 (W0 m ρ c) (Proc.devRef .tc main_v41)) (StableHlo.after hostOps0 (W0 m ρ c) (Proc.devRef .tc main_v42)) (StableHlo.after hostOps0 (W0 m ρ c) (Proc.devRef .tc main_v43)) (StableHlo.after hostOps0 (W0 m ρ c) (Proc.devRef .tc main_v44)) (StableHlo.after hostOps0 (W0 m ρ c) (Proc.devRef .tc main_v29)) (StableHlo.after hostOps0 (W0 m ρ c) (Proc.devRef .tc main_v45)) (StableHlo.after hostOps0 (W0 m ρ c) (Proc.devRef .tc main_v46)) (StableHlo.after hostOps0 (W0 m ρ c) (Proc.devRef .tc main_v47)) (StableHlo.after hostOps0 (W0 m ρ c) (Proc.devRef .tc main_v48)) (StableHlo.after hostOps0 (W0 m ρ c) (Proc.devRef .tc main_v49)) = _
  after_results_simp
  rfl

/-- The same with every argument at its launch contents. -/
theorem data0_eq (c : Dev nD) : Cert.Gin.Kdata.data0 (V1 m ρ) c = klayer0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [data0_entry]
  unfold entry0 klayer0
  rfl

end Cert.KernelIdeal.Named

end
-- ==== Proof.KEntry1.lean ====
/-
  What layer 2's region finds in its windows' arrays: each is a term of host operations over the node rows, the edge list and slices of the parameter stacks, the arguments read at their launch contents.
-/
import proofs.«113793_j3350074490963_2_alg».proof.Proof.KData
import proofs.«113793_j3350074490963_2_alg».proof.Proof.KeptArgs
import proofs.«113793_j3350074490963_2_alg».proof.Proof.KEntry0
import Idealize.ShloMosaic.Lib.StableHlo.Run
import Idealize.ShloMosaic.PureOps.Ideal

set_option maxRecDepth 16384

noncomputable section

namespace Cert.KernelIdeal.Named

open Cert.KernelIdeal Cert.KernelIdeal.Gen Idealize.ShloMosaic Idealize.ShloMosaic.TcCoe Idealize.SL.Sem Idealize.ShloMosaic.StableHlo Cert.Gin

/-- The region's arrays as one function of the node rows X, the edge list and the parameter stacks. -/
def klayer1 (X : FVec Ideal S100000x128 .f32) (a1 : IVec S2x1600000 32) (a3 : FVec Ideal S4x128x256 .f32) (a4 a5 a6 a7 a8 : FVec Ideal S4x256 .f32) (a9 : FVec Ideal S4 .f32) (a10 : FVec Ideal S4x256x128 .f32) (a11 a12 a13 a14 a15 : FVec Ideal S4x128 .f32) : LayerData where
  X := X
  A := (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] a1 slices_S2x1600000_S1x1600000_1_0) shapeCasts_S1x1600000_S1600000)) (Host.gather gather_S100000x128_S1600000x1_S1600000x128_1_0_n_n_0_1_1128 X (broadcastInDim S1600000x1 ![0] bcast_S1600000_S1600000x1_0 (select (cmpi .slt (shapeCast _ (extractStridedSlice S1x1600000 ![0, 0] a1 slices_S2x1600000_S1x1600000_0_0) shapeCasts_S1x1600000_S1600000) (broadcastInDim S1600000 ![] bcast_S_S1600000 (constantI S_ 32 0#32))) (addi (shapeCast _ (extractStridedSlice S1x1600000 ![0, 0] a1 slices_S2x1600000_S1x1600000_0_0) shapeCasts_S1x1600000_S1600000) (broadcastInDim S1600000 ![] bcast_S_S1600000 (constantI S_ 32 100000#32))) (shapeCast _ (extractStridedSlice S1x1600000 ![0, 0] a1 slices_S2x1600000_S1x1600000_0_0) shapeCasts_S1x1600000_S1600000)))))
  E := (shapeCast _ (shapeCast _ (extractStridedSlice S1 ![1] a9 slices_S4_S1_1) shapeCasts_S1_S_) shapeCasts_S_S1x1)
  W1 := (shapeCast _ (extractStridedSlice S1x128x256 ![1, 0, 0] a3 slices_S4x128x256_S1x128x256_1_0_0) shapeCasts_S1x128x256_S128x256)
  B1 := (shapeCast _ (shapeCast _ (extractStridedSlice S1x256 ![1, 0] a4 slices_S4x256_S1x256_1_0) shapeCasts_S1x256_S256) shapeCasts_S256_S1x256)
  G1 := (shapeCast _ (shapeCast _ (extractStridedSlice S1x256 ![1, 0] a5 slices_S4x256_S1x256_1_0) shapeCasts_S1x256_S256) shapeCasts_S256_S1x256)
  BE1 := (shapeCast _ (shapeCast _ (extractStridedSlice S1x256 ![1, 0] a6 slices_S4x256_S1x256_1_0) shapeCasts_S1x256_S256) shapeCasts_S256_S1x256)
  M1 := (shapeCast _ (shapeCast _ (extractStridedSlice S1x256 ![1, 0] a7 slices_S4x256_S1x256_1_0) shapeCasts_S1x256_S256) shapeCasts_S256_S1x256)
  V1 := (shapeCast _ (shapeCast _ (extractStridedSlice S1x256 ![1, 0] a8 slices_S4x256_S1x256_1_0) shapeCasts_S1x256_S256) shapeCasts_S256_S1x256)
  W2 := (shapeCast _ (extractStridedSlice S1x256x128 ![1, 0, 0] a10 slices_S4x256x128_S1x256x128_1_0_0) shapeCasts_S1x256x128_S256x128)
  B2 := (shapeCast _ (shapeCast _ (extractStridedSlice S1x128 ![1, 0] a11 slices_S4x128_S1x128_1_0) shapeCasts_S1x128_S128) shapeCasts_S128_S1x128)
  G2 := (shapeCast _ (shapeCast _ (extractStridedSlice S1x128 ![1, 0] a12 slices_S4x128_S1x128_1_0) shapeCasts_S1x128_S128) shapeCasts_S128_S1x128)
  BE2 := (shapeCast _ (shapeCast _ (extractStridedSlice S1x128 ![1, 0] a13 slices_S4x128_S1x128_1_0) shapeCasts_S1x128_S128) shapeCasts_S128_S1x128)
  M2 := (shapeCast _ (shapeCast _ (extractStridedSlice S1x128 ![1, 0] a14 slices_S4x128_S1x128_1_0) shapeCasts_S1x128_S128) shapeCasts_S128_S1x128)
  V2 := (shapeCast _ (shapeCast _ (extractStridedSlice S1x128 ![1, 0] a15 slices_S4x128_S1x128_1_0) shapeCasts_S1x128_S128) shapeCasts_S128_S1x128)

variable (m : (ℓ : Loc nD τ sig) → Buf (Elt Ideal) ℓ) (ρ : Dev nD → PrngReg)

/-- The region's arrays as terms over the buffers at the stretch's head. -/
def entry1 (c : Dev nD) : LayerData where
  X := (W2 m ρ c (Proc.devRef .tc main_v51))
  A := (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (W2 m ρ c (Proc.devRef .tc main_v3))) (Host.gather gather_S100000x128_S1600000x1_S1600000x128_1_0_n_n_0_1_1128 (W2 m ρ c (Proc.devRef .tc main_v51)) (broadcastInDim S1600000x1 ![0] bcast_S1600000_S1600000x1_0 (select (cmpi .slt (W2 m ρ c (Proc.devRef .tc main_v1)) (broadcastInDim S1600000 ![] bcast_S_S1600000 (constantI S_ 32 0#32))) (addi (W2 m ρ c (Proc.devRef .tc main_v1)) (broadcastInDim S1600000 ![] bcast_S_S1600000 (constantI S_ 32 100000#32))) (W2 m ρ c (Proc.devRef .tc main_v1))))))
  E := (shapeCast _ (shapeCast _ (extractStridedSlice S1 ![1] (W2 m ρ c (Proc.devRef .tc main_arg9)) slices_S4_S1_1) shapeCasts_S1_S_) shapeCasts_S_S1x1)
  W1 := (shapeCast _ (extractStridedSlice S1x128x256 ![1, 0, 0] (W2 m ρ c (Proc.devRef .tc main_arg3)) slices_S4x128x256_S1x128x256_1_0_0) shapeCasts_S1x128x256_S128x256)
  B1 := (shapeCast _ (shapeCast _ (extractStridedSlice S1x256 ![1, 0] (W2 m ρ c (Proc.devRef .tc main_arg4)) slices_S4x256_S1x256_1_0) shapeCasts_S1x256_S256) shapeCasts_S256_S1x256)
  G1 := (shapeCast _ (shapeCast _ (extractStridedSlice S1x256 ![1, 0] (W2 m ρ c (Proc.devRef .tc main_arg5)) slices_S4x256_S1x256_1_0) shapeCasts_S1x256_S256) shapeCasts_S256_S1x256)
  BE1 := (shapeCast _ (shapeCast _ (extractStridedSlice S1x256 ![1, 0] (W2 m ρ c (Proc.devRef .tc main_arg6)) slices_S4x256_S1x256_1_0) shapeCasts_S1x256_S256) shapeCasts_S256_S1x256)
  M1 := (shapeCast _ (shapeCast _ (extractStridedSlice S1x256 ![1, 0] (W2 m ρ c (Proc.devRef .tc main_arg7)) slices_S4x256_S1x256_1_0) shapeCasts_S1x256_S256) shapeCasts_S256_S1x256)
  V1 := (shapeCast _ (shapeCast _ (extractStridedSlice S1x256 ![1, 0] (W2 m ρ c (Proc.devRef .tc main_arg8)) slices_S4x256_S1x256_1_0) shapeCasts_S1x256_S256) shapeCasts_S256_S1x256)
  W2 := (shapeCast _ (extractStridedSlice S1x256x128 ![1, 0, 0] (W2 m ρ c (Proc.devRef .tc main_arg10)) slices_S4x256x128_S1x256x128_1_0_0) shapeCasts_S1x256x128_S256x128)
  B2 := (shapeCast _ (shapeCast _ (extractStridedSlice S1x128 ![1, 0] (W2 m ρ c (Proc.devRef .tc main_arg11)) slices_S4x128_S1x128_1_0) shapeCasts_S1x128_S128) shapeCasts_S128_S1x128)
  G2 := (shapeCast _ (shapeCast _ (extractStridedSlice S1x128 ![1, 0] (W2 m ρ c (Proc.devRef .tc main_arg12)) slices_S4x128_S1x128_1_0) shapeCasts_S1x128_S128) shapeCasts_S128_S1x128)
  BE2 := (shapeCast _ (shapeCast _ (extractStridedSlice S1x128 ![1, 0] (W2 m ρ c (Proc.devRef .tc main_arg13)) slices_S4x128_S1x128_1_0) shapeCasts_S1x128_S128) shapeCasts_S128_S1x128)
  M2 := (shapeCast _ (shapeCast _ (extractStridedSlice S1x128 ![1, 0] (W2 m ρ c (Proc.devRef .tc main_arg14)) slices_S4x128_S1x128_1_0) shapeCasts_S1x128_S128) shapeCasts_S128_S1x128)
  V2 := (shapeCast _ (shapeCast _ (extractStridedSlice S1x128 ![1, 0] (W2 m ρ c (Proc.devRef .tc main_arg15)) slices_S4x128_S1x128_1_0) shapeCasts_S1x128_S128) shapeCasts_S128_S1x128)

set_option maxHeartbeats 4000000 in
/-- The stretch of host operations read at each of the region's arrays. -/
theorem data1_entry (c : Dev nD) : Cert.Gin.Kdata.data1 (V3 m ρ) c = entry1 m ρ c := by
  unfold Cert.Gin.Kdata.data1 entry1
  show LayerData.mk (StableHlo.after hostOps1 (W2 m ρ c) (Proc.devRef .tc main_v51)) (StableHlo.after hostOps1 (W2 m ρ c) (Proc.devRef .tc main_v61)) (StableHlo.after hostOps1 (W2 m ρ c) (Proc.devRef .tc main_v98)) (StableHlo.after hostOps1 (W2 m ρ c) (Proc.devRef .tc main_v65)) (StableHlo.after hostOps1 (W2 m ρ c) (Proc.devRef .tc main_v88)) (StableHlo.after hostOps1 (W2 m ρ c) (Proc.devRef .tc main_v89)) (StableHlo.after hostOps1 (W2 m ρ c) (Proc.devRef .tc main_v90)) (StableHlo.after hostOps1 (W2 m ρ c) (Proc.devRef .tc main_v91)) (StableHlo.after hostOps1 (W2 m ρ c) (Proc.devRef .tc main_v92)) (StableHlo.after hostOps1 (W2 m ρ c) (Proc.devRef .tc main_v77)) (StableHlo.after hostOps1 (W2 m ρ c) (Proc.devRef .tc main_v93)) (StableHlo.after hostOps1 (W2 m ρ c) (Proc.devRef .tc main_v94)) (StableHlo.after hostOps1 (W2 m ρ c) (Proc.devRef .tc main_v95)) (StableHlo.after hostOps1 (W2 m ρ c) (Proc.devRef .tc main_v96)) (StableHlo.after hostOps1 (W2 m ρ c) (Proc.devRef .tc main_v97)) = _
  after_results_simp
  rfl

/-- The same with every argument at its launch contents. -/
theorem data1_eq (c : Dev nD) : Cert.Gin.Kdata.data1 (V3 m ρ) c = klayer1 (W2 m ρ c (Proc.devRef .tc main_v51)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [data1_entry]
  unfold entry1 klayer1
  simp only [Cert.KernelIdeal.Kept.W2_arg1 m ρ c, Cert.KernelIdeal.Kept.W2_arg3 m ρ c, Cert.KernelIdeal.Kept.W2_arg4 m ρ c, Cert.KernelIdeal.Kept.W2_arg5 m ρ c, Cert.KernelIdeal.Kept.W2_arg6 m ρ c, Cert.KernelIdeal.Kept.W2_arg7 m ρ c, Cert.KernelIdeal.Kept.W2_arg8 m ρ c, Cert.KernelIdeal.Kept.W2_arg9 m ρ c, Cert.KernelIdeal.Kept.W2_arg10 m ρ c, Cert.KernelIdeal.Kept.W2_arg11 m ρ c, Cert.KernelIdeal.Kept.W2_arg12 m ρ c, Cert.KernelIdeal.Kept.W2_arg13 m ρ c, Cert.KernelIdeal.Kept.W2_arg14 m ρ c, Cert.KernelIdeal.Kept.W2_arg15 m ρ c, Cert.KernelIdeal.Kept.W2_v1 m ρ c, Cert.KernelIdeal.Kept.W2_v3 m ρ c, W1_v1 m ρ c, W1_v3 m ρ c]

end Cert.KernelIdeal.Named

end
-- ==== Proof.KEntry2.lean ====
/-
  What layer 3's region finds in its windows' arrays: each is a term of host operations over the node rows, the edge list and slices of the parameter stacks, the arguments read at their launch contents.
-/
import proofs.«113793_j3350074490963_2_alg».proof.Proof.KData
import proofs.«113793_j3350074490963_2_alg».proof.Proof.KeptArgs
import proofs.«113793_j3350074490963_2_alg».proof.Proof.KEntry0
import Idealize.ShloMosaic.Lib.StableHlo.Run
import Idealize.ShloMosaic.PureOps.Ideal

set_option maxRecDepth 16384

noncomputable section

namespace Cert.KernelIdeal.Named

open Cert.KernelIdeal Cert.KernelIdeal.Gen Idealize.ShloMosaic Idealize.ShloMosaic.TcCoe Idealize.SL.Sem Idealize.ShloMosaic.StableHlo Cert.Gin

/-- The region's arrays as one function of the node rows X, the edge list and the parameter stacks. -/
def klayer2 (X : FVec Ideal S100000x128 .f32) (a1 : IVec S2x1600000 32) (a3 : FVec Ideal S4x128x256 .f32) (a4 a5 a6 a7 a8 : FVec Ideal S4x256 .f32) (a9 : FVec Ideal S4 .f32) (a10 : FVec Ideal S4x256x128 .f32) (a11 a12 a13 a14 a15 : FVec Ideal S4x128 .f32) : LayerData where
  X := X
  A := (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] a1 slices_S2x1600000_S1x1600000_1_0) shapeCasts_S1x1600000_S1600000)) (Host.gather gather_S100000x128_S1600000x1_S1600000x128_1_0_n_n_0_1_1128 X (broadcastInDim S1600000x1 ![0] bcast_S1600000_S1600000x1_0 (select (cmpi .slt (shapeCast _ (extractStridedSlice S1x1600000 ![0, 0] a1 slices_S2x1600000_S1x1600000_0_0) shapeCasts_S1x1600000_S1600000) (broadcastInDim S1600000 ![] bcast_S_S1600000 (constantI S_ 32 0#32))) (addi (shapeCast _ (extractStridedSlice S1x1600000 ![0, 0] a1 slices_S2x1600000_S1x1600000_0_0) shapeCasts_S1x1600000_S1600000) (broadcastInDim S1600000 ![] bcast_S_S1600000 (constantI S_ 32 100000#32))) (shapeCast _ (extractStridedSlice S1x1600000 ![0, 0] a1 slices_S2x1600000_S1x1600000_0_0) shapeCasts_S1x1600000_S1600000)))))
  E := (shapeCast _ (shapeCast _ (extractStridedSlice S1 ![2] a9 slices_S4_S1_2) shapeCasts_S1_S_) shapeCasts_S_S1x1)
  W1 := (shapeCast _ (extractStridedSlice S1x128x256 ![2, 0, 0] a3 slices_S4x128x256_S1x128x256_2_0_0) shapeCasts_S1x128x256_S128x256)
  B1 := (shapeCast _ (shapeCast _ (extractStridedSlice S1x256 ![2, 0] a4 slices_S4x256_S1x256_2_0) shapeCasts_S1x256_S256) shapeCasts_S256_S1x256)
  G1 := (shapeCast _ (shapeCast _ (extractStridedSlice S1x256 ![2, 0] a5 slices_S4x256_S1x256_2_0) shapeCasts_S1x256_S256) shapeCasts_S256_S1x256)
  BE1 := (shapeCast _ (shapeCast _ (extractStridedSlice S1x256 ![2, 0] a6 slices_S4x256_S1x256_2_0) shapeCasts_S1x256_S256) shapeCasts_S256_S1x256)
  M1 := (shapeCast _ (shapeCast _ (extractStridedSlice S1x256 ![2, 0] a7 slices_S4x256_S1x256_2_0) shapeCasts_S1x256_S256) shapeCasts_S256_S1x256)
  V1 := (shapeCast _ (shapeCast _ (extractStridedSlice S1x256 ![2, 0] a8 slices_S4x256_S1x256_2_0) shapeCasts_S1x256_S256) shapeCasts_S256_S1x256)
  W2 := (shapeCast _ (extractStridedSlice S1x256x128 ![2, 0, 0] a10 slices_S4x256x128_S1x256x128_2_0_0) shapeCasts_S1x256x128_S256x128)
  B2 := (shapeCast _ (shapeCast _ (extractStridedSlice S1x128 ![2, 0] a11 slices_S4x128_S1x128_2_0) shapeCasts_S1x128_S128) shapeCasts_S128_S1x128)
  G2 := (shapeCast _ (shapeCast _ (extractStridedSlice S1x128 ![2, 0] a12 slices_S4x128_S1x128_2_0) shapeCasts_S1x128_S128) shapeCasts_S128_S1x128)
  BE2 := (shapeCast _ (shapeCast _ (extractStridedSlice S1x128 ![2, 0] a13 slices_S4x128_S1x128_2_0) shapeCasts_S1x128_S128) shapeCasts_S128_S1x128)
  M2 := (shapeCast _ (shapeCast _ (extractStridedSlice S1x128 ![2, 0] a14 slices_S4x128_S1x128_2_0) shapeCasts_S1x128_S128) shapeCasts_S128_S1x128)
  V2 := (shapeCast _ (shapeCast _ (extractStridedSlice S1x128 ![2, 0] a15 slices_S4x128_S1x128_2_0) shapeCasts_S1x128_S128) shapeCasts_S128_S1x128)

variable (m : (ℓ : Loc nD τ sig) → Buf (Elt Ideal) ℓ) (ρ : Dev nD → PrngReg)

/-- The region's arrays as terms over the buffers at the stretch's head. -/
def entry2 (c : Dev nD) : LayerData where
  X := (W4 m ρ c (Proc.devRef .tc main_v99))
  A := (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (W4 m ρ c (Proc.devRef .tc main_v3))) (Host.gather gather_S100000x128_S1600000x1_S1600000x128_1_0_n_n_0_1_1128 (W4 m ρ c (Proc.devRef .tc main_v99)) (broadcastInDim S1600000x1 ![0] bcast_S1600000_S1600000x1_0 (select (cmpi .slt (W4 m ρ c (Proc.devRef .tc main_v1)) (broadcastInDim S1600000 ![] bcast_S_S1600000 (constantI S_ 32 0#32))) (addi (W4 m ρ c (Proc.devRef .tc main_v1)) (broadcastInDim S1600000 ![] bcast_S_S1600000 (constantI S_ 32 100000#32))) (W4 m ρ c (Proc.devRef .tc main_v1))))))
  E := (shapeCast _ (shapeCast _ (extractStridedSlice S1 ![2] (W4 m ρ c (Proc.devRef .tc main_arg9)) slices_S4_S1_2) shapeCasts_S1_S_) shapeCasts_S_S1x1)
  W1 := (shapeCast _ (extractStridedSlice S1x128x256 ![2, 0, 0] (W4 m ρ c (Proc.devRef .tc main_arg3)) slices_S4x128x256_S1x128x256_2_0_0) shapeCasts_S1x128x256_S128x256)
  B1 := (shapeCast _ (shapeCast _ (extractStridedSlice S1x256 ![2, 0] (W4 m ρ c (Proc.devRef .tc main_arg4)) slices_S4x256_S1x256_2_0) shapeCasts_S1x256_S256) shapeCasts_S256_S1x256)
  G1 := (shapeCast _ (shapeCast _ (extractStridedSlice S1x256 ![2, 0] (W4 m ρ c (Proc.devRef .tc main_arg5)) slices_S4x256_S1x256_2_0) shapeCasts_S1x256_S256) shapeCasts_S256_S1x256)
  BE1 := (shapeCast _ (shapeCast _ (extractStridedSlice S1x256 ![2, 0] (W4 m ρ c (Proc.devRef .tc main_arg6)) slices_S4x256_S1x256_2_0) shapeCasts_S1x256_S256) shapeCasts_S256_S1x256)
  M1 := (shapeCast _ (shapeCast _ (extractStridedSlice S1x256 ![2, 0] (W4 m ρ c (Proc.devRef .tc main_arg7)) slices_S4x256_S1x256_2_0) shapeCasts_S1x256_S256) shapeCasts_S256_S1x256)
  V1 := (shapeCast _ (shapeCast _ (extractStridedSlice S1x256 ![2, 0] (W4 m ρ c (Proc.devRef .tc main_arg8)) slices_S4x256_S1x256_2_0) shapeCasts_S1x256_S256) shapeCasts_S256_S1x256)
  W2 := (shapeCast _ (extractStridedSlice S1x256x128 ![2, 0, 0] (W4 m ρ c (Proc.devRef .tc main_arg10)) slices_S4x256x128_S1x256x128_2_0_0) shapeCasts_S1x256x128_S256x128)
  B2 := (shapeCast _ (shapeCast _ (extractStridedSlice S1x128 ![2, 0] (W4 m ρ c (Proc.devRef .tc main_arg11)) slices_S4x128_S1x128_2_0) shapeCasts_S1x128_S128) shapeCasts_S128_S1x128)
  G2 := (shapeCast _ (shapeCast _ (extractStridedSlice S1x128 ![2, 0] (W4 m ρ c (Proc.devRef .tc main_arg12)) slices_S4x128_S1x128_2_0) shapeCasts_S1x128_S128) shapeCasts_S128_S1x128)
  BE2 := (shapeCast _ (shapeCast _ (extractStridedSlice S1x128 ![2, 0] (W4 m ρ c (Proc.devRef .tc main_arg13)) slices_S4x128_S1x128_2_0) shapeCasts_S1x128_S128) shapeCasts_S128_S1x128)
  M2 := (shapeCast _ (shapeCast _ (extractStridedSlice S1x128 ![2, 0] (W4 m ρ c (Proc.devRef .tc main_arg14)) slices_S4x128_S1x128_2_0) shapeCasts_S1x128_S128) shapeCasts_S128_S1x128)
  V2 := (shapeCast _ (shapeCast _ (extractStridedSlice S1x128 ![2, 0] (W4 m ρ c (Proc.devRef .tc main_arg15)) slices_S4x128_S1x128_2_0) shapeCasts_S1x128_S128) shapeCasts_S128_S1x128)

set_option maxHeartbeats 4000000 in
/-- The stretch of host operations read at each of the region's arrays. -/
theorem data2_entry (c : Dev nD) : Cert.Gin.Kdata.data2 (V5 m ρ) c = entry2 m ρ c := by
  unfold Cert.Gin.Kdata.data2 entry2
  show LayerData.mk (StableHlo.after hostOps2 (W4 m ρ c) (Proc.devRef .tc main_v99)) (StableHlo.after hostOps2 (W4 m ρ c) (Proc.devRef .tc main_v109)) (StableHlo.after hostOps2 (W4 m ρ c) (Proc.devRef .tc main_v146)) (StableHlo.after hostOps2 (W4 m ρ c) (Proc.devRef .tc main_v113)) (StableHlo.after hostOps2 (W4 m ρ c) (Proc.devRef .tc main_v136)) (StableHlo.after hostOps2 (W4 m ρ c) (Proc.devRef .tc main_v137)) (StableHlo.after hostOps2 (W4 m ρ c) (Proc.devRef .tc main_v138)) (StableHlo.after hostOps2 (W4 m ρ c) (Proc.devRef .tc main_v139)) (StableHlo.after hostOps2 (W4 m ρ c) (Proc.devRef .tc main_v140)) (StableHlo.after hostOps2 (W4 m ρ c) (Proc.devRef .tc main_v125)) (StableHlo.after hostOps2 (W4 m ρ c) (Proc.devRef .tc main_v141)) (StableHlo.after hostOps2 (W4 m ρ c) (Proc.devRef .tc main_v142)) (StableHlo.after hostOps2 (W4 m ρ c) (Proc.devRef .tc main_v143)) (StableHlo.after hostOps2 (W4 m ρ c) (Proc.devRef .tc main_v144)) (StableHlo.after hostOps2 (W4 m ρ c) (Proc.devRef .tc main_v145)) = _
  after_results_simp
  rfl

/-- The same with every argument at its launch contents. -/
theorem data2_eq (c : Dev nD) : Cert.Gin.Kdata.data2 (V5 m ρ) c = klayer2 (W4 m ρ c (Proc.devRef .tc main_v99)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [data2_entry]
  unfold entry2 klayer2
  simp only [Cert.KernelIdeal.Kept.W4_arg1 m ρ c, Cert.KernelIdeal.Kept.W4_arg3 m ρ c, Cert.KernelIdeal.Kept.W4_arg4 m ρ c, Cert.KernelIdeal.Kept.W4_arg5 m ρ c, Cert.KernelIdeal.Kept.W4_arg6 m ρ c, Cert.KernelIdeal.Kept.W4_arg7 m ρ c, Cert.KernelIdeal.Kept.W4_arg8 m ρ c, Cert.KernelIdeal.Kept.W4_arg9 m ρ c, Cert.KernelIdeal.Kept.W4_arg10 m ρ c, Cert.KernelIdeal.Kept.W4_arg11 m ρ c, Cert.KernelIdeal.Kept.W4_arg12 m ρ c, Cert.KernelIdeal.Kept.W4_arg13 m ρ c, Cert.KernelIdeal.Kept.W4_arg14 m ρ c, Cert.KernelIdeal.Kept.W4_arg15 m ρ c, Cert.KernelIdeal.Kept.W4_v1 m ρ c, Cert.KernelIdeal.Kept.W4_v3 m ρ c, W1_v1 m ρ c, W1_v3 m ρ c]

end Cert.KernelIdeal.Named

end
-- ==== Proof.KEntry3.lean ====
/-
  What layer 4's region finds in its windows' arrays: each is a term of host operations over the node rows, the edge list and slices of the parameter stacks, the arguments read at their launch contents.
-/
import proofs.«113793_j3350074490963_2_alg».proof.Proof.KData
import proofs.«113793_j3350074490963_2_alg».proof.Proof.KeptArgs
import proofs.«113793_j3350074490963_2_alg».proof.Proof.KEntry0
import Idealize.ShloMosaic.Lib.StableHlo.Run
import Idealize.ShloMosaic.PureOps.Ideal

set_option maxRecDepth 16384

noncomputable section

namespace Cert.KernelIdeal.Named

open Cert.KernelIdeal Cert.KernelIdeal.Gen Idealize.ShloMosaic Idealize.ShloMosaic.TcCoe Idealize.SL.Sem Idealize.ShloMosaic.StableHlo Cert.Gin

/-- The region's arrays as one function of the node rows X, the edge list and the parameter stacks. -/
def klayer3 (X : FVec Ideal S100000x128 .f32) (a1 : IVec S2x1600000 32) (a3 : FVec Ideal S4x128x256 .f32) (a4 a5 a6 a7 a8 : FVec Ideal S4x256 .f32) (a9 : FVec Ideal S4 .f32) (a10 : FVec Ideal S4x256x128 .f32) (a11 a12 a13 a14 a15 : FVec Ideal S4x128 .f32) : LayerData where
  X := X
  A := (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] a1 slices_S2x1600000_S1x1600000_1_0) shapeCasts_S1x1600000_S1600000)) (Host.gather gather_S100000x128_S1600000x1_S1600000x128_1_0_n_n_0_1_1128 X (broadcastInDim S1600000x1 ![0] bcast_S1600000_S1600000x1_0 (select (cmpi .slt (shapeCast _ (extractStridedSlice S1x1600000 ![0, 0] a1 slices_S2x1600000_S1x1600000_0_0) shapeCasts_S1x1600000_S1600000) (broadcastInDim S1600000 ![] bcast_S_S1600000 (constantI S_ 32 0#32))) (addi (shapeCast _ (extractStridedSlice S1x1600000 ![0, 0] a1 slices_S2x1600000_S1x1600000_0_0) shapeCasts_S1x1600000_S1600000) (broadcastInDim S1600000 ![] bcast_S_S1600000 (constantI S_ 32 100000#32))) (shapeCast _ (extractStridedSlice S1x1600000 ![0, 0] a1 slices_S2x1600000_S1x1600000_0_0) shapeCasts_S1x1600000_S1600000)))))
  E := (shapeCast _ (shapeCast _ (extractStridedSlice S1 ![3] a9 slices_S4_S1_3) shapeCasts_S1_S_) shapeCasts_S_S1x1)
  W1 := (shapeCast _ (extractStridedSlice S1x128x256 ![3, 0, 0] a3 slices_S4x128x256_S1x128x256_3_0_0) shapeCasts_S1x128x256_S128x256)
  B1 := (shapeCast _ (shapeCast _ (extractStridedSlice S1x256 ![3, 0] a4 slices_S4x256_S1x256_3_0) shapeCasts_S1x256_S256) shapeCasts_S256_S1x256)
  G1 := (shapeCast _ (shapeCast _ (extractStridedSlice S1x256 ![3, 0] a5 slices_S4x256_S1x256_3_0) shapeCasts_S1x256_S256) shapeCasts_S256_S1x256)
  BE1 := (shapeCast _ (shapeCast _ (extractStridedSlice S1x256 ![3, 0] a6 slices_S4x256_S1x256_3_0) shapeCasts_S1x256_S256) shapeCasts_S256_S1x256)
  M1 := (shapeCast _ (shapeCast _ (extractStridedSlice S1x256 ![3, 0] a7 slices_S4x256_S1x256_3_0) shapeCasts_S1x256_S256) shapeCasts_S256_S1x256)
  V1 := (shapeCast _ (shapeCast _ (extractStridedSlice S1x256 ![3, 0] a8 slices_S4x256_S1x256_3_0) shapeCasts_S1x256_S256) shapeCasts_S256_S1x256)
  W2 := (shapeCast _ (extractStridedSlice S1x256x128 ![3, 0, 0] a10 slices_S4x256x128_S1x256x128_3_0_0) shapeCasts_S1x256x128_S256x128)
  B2 := (shapeCast _ (shapeCast _ (extractStridedSlice S1x128 ![3, 0] a11 slices_S4x128_S1x128_3_0) shapeCasts_S1x128_S128) shapeCasts_S128_S1x128)
  G2 := (shapeCast _ (shapeCast _ (extractStridedSlice S1x128 ![3, 0] a12 slices_S4x128_S1x128_3_0) shapeCasts_S1x128_S128) shapeCasts_S128_S1x128)
  BE2 := (shapeCast _ (shapeCast _ (extractStridedSlice S1x128 ![3, 0] a13 slices_S4x128_S1x128_3_0) shapeCasts_S1x128_S128) shapeCasts_S128_S1x128)
  M2 := (shapeCast _ (shapeCast _ (extractStridedSlice S1x128 ![3, 0] a14 slices_S4x128_S1x128_3_0) shapeCasts_S1x128_S128) shapeCasts_S128_S1x128)
  V2 := (shapeCast _ (shapeCast _ (extractStridedSlice S1x128 ![3, 0] a15 slices_S4x128_S1x128_3_0) shapeCasts_S1x128_S128) shapeCasts_S128_S1x128)

variable (m : (ℓ : Loc nD τ sig) → Buf (Elt Ideal) ℓ) (ρ : Dev nD → PrngReg)

/-- The region's arrays as terms over the buffers at the stretch's head. -/
def entry3 (c : Dev nD) : LayerData where
  X := (W6 m ρ c (Proc.devRef .tc main_v147))
  A := (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (W6 m ρ c (Proc.devRef .tc main_v3))) (Host.gather gather_S100000x128_S1600000x1_S1600000x128_1_0_n_n_0_1_1128 (W6 m ρ c (Proc.devRef .tc main_v147)) (broadcastInDim S1600000x1 ![0] bcast_S1600000_S1600000x1_0 (select (cmpi .slt (W6 m ρ c (Proc.devRef .tc main_v1)) (broadcastInDim S1600000 ![] bcast_S_S1600000 (constantI S_ 32 0#32))) (addi (W6 m ρ c (Proc.devRef .tc main_v1)) (broadcastInDim S1600000 ![] bcast_S_S1600000 (constantI S_ 32 100000#32))) (W6 m ρ c (Proc.devRef .tc main_v1))))))
  E := (shapeCast _ (shapeCast _ (extractStridedSlice S1 ![3] (W6 m ρ c (Proc.devRef .tc main_arg9)) slices_S4_S1_3) shapeCasts_S1_S_) shapeCasts_S_S1x1)
  W1 := (shapeCast _ (extractStridedSlice S1x128x256 ![3, 0, 0] (W6 m ρ c (Proc.devRef .tc main_arg3)) slices_S4x128x256_S1x128x256_3_0_0) shapeCasts_S1x128x256_S128x256)
  B1 := (shapeCast _ (shapeCast _ (extractStridedSlice S1x256 ![3, 0] (W6 m ρ c (Proc.devRef .tc main_arg4)) slices_S4x256_S1x256_3_0) shapeCasts_S1x256_S256) shapeCasts_S256_S1x256)
  G1 := (shapeCast _ (shapeCast _ (extractStridedSlice S1x256 ![3, 0] (W6 m ρ c (Proc.devRef .tc main_arg5)) slices_S4x256_S1x256_3_0) shapeCasts_S1x256_S256) shapeCasts_S256_S1x256)
  BE1 := (shapeCast _ (shapeCast _ (extractStridedSlice S1x256 ![3, 0] (W6 m ρ c (Proc.devRef .tc main_arg6)) slices_S4x256_S1x256_3_0) shapeCasts_S1x256_S256) shapeCasts_S256_S1x256)
  M1 := (shapeCast _ (shapeCast _ (extractStridedSlice S1x256 ![3, 0] (W6 m ρ c (Proc.devRef .tc main_arg7)) slices_S4x256_S1x256_3_0) shapeCasts_S1x256_S256) shapeCasts_S256_S1x256)
  V1 := (shapeCast _ (shapeCast _ (extractStridedSlice S1x256 ![3, 0] (W6 m ρ c (Proc.devRef .tc main_arg8)) slices_S4x256_S1x256_3_0) shapeCasts_S1x256_S256) shapeCasts_S256_S1x256)
  W2 := (shapeCast _ (extractStridedSlice S1x256x128 ![3, 0, 0] (W6 m ρ c (Proc.devRef .tc main_arg10)) slices_S4x256x128_S1x256x128_3_0_0) shapeCasts_S1x256x128_S256x128)
  B2 := (shapeCast _ (shapeCast _ (extractStridedSlice S1x128 ![3, 0] (W6 m ρ c (Proc.devRef .tc main_arg11)) slices_S4x128_S1x128_3_0) shapeCasts_S1x128_S128) shapeCasts_S128_S1x128)
  G2 := (shapeCast _ (shapeCast _ (extractStridedSlice S1x128 ![3, 0] (W6 m ρ c (Proc.devRef .tc main_arg12)) slices_S4x128_S1x128_3_0) shapeCasts_S1x128_S128) shapeCasts_S128_S1x128)
  BE2 := (shapeCast _ (shapeCast _ (extractStridedSlice S1x128 ![3, 0] (W6 m ρ c (Proc.devRef .tc main_arg13)) slices_S4x128_S1x128_3_0) shapeCasts_S1x128_S128) shapeCasts_S128_S1x128)
  M2 := (shapeCast _ (shapeCast _ (extractStridedSlice S1x128 ![3, 0] (W6 m ρ c (Proc.devRef .tc main_arg14)) slices_S4x128_S1x128_3_0) shapeCasts_S1x128_S128) shapeCasts_S128_S1x128)
  V2 := (shapeCast _ (shapeCast _ (extractStridedSlice S1x128 ![3, 0] (W6 m ρ c (Proc.devRef .tc main_arg15)) slices_S4x128_S1x128_3_0) shapeCasts_S1x128_S128) shapeCasts_S128_S1x128)

set_option maxHeartbeats 4000000 in
/-- The stretch of host operations read at each of the region's arrays. -/
theorem data3_entry (c : Dev nD) : Cert.Gin.Kdata.data3 (V7 m ρ) c = entry3 m ρ c := by
  unfold Cert.Gin.Kdata.data3 entry3
  show LayerData.mk (StableHlo.after hostOps3 (W6 m ρ c) (Proc.devRef .tc main_v147)) (StableHlo.after hostOps3 (W6 m ρ c) (Proc.devRef .tc main_v157)) (StableHlo.after hostOps3 (W6 m ρ c) (Proc.devRef .tc main_v194)) (StableHlo.after hostOps3 (W6 m ρ c) (Proc.devRef .tc main_v161)) (StableHlo.after hostOps3 (W6 m ρ c) (Proc.devRef .tc main_v184)) (StableHlo.after hostOps3 (W6 m ρ c) (Proc.devRef .tc main_v185)) (StableHlo.after hostOps3 (W6 m ρ c) (Proc.devRef .tc main_v186)) (StableHlo.after hostOps3 (W6 m ρ c) (Proc.devRef .tc main_v187)) (StableHlo.after hostOps3 (W6 m ρ c) (Proc.devRef .tc main_v188)) (StableHlo.after hostOps3 (W6 m ρ c) (Proc.devRef .tc main_v173)) (StableHlo.after hostOps3 (W6 m ρ c) (Proc.devRef .tc main_v189)) (StableHlo.after hostOps3 (W6 m ρ c) (Proc.devRef .tc main_v190)) (StableHlo.after hostOps3 (W6 m ρ c) (Proc.devRef .tc main_v191)) (StableHlo.after hostOps3 (W6 m ρ c) (Proc.devRef .tc main_v192)) (StableHlo.after hostOps3 (W6 m ρ c) (Proc.devRef .tc main_v193)) = _
  after_results_simp
  rfl

/-- The same with every argument at its launch contents. -/
theorem data3_eq (c : Dev nD) : Cert.Gin.Kdata.data3 (V7 m ρ) c = klayer3 (W6 m ρ c (Proc.devRef .tc main_v147)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [data3_entry]
  unfold entry3 klayer3
  simp only [Cert.KernelIdeal.Kept.W6_arg1 m ρ c, Cert.KernelIdeal.Kept.W6_arg3 m ρ c, Cert.KernelIdeal.Kept.W6_arg4 m ρ c, Cert.KernelIdeal.Kept.W6_arg5 m ρ c, Cert.KernelIdeal.Kept.W6_arg6 m ρ c, Cert.KernelIdeal.Kept.W6_arg7 m ρ c, Cert.KernelIdeal.Kept.W6_arg8 m ρ c, Cert.KernelIdeal.Kept.W6_arg9 m ρ c, Cert.KernelIdeal.Kept.W6_arg10 m ρ c, Cert.KernelIdeal.Kept.W6_arg11 m ρ c, Cert.KernelIdeal.Kept.W6_arg12 m ρ c, Cert.KernelIdeal.Kept.W6_arg13 m ρ c, Cert.KernelIdeal.Kept.W6_arg14 m ρ c, Cert.KernelIdeal.Kept.W6_arg15 m ρ c, Cert.KernelIdeal.Kept.W6_v1 m ρ c, Cert.KernelIdeal.Kept.W6_v3 m ρ c, W1_v1 m ρ c, W1_v3 m ρ c]

end Cert.KernelIdeal.Named

end
-- ==== Proof.KEntry4.lean ====
/-
  What the head's region finds in its windows' arrays: each is a term of host operations over the last layer's output, the graph-assignment vector and the head's parameters, the arguments read at their launch contents.
-/
import proofs.«113793_j3350074490963_2_alg».proof.Proof.KData
import proofs.«113793_j3350074490963_2_alg».proof.Proof.KeptArgs
import proofs.«113793_j3350074490963_2_alg».proof.Proof.KEntry0
import Idealize.ShloMosaic.Lib.StableHlo.Run
import Idealize.ShloMosaic.PureOps.Ideal

set_option maxRecDepth 16384

noncomputable section

namespace Cert.KernelIdeal.Named

open Cert.KernelIdeal Cert.KernelIdeal.Gen Idealize.ShloMosaic Idealize.ShloMosaic.TcCoe Idealize.SL.Sem Idealize.ShloMosaic.StableHlo Cert.Gin

/-- The region's arrays as one function of the node rows X, the graph-assignment vector and the head's parameters. -/
def klayer4 (X : FVec Ideal S100000x128 .f32) (a2 : IVec S100000 32) (a16 : FVec Ideal S128x128 .f32) (a17 a18 a19 a20 a21 : FVec Ideal S128 .f32) (a22 : FVec Ideal S128x10 .f32) (a23 : FVec Ideal S10 .f32) : HeadData where
  P := (Host.scatterAdd scatter_S512x128_S100000x1_S100000x128_1_0_0_1 (broadcastInDim S512x128 ![] bcast_S_S512x128 (constant (F := Ideal) S_ .f32 0x00000000#32)) (broadcastInDim S100000x1 ![0] bcast_S100000_S100000x1_0 a2) X)
  W1 := a16
  B1 := (shapeCast _ a17 shapeCasts_S128_S1x128)
  G := (shapeCast _ a18 shapeCasts_S128_S1x128)
  BE := (shapeCast _ a19 shapeCasts_S128_S1x128)
  MU := (shapeCast _ a20 shapeCasts_S128_S1x128)
  VAR := (shapeCast _ a21 shapeCasts_S128_S1x128)
  W2 := a22
  B2 := (shapeCast _ a23 shapeCasts_S10_S1x10)

variable (m : (ℓ : Loc nD τ sig) → Buf (Elt Ideal) ℓ) (ρ : Dev nD → PrngReg)

/-- The region's arrays as terms over the buffers at the stretch's head. -/
def entry4 (c : Dev nD) : HeadData where
  P := (Host.scatterAdd scatter_S512x128_S100000x1_S100000x128_1_0_0_1 (broadcastInDim S512x128 ![] bcast_S_S512x128 (constant (F := Ideal) S_ .f32 0x00000000#32)) (broadcastInDim S100000x1 ![0] bcast_S100000_S100000x1_0 (W8 m ρ c (Proc.devRef .tc main_arg2))) (W8 m ρ c (Proc.devRef .tc main_v195)))
  W1 := (W8 m ρ c (Proc.devRef .tc main_arg16))
  B1 := (shapeCast _ (W8 m ρ c (Proc.devRef .tc main_arg17)) shapeCasts_S128_S1x128)
  G := (shapeCast _ (W8 m ρ c (Proc.devRef .tc main_arg18)) shapeCasts_S128_S1x128)
  BE := (shapeCast _ (W8 m ρ c (Proc.devRef .tc main_arg19)) shapeCasts_S128_S1x128)
  MU := (shapeCast _ (W8 m ρ c (Proc.devRef .tc main_arg20)) shapeCasts_S128_S1x128)
  VAR := (shapeCast _ (W8 m ρ c (Proc.devRef .tc main_arg21)) shapeCasts_S128_S1x128)
  W2 := (W8 m ρ c (Proc.devRef .tc main_arg22))
  B2 := (shapeCast _ (W8 m ρ c (Proc.devRef .tc main_arg23)) shapeCasts_S10_S1x10)

set_option maxHeartbeats 4000000 in
/-- The stretch of host operations read at each of the region's arrays. -/
theorem data4_entry (c : Dev nD) : Cert.Gin.Kdata.data4 (V9 m ρ) c = entry4 m ρ c := by
  unfold Cert.Gin.Kdata.data4 entry4
  show HeadData.mk (StableHlo.after hostOps4 (W8 m ρ c) (Proc.devRef .tc main_v198)) (StableHlo.after hostOps4 (W8 m ρ c) (Proc.devRef .tc main_arg16)) (StableHlo.after hostOps4 (W8 m ρ c) (Proc.devRef .tc main_v199)) (StableHlo.after hostOps4 (W8 m ρ c) (Proc.devRef .tc main_v200)) (StableHlo.after hostOps4 (W8 m ρ c) (Proc.devRef .tc main_v201)) (StableHlo.after hostOps4 (W8 m ρ c) (Proc.devRef .tc main_v202)) (StableHlo.after hostOps4 (W8 m ρ c) (Proc.devRef .tc main_v203)) (StableHlo.after hostOps4 (W8 m ρ c) (Proc.devRef .tc main_arg22)) (StableHlo.after hostOps4 (W8 m ρ c) (Proc.devRef .tc main_v204)) = _
  after_results_simp
  rfl

/-- The same with every argument at its launch contents. -/
theorem data4_eq (c : Dev nD) : Cert.Gin.Kdata.data4 (V9 m ρ) c = klayer4 (W8 m ρ c (Proc.devRef .tc main_v195)) (m ((c : Thread nD τ).loc main_arg2)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  rw [data4_entry]
  unfold entry4 klayer4
  simp only [Cert.KernelIdeal.Kept.W8_arg2 m ρ c, Cert.KernelIdeal.Kept.W8_arg16 m ρ c, Cert.KernelIdeal.Kept.W8_arg17 m ρ c, Cert.KernelIdeal.Kept.W8_arg18 m ρ c, Cert.KernelIdeal.Kept.W8_arg19 m ρ c, Cert.KernelIdeal.Kept.W8_arg20 m ρ c, Cert.KernelIdeal.Kept.W8_arg21 m ρ c, Cert.KernelIdeal.Kept.W8_arg22 m ρ c, Cert.KernelIdeal.Kept.W8_arg23 m ρ c]

end Cert.KernelIdeal.Named

end
-- ==== Proof.KChain.lean ====
/-
  The kernel program's layers as arrays, one after the other: the array a layer's region leaves is the layer's row
  function, row by row, of the arrays the region found — the previous layer's output, and host-operation terms of the
  arguments' launch contents. The head's region leaves the head's row function of the pooled last layer.
-/
import proofs.«113793_j3350074490963_2_alg».proof.Proof.KRegion0
import proofs.«113793_j3350074490963_2_alg».proof.Proof.KRegion1
import proofs.«113793_j3350074490963_2_alg».proof.Proof.KRegion2
import proofs.«113793_j3350074490963_2_alg».proof.Proof.KRegion3
import proofs.«113793_j3350074490963_2_alg».proof.Proof.KRegion4
import proofs.«113793_j3350074490963_2_alg».proof.Proof.KEntry0
import proofs.«113793_j3350074490963_2_alg».proof.Proof.KEntry1
import proofs.«113793_j3350074490963_2_alg».proof.Proof.KEntry2
import proofs.«113793_j3350074490963_2_alg».proof.Proof.KEntry3
import proofs.«113793_j3350074490963_2_alg».proof.Proof.KEntry4

set_option maxRecDepth 16384

noncomputable section

namespace Cert.KernelIdeal.Named

open Cert.KernelIdeal Cert.KernelIdeal.Gen Idealize.ShloMosaic Idealize.ShloMosaic.TcCoe Idealize.SL.Sem Cert.Gin

variable (m : (ℓ : Loc nD τ sig) → Buf (Elt Ideal) ℓ) (ρ : Dev nD → PrngReg)

/-- Layer 1's output array. -/
theorem layer0_arr (c : Dev nD)
    (hR : (klayer0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Real) :
    W2 m ρ c (Proc.devRef .tc main_v51) = (klayer0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).out := by
  have h1 : W2 m ρ c (Proc.devRef .tc main_v51) = (dat0 (V1 m ρ) c).arrAt 15 cfg0.N := W2_arr m ρ c 15
  have hR' : (Cert.Gin.Kdata.data0 (V1 m ρ) c).Real := by rw [data0_eq]; exact hR
  rw [h1, Cert.Gin.Region0.final (V1 m ρ) c hR']
  show (Cert.Gin.Kdata.data0 (V1 m ρ) c).out = _
  rw [data0_eq]

/-- Layer 2's output array. -/
theorem layer1_arr (c : Dev nD)
    (hR : (klayer1 (W2 m ρ c (Proc.devRef .tc main_v51)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Real) :
    W4 m ρ c (Proc.devRef .tc main_v99) = (klayer1 (W2 m ρ c (Proc.devRef .tc main_v51)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).out := by
  have h1 : W4 m ρ c (Proc.devRef .tc main_v99) = (dat1 (V3 m ρ) c).arrAt 15 cfg1.N := W4_arr m ρ c 15
  have hR' : (Cert.Gin.Kdata.data1 (V3 m ρ) c).Real := by rw [data1_eq]; exact hR
  rw [h1, Cert.Gin.Region1.final (V3 m ρ) c hR']
  show (Cert.Gin.Kdata.data1 (V3 m ρ) c).out = _
  rw [data1_eq]

/-- Layer 3's output array. -/
theorem layer2_arr (c : Dev nD)
    (hR : (klayer2 (W4 m ρ c (Proc.devRef .tc main_v99)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Real) :
    W6 m ρ c (Proc.devRef .tc main_v147) = (klayer2 (W4 m ρ c (Proc.devRef .tc main_v99)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).out := by
  have h1 : W6 m ρ c (Proc.devRef .tc main_v147) = (dat2 (V5 m ρ) c).arrAt 15 cfg2.N := W6_arr m ρ c 15
  have hR' : (Cert.Gin.Kdata.data2 (V5 m ρ) c).Real := by rw [data2_eq]; exact hR
  rw [h1, Cert.Gin.Region2.final (V5 m ρ) c hR']
  show (Cert.Gin.Kdata.data2 (V5 m ρ) c).out = _
  rw [data2_eq]

/-- Layer 4's output array. -/
theorem layer3_arr (c : Dev nD)
    (hR : (klayer3 (W6 m ρ c (Proc.devRef .tc main_v147)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Real) :
    W8 m ρ c (Proc.devRef .tc main_v195) = (klayer3 (W6 m ρ c (Proc.devRef .tc main_v147)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).out := by
  have h1 : W8 m ρ c (Proc.devRef .tc main_v195) = (dat3 (V7 m ρ) c).arrAt 15 cfg3.N := W8_arr m ρ c 15
  have hR' : (Cert.Gin.Kdata.data3 (V7 m ρ) c).Real := by rw [data3_eq]; exact hR
  rw [h1, Cert.Gin.Region3.final (V7 m ρ) c hR']
  show (Cert.Gin.Kdata.data3 (V7 m ρ) c).out = _
  rw [data3_eq]

/-- The head's output array: the program's result. -/
theorem head_arr (c : Dev nD)
    (hR : (klayer4 (W8 m ρ c (Proc.devRef .tc main_v195)) (m ((c : Thread nD τ).loc main_arg2)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))).Real) :
    W10 m ρ c (Proc.devRef .tc main_v205) = (klayer4 (W8 m ρ c (Proc.devRef .tc main_v195)) (m ((c : Thread nD τ).loc main_arg2)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))).out := by
  have h1 : W10 m ρ c (Proc.devRef .tc main_v205) = (dat4 (V9 m ρ) c).arrAt 9 cfg4.N := W10_arr m ρ c 9
  have hR' : (Cert.Gin.Kdata.data4 (V9 m ρ) c).Real := by rw [data4_eq]; exact hR
  rw [h1, Cert.Gin.Region4.final (V9 m ρ) c hR']
  show (Cert.Gin.Kdata.data4 (V9 m ρ) c).out = _
  rw [data4_eq]

end Cert.KernelIdeal.Named

end
-- ==== Proof.LibRowScatter.lean ====
/-
  The host's accumulating scatter of whole rows, read at an index, at the ideal values.

  What `segment_sum(data, ids, num_segments = N)` lowers to: a `stablehlo.scatter` with an `add` body of an E×C array
  of updates into an N×C operand, the scatter indices an E×1 column — update row `e` is added into operand row `ids[e]`,
  the index read as a signed integer and NOT clamped: an update whose index is negative or at least N is dropped. For a
  vector of E updates into a vector of N cells it is the same with the column axis absent.

  At the ideal values such a scatter is an exact sum, so entry (n, c) of the result is the operand's entry plus the sum,
  over the update rows e whose index is n, of the updates' entries (e, c): the set of contributing rows depends on n
  only, not on the column. That is the content of this file, `rows_apply` and `cells_apply`.
-/
import Idealize.ShloMosaic.PureOps.Ideal.Laws
import Idealize.ShloMosaic.Lib.ValueIdx

noncomputable section

open scoped BigOperators

namespace Idealize.ShloMosaic.RowScatter

open Idealize.ShloMosaic Idealize.ShloMosaic.ValueIdx

variable {N E C w : Nat}

/-- The dimension numbers of a scatter of E rows of width C into an N×C operand, the indices an E×1 column. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of E scalars into a vector of N cells, the indices an E×1 column. -/
abbrev cellsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row update `e` is sent to: its scatter index, read as a signed integer. -/
def dest (idx : IVec ⟨2, ![E, 1]⟩ w) (e : Fin E) : Int := (idx (ix2 e (0 : Fin 1))).toInt

/-! ## Rows -/

section Rows
variable (wf : ScatterDims.WF ⟨2, ![N, C]⟩ ⟨2, ![E, 1]⟩ ⟨2, ![E, C]⟩ [1] [0] [0] 1)

theorem rows_start0 (j : (⟨2, ![E, C]⟩ : Shape).Idx) (idx : IVec ⟨2, ![E, 1]⟩ w) :
    (rowsDims N E C wf).start j idx 0 = dest idx (j 0) := by
  unfold ScatterDims.start dest
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

theorem rows_start1 (j : (⟨2, ![E, C]⟩ : Shape).Idx) (idx : IVec ⟨2, ![E, 1]⟩ w) :
    (rowsDims N E C wf).start j idx 1 = 0 := by
  unfold ScatterDims.start
  rw [dif_neg (fun h => absurd (congrArg Fin.val (List.mem_singleton.mp h)) Nat.one_ne_zero)]

theorem rows_window0 (j : (⟨2, ![E, C]⟩ : Shape).Idx) : (rowsDims N E C wf).window j 0 = 0 := by
  unfold ScatterDims.window
  rw [dif_neg (fun h => by simp [ScatterDims.sKept, Shape.kept] at h)]

theorem rows_window1 (j : (⟨2, ![E, C]⟩ : Shape).Idx) : (rowsDims N E C wf).window j 1 = (j 1).val := by
  unfold ScatterDims.window
  rw [dif_pos (by simp [ScatterDims.sKept, Shape.kept])]
  rfl

/-- Update (e, c') lands on operand entry (n, c) exactly when the index of row e is n and the columns agree. -/
theorem rows_lands (idx : IVec ⟨2, ![E, 1]⟩ w) (e : Fin E) (c' : Fin C) (n : Fin N) (c : Fin C) :
    (rowsDims N E C wf).resultIdx? (ix2 e c') idx = some (ix2 n c) ↔ dest idx e = (n.val : Int) ∧ c' = c := by
  unfold ScatterDims.resultIdx?
  have s0 : (rowsDims N E C wf).start (ix2 e c') idx 0 = dest idx e := rows_start0 wf (ix2 e c') idx
  have s1 : (rowsDims N E C wf).start (ix2 e c') idx 1 = 0 := rows_start1 wf (ix2 e c') idx
  have w0 : (rowsDims N E C wf).window (ix2 e c') 0 = 0 := rows_window0 wf (ix2 e c')
  have w1 : (rowsDims N E C wf).window (ix2 e c') 1 = c'.val := rows_window1 wf (ix2 e c')
  split
  · rename_i h
    rw [Option.some.injEq]
    constructor
    · intro hf
      have h0 := congrArg (fun f => (f 0).val) hf
      have h1 := congrArg (fun f => (f 1).val) hf
      simp only [s0, s1, w0, w1] at h0 h1
      have hn := (h 0).1
      rw [s0, w0] at hn
      refine ⟨?_, Fin.ext ?_⟩
      · show dest idx e = (n.val : Int)
        have : ((dest idx e + ((0 : Nat) : Int)).toNat : Nat) = n.val := h0
        omega
      · have : ((0 : Int) + ((c'.val : Nat) : Int)).toNat = c.val := h1
        omega
    · rintro ⟨hd, rfl⟩
      funext a; refine Fin.ext ?_
      match a with
      | ⟨0, _⟩ =>
        show ((rowsDims N E C wf).start (ix2 e c') idx 0 + ((rowsDims N E C wf).window (ix2 e c') 0 : Nat)).toNat = n.val
        rw [s0, w0, hd]; omega
      | ⟨1, _⟩ =>
        show ((rowsDims N E C wf).start (ix2 e c') idx 1 + ((rowsDims N E C wf).window (ix2 e c') 1 : Nat)).toNat = c'.val
        rw [s1, w1]; omega
  · rename_i h
    constructor
    · intro hf; exact absurd hf (by simp)
    · rintro ⟨hd, rfl⟩
      exfalso; apply h
      intro a
      match a with
      | ⟨0, _⟩ =>
        show 0 ≤ (rowsDims N E C wf).start (ix2 e c') idx 0 + ((rowsDims N E C wf).window (ix2 e c') 0 : Nat)
          ∧ (rowsDims N E C wf).start (ix2 e c') idx 0 + ((rowsDims N E C wf).window (ix2 e c') 0 : Nat) < (N : Int)
        rw [s0, w0, hd]; have := n.isLt; omega
      | ⟨1, _⟩ =>
        show 0 ≤ (rowsDims N E C wf).start (ix2 e c') idx 1 + ((rowsDims N E C wf).window (ix2 e c') 1 : Nat)
          ∧ (rowsDims N E C wf).start (ix2 e c') idx 1 + ((rowsDims N E C wf).window (ix2 e c') 1 : Nat) < (C : Int)
        rw [s1, w1]; have := c'.isLt; omega

/-- THE ROW SCATTER READ AT (n, c): the operand's entry plus the sum over the update rows sent to row n of their
    entries in column c. -/
theorem rows_apply {φ : FTy} (x : FVec Ideal ⟨2, ![N, C]⟩ φ) (idx : IVec ⟨2, ![E, 1]⟩ w) (upd : FVec Ideal ⟨2, ![E, C]⟩ φ)
    (n : Fin N) (c : Fin C) :
    Host.scatterAdd (rowsDims N E C wf) x idx upd (ix2 n c)
      = x (ix2 n c) + ∑ e ∈ Finset.univ.filter (fun e : Fin E => dest idx e = (n.val : Int)), upd (ix2 e c) := by
  show Ideal.hostScatterAdd (rowsDims N E C wf) x idx upd (ix2 n c) = _
  unfold Ideal.hostScatterAdd
  congr 1
  rw [Finset.sum_filter, Finset.sum_filter, sum_idx2]
  refine Finset.sum_congr rfl fun e _ => ?_
  by_cases hd : dest idx e = (n.val : Int)
  · rw [if_pos hd, Finset.sum_eq_single c]
    · rw [if_pos ((rows_lands wf idx e c n c).mpr ⟨hd, rfl⟩)]
    · intro c' _ hne
      rw [if_neg (fun h => hne ((rows_lands wf idx e c' n c).mp h).2)]
    · intro h; exact absurd (Finset.mem_univ c) h
  · rw [if_neg hd]
    exact Finset.sum_eq_zero fun c' _ => if_neg (fun h => hd ((rows_lands wf idx e c' n c).mp h).1)

end Rows

/-! ## Cells -/

section Cells
variable (wf : ScatterDims.WF ⟨1, ![N]⟩ ⟨2, ![E, 1]⟩ ⟨1, ![E]⟩ [] [0] [0] 1)

theorem cells_start0 (j : (⟨1, ![E]⟩ : Shape).Idx) (idx : IVec ⟨2, ![E, 1]⟩ w) :
    (cellsDims N E wf).start j idx 0 = dest idx (j 0) := by
  unfold ScatterDims.start dest
  rw [dif_pos (show (0 : Fin 1) ∈ (cellsDims N E wf).scatterDimsToOperandDims from List.mem_singleton.mpr rfl)]
  congr 2
  funext b; refine Fin.ext ?_
  match b with
  | ⟨0, _⟩ => rfl
  | ⟨1, _⟩ => rfl

theorem cells_window0 (j : (⟨1, ![E]⟩ : Shape).Idx) : (cellsDims N E wf).window j 0 = 0 := by
  unfold ScatterDims.window
  rw [dif_neg (fun h => by simp [ScatterDims.sKept, Shape.kept] at h)]

/-- Update e lands on cell n exactly when its index is n. -/
theorem cells_lands (idx : IVec ⟨2, ![E, 1]⟩ w) (e : Fin E) (n : Fin N) :
    (cellsDims N E wf).resultIdx? (ix1 e) idx = some (ix1 n) ↔ dest idx e = (n.val : Int) := by
  unfold ScatterDims.resultIdx?
  have s0 : (cellsDims N E wf).start (ix1 e) idx 0 = dest idx e := cells_start0 wf (ix1 e) idx
  have w0 : (cellsDims N E wf).window (ix1 e) 0 = 0 := cells_window0 wf (ix1 e)
  split
  · rename_i h
    rw [Option.some.injEq]
    constructor
    · intro hf
      have h0 := congrArg (fun f => (f 0).val) hf
      simp only [s0, w0] at h0
      have hn := (h 0).1
      rw [s0, w0] at hn
      have : ((dest idx e + ((0 : Nat) : Int)).toNat : Nat) = n.val := h0
      omega
    · intro hd
      funext a; refine Fin.ext ?_
      match a with
      | ⟨0, _⟩ =>
        show ((cellsDims N E wf).start (ix1 e) idx 0 + ((cellsDims N E wf).window (ix1 e) 0 : Nat)).toNat = n.val
        rw [s0, w0, hd]; omega
  · rename_i h
    constructor
    · intro hf; exact absurd hf (by simp)
    · intro hd
      exfalso; apply h
      intro a
      match a with
      | ⟨0, _⟩ =>
        show 0 ≤ (cellsDims N E wf).start (ix1 e) idx 0 + ((cellsDims N E wf).window (ix1 e) 0 : Nat)
          ∧ (cellsDims N E wf).start (ix1 e) idx 0 + ((cellsDims N E wf).window (ix1 e) 0 : Nat) < (N : Int)
        rw [s0, w0, hd]; have := n.isLt; omega

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    ⟨fun i => i 0, fun a => ix1 a, fun i => (eq_ix1 i).symm, fun _ => rfl⟩
  rw [← Equiv.sum_comp eqv.symm f]
  rfl

/-- THE CELL SCATTER READ AT n: the operand's entry plus the sum of the updates sent to cell n. -/
theorem cells_apply {φ : FTy} (x : FVec Ideal ⟨1, ![N]⟩ φ) (idx : IVec ⟨2, ![E, 1]⟩ w) (upd : FVec Ideal ⟨1, ![E]⟩ φ)
    (n : Fin N) :
    Host.scatterAdd (cellsDims N E wf) x idx upd (ix1 n)
      = x (ix1 n) + ∑ e ∈ Finset.univ.filter (fun e : Fin E => dest idx e = (n.val : Int)), upd (ix1 e) := by
  show Ideal.hostScatterAdd (cellsDims N E wf) x idx upd (ix1 n) = _
  unfold Ideal.hostScatterAdd
  congr 1
  rw [Finset.sum_filter, Finset.sum_filter, sum_idx1]
  refine Finset.sum_congr rfl fun e _ => ?_
  by_cases hd : dest idx e = (n.val : Int)
  · rw [if_pos hd, if_pos ((cells_lands wf idx e n).mpr hd)]
  · rw [if_neg hd, if_neg (fun h => hd ((cells_lands wf idx e n).mp h))]

end Cells

end Idealize.ShloMosaic.RowScatter

end
-- ==== Proof.LibEdgeGather.lean ====
/-
  A gather through a column of start indices, read at an index.

  What `x[idx]` lowers to when `idx` is a vector of E integers: a `stablehlo.gather` whose start indices are an E×1
  column, the one component of each start index naming a position on the operand's first axis. The start index is read
  as a signed integer and clamped into 0 … N − 1 (a negative one reads position 0, one past the end reads position N − 1).
  * Of a flat operand of N entries the result is a vector of E entries: entry e is the operand at that position.
  * Of an N×C operand, whole rows are taken: entry (e, c) is the operand at (that position, c).
-/
import Idealize.ShloMosaic.PureOps
import Idealize.ShloMosaic.Lib.ValueIdx

noncomputable section

namespace Cert.Lib.EdgeGather

open Idealize.ShloMosaic Idealize.ShloMosaic.ValueIdx

variable {α : Type} {N E C w : Nat}

/-- The position a start index names: read signed, clamped into 0 … N − 1. -/
def pos (N : Nat) (hN : 0 < N) (b : BitVec w) : Fin N := ⟨min b.toInt.toNat (N - 1), by omega⟩

/-- Dimension numbers of a gather of single entries of a flat operand through an E×1 column of start indices. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of a gather of whole rows of an N×C operand through an E×1 column of start indices. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry e of the flat gather: the operand at the position start index e names. -/
theorem flat_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 (pos N hN (idx (ix2 e (0 : Fin 1))))) := by
  unfold Host.gather
  congr 1
  funext a
  obtain rfl : a = 0 := Subsingleton.elim _ _
  refine Fin.ext ?_
  show (flatDims N E wf).start (ix1 e) idx 0 + (flatDims N E wf).batchCoord (ix1 e) 0 + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Entry (e, c) of the row gather: the operand at (the position start index e names, c). -/
theorem row_apply (hN : 0 < N) (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (pos N hN (idx (ix2 e (0 : Fin 1)))) c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    have hs : (rowDims N E C wf).start (ix2 e c) idx 1 = 0 := by
      unfold GatherDims.start
      rw [dif_neg (fun h => absurd (congrArg Fin.val (List.mem_singleton.mp h)) Nat.one_ne_zero)]
    have ho : (rowDims N E C wf).offCoord (ix2 e c) 1 = c.val := by
      unfold GatherDims.offCoord
      rw [dif_pos (by simp [GatherDims.sKept, Shape.kept])]
      rfl
    rw [hs, ho]
    omega

end Cert.Lib.EdgeGather

end
-- ==== Proof.HostReal.lean ====
/-
  Real-valuedness through the host's operations between the kernel's regions.

  A layout operation (a reshape, a slice, a broadcast, a gather of rows) only re-indexes its operand: every
  entry of the result is an entry of the operand, so whatever holds of every entry of the operand holds of
  every entry of the result. An accumulating scatter of rows into an array of zeros is, entry by entry, a
  finite sum of entries of the updates: a finite sum of real numbers is a real number.
-/
import proofs.«113793_j3350074490963_2_alg».proof.KernelIdeal
import proofs.«113793_j3350074490963_2_alg».proof.Proof.LibRealValued
import proofs.«113793_j3350074490963_2_alg».proof.Proof.LibRowScatter
import proofs.«113793_j3350074490963_2_alg».proof.Proof.LibEdgeGather
import Idealize.ShloMosaic.Lib.ValueIdx
import Idealize.ShloMosaic.Lib.Pipeline.Value
import Idealize.ShloMosaic.PureOps.Ideal.Laws

namespace Cert.Gin.HostReal

open Cert.KernelIdeal Idealize.ShloMosaic Idealize.ShloMosaic.ValueIdx Cert.RealValued

/-! ## Layout operations: every entry of the result is an entry of the operand -/

section Layout
variable {α : Type} {s t : Shape} {si : Shape} {w : Nat}

/-- A reshape keeps a property every entry has. -/
theorem shapeCast_all (P : α → Prop) (x : s.Idx → α) (h : s.ShapeCasts t) (hx : ∀ j, P (x j)) :
    ∀ i, P (shapeCast t x h i) := fun i => hx (Shape.reshapeEquiv h i)

/-- A slice keeps a property every entry has. -/
theorem extractStridedSlice_all (P : α → Prop) (off : Fin s.rank → Nat) (x : s.Idx → α) (h : s.Slices off t)
    (hx : ∀ j, P (x j)) : ∀ i, P (extractStridedSlice t off x h i) := fun i => hx _

/-- A broadcast keeps a property every entry has. -/
theorem broadcastInDim_all (P : α → Prop) (dims : Fin s.rank → Fin t.rank) (h : s.BroadcastsInDim t dims)
    (x : s.Idx → α) (hx : ∀ j, P (x j)) : ∀ i, P (broadcastInDim t dims h x i) := fun i => hx _

/-- A gather keeps a property every entry has. -/
theorem gather_all (P : α → Prop) (d : GatherDims s si t) (x : s.Idx → α) (idx : IVec si w)
    (hx : ∀ j, P (x j)) : ∀ i, P (Host.gather d x idx i) := fun i => hx _

/-- A reshape of real numbers holds real numbers. -/
theorem isReal_shapeCast (x : s.Idx → EReal) (h : s.ShapeCasts t) (hx : ∀ j, IsReal (x j)) :
    ∀ i, IsReal (shapeCast t x h i) := shapeCast_all IsReal x h hx

/-- A slice of real numbers holds real numbers. -/
theorem isReal_extractStridedSlice (off : Fin s.rank → Nat) (x : s.Idx → EReal) (h : s.Slices off t)
    (hx : ∀ j, IsReal (x j)) : ∀ i, IsReal (extractStridedSlice t off x h i) :=
  extractStridedSlice_all IsReal off x h hx

/-- A broadcast of real numbers holds real numbers. -/
theorem isReal_broadcastInDim (dims : Fin s.rank → Fin t.rank) (h : s.BroadcastsInDim t dims)
    (x : s.Idx → EReal) (hx : ∀ j, IsReal (x j)) : ∀ i, IsReal (broadcastInDim t dims h x i) :=
  broadcastInDim_all IsReal dims h x hx

/-- A gather of real numbers holds real numbers. -/
theorem isReal_gather (d : GatherDims s si t) (x : s.Idx → EReal) (idx : IVec si w)
    (hx : ∀ j, IsReal (x j)) : ∀ i, IsReal (Host.gather d x idx i) := gather_all IsReal d x idx hx

end Layout

/-! ## The accumulating scatter of rows -/

/-- The word 0x00000000 denotes 0, a real number. -/
theorem isReal_zero_word : IsReal (Ideal.ofBits .f32 0x00000000#32) :=
  ⟨0, by simp [Ideal.ofBits, Ideal.ieee]⟩

/-- Every entry of the constant 0 is a real number. -/
theorem isReal_constant_zero {s : Shape} : ∀ j, IsReal (constant (F := Ideal) s .f32 0x00000000#32 j) :=
  fun _ => isReal_zero_word

/-- A scatter of rows of real numbers into an array of real numbers holds real numbers: each entry is an entry
    of the operand plus a finite sum of entries of the updates. -/
theorem isReal_scatter_rows {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (hx : ∀ i, IsReal (x i)) (hu : ∀ i, IsReal (upd i)) :
    ∀ i, IsReal (Host.scatterAdd (RowScatter.rowsDims N E C wf) x idx upd i) := by
  intro i
  obtain ⟨n, c, rfl⟩ : ∃ n c, i = ix2 n c := ⟨i 0, i 1, eq_ix2 i⟩
  rw [RowScatter.rows_apply]
  exact (hx _).add (IsReal.sum _ _ fun e _ => hu _)

section Host
variable [Facts₀]
open Facts₀

/-- THE NEIGHBOUR SUM of an array of real numbers holds real numbers: the rows of x gathered along the edges'
    sources and summed into the edges' targets, from zero. -/
theorem isReal_neighbourSum (x : FVec Ideal S100000x128 .f32) (hx : ∀ i, IsReal (x i))
    (idx idx' : IVec S1600000x1 32) :
    ∀ i, IsReal (Host.scatterAdd scatter_S100000x128_S1600000x1_S1600000x128_1_0_0_1
      (broadcastInDim S100000x128 ![] bcast_S_S100000x128 (constant (F := Ideal) S_ .f32 0x00000000#32)) idx'
      (Host.gather gather_S100000x128_S1600000x1_S1600000x128_1_0_n_n_0_1_1128 x idx) i) :=
  isReal_scatter_rows (N := 100000) (E := 1600000) (C := 128) scatter_S100000x128_S1600000x1_S1600000x128_1_0_0_1_wf _ idx' _
    (isReal_broadcastInDim _ _ _ isReal_constant_zero) (isReal_gather _ x idx hx)

/-- THE POOLING of an array of real numbers holds real numbers: the rows of x summed into their graphs' rows,
    from zero. -/
theorem isReal_pool (x : FVec Ideal S100000x128 .f32) (hx : ∀ i, IsReal (x i)) (idx : IVec S100000x1 32) :
    ∀ i, IsReal (Host.scatterAdd scatter_S512x128_S100000x1_S100000x128_1_0_0_1
      (broadcastInDim S512x128 ![] bcast_S_S512x128 (constant (F := Ideal) S_ .f32 0x00000000#32)) idx x i) :=
  isReal_scatter_rows (N := 512) (E := 100000) (C := 128) scatter_S512x128_S100000x1_S100000x128_1_0_0_1_wf _ idx x
    (isReal_broadcastInDim _ _ _ isReal_constant_zero) hx

end Host

end Cert.Gin.HostReal
-- ==== Proof.KReal.lean ====
/-
  Real numbers in, real numbers out: when the node rows and every parameter are real-valued and the running variances
  non-negative, every array a region of the kernel program reads is real-valued (slices and reshapes only re-index; the
  neighbour sum and the pooling are finite sums of entries), and so is the array the layer leaves.
-/
import proofs.«113793_j3350074490963_2_alg».proof.Proof.KEntry0
import proofs.«113793_j3350074490963_2_alg».proof.Proof.KEntry1
import proofs.«113793_j3350074490963_2_alg».proof.Proof.KEntry2
import proofs.«113793_j3350074490963_2_alg».proof.Proof.KEntry3
import proofs.«113793_j3350074490963_2_alg».proof.Proof.KEntry4
import proofs.«113793_j3350074490963_2_alg».proof.Proof.HostReal
import proofs.«113793_j3350074490963_2_alg».proof.Proof.GinKernelRow

noncomputable section

namespace Cert.KernelIdeal.Named

open Cert.KernelIdeal Cert.KernelIdeal.Gen Idealize.ShloMosaic Idealize.ShloMosaic.ValueIdx Cert.Gin Cert.RealValued Cert.Gin.HostReal Cert.Gin.KernelRow

/-- The array a layer leaves is real-valued when everything it reads is. -/
theorem out_real (D : LayerData) (hR : D.Real) : ∀ i, IsReal (D.out i) := fun i =>
  ginRow_isReal (hR.e _) (fun _ => hR.x _) (fun _ => hR.a _) (fun _ _ => hR.w1 _) (fun _ => hR.b1 _) (fun _ => hR.g1 _)
    (fun _ => hR.be1 _) (fun _ => hR.m1 _) (fun _ => hR.v1 _) (fun _ _ => hR.w2 _) (fun _ => hR.b2 _) (fun _ => hR.g2 _)
    (fun _ => hR.be2 _) (fun _ => hR.m2 _) (fun _ => hR.v2 _) (i 1)

/-- Layer 1's arrays are real-valued. -/
theorem klayer0_real (X : FVec Ideal S100000x128 .f32) (a1 : IVec S2x1600000 32) (a3 : FVec Ideal S4x128x256 .f32) (a4 a5 a6 a7 a8 : FVec Ideal S4x256 .f32) (a9 : FVec Ideal S4 .f32) (a10 : FVec Ideal S4x256x128 .f32) (a11 a12 a13 a14 a15 : FVec Ideal S4x128 .f32)
    (hX : ∀ i, IsReal (X i)) (h3 : ∀ i, IsReal (a3 i)) (h4 : ∀ i, IsReal (a4 i)) (h5 : ∀ i, IsReal (a5 i)) (h6 : ∀ i, IsReal (a6 i)) (h7 : ∀ i, IsReal (a7 i)) (g8 : ∀ i, ∃ r : ℝ, 0 ≤ r ∧ a8 i = (r : EReal)) (h9 : ∀ i, IsReal (a9 i)) (h10 : ∀ i, IsReal (a10 i)) (h11 : ∀ i, IsReal (a11 i)) (h12 : ∀ i, IsReal (a12 i)) (h13 : ∀ i, IsReal (a13 i)) (h14 : ∀ i, IsReal (a14 i)) (g15 : ∀ i, ∃ r : ℝ, 0 ≤ r ∧ a15 i = (r : EReal)) :
    (klayer0 X a1 a3 a4 a5 a6 a7 a8 a9 a10 a11 a12 a13 a14 a15).Real := by
  refine ⟨?_, ?_, ?_, ?_, ?_, ?_, ?_, ?_, ?_, ?_, ?_, ?_, ?_, ?_, ?_⟩ <;> dsimp only [klayer0]
  · exact hX
  · exact isReal_neighbourSum X hX _ _
  · exact isReal_shapeCast _ _ (isReal_shapeCast _ _ (isReal_extractStridedSlice _ _ _ h9))
  · exact isReal_shapeCast _ _ (isReal_extractStridedSlice _ _ _ h3)
  · exact isReal_shapeCast _ _ (isReal_shapeCast _ _ (isReal_extractStridedSlice _ _ _ h4))
  · exact isReal_shapeCast _ _ (isReal_shapeCast _ _ (isReal_extractStridedSlice _ _ _ h5))
  · exact isReal_shapeCast _ _ (isReal_shapeCast _ _ (isReal_extractStridedSlice _ _ _ h6))
  · exact isReal_shapeCast _ _ (isReal_shapeCast _ _ (isReal_extractStridedSlice _ _ _ h7))
  · exact shapeCast_all (fun y : EReal => ∃ r : ℝ, 0 ≤ r ∧ y = (r : EReal)) _ _ (shapeCast_all (fun y : EReal => ∃ r : ℝ, 0 ≤ r ∧ y = (r : EReal)) _ _ (extractStridedSlice_all (fun y : EReal => ∃ r : ℝ, 0 ≤ r ∧ y = (r : EReal)) _ _ _ g8))
  · exact isReal_shapeCast _ _ (isReal_extractStridedSlice _ _ _ h10)
  · exact isReal_shapeCast _ _ (isReal_shapeCast _ _ (isReal_extractStridedSlice _ _ _ h11))
  · exact isReal_shapeCast _ _ (isReal_shapeCast _ _ (isReal_extractStridedSlice _ _ _ h12))
  · exact isReal_shapeCast _ _ (isReal_shapeCast _ _ (isReal_extractStridedSlice _ _ _ h13))
  · exact isReal_shapeCast _ _ (isReal_shapeCast _ _ (isReal_extractStridedSlice _ _ _ h14))
  · exact shapeCast_all (fun y : EReal => ∃ r : ℝ, 0 ≤ r ∧ y = (r : EReal)) _ _ (shapeCast_all (fun y : EReal => ∃ r : ℝ, 0 ≤ r ∧ y = (r : EReal)) _ _ (extractStridedSlice_all (fun y : EReal => ∃ r : ℝ, 0 ≤ r ∧ y = (r : EReal)) _ _ _ g15))

/-- Layer 2's arrays are real-valued. -/
theorem klayer1_real (X : FVec Ideal S100000x128 .f32) (a1 : IVec S2x1600000 32) (a3 : FVec Ideal S4x128x256 .f32) (a4 a5 a6 a7 a8 : FVec Ideal S4x256 .f32) (a9 : FVec Ideal S4 .f32) (a10 : FVec Ideal S4x256x128 .f32) (a11 a12 a13 a14 a15 : FVec Ideal S4x128 .f32)
    (hX : ∀ i, IsReal (X i)) (h3 : ∀ i, IsReal (a3 i)) (h4 : ∀ i, IsReal (a4 i)) (h5 : ∀ i, IsReal (a5 i)) (h6 : ∀ i, IsReal (a6 i)) (h7 : ∀ i, IsReal (a7 i)) (g8 : ∀ i, ∃ r : ℝ, 0 ≤ r ∧ a8 i = (r : EReal)) (h9 : ∀ i, IsReal (a9 i)) (h10 : ∀ i, IsReal (a10 i)) (h11 : ∀ i, IsReal (a11 i)) (h12 : ∀ i, IsReal (a12 i)) (h13 : ∀ i, IsReal (a13 i)) (h14 : ∀ i, IsReal (a14 i)) (g15 : ∀ i, ∃ r : ℝ, 0 ≤ r ∧ a15 i = (r : EReal)) :
    (klayer1 X a1 a3 a4 a5 a6 a7 a8 a9 a10 a11 a12 a13 a14 a15).Real := by
  refine ⟨?_, ?_, ?_, ?_, ?_, ?_, ?_, ?_, ?_, ?_, ?_, ?_, ?_, ?_, ?_⟩ <;> dsimp only [klayer1]
  · exact hX
  · exact isReal_neighbourSum X hX _ _
  · exact isReal_shapeCast _ _ (isReal_shapeCast _ _ (isReal_extractStridedSlice _ _ _ h9))
  · exact isReal_shapeCast _ _ (isReal_extractStridedSlice _ _ _ h3)
  · exact isReal_shapeCast _ _ (isReal_shapeCast _ _ (isReal_extractStridedSlice _ _ _ h4))
  · exact isReal_shapeCast _ _ (isReal_shapeCast _ _ (isReal_extractStridedSlice _ _ _ h5))
  · exact isReal_shapeCast _ _ (isReal_shapeCast _ _ (isReal_extractStridedSlice _ _ _ h6))
  · exact isReal_shapeCast _ _ (isReal_shapeCast _ _ (isReal_extractStridedSlice _ _ _ h7))
  · exact shapeCast_all (fun y : EReal => ∃ r : ℝ, 0 ≤ r ∧ y = (r : EReal)) _ _ (shapeCast_all (fun y : EReal => ∃ r : ℝ, 0 ≤ r ∧ y = (r : EReal)) _ _ (extractStridedSlice_all (fun y : EReal => ∃ r : ℝ, 0 ≤ r ∧ y = (r : EReal)) _ _ _ g8))
  · exact isReal_shapeCast _ _ (isReal_extractStridedSlice _ _ _ h10)
  · exact isReal_shapeCast _ _ (isReal_shapeCast _ _ (isReal_extractStridedSlice _ _ _ h11))
  · exact isReal_shapeCast _ _ (isReal_shapeCast _ _ (isReal_extractStridedSlice _ _ _ h12))
  · exact isReal_shapeCast _ _ (isReal_shapeCast _ _ (isReal_extractStridedSlice _ _ _ h13))
  · exact isReal_shapeCast _ _ (isReal_shapeCast _ _ (isReal_extractStridedSlice _ _ _ h14))
  · exact shapeCast_all (fun y : EReal => ∃ r : ℝ, 0 ≤ r ∧ y = (r : EReal)) _ _ (shapeCast_all (fun y : EReal => ∃ r : ℝ, 0 ≤ r ∧ y = (r : EReal)) _ _ (extractStridedSlice_all (fun y : EReal => ∃ r : ℝ, 0 ≤ r ∧ y = (r : EReal)) _ _ _ g15))

/-- Layer 3's arrays are real-valued. -/
theorem klayer2_real (X : FVec Ideal S100000x128 .f32) (a1 : IVec S2x1600000 32) (a3 : FVec Ideal S4x128x256 .f32) (a4 a5 a6 a7 a8 : FVec Ideal S4x256 .f32) (a9 : FVec Ideal S4 .f32) (a10 : FVec Ideal S4x256x128 .f32) (a11 a12 a13 a14 a15 : FVec Ideal S4x128 .f32)
    (hX : ∀ i, IsReal (X i)) (h3 : ∀ i, IsReal (a3 i)) (h4 : ∀ i, IsReal (a4 i)) (h5 : ∀ i, IsReal (a5 i)) (h6 : ∀ i, IsReal (a6 i)) (h7 : ∀ i, IsReal (a7 i)) (g8 : ∀ i, ∃ r : ℝ, 0 ≤ r ∧ a8 i = (r : EReal)) (h9 : ∀ i, IsReal (a9 i)) (h10 : ∀ i, IsReal (a10 i)) (h11 : ∀ i, IsReal (a11 i)) (h12 : ∀ i, IsReal (a12 i)) (h13 : ∀ i, IsReal (a13 i)) (h14 : ∀ i, IsReal (a14 i)) (g15 : ∀ i, ∃ r : ℝ, 0 ≤ r ∧ a15 i = (r : EReal)) :
    (klayer2 X a1 a3 a4 a5 a6 a7 a8 a9 a10 a11 a12 a13 a14 a15).Real := by
  refine ⟨?_, ?_, ?_, ?_, ?_, ?_, ?_, ?_, ?_, ?_, ?_, ?_, ?_, ?_, ?_⟩ <;> dsimp only [klayer2]
  · exact hX
  · exact isReal_neighbourSum X hX _ _
  · exact isReal_shapeCast _ _ (isReal_shapeCast _ _ (isReal_extractStridedSlice _ _ _ h9))
  · exact isReal_shapeCast _ _ (isReal_extractStridedSlice _ _ _ h3)
  · exact isReal_shapeCast _ _ (isReal_shapeCast _ _ (isReal_extractStridedSlice _ _ _ h4))
  · exact isReal_shapeCast _ _ (isReal_shapeCast _ _ (isReal_extractStridedSlice _ _ _ h5))
  · exact isReal_shapeCast _ _ (isReal_shapeCast _ _ (isReal_extractStridedSlice _ _ _ h6))
  · exact isReal_shapeCast _ _ (isReal_shapeCast _ _ (isReal_extractStridedSlice _ _ _ h7))
  · exact shapeCast_all (fun y : EReal => ∃ r : ℝ, 0 ≤ r ∧ y = (r : EReal)) _ _ (shapeCast_all (fun y : EReal => ∃ r : ℝ, 0 ≤ r ∧ y = (r : EReal)) _ _ (extractStridedSlice_all (fun y : EReal => ∃ r : ℝ, 0 ≤ r ∧ y = (r : EReal)) _ _ _ g8))
  · exact isReal_shapeCast _ _ (isReal_extractStridedSlice _ _ _ h10)
  · exact isReal_shapeCast _ _ (isReal_shapeCast _ _ (isReal_extractStridedSlice _ _ _ h11))
  · exact isReal_shapeCast _ _ (isReal_shapeCast _ _ (isReal_extractStridedSlice _ _ _ h12))
  · exact isReal_shapeCast _ _ (isReal_shapeCast _ _ (isReal_extractStridedSlice _ _ _ h13))
  · exact isReal_shapeCast _ _ (isReal_shapeCast _ _ (isReal_extractStridedSlice _ _ _ h14))
  · exact shapeCast_all (fun y : EReal => ∃ r : ℝ, 0 ≤ r ∧ y = (r : EReal)) _ _ (shapeCast_all (fun y : EReal => ∃ r : ℝ, 0 ≤ r ∧ y = (r : EReal)) _ _ (extractStridedSlice_all (fun y : EReal => ∃ r : ℝ, 0 ≤ r ∧ y = (r : EReal)) _ _ _ g15))

/-- Layer 4's arrays are real-valued. -/
theorem klayer3_real (X : FVec Ideal S100000x128 .f32) (a1 : IVec S2x1600000 32) (a3 : FVec Ideal S4x128x256 .f32) (a4 a5 a6 a7 a8 : FVec Ideal S4x256 .f32) (a9 : FVec Ideal S4 .f32) (a10 : FVec Ideal S4x256x128 .f32) (a11 a12 a13 a14 a15 : FVec Ideal S4x128 .f32)
    (hX : ∀ i, IsReal (X i)) (h3 : ∀ i, IsReal (a3 i)) (h4 : ∀ i, IsReal (a4 i)) (h5 : ∀ i, IsReal (a5 i)) (h6 : ∀ i, IsReal (a6 i)) (h7 : ∀ i, IsReal (a7 i)) (g8 : ∀ i, ∃ r : ℝ, 0 ≤ r ∧ a8 i = (r : EReal)) (h9 : ∀ i, IsReal (a9 i)) (h10 : ∀ i, IsReal (a10 i)) (h11 : ∀ i, IsReal (a11 i)) (h12 : ∀ i, IsReal (a12 i)) (h13 : ∀ i, IsReal (a13 i)) (h14 : ∀ i, IsReal (a14 i)) (g15 : ∀ i, ∃ r : ℝ, 0 ≤ r ∧ a15 i = (r : EReal)) :
    (klayer3 X a1 a3 a4 a5 a6 a7 a8 a9 a10 a11 a12 a13 a14 a15).Real := by
  refine ⟨?_, ?_, ?_, ?_, ?_, ?_, ?_, ?_, ?_, ?_, ?_, ?_, ?_, ?_, ?_⟩ <;> dsimp only [klayer3]
  · exact hX
  · exact isReal_neighbourSum X hX _ _
  · exact isReal_shapeCast _ _ (isReal_shapeCast _ _ (isReal_extractStridedSlice _ _ _ h9))
  · exact isReal_shapeCast _ _ (isReal_extractStridedSlice _ _ _ h3)
  · exact isReal_shapeCast _ _ (isReal_shapeCast _ _ (isReal_extractStridedSlice _ _ _ h4))
  · exact isReal_shapeCast _ _ (isReal_shapeCast _ _ (isReal_extractStridedSlice _ _ _ h5))
  · exact isReal_shapeCast _ _ (isReal_shapeCast _ _ (isReal_extractStridedSlice _ _ _ h6))
  · exact isReal_shapeCast _ _ (isReal_shapeCast _ _ (isReal_extractStridedSlice _ _ _ h7))
  · exact shapeCast_all (fun y : EReal => ∃ r : ℝ, 0 ≤ r ∧ y = (r : EReal)) _ _ (shapeCast_all (fun y : EReal => ∃ r : ℝ, 0 ≤ r ∧ y = (r : EReal)) _ _ (extractStridedSlice_all (fun y : EReal => ∃ r : ℝ, 0 ≤ r ∧ y = (r : EReal)) _ _ _ g8))
  · exact isReal_shapeCast _ _ (isReal_extractStridedSlice _ _ _ h10)
  · exact isReal_shapeCast _ _ (isReal_shapeCast _ _ (isReal_extractStridedSlice _ _ _ h11))
  · exact isReal_shapeCast _ _ (isReal_shapeCast _ _ (isReal_extractStridedSlice _ _ _ h12))
  · exact isReal_shapeCast _ _ (isReal_shapeCast _ _ (isReal_extractStridedSlice _ _ _ h13))
  · exact isReal_shapeCast _ _ (isReal_shapeCast _ _ (isReal_extractStridedSlice _ _ _ h14))
  · exact shapeCast_all (fun y : EReal => ∃ r : ℝ, 0 ≤ r ∧ y = (r : EReal)) _ _ (shapeCast_all (fun y : EReal => ∃ r : ℝ, 0 ≤ r ∧ y = (r : EReal)) _ _ (extractStridedSlice_all (fun y : EReal => ∃ r : ℝ, 0 ≤ r ∧ y = (r : EReal)) _ _ _ g15))

/-- The head's arrays are real-valued. -/
theorem klayer4_real (X : FVec Ideal S100000x128 .f32) (a2 : IVec S100000 32) (a16 : FVec Ideal S128x128 .f32) (a17 a18 a19 a20 a21 : FVec Ideal S128 .f32) (a22 : FVec Ideal S128x10 .f32) (a23 : FVec Ideal S10 .f32)
    (hX : ∀ i, IsReal (X i)) (h16 : ∀ i, IsReal (a16 i)) (h17 : ∀ i, IsReal (a17 i)) (h18 : ∀ i, IsReal (a18 i)) (h19 : ∀ i, IsReal (a19 i)) (h20 : ∀ i, IsReal (a20 i)) (g21 : ∀ i, ∃ r : ℝ, 0 ≤ r ∧ a21 i = (r : EReal)) (h22 : ∀ i, IsReal (a22 i)) :
    (klayer4 X a2 a16 a17 a18 a19 a20 a21 a22 a23).Real := by
  refine ⟨?_, ?_, ?_, ?_, ?_, ?_, ?_, ?_⟩ <;> dsimp only [klayer4]
  · exact isReal_pool X hX _
  · exact h16
  · exact isReal_shapeCast _ _ h17
  · exact isReal_shapeCast _ _ h18
  · exact isReal_shapeCast _ _ h19
  · exact isReal_shapeCast _ _ h20
  · exact shapeCast_all (fun y : EReal => ∃ r : ℝ, 0 ≤ r ∧ y = (r : EReal)) _ _ g21
  · exact h22

end Cert.KernelIdeal.Named

end
-- ==== Proof.KRun.lean ====
/-
  The kernel program's run with its result named: every weakly fair execution of @main terminates, nothing faulting,
  with the result buffer at what the last region's write-backs leave in it (the fold of the program's segments from the
  launch memory, read at the result's reference) and the argument arrays as launched.
-/
import proofs.«113793_j3350074490963_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's segments, the last thread state read against the final state: the result buffer
    holds the fold's contents at its reference, each argument its launch contents. -/
theorem run_named : θ_run defs (onTc (τ := τ) (main (F := F))) ⟨m, fun _ => 0, ρ⟩ (fun r => ∀ c : Dev nD,
      r.2.mem ((c.tc : Thread nD τ).loc main_v205) = W10 m ρ c (Proc.devRef .tc main_v205)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v205 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c),
       (h c _ (mem_uc main_arg23 (by decide))).trans (W10_main_arg23 m ρ c)⟩)

end Cert.KernelIdeal.Named

end
-- ==== Proof.RData.lean ====
/-
  The reference program's layers as the same records of arrays the kernel's regions read: per layer the node rows (the
  previous layer's output), the neighbour sums, the ε-weight, and the two affine maps with their normalisation rows, each
  a value of the reference's own operations; a length-n parameter vector is held as the 1×n row the kernel's window holds.
-/
import proofs.«113793_j3350074490963_2_alg».proof.Proof.RefReadP
import proofs.«113793_j3350074490963_2_alg».proof.Proof.GinData

noncomputable section

namespace Cert.Gin.Rdata

open Cert.ReferenceIdeal Cert.ReferenceIdeal.ReadP Idealize.ShloMosaic Idealize.ShloMosaic.ValueIdx Cert.Gin

/-- A length-n vector as the one row of a 1×n matrix. -/
def rowOf {n : Nat} (v : (⟨1, ![n]⟩ : Shape).Idx → EReal) : (⟨2, ![1, n]⟩ : Shape).Idx → EReal := fun i => v (ix1 (i 1))

/-- A rank-0 value as the one entry of a 1×1 matrix. -/
def cellOf (v : (⟨0, ![]⟩ : Shape).Idx → EReal) : (⟨2, ![1, 1]⟩ : Shape).Idx → EReal := fun _ => v ix0

/-- Layer 1 of the reference. -/
def rdata0 (x0 : FVec Ideal S100000x128 .f32) (x1 : IVec S2x1600000 32) (x3 : FVec Ideal S4x128x256 .f32) (x4 x5 x6 x7 x8 : FVec Ideal S4x256 .f32) (x9 : FVec Ideal S4 .f32) (x10 : FVec Ideal S4x256x128 .f32) (x11 x12 x13 x14 x15 : FVec Ideal S4x128 .f32) : LayerData where
  X := x0
  A := val_main_v13 (F := Ideal) x0 x1
  E := cellOf (val_main_v15 (F := Ideal) x9)
  W1 := val_main_v21 (F := Ideal) x3
  B1 := rowOf (val_main_v24 (F := Ideal) x4)
  G1 := rowOf (val_main_v29 (F := Ideal) x5)
  BE1 := rowOf (val_main_v31 (F := Ideal) x6)
  M1 := rowOf (val_main_v33 (F := Ideal) x7)
  V1 := rowOf (val_main_v35 (F := Ideal) x8)
  W2 := val_main_v53 (F := Ideal) x10
  B2 := rowOf (val_main_v56 (F := Ideal) x11)
  G2 := rowOf (val_main_v61 (F := Ideal) x12)
  BE2 := rowOf (val_main_v63 (F := Ideal) x13)
  M2 := rowOf (val_main_v65 (F := Ideal) x14)
  V2 := rowOf (val_main_v67 (F := Ideal) x15)

/-- Layer 2 of the reference. -/
def rdata1 (x0 : FVec Ideal S100000x128 .f32) (x1 : IVec S2x1600000 32) (x3 : FVec Ideal S4x128x256 .f32) (x4 x5 x6 x7 x8 : FVec Ideal S4x256 .f32) (x9 : FVec Ideal S4 .f32) (x10 : FVec Ideal S4x256x128 .f32) (x11 x12 x13 x14 x15 : FVec Ideal S4x128 .f32) : LayerData where
  X := (val_main_v83 (F := Ideal) x0 x1 x3 x4 x5 x6 x7 x8 x9 x10 x11 x12 x13 x14 x15)
  A := val_main_v93 (F := Ideal) x0 x1 x3 x4 x5 x6 x7 x8 x9 x10 x11 x12 x13 x14 x15
  E := cellOf (val_main_v95 (F := Ideal) x9)
  W1 := val_main_v101 (F := Ideal) x3
  B1 := rowOf (val_main_v104 (F := Ideal) x4)
  G1 := rowOf (val_main_v109 (F := Ideal) x5)
  BE1 := rowOf (val_main_v111 (F := Ideal) x6)
  M1 := rowOf (val_main_v113 (F := Ideal) x7)
  V1 := rowOf (val_main_v115 (F := Ideal) x8)
  W2 := val_main_v133 (F := Ideal) x10
  B2 := rowOf (val_main_v136 (F := Ideal) x11)
  G2 := rowOf (val_main_v141 (F := Ideal) x12)
  BE2 := rowOf (val_main_v143 (F := Ideal) x13)
  M2 := rowOf (val_main_v145 (F := Ideal) x14)
  V2 := rowOf (val_main_v147 (F := Ideal) x15)

/-- Layer 3 of the reference. -/
def rdata2 (x0 : FVec Ideal S100000x128 .f32) (x1 : IVec S2x1600000 32) (x3 : FVec Ideal S4x128x256 .f32) (x4 x5 x6 x7 x8 : FVec Ideal S4x256 .f32) (x9 : FVec Ideal S4 .f32) (x10 : FVec Ideal S4x256x128 .f32) (x11 x12 x13 x14 x15 : FVec Ideal S4x128 .f32) : LayerData where
  X := (val_main_v163 (F := Ideal) x0 x1 x3 x4 x5 x6 x7 x8 x9 x10 x11 x12 x13 x14 x15)
  A := val_main_v173 (F := Ideal) x0 x1 x3 x4 x5 x6 x7 x8 x9 x10 x11 x12 x13 x14 x15
  E := cellOf (val_main_v175 (F := Ideal) x9)
  W1 := val_main_v181 (F := Ideal) x3
  B1 := rowOf (val_main_v184 (F := Ideal) x4)
  G1 := rowOf (val_main_v189 (F := Ideal) x5)
  BE1 := rowOf (val_main_v191 (F := Ideal) x6)
  M1 := rowOf (val_main_v193 (F := Ideal) x7)
  V1 := rowOf (val_main_v195 (F := Ideal) x8)
  W2 := val_main_v213 (F := Ideal) x10
  B2 := rowOf (val_main_v216 (F := Ideal) x11)
  G2 := rowOf (val_main_v221 (F := Ideal) x12)
  BE2 := rowOf (val_main_v223 (F := Ideal) x13)
  M2 := rowOf (val_main_v225 (F := Ideal) x14)
  V2 := rowOf (val_main_v227 (F := Ideal) x15)

/-- Layer 4 of the reference. -/
def rdata3 (x0 : FVec Ideal S100000x128 .f32) (x1 : IVec S2x1600000 32) (x3 : FVec Ideal S4x128x256 .f32) (x4 x5 x6 x7 x8 : FVec Ideal S4x256 .f32) (x9 : FVec Ideal S4 .f32) (x10 : FVec Ideal S4x256x128 .f32) (x11 x12 x13 x14 x15 : FVec Ideal S4x128 .f32) : LayerData where
  X := (val_main_v243 (F := Ideal) x0 x1 x3 x4 x5 x6 x7 x8 x9 x10 x11 x12 x13 x14 x15)
  A := val_main_v253 (F := Ideal) x0 x1 x3 x4 x5 x6 x7 x8 x9 x10 x11 x12 x13 x14 x15
  E := cellOf (val_main_v255 (F := Ideal) x9)
  W1 := val_main_v261 (F := Ideal) x3
  B1 := rowOf (val_main_v264 (F := Ideal) x4)
  G1 := rowOf (val_main_v269 (F := Ideal) x5)
  BE1 := rowOf (val_main_v271 (F := Ideal) x6)
  M1 := rowOf (val_main_v273 (F := Ideal) x7)
  V1 := rowOf (val_main_v275 (F := Ideal) x8)
  W2 := val_main_v293 (F := Ideal) x10
  B2 := rowOf (val_main_v296 (F := Ideal) x11)
  G2 := rowOf (val_main_v301 (F := Ideal) x12)
  BE2 := rowOf (val_main_v303 (F := Ideal) x13)
  M2 := rowOf (val_main_v305 (F := Ideal) x14)
  V2 := rowOf (val_main_v307 (F := Ideal) x15)

/-- The head of the reference. -/
def rdata4 (x0 : FVec Ideal S100000x128 .f32) (x1 : IVec S2x1600000 32) (x2 : IVec S100000 32) (x3 : FVec Ideal S4x128x256 .f32) (x4 x5 x6 x7 x8 : FVec Ideal S4x256 .f32) (x9 : FVec Ideal S4 .f32) (x10 : FVec Ideal S4x256x128 .f32) (x11 x12 x13 x14 x15 : FVec Ideal S4x128 .f32) (x16 : FVec Ideal S128x128 .f32) (x17 x18 x19 x20 x21 : FVec Ideal S128 .f32) (x22 : FVec Ideal S128x10 .f32) (x23 : FVec Ideal S10 .f32) : HeadData where
  P := val_main_v326 (F := Ideal) x0 x1 x2 x3 x4 x5 x6 x7 x8 x9 x10 x11 x12 x13 x14 x15
  W1 := x16
  B1 := rowOf x17
  G := rowOf x18
  BE := rowOf x19
  MU := rowOf x20
  VAR := rowOf x21
  W2 := x22
  B2 := rowOf x23

end Cert.Gin.Rdata

end
-- ==== Proof.Bridge.lean ====
/-
  The two programs read the same arrays. Layer by layer, the arrays the kernel program's region reads — as functions
  of the node rows, the edge list and the parameter stacks — are the arrays the reference program computes at the
  same point: the neighbour sums and the weight matrices are the same terms, a parameter row is the reference's
  length-n vector written as a 1×n matrix, and the ε-weight is the reference's scalar written as a 1×1 matrix.
-/
import proofs.«113793_j3350074490963_2_alg».proof.Proof.KEntry0
import proofs.«113793_j3350074490963_2_alg».proof.Proof.KEntry1
import proofs.«113793_j3350074490963_2_alg».proof.Proof.KEntry2
import proofs.«113793_j3350074490963_2_alg».proof.Proof.KEntry3
import proofs.«113793_j3350074490963_2_alg».proof.Proof.KEntry4
import proofs.«113793_j3350074490963_2_alg».proof.Proof.RefReadP
import proofs.«113793_j3350074490963_2_alg».proof.Proof.RData
import proofs.«113793_j3350074490963_2_alg».proof.Proof.GinData
import Idealize.ShloMosaic.Lib.ValueLayout

set_option maxRecDepth 16384

noncomputable section

namespace Cert.Gin.Bridge

open Cert.KernelIdeal Cert.KernelIdeal.Named Idealize.ShloMosaic Idealize.ShloMosaic.ValueIdx Cert.Gin Cert.Gin.Rdata
open Cert.ReferenceIdeal.ReadP

/-- A vector of length n reshaped to 1×n is that vector written as a 1×n matrix. -/
theorem shapeCast_row {n : Nat} (v : (⟨1, ![n]⟩ : Shape).Idx → EReal)
    (h : (⟨1, ![n]⟩ : Shape).ShapeCasts ⟨2, ![1, n]⟩) : shapeCast ⟨2, ![1, n]⟩ v h = rowOf v := by
  funext i
  obtain ⟨u, j, rfl⟩ : ∃ u j, i = ix2 u j := ⟨i 0, i 1, eq_ix2 i⟩
  exact shapeCast_a_1a_apply v h u j

/-- A scalar reshaped to 1×1 is the constant matrix of that scalar. -/
theorem shapeCast_scalar (v : (⟨0, ![]⟩ : Shape).Idx → EReal)
    (h : (⟨0, ![]⟩ : Shape).ShapeCasts ⟨2, ![1, 1]⟩) : shapeCast ⟨2, ![1, 1]⟩ v h = cellOf v := by
  funext i
  exact congrArg v (eq_ix0 _)

/-- Layer 1: the kernel program's region reads the arrays the reference program computes. -/
theorem bridge0 (x0 : FVec Ideal S100000x128 .f32) (x1 : IVec S2x1600000 32) (x3 : FVec Ideal S4x128x256 .f32) (x4 x5 x6 x7 x8 : FVec Ideal S4x256 .f32) (x9 : FVec Ideal S4 .f32) (x10 : FVec Ideal S4x256x128 .f32) (x11 x12 x13 x14 x15 : FVec Ideal S4x128 .f32) :
    klayer0 x0 x1 x3 x4 x5 x6 x7 x8 x9 x10 x11 x12 x13 x14 x15 = rdata0 x0 x1 x3 x4 x5 x6 x7 x8 x9 x10 x11 x12 x13 x14 x15 := by
  unfold klayer0 rdata0
  rw [LayerData.mk.injEq]
  exact ⟨rfl, rfl, shapeCast_scalar _ _, rfl, shapeCast_row _ _, shapeCast_row _ _, shapeCast_row _ _, shapeCast_row _ _,
    shapeCast_row _ _, rfl, shapeCast_row _ _, shapeCast_row _ _, shapeCast_row _ _, shapeCast_row _ _, shapeCast_row _ _⟩

/-- Layer 2: the kernel program's region reads the arrays the reference program computes. -/
theorem bridge1 (x0 : FVec Ideal S100000x128 .f32) (x1 : IVec S2x1600000 32) (x3 : FVec Ideal S4x128x256 .f32) (x4 x5 x6 x7 x8 : FVec Ideal S4x256 .f32) (x9 : FVec Ideal S4 .f32) (x10 : FVec Ideal S4x256x128 .f32) (x11 x12 x13 x14 x15 : FVec Ideal S4x128 .f32) :
    klayer1 (val_main_v83 (F := Ideal) x0 x1 x3 x4 x5 x6 x7 x8 x9 x10 x11 x12 x13 x14 x15) x1 x3 x4 x5 x6 x7 x8 x9 x10 x11 x12 x13 x14 x15 = rdata1 x0 x1 x3 x4 x5 x6 x7 x8 x9 x10 x11 x12 x13 x14 x15 := by
  unfold klayer1 rdata1
  rw [LayerData.mk.injEq]
  exact ⟨rfl, rfl, shapeCast_scalar _ _, rfl, shapeCast_row _ _, shapeCast_row _ _, shapeCast_row _ _, shapeCast_row _ _,
    shapeCast_row _ _, rfl, shapeCast_row _ _, shapeCast_row _ _, shapeCast_row _ _, shapeCast_row _ _, shapeCast_row _ _⟩

/-- Layer 3: the kernel program's region reads the arrays the reference program computes. -/
theorem bridge2 (x0 : FVec Ideal S100000x128 .f32) (x1 : IVec S2x1600000 32) (x3 : FVec Ideal S4x128x256 .f32) (x4 x5 x6 x7 x8 : FVec Ideal S4x256 .f32) (x9 : FVec Ideal S4 .f32) (x10 : FVec Ideal S4x256x128 .f32) (x11 x12 x13 x14 x15 : FVec Ideal S4x128 .f32) :
    klayer2 (val_main_v163 (F := Ideal) x0 x1 x3 x4 x5 x6 x7 x8 x9 x10 x11 x12 x13 x14 x15) x1 x3 x4 x5 x6 x7 x8 x9 x10 x11 x12 x13 x14 x15 = rdata2 x0 x1 x3 x4 x5 x6 x7 x8 x9 x10 x11 x12 x13 x14 x15 := by
  unfold klayer2 rdata2
  rw [LayerData.mk.injEq]
  exact ⟨rfl, rfl, shapeCast_scalar _ _, rfl, shapeCast_row _ _, shapeCast_row _ _, shapeCast_row _ _, shapeCast_row _ _,
    shapeCast_row _ _, rfl, shapeCast_row _ _, shapeCast_row _ _, shapeCast_row _ _, shapeCast_row _ _, shapeCast_row _ _⟩

/-- Layer 4: the kernel program's region reads the arrays the reference program computes. -/
theorem bridge3 (x0 : FVec Ideal S100000x128 .f32) (x1 : IVec S2x1600000 32) (x3 : FVec Ideal S4x128x256 .f32) (x4 x5 x6 x7 x8 : FVec Ideal S4x256 .f32) (x9 : FVec Ideal S4 .f32) (x10 : FVec Ideal S4x256x128 .f32) (x11 x12 x13 x14 x15 : FVec Ideal S4x128 .f32) :
    klayer3 (val_main_v243 (F := Ideal) x0 x1 x3 x4 x5 x6 x7 x8 x9 x10 x11 x12 x13 x14 x15) x1 x3 x4 x5 x6 x7 x8 x9 x10 x11 x12 x13 x14 x15 = rdata3 x0 x1 x3 x4 x5 x6 x7 x8 x9 x10 x11 x12 x13 x14 x15 := by
  unfold klayer3 rdata3
  rw [LayerData.mk.injEq]
  exact ⟨rfl, rfl, shapeCast_scalar _ _, rfl, shapeCast_row _ _, shapeCast_row _ _, shapeCast_row _ _, shapeCast_row _ _,
    shapeCast_row _ _, rfl, shapeCast_row _ _, shapeCast_row _ _, shapeCast_row _ _, shapeCast_row _ _, shapeCast_row _ _⟩

/-- The head: the kernel program's region reads the arrays the reference program computes. -/
theorem bridge4 (x0 : FVec Ideal S100000x128 .f32) (x1 : IVec S2x1600000 32) (x2 : IVec S100000 32) (x3 : FVec Ideal S4x128x256 .f32) (x4 x5 x6 x7 x8 : FVec Ideal S4x256 .f32) (x9 : FVec Ideal S4 .f32) (x10 : FVec Ideal S4x256x128 .f32) (x11 x12 x13 x14 x15 : FVec Ideal S4x128 .f32) (x16 : FVec Ideal S128x128 .f32) (x17 x18 x19 x20 x21 : FVec Ideal S128 .f32) (x22 : FVec Ideal S128x10 .f32) (x23 : FVec Ideal S10 .f32) :
    klayer4 (val_main_v323 (F := Ideal) x0 x1 x3 x4 x5 x6 x7 x8 x9 x10 x11 x12 x13 x14 x15) x2 x16 x17 x18 x19 x20 x21 x22 x23
      = rdata4 x0 x1 x2 x3 x4 x5 x6 x7 x8 x9 x10 x11 x12 x13 x14 x15 x16 x17 x18 x19 x20 x21 x22 x23 := by
  unfold klayer4 rdata4
  rw [HeadData.mk.injEq]
  exact ⟨rfl, rfl, shapeCast_row _ _, shapeCast_row _ _, shapeCast_row _ _, shapeCast_row _ _, shapeCast_row _ _, rfl,
    shapeCast_row _ _⟩

end Cert.Gin.Bridge

end
-- ==== Proof.LibHostRow.lean ====
/-
  A bias row on the host: a length-n vector placed as the one row of a 1×n matrix (`broadcast_in_dim` with dims = [1]) and
  that row repeated down m rows (`broadcast_in_dim` with dims = [0, 1]) reads, at (r, c), the vector at c — the entry does
  not depend on the row r. General: any element type, any extents.
-/
import Idealize.ShloMosaic.Lib.Pipeline.Value
import Idealize.ShloMosaic.Lib.ValueIdx
import Idealize.ShloMosaic.Lib.KernelVsHost

namespace Cert.Lib.HostRow

open Idealize.ShloMosaic Idealize.ShloMosaic.ValueIdx

variable {α : Type}

/-- A length-n vector broadcast to 1×n along its own axis reads, at (u, c), the vector at c. -/
theorem vector_as_row_apply {n : ℕ} (h : (⟨1, ![n]⟩ : Shape).BroadcastsInDim ⟨2, ![1, n]⟩ ![1])
    (v : (⟨1, ![n]⟩ : Shape).Idx → α) (u : Fin 1) (c : Fin n) :
    broadcastInDim ⟨2, ![1, n]⟩ ![1] h v (ix2 u c) = v (ix1 c) := by
  refine broadcastInDim_apply ![1] h v (ix2 u c) (ix1 c) fun a => ?_
  match a with
  | ⟨0, _⟩ =>
    show c.val = if n = 1 then 0 else c.val
    split
    · have := c.isLt; omega
    · rfl

/-- A length-n vector broadcast to 1×n and then down m rows reads, at (r, c), the vector at c. -/
theorem row_down_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1])
    (v : (⟨1, ![n]⟩ : Shape).Idx → α) (r : Fin m) (c : Fin n) :
    broadcastInDim ⟨2, ![m, n]⟩ ![0, 1] h2 (broadcastInDim ⟨2, ![1, n]⟩ ![1] h1 v) (ix2 r c) = v (ix1 c) :=
  (broadcastInDim_oneRow_apply h2 _ r c).trans (vector_as_row_apply h1 v 0 c)

end Cert.Lib.HostRow
-- ==== Proof.GinRefRow.lean ====
/-
  The reference network's four layers read one node row at a time.

  Each layer of the reference computes, for the whole node array at once, h = (1 + e) · x + a (a the scattered sum of the
  gathered neighbour rows), two matrix products with bias, and after each a batch normalisation with running statistics
  and a rectifier. Read at one index (r, q) every elementwise operation reads its operands at (r, q), a vector repeated
  down the rows reads the vector at q, and a matrix product is one plain sum over the contracted axis; so the layer's
  output at (r, q) is the specification's layer on row r of x and row r of a. The neighbour sum itself is not opened here.
-/
import proofs.«113793_j3350074490963_2_alg».proof.Proof.RefReadP
import proofs.«113793_j3350074490963_2_alg».proof.Proof.GinSpec
import proofs.«113793_j3350074490963_2_alg».proof.Proof.LibDense
import proofs.«113793_j3350074490963_2_alg».proof.Proof.LibHostRow
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Gin.RefRow

open Cert.ReferenceIdeal Cert.ReferenceIdeal.ReadP Idealize.ShloMosaic Idealize.ShloMosaic.ValueIdx Cert.Gin

variable (x0 : (⟨S100000x128, .f32⟩ : BufTy).Contents (Elt Ideal)) (x1 : (⟨S2x1600000, .i32⟩ : BufTy).Contents (Elt Ideal))
  (x3 : (⟨S4x128x256, .f32⟩ : BufTy).Contents (Elt Ideal)) (x4 x5 x6 x7 x8 : (⟨S4x256, .f32⟩ : BufTy).Contents (Elt Ideal))
  (x9 : (⟨S4, .f32⟩ : BufTy).Contents (Elt Ideal)) (x10 : (⟨S4x256x128, .f32⟩ : BufTy).Contents (Elt Ideal))
  (x11 x12 x13 x14 x15 : (⟨S4x128, .f32⟩ : BufTy).Contents (Elt Ideal))

/-! ## Layer 0 -/

/-- The row the first affine map is applied to: (1 + e) · x + a, entry by entry. -/
theorem h_row0 (r : Fin 100000) (j : Fin 128) :
    val_main_v19 (F := Ideal) x0 x1 x9 (ix2 r j)
      = (oneW + val_main_v15 (F := Ideal) x9 ix0) * x0 (ix2 r j) + val_main_v13 (F := Ideal) x0 x1 (ix2 r j) := by
  rw [val_main_v19_apply, val_main_v18_apply, val_main_v17_apply, val_main_v16_apply, val_main_cst_1_apply]
  rfl

/-- The first bias, repeated down the rows, reads the bias vector at the column. -/
theorem b1_row0 (r : Fin 100000) (k : Fin 256) :
    val_main_v26 (F := Ideal) x4 (ix2 r k) = val_main_v24 (F := Ideal) x4 (ix1 k) := by
  rw [val_main_v26_apply, val_main_v25_apply]
  exact congrArg (val_main_v24 (F := Ideal) x4) (funext fun a => match a with | ⟨0, _⟩ => rfl)

/-- The first running mean, repeated down the rows. -/
theorem m1_row0 (r : Fin 100000) (k : Fin 256) :
    val_main_v37 (F := Ideal) x7 (ix2 r k) = val_main_v33 (F := Ideal) x7 (ix1 k) := by
  rw [val_main_v37_apply, val_main_v36_apply]
  exact congrArg (val_main_v33 (F := Ideal) x7) (funext fun a => match a with | ⟨0, _⟩ => rfl)

/-- The first inverse standard deviation, repeated down the rows. -/
theorem s1_row0 (r : Fin 100000) (k : Fin 256) :
    val_main_v43 (F := Ideal) x8 (ix2 r k) = Ideal.rsqrt (val_main_v35 (F := Ideal) x8 (ix1 k) + epsW) := by
  rw [val_main_v43_apply, val_main_v42_apply]
  have e : idx_main_v42 (idx_main_v43 (ix2 r k)) = ix1 k :=
    funext fun a => match a with | ⟨0, _⟩ => rfl
  rw [e, val_main_v41_apply, val_main_v40_apply, val_main_v39_apply, val_main_cst_2_apply]
  rfl

/-- The first scale, repeated down the rows. -/
theorem g1_row0 (r : Fin 100000) (k : Fin 256) :
    val_main_v46 (F := Ideal) x5 (ix2 r k) = val_main_v29 (F := Ideal) x5 (ix1 k) := by
  rw [val_main_v46_apply, val_main_v45_apply]
  exact congrArg (val_main_v29 (F := Ideal) x5) (funext fun a => match a with | ⟨0, _⟩ => rfl)

/-- The first shift, repeated down the rows. -/
theorem be1_row0 (r : Fin 100000) (k : Fin 256) :
    val_main_v49 (F := Ideal) x6 (ix2 r k) = val_main_v31 (F := Ideal) x6 (ix1 k) := by
  rw [val_main_v49_apply, val_main_v48_apply]
  exact congrArg (val_main_v31 (F := Ideal) x6) (funext fun a => match a with | ⟨0, _⟩ => rfl)

/-- The rectifier's zero, hidden width. -/
theorem z1_row0 (r : Fin 100000) (k : Fin 256) :
    val_main_call0_v0 (F := Ideal) (ix2 r k) = zeroW := by
  rw [val_main_call0_v0_apply, val_main_call0_cst_apply]
  rfl

/-- The first affine map of the layer at (r, k): one plain sum over the 128 input columns, plus the bias. -/
theorem lin1_row0 (r : Fin 100000) (k : Fin 256) :
    val_main_v27 (F := Ideal) x0 x1 x3 x4 x9 (ix2 r k)
      = lin1 (val_main_v15 (F := Ideal) x9 ix0) (fun j => x0 (ix2 r j)) (fun j => val_main_v13 (F := Ideal) x0 x1 (ix2 r j))
          (fun j k => val_main_v21 (F := Ideal) x3 (ix2 j k)) (fun k => val_main_v24 (F := Ideal) x4 (ix1 k)) k := by
  unfold lin1
  rw [val_main_v27_apply, val_main_v22_apply, b1_row0]
  show (∑ j : Fin 128, _) + _ = _
  refine congrArg (· + _) (Finset.sum_congr rfl fun j _ => ?_)
  have el : lidx_main_v22 (ix2 r k) j = ix2 r j := funext fun a => match a with | ⟨0, _⟩ => rfl | ⟨1, _⟩ => rfl
  have er : ridx_main_v22 (ix2 r k) j = ix2 j k := funext fun a => match a with | ⟨0, _⟩ => rfl | ⟨1, _⟩ => rfl
  rw [el, er, h_row0]

/-- The hidden row of the layer at (r, k). -/
theorem hid_row0 (r : Fin 100000) (k : Fin 256) :
    val_main_v51 (F := Ideal) x0 x1 x3 x4 x5 x6 x7 x8 x9 (ix2 r k)
      = hid (val_main_v15 (F := Ideal) x9 ix0) (fun j => x0 (ix2 r j)) (fun j => val_main_v13 (F := Ideal) x0 x1 (ix2 r j))
          (fun j k => val_main_v21 (F := Ideal) x3 (ix2 j k)) (fun k => val_main_v24 (F := Ideal) x4 (ix1 k)) (fun k => val_main_v29 (F := Ideal) x5 (ix1 k)) (fun k => val_main_v31 (F := Ideal) x6 (ix1 k)) (fun k => val_main_v33 (F := Ideal) x7 (ix1 k)) (fun k => val_main_v35 (F := Ideal) x8 (ix1 k)) k := by
  unfold hid bnRelu
  rw [val_main_v51_apply, val_main_v50_apply, val_main_v47_apply, val_main_v44_apply, val_main_v38_apply,
    lin1_row0, m1_row0, s1_row0, g1_row0, be1_row0, z1_row0]
  rfl

/-- The second bias, repeated down the rows. -/
theorem b2_row0 (r : Fin 100000) (q : Fin 128) :
    val_main_v58 (F := Ideal) x11 (ix2 r q) = val_main_v56 (F := Ideal) x11 (ix1 q) := by
  rw [val_main_v58_apply, val_main_v57_apply]
  exact congrArg (val_main_v56 (F := Ideal) x11) (funext fun a => match a with | ⟨0, _⟩ => rfl)

/-- The second running mean, repeated down the rows. -/
theorem m2_row0 (r : Fin 100000) (q : Fin 128) :
    val_main_v69 (F := Ideal) x14 (ix2 r q) = val_main_v65 (F := Ideal) x14 (ix1 q) := by
  rw [val_main_v69_apply, val_main_v68_apply]
  exact congrArg (val_main_v65 (F := Ideal) x14) (funext fun a => match a with | ⟨0, _⟩ => rfl)

/-- The second inverse standard deviation, repeated down the rows. -/
theorem s2_row0 (r : Fin 100000) (q : Fin 128) :
    val_main_v75 (F := Ideal) x15 (ix2 r q) = Ideal.rsqrt (val_main_v67 (F := Ideal) x15 (ix1 q) + epsW) := by
  rw [val_main_v75_apply, val_main_v74_apply]
  have e : idx_main_v74 (idx_main_v75 (ix2 r q)) = ix1 q :=
    funext fun a => match a with | ⟨0, _⟩ => rfl
  rw [e, val_main_v73_apply, val_main_v72_apply, val_main_v71_apply, val_main_cst_3_apply]
  rfl

/-- The second scale, repeated down the rows. -/
theorem g2_row0 (r : Fin 100000) (q : Fin 128) :
    val_main_v78 (F := Ideal) x12 (ix2 r q) = val_main_v61 (F := Ideal) x12 (ix1 q) := by
  rw [val_main_v78_apply, val_main_v77_apply]
  exact congrArg (val_main_v61 (F := Ideal) x12) (funext fun a => match a with | ⟨0, _⟩ => rfl)

/-- The second shift, repeated down the rows. -/
theorem be2_row0 (r : Fin 100000) (q : Fin 128) :
    val_main_v81 (F := Ideal) x13 (ix2 r q) = val_main_v63 (F := Ideal) x13 (ix1 q) := by
  rw [val_main_v81_apply, val_main_v80_apply]
  exact congrArg (val_main_v63 (F := Ideal) x13) (funext fun a => match a with | ⟨0, _⟩ => rfl)

/-- The rectifier's zero, output width. -/
theorem z2_row0 (r : Fin 100000) (q : Fin 128) :
    val_main_call1_v0 (F := Ideal) (ix2 r q) = zeroW := by
  rw [val_main_call1_v0_apply, val_main_call1_cst_apply]
  rfl

/-- The second affine map of the layer at (r, q): one plain sum over the 256 hidden columns, plus the bias. -/
theorem lin2_row0 (r : Fin 100000) (q : Fin 128) :
    val_main_v59 (F := Ideal) x0 x1 x3 x4 x5 x6 x7 x8 x9 x10 x11 (ix2 r q)
      = (∑ k : Fin 256, hid (val_main_v15 (F := Ideal) x9 ix0) (fun j => x0 (ix2 r j)) (fun j => val_main_v13 (F := Ideal) x0 x1 (ix2 r j))
          (fun j k => val_main_v21 (F := Ideal) x3 (ix2 j k)) (fun k => val_main_v24 (F := Ideal) x4 (ix1 k)) (fun k => val_main_v29 (F := Ideal) x5 (ix1 k)) (fun k => val_main_v31 (F := Ideal) x6 (ix1 k)) (fun k => val_main_v33 (F := Ideal) x7 (ix1 k)) (fun k => val_main_v35 (F := Ideal) x8 (ix1 k)) k
            * val_main_v53 (F := Ideal) x10 (ix2 k q)) + val_main_v56 (F := Ideal) x11 (ix1 q) := by
  rw [val_main_v59_apply, val_main_v54_apply, b2_row0]
  show (∑ k : Fin 256, _) + _ = _
  refine congrArg (· + _) (Finset.sum_congr rfl fun k _ => ?_)
  have el : lidx_main_v54 (ix2 r q) k = ix2 r k := funext fun a => match a with | ⟨0, _⟩ => rfl | ⟨1, _⟩ => rfl
  have er : ridx_main_v54 (ix2 r q) k = ix2 k q := funext fun a => match a with | ⟨0, _⟩ => rfl | ⟨1, _⟩ => rfl
  rw [el, er, hid_row0]

/-- Layer 0 of the reference on node r, output column q, is the layer of the specification on the node's row and
    the sum of its in-neighbours' rows. -/
theorem layer0_row (r : Fin 100000) (q : Fin 128) :
    val_main_v83 (F := Ideal) x0 x1 x3 x4 x5 x6 x7 x8 x9 x10 x11 x12 x13 x14 x15 (ix2 r q)
      = ginRow (val_main_v15 (F := Ideal) x9 ix0) (fun j => x0 (ix2 r j)) (fun j => val_main_v13 (F := Ideal) x0 x1 (ix2 r j))
          (fun j k => val_main_v21 (F := Ideal) x3 (ix2 j k)) (fun k => val_main_v24 (F := Ideal) x4 (ix1 k)) (fun k => val_main_v29 (F := Ideal) x5 (ix1 k)) (fun k => val_main_v31 (F := Ideal) x6 (ix1 k)) (fun k => val_main_v33 (F := Ideal) x7 (ix1 k)) (fun k => val_main_v35 (F := Ideal) x8 (ix1 k))
          (fun k q => val_main_v53 (F := Ideal) x10 (ix2 k q)) (fun q => val_main_v56 (F := Ideal) x11 (ix1 q)) (fun q => val_main_v61 (F := Ideal) x12 (ix1 q)) (fun q => val_main_v63 (F := Ideal) x13 (ix1 q)) (fun q => val_main_v65 (F := Ideal) x14 (ix1 q)) (fun q => val_main_v67 (F := Ideal) x15 (ix1 q)) q := by
  unfold ginRow bnRelu
  rw [val_main_v83_apply, val_main_v82_apply, val_main_v79_apply, val_main_v76_apply, val_main_v70_apply,
    lin2_row0, m2_row0, s2_row0, g2_row0, be2_row0, z2_row0]
  rfl

/-! ## Layer 1 -/

/-- The row the first affine map is applied to: (1 + e) · x + a, entry by entry. -/
theorem h_row1 (r : Fin 100000) (j : Fin 128) :
    val_main_v99 (F := Ideal) x0 x1 x3 x4 x5 x6 x7 x8 x9 x10 x11 x12 x13 x14 x15 (ix2 r j)
      = (oneW + val_main_v95 (F := Ideal) x9 ix0) * val_main_v83 (F := Ideal) x0 x1 x3 x4 x5 x6 x7 x8 x9 x10 x11 x12 x13 x14 x15 (ix2 r j) + val_main_v93 (F := Ideal) x0 x1 x3 x4 x5 x6 x7 x8 x9 x10 x11 x12 x13 x14 x15 (ix2 r j) := by
  rw [val_main_v99_apply, val_main_v98_apply, val_main_v97_apply, val_main_v96_apply, val_main_cst_7_apply]
  rfl

/-- The first bias, repeated down the rows, reads the bias vector at the column. -/
theorem b1_row1 (r : Fin 100000) (k : Fin 256) :
    val_main_v106 (F := Ideal) x4 (ix2 r k) = val_main_v104 (F := Ideal) x4 (ix1 k) := by
  rw [val_main_v106_apply, val_main_v105_apply]
  exact congrArg (val_main_v104 (F := Ideal) x4) (funext fun a => match a with | ⟨0, _⟩ => rfl)

/-- The first running mean, repeated down the rows. -/
theorem m1_row1 (r : Fin 100000) (k : Fin 256) :
    val_main_v117 (F := Ideal) x7 (ix2 r k) = val_main_v113 (F := Ideal) x7 (ix1 k) := by
  rw [val_main_v117_apply, val_main_v116_apply]
  exact congrArg (val_main_v113 (F := Ideal) x7) (funext fun a => match a with | ⟨0, _⟩ => rfl)

/-- The first inverse standard deviation, repeated down the rows. -/
theorem s1_row1 (r : Fin 100000) (k : Fin 256) :
    val_main_v123 (F := Ideal) x8 (ix2 r k) = Ideal.rsqrt (val_main_v115 (F := Ideal) x8 (ix1 k) + epsW) := by
  rw [val_main_v123_apply, val_main_v122_apply]
  have e : idx_main_v122 (idx_main_v123 (ix2 r k)) = ix1 k :=
    funext fun a => match a with | ⟨0, _⟩ => rfl
  rw [e, val_main_v121_apply, val_main_v120_apply, val_main_v119_apply, val_main_cst_8_apply]
  rfl

/-- The first scale, repeated down the rows. -/
theorem g1_row1 (r : Fin 100000) (k : Fin 256) :
    val_main_v126 (F := Ideal) x5 (ix2 r k) = val_main_v109 (F := Ideal) x5 (ix1 k) := by
  rw [val_main_v126_apply, val_main_v125_apply]
  exact congrArg (val_main_v109 (F := Ideal) x5) (funext fun a => match a with | ⟨0, _⟩ => rfl)

/-- The first shift, repeated down the rows. -/
theorem be1_row1 (r : Fin 100000) (k : Fin 256) :
    val_main_v129 (F := Ideal) x6 (ix2 r k) = val_main_v111 (F := Ideal) x6 (ix1 k) := by
  rw [val_main_v129_apply, val_main_v128_apply]
  exact congrArg (val_main_v111 (F := Ideal) x6) (funext fun a => match a with | ⟨0, _⟩ => rfl)

/-- The rectifier's zero, hidden width. -/
theorem z1_row1 (r : Fin 100000) (k : Fin 256) :
    val_main_call2_v0 (F := Ideal) (ix2 r k) = zeroW := by
  rw [val_main_call2_v0_apply, val_main_call2_cst_apply]
  rfl

/-- The first affine map of the layer at (r, k): one plain sum over the 128 input columns, plus the bias. -/
theorem lin1_row1 (r : Fin 100000) (k : Fin 256) :
    val_main_v107 (F := Ideal) x0 x1 x3 x4 x5 x6 x7 x8 x9 x10 x11 x12 x13 x14 x15 (ix2 r k)
      = lin1 (val_main_v95 (F := Ideal) x9 ix0) (fun j => val_main_v83 (F := Ideal) x0 x1 x3 x4 x5 x6 x7 x8 x9 x10 x11 x12 x13 x14 x15 (ix2 r j)) (fun j => val_main_v93 (F := Ideal) x0 x1 x3 x4 x5 x6 x7 x8 x9 x10 x11 x12 x13 x14 x15 (ix2 r j))
          (fun j k => val_main_v101 (F := Ideal) x3 (ix2 j k)) (fun k => val_main_v104 (F := Ideal) x4 (ix1 k)) k := by
  unfold lin1
  rw [val_main_v107_apply, val_main_v102_apply, b1_row1]
  show (∑ j : Fin 128, _) + _ = _
  refine congrArg (· + _) (Finset.sum_congr rfl fun j _ => ?_)
  have el : lidx_main_v102 (ix2 r k) j = ix2 r j := funext fun a => match a with | ⟨0, _⟩ => rfl | ⟨1, _⟩ => rfl
  have er : ridx_main_v102 (ix2 r k) j = ix2 j k := funext fun a => match a with | ⟨0, _⟩ => rfl | ⟨1, _⟩ => rfl
  rw [el, er, h_row1]

/-- The hidden row of the layer at (r, k). -/
theorem hid_row1 (r : Fin 100000) (k : Fin 256) :
    val_main_v131 (F := Ideal) x0 x1 x3 x4 x5 x6 x7 x8 x9 x10 x11 x12 x13 x14 x15 (ix2 r k)
      = hid (val_main_v95 (F := Ideal) x9 ix0) (fun j => val_main_v83 (F := Ideal) x0 x1 x3 x4 x5 x6 x7 x8 x9 x10 x11 x12 x13 x14 x15 (ix2 r j)) (fun j => val_main_v93 (F := Ideal) x0 x1 x3 x4 x5 x6 x7 x8 x9 x10 x11 x12 x13 x14 x15 (ix2 r j))
          (fun j k => val_main_v101 (F := Ideal) x3 (ix2 j k)) (fun k => val_main_v104 (F := Ideal) x4 (ix1 k)) (fun k => val_main_v109 (F := Ideal) x5 (ix1 k)) (fun k => val_main_v111 (F := Ideal) x6 (ix1 k)) (fun k => val_main_v113 (F := Ideal) x7 (ix1 k)) (fun k => val_main_v115 (F := Ideal) x8 (ix1 k)) k := by
  unfold hid bnRelu
  rw [val_main_v131_apply, val_main_v130_apply, val_main_v127_apply, val_main_v124_apply, val_main_v118_apply,
    lin1_row1, m1_row1, s1_row1, g1_row1, be1_row1, z1_row1]
  rfl

/-- The second bias, repeated down the rows. -/
theorem b2_row1 (r : Fin 100000) (q : Fin 128) :
    val_main_v138 (F := Ideal) x11 (ix2 r q) = val_main_v136 (F := Ideal) x11 (ix1 q) := by
  rw [val_main_v138_apply, val_main_v137_apply]
  exact congrArg (val_main_v136 (F := Ideal) x11) (funext fun a => match a with | ⟨0, _⟩ => rfl)

/-- The second running mean, repeated down the rows. -/
theorem m2_row1 (r : Fin 100000) (q : Fin 128) :
    val_main_v149 (F := Ideal) x14 (ix2 r q) = val_main_v145 (F := Ideal) x14 (ix1 q) := by
  rw [val_main_v149_apply, val_main_v148_apply]
  exact congrArg (val_main_v145 (F := Ideal) x14) (funext fun a => match a with | ⟨0, _⟩ => rfl)

/-- The second inverse standard deviation, repeated down the rows. -/
theorem s2_row1 (r : Fin 100000) (q : Fin 128) :
    val_main_v155 (F := Ideal) x15 (ix2 r q) = Ideal.rsqrt (val_main_v147 (F := Ideal) x15 (ix1 q) + epsW) := by
  rw [val_main_v155_apply, val_main_v154_apply]
  have e : idx_main_v154 (idx_main_v155 (ix2 r q)) = ix1 q :=
    funext fun a => match a with | ⟨0, _⟩ => rfl
  rw [e, val_main_v153_apply, val_main_v152_apply, val_main_v151_apply, val_main_cst_9_apply]
  rfl

/-- The second scale, repeated down the rows. -/
theorem g2_row1 (r : Fin 100000) (q : Fin 128) :
    val_main_v158 (F := Ideal) x12 (ix2 r q) = val_main_v141 (F := Ideal) x12 (ix1 q) := by
  rw [val_main_v158_apply, val_main_v157_apply]
  exact congrArg (val_main_v141 (F := Ideal) x12) (funext fun a => match a with | ⟨0, _⟩ => rfl)

/-- The second shift, repeated down the rows. -/
theorem be2_row1 (r : Fin 100000) (q : Fin 128) :
    val_main_v161 (F := Ideal) x13 (ix2 r q) = val_main_v143 (F := Ideal) x13 (ix1 q) := by
  rw [val_main_v161_apply, val_main_v160_apply]
  exact congrArg (val_main_v143 (F := Ideal) x13) (funext fun a => match a with | ⟨0, _⟩ => rfl)

/-- The rectifier's zero, output width. -/
theorem z2_row1 (r : Fin 100000) (q : Fin 128) :
    val_main_call3_v0 (F := Ideal) (ix2 r q) = zeroW := by
  rw [val_main_call3_v0_apply, val_main_call3_cst_apply]
  rfl

/-- The second affine map of the layer at (r, q): one plain sum over the 256 hidden columns, plus the bias. -/
theorem lin2_row1 (r : Fin 100000) (q : Fin 128) :
    val_main_v139 (F := Ideal) x0 x1 x3 x4 x5 x6 x7 x8 x9 x10 x11 x12 x13 x14 x15 (ix2 r q)
      = (∑ k : Fin 256, hid (val_main_v95 (F := Ideal) x9 ix0) (fun j => val_main_v83 (F := Ideal) x0 x1 x3 x4 x5 x6 x7 x8 x9 x10 x11 x12 x13 x14 x15 (ix2 r j)) (fun j => val_main_v93 (F := Ideal) x0 x1 x3 x4 x5 x6 x7 x8 x9 x10 x11 x12 x13 x14 x15 (ix2 r j))
          (fun j k => val_main_v101 (F := Ideal) x3 (ix2 j k)) (fun k => val_main_v104 (F := Ideal) x4 (ix1 k)) (fun k => val_main_v109 (F := Ideal) x5 (ix1 k)) (fun k => val_main_v111 (F := Ideal) x6 (ix1 k)) (fun k => val_main_v113 (F := Ideal) x7 (ix1 k)) (fun k => val_main_v115 (F := Ideal) x8 (ix1 k)) k
            * val_main_v133 (F := Ideal) x10 (ix2 k q)) + val_main_v136 (F := Ideal) x11 (ix1 q) := by
  rw [val_main_v139_apply, val_main_v134_apply, b2_row1]
  show (∑ k : Fin 256, _) + _ = _
  refine congrArg (· + _) (Finset.sum_congr rfl fun k _ => ?_)
  have el : lidx_main_v134 (ix2 r q) k = ix2 r k := funext fun a => match a with | ⟨0, _⟩ => rfl | ⟨1, _⟩ => rfl
  have er : ridx_main_v134 (ix2 r q) k = ix2 k q := funext fun a => match a with | ⟨0, _⟩ => rfl | ⟨1, _⟩ => rfl
  rw [el, er, hid_row1]

/-- Layer 1 of the reference on node r, output column q, is the layer of the specification on the node's row and
    the sum of its in-neighbours' rows. -/
theorem layer1_row (r : Fin 100000) (q : Fin 128) :
    val_main_v163 (F := Ideal) x0 x1 x3 x4 x5 x6 x7 x8 x9 x10 x11 x12 x13 x14 x15 (ix2 r q)
      = ginRow (val_main_v95 (F := Ideal) x9 ix0) (fun j => val_main_v83 (F := Ideal) x0 x1 x3 x4 x5 x6 x7 x8 x9 x10 x11 x12 x13 x14 x15 (ix2 r j)) (fun j => val_main_v93 (F := Ideal) x0 x1 x3 x4 x5 x6 x7 x8 x9 x10 x11 x12 x13 x14 x15 (ix2 r j))
          (fun j k => val_main_v101 (F := Ideal) x3 (ix2 j k)) (fun k => val_main_v104 (F := Ideal) x4 (ix1 k)) (fun k => val_main_v109 (F := Ideal) x5 (ix1 k)) (fun k => val_main_v111 (F := Ideal) x6 (ix1 k)) (fun k => val_main_v113 (F := Ideal) x7 (ix1 k)) (fun k => val_main_v115 (F := Ideal) x8 (ix1 k))
          (fun k q => val_main_v133 (F := Ideal) x10 (ix2 k q)) (fun q => val_main_v136 (F := Ideal) x11 (ix1 q)) (fun q => val_main_v141 (F := Ideal) x12 (ix1 q)) (fun q => val_main_v143 (F := Ideal) x13 (ix1 q)) (fun q => val_main_v145 (F := Ideal) x14 (ix1 q)) (fun q => val_main_v147 (F := Ideal) x15 (ix1 q)) q := by
  unfold ginRow bnRelu
  rw [val_main_v163_apply, val_main_v162_apply, val_main_v159_apply, val_main_v156_apply, val_main_v150_apply,
    lin2_row1, m2_row1, s2_row1, g2_row1, be2_row1, z2_row1]
  rfl

/-! ## Layer 2 -/

/-- The row the first affine map is applied to: (1 + e) · x + a, entry by entry. -/
theorem h_row2 (r : Fin 100000) (j : Fin 128) :
    val_main_v179 (F := Ideal) x0 x1 x3 x4 x5 x6 x7 x8 x9 x10 x11 x12 x13 x14 x15 (ix2 r j)
      = (oneW + val_main_v175 (F := Ideal) x9 ix0) * val_main_v163 (F := Ideal) x0 x1 x3 x4 x5 x6 x7 x8 x9 x10 x11 x12 x13 x14 x15 (ix2 r j) + val_main_v173 (F := Ideal) x0 x1 x3 x4 x5 x6 x7 x8 x9 x10 x11 x12 x13 x14 x15 (ix2 r j) := by
  rw [val_main_v179_apply, val_main_v178_apply, val_main_v177_apply, val_main_v176_apply, val_main_cst_13_apply]
  rfl

/-- The first bias, repeated down the rows, reads the bias vector at the column. -/
theorem b1_row2 (r : Fin 100000) (k : Fin 256) :
    val_main_v186 (F := Ideal) x4 (ix2 r k) = val_main_v184 (F := Ideal) x4 (ix1 k) := by
  rw [val_main_v186_apply, val_main_v185_apply]
  exact congrArg (val_main_v184 (F := Ideal) x4) (funext fun a => match a with | ⟨0, _⟩ => rfl)

/-- The first running mean, repeated down the rows. -/
theorem m1_row2 (r : Fin 100000) (k : Fin 256) :
    val_main_v197 (F := Ideal) x7 (ix2 r k) = val_main_v193 (F := Ideal) x7 (ix1 k) := by
  rw [val_main_v197_apply, val_main_v196_apply]
  exact congrArg (val_main_v193 (F := Ideal) x7) (funext fun a => match a with | ⟨0, _⟩ => rfl)

/-- The first inverse standard deviation, repeated down the rows. -/
theorem s1_row2 (r : Fin 100000) (k : Fin 256) :
    val_main_v203 (F := Ideal) x8 (ix2 r k) = Ideal.rsqrt (val_main_v195 (F := Ideal) x8 (ix1 k) + epsW) := by
  rw [val_main_v203_apply, val_main_v202_apply]
  have e : idx_main_v202 (idx_main_v203 (ix2 r k)) = ix1 k :=
    funext fun a => match a with | ⟨0, _⟩ => rfl
  rw [e, val_main_v201_apply, val_main_v200_apply, val_main_v199_apply, val_main_cst_14_apply]
  rfl

/-- The first scale, repeated down the rows. -/
theorem g1_row2 (r : Fin 100000) (k : Fin 256) :
    val_main_v206 (F := Ideal) x5 (ix2 r k) = val_main_v189 (F := Ideal) x5 (ix1 k) := by
  rw [val_main_v206_apply, val_main_v205_apply]
  exact congrArg (val_main_v189 (F := Ideal) x5) (funext fun a => match a with | ⟨0, _⟩ => rfl)

/-- The first shift, repeated down the rows. -/
theorem be1_row2 (r : Fin 100000) (k : Fin 256) :
    val_main_v209 (F := Ideal) x6 (ix2 r k) = val_main_v191 (F := Ideal) x6 (ix1 k) := by
  rw [val_main_v209_apply, val_main_v208_apply]
  exact congrArg (val_main_v191 (F := Ideal) x6) (funext fun a => match a with | ⟨0, _⟩ => rfl)

/-- The rectifier's zero, hidden width. -/
theorem z1_row2 (r : Fin 100000) (k : Fin 256) :
    val_main_call4_v0 (F := Ideal) (ix2 r k) = zeroW := by
  rw [val_main_call4_v0_apply, val_main_call4_cst_apply]
  rfl

/-- The first affine map of the layer at (r, k): one plain sum over the 128 input columns, plus the bias. -/
theorem lin1_row2 (r : Fin 100000) (k : Fin 256) :
    val_main_v187 (F := Ideal) x0 x1 x3 x4 x5 x6 x7 x8 x9 x10 x11 x12 x13 x14 x15 (ix2 r k)
      = lin1 (val_main_v175 (F := Ideal) x9 ix0) (fun j => val_main_v163 (F := Ideal) x0 x1 x3 x4 x5 x6 x7 x8 x9 x10 x11 x12 x13 x14 x15 (ix2 r j)) (fun j => val_main_v173 (F := Ideal) x0 x1 x3 x4 x5 x6 x7 x8 x9 x10 x11 x12 x13 x14 x15 (ix2 r j))
          (fun j k => val_main_v181 (F := Ideal) x3 (ix2 j k)) (fun k => val_main_v184 (F := Ideal) x4 (ix1 k)) k := by
  unfold lin1
  rw [val_main_v187_apply, val_main_v182_apply, b1_row2]
  show (∑ j : Fin 128, _) + _ = _
  refine congrArg (· + _) (Finset.sum_congr rfl fun j _ => ?_)
  have el : lidx_main_v182 (ix2 r k) j = ix2 r j := funext fun a => match a with | ⟨0, _⟩ => rfl | ⟨1, _⟩ => rfl
  have er : ridx_main_v182 (ix2 r k) j = ix2 j k := funext fun a => match a with | ⟨0, _⟩ => rfl | ⟨1, _⟩ => rfl
  rw [el, er, h_row2]

/-- The hidden row of the layer at (r, k). -/
theorem hid_row2 (r : Fin 100000) (k : Fin 256) :
    val_main_v211 (F := Ideal) x0 x1 x3 x4 x5 x6 x7 x8 x9 x10 x11 x12 x13 x14 x15 (ix2 r k)
      = hid (val_main_v175 (F := Ideal) x9 ix0) (fun j => val_main_v163 (F := Ideal) x0 x1 x3 x4 x5 x6 x7 x8 x9 x10 x11 x12 x13 x14 x15 (ix2 r j)) (fun j => val_main_v173 (F := Ideal) x0 x1 x3 x4 x5 x6 x7 x8 x9 x10 x11 x12 x13 x14 x15 (ix2 r j))
          (fun j k => val_main_v181 (F := Ideal) x3 (ix2 j k)) (fun k => val_main_v184 (F := Ideal) x4 (ix1 k)) (fun k => val_main_v189 (F := Ideal) x5 (ix1 k)) (fun k => val_main_v191 (F := Ideal) x6 (ix1 k)) (fun k => val_main_v193 (F := Ideal) x7 (ix1 k)) (fun k => val_main_v195 (F := Ideal) x8 (ix1 k)) k := by
  unfold hid bnRelu
  rw [val_main_v211_apply, val_main_v210_apply, val_main_v207_apply, val_main_v204_apply, val_main_v198_apply,
    lin1_row2, m1_row2, s1_row2, g1_row2, be1_row2, z1_row2]
  rfl

/-- The second bias, repeated down the rows. -/
theorem b2_row2 (r : Fin 100000) (q : Fin 128) :
    val_main_v218 (F := Ideal) x11 (ix2 r q) = val_main_v216 (F := Ideal) x11 (ix1 q) := by
  rw [val_main_v218_apply, val_main_v217_apply]
  exact congrArg (val_main_v216 (F := Ideal) x11) (funext fun a => match a with | ⟨0, _⟩ => rfl)

/-- The second running mean, repeated down the rows. -/
theorem m2_row2 (r : Fin 100000) (q : Fin 128) :
    val_main_v229 (F := Ideal) x14 (ix2 r q) = val_main_v225 (F := Ideal) x14 (ix1 q) := by
  rw [val_main_v229_apply, val_main_v228_apply]
  exact congrArg (val_main_v225 (F := Ideal) x14) (funext fun a => match a with | ⟨0, _⟩ => rfl)

/-- The second inverse standard deviation, repeated down the rows. -/
theorem s2_row2 (r : Fin 100000) (q : Fin 128) :
    val_main_v235 (F := Ideal) x15 (ix2 r q) = Ideal.rsqrt (val_main_v227 (F := Ideal) x15 (ix1 q) + epsW) := by
  rw [val_main_v235_apply, val_main_v234_apply]
  have e : idx_main_v234 (idx_main_v235 (ix2 r q)) = ix1 q :=
    funext fun a => match a with | ⟨0, _⟩ => rfl
  rw [e, val_main_v233_apply, val_main_v232_apply, val_main_v231_apply, val_main_cst_15_apply]
  rfl

/-- The second scale, repeated down the rows. -/
theorem g2_row2 (r : Fin 100000) (q : Fin 128) :
    val_main_v238 (F := Ideal) x12 (ix2 r q) = val_main_v221 (F := Ideal) x12 (ix1 q) := by
  rw [val_main_v238_apply, val_main_v237_apply]
  exact congrArg (val_main_v221 (F := Ideal) x12) (funext fun a => match a with | ⟨0, _⟩ => rfl)

/-- The second shift, repeated down the rows. -/
theorem be2_row2 (r : Fin 100000) (q : Fin 128) :
    val_main_v241 (F := Ideal) x13 (ix2 r q) = val_main_v223 (F := Ideal) x13 (ix1 q) := by
  rw [val_main_v241_apply, val_main_v240_apply]
  exact congrArg (val_main_v223 (F := Ideal) x13) (funext fun a => match a with | ⟨0, _⟩ => rfl)

/-- The rectifier's zero, output width. -/
theorem z2_row2 (r : Fin 100000) (q : Fin 128) :
    val_main_call5_v0 (F := Ideal) (ix2 r q) = zeroW := by
  rw [val_main_call5_v0_apply, val_main_call5_cst_apply]
  rfl

/-- The second affine map of the layer at (r, q): one plain sum over the 256 hidden columns, plus the bias. -/
theorem lin2_row2 (r : Fin 100000) (q : Fin 128) :
    val_main_v219 (F := Ideal) x0 x1 x3 x4 x5 x6 x7 x8 x9 x10 x11 x12 x13 x14 x15 (ix2 r q)
      = (∑ k : Fin 256, hid (val_main_v175 (F := Ideal) x9 ix0) (fun j => val_main_v163 (F := Ideal) x0 x1 x3 x4 x5 x6 x7 x8 x9 x10 x11 x12 x13 x14 x15 (ix2 r j)) (fun j => val_main_v173 (F := Ideal) x0 x1 x3 x4 x5 x6 x7 x8 x9 x10 x11 x12 x13 x14 x15 (ix2 r j))
          (fun j k => val_main_v181 (F := Ideal) x3 (ix2 j k)) (fun k => val_main_v184 (F := Ideal) x4 (ix1 k)) (fun k => val_main_v189 (F := Ideal) x5 (ix1 k)) (fun k => val_main_v191 (F := Ideal) x6 (ix1 k)) (fun k => val_main_v193 (F := Ideal) x7 (ix1 k)) (fun k => val_main_v195 (F := Ideal) x8 (ix1 k)) k
            * val_main_v213 (F := Ideal) x10 (ix2 k q)) + val_main_v216 (F := Ideal) x11 (ix1 q) := by
  rw [val_main_v219_apply, val_main_v214_apply, b2_row2]
  show (∑ k : Fin 256, _) + _ = _
  refine congrArg (· + _) (Finset.sum_congr rfl fun k _ => ?_)
  have el : lidx_main_v214 (ix2 r q) k = ix2 r k := funext fun a => match a with | ⟨0, _⟩ => rfl | ⟨1, _⟩ => rfl
  have er : ridx_main_v214 (ix2 r q) k = ix2 k q := funext fun a => match a with | ⟨0, _⟩ => rfl | ⟨1, _⟩ => rfl
  rw [el, er, hid_row2]

/-- Layer 2 of the reference on node r, output column q, is the layer of the specification on the node's row and
    the sum of its in-neighbours' rows. -/
theorem layer2_row (r : Fin 100000) (q : Fin 128) :
    val_main_v243 (F := Ideal) x0 x1 x3 x4 x5 x6 x7 x8 x9 x10 x11 x12 x13 x14 x15 (ix2 r q)
      = ginRow (val_main_v175 (F := Ideal) x9 ix0) (fun j => val_main_v163 (F := Ideal) x0 x1 x3 x4 x5 x6 x7 x8 x9 x10 x11 x12 x13 x14 x15 (ix2 r j)) (fun j => val_main_v173 (F := Ideal) x0 x1 x3 x4 x5 x6 x7 x8 x9 x10 x11 x12 x13 x14 x15 (ix2 r j))
          (fun j k => val_main_v181 (F := Ideal) x3 (ix2 j k)) (fun k => val_main_v184 (F := Ideal) x4 (ix1 k)) (fun k => val_main_v189 (F := Ideal) x5 (ix1 k)) (fun k => val_main_v191 (F := Ideal) x6 (ix1 k)) (fun k => val_main_v193 (F := Ideal) x7 (ix1 k)) (fun k => val_main_v195 (F := Ideal) x8 (ix1 k))
          (fun k q => val_main_v213 (F := Ideal) x10 (ix2 k q)) (fun q => val_main_v216 (F := Ideal) x11 (ix1 q)) (fun q => val_main_v221 (F := Ideal) x12 (ix1 q)) (fun q => val_main_v223 (F := Ideal) x13 (ix1 q)) (fun q => val_main_v225 (F := Ideal) x14 (ix1 q)) (fun q => val_main_v227 (F := Ideal) x15 (ix1 q)) q := by
  unfold ginRow bnRelu
  rw [val_main_v243_apply, val_main_v242_apply, val_main_v239_apply, val_main_v236_apply, val_main_v230_apply,
    lin2_row2, m2_row2, s2_row2, g2_row2, be2_row2, z2_row2]
  rfl

/-! ## Layer 3 -/

/-- The row the first affine map is applied to: (1 + e) · x + a, entry by entry. -/
theorem h_row3 (r : Fin 100000) (j : Fin 128) :
    val_main_v259 (F := Ideal) x0 x1 x3 x4 x5 x6 x7 x8 x9 x10 x11 x12 x13 x14 x15 (ix2 r j)
      = (oneW + val_main_v255 (F := Ideal) x9 ix0) * val_main_v243 (F := Ideal) x0 x1 x3 x4 x5 x6 x7 x8 x9 x10 x11 x12 x13 x14 x15 (ix2 r j) + val_main_v253 (F := Ideal) x0 x1 x3 x4 x5 x6 x7 x8 x9 x10 x11 x12 x13 x14 x15 (ix2 r j) := by
  rw [val_main_v259_apply, val_main_v258_apply, val_main_v257_apply, val_main_v256_apply, val_main_cst_19_apply]
  rfl

/-- The first bias, repeated down the rows, reads the bias vector at the column. -/
theorem b1_row3 (r : Fin 100000) (k : Fin 256) :
    val_main_v266 (F := Ideal) x4 (ix2 r k) = val_main_v264 (F := Ideal) x4 (ix1 k) := by
  rw [val_main_v266_apply, val_main_v265_apply]
  exact congrArg (val_main_v264 (F := Ideal) x4) (funext fun a => match a with | ⟨0, _⟩ => rfl)

/-- The first running mean, repeated down the rows. -/
theorem m1_row3 (r : Fin 100000) (k : Fin 256) :
    val_main_v277 (F := Ideal) x7 (ix2 r k) = val_main_v273 (F := Ideal) x7 (ix1 k) := by
  rw [val_main_v277_apply, val_main_v276_apply]
  exact congrArg (val_main_v273 (F := Ideal) x7) (funext fun a => match a with | ⟨0, _⟩ => rfl)

/-- The first inverse standard deviation, repeated down the rows. -/
theorem s1_row3 (r : Fin 100000) (k : Fin 256) :
    val_main_v283 (F := Ideal) x8 (ix2 r k) = Ideal.rsqrt (val_main_v275 (F := Ideal) x8 (ix1 k) + epsW) := by
  rw [val_main_v283_apply, val_main_v282_apply]
  have e : idx_main_v282 (idx_main_v283 (ix2 r k)) = ix1 k :=
    funext fun a => match a with | ⟨0, _⟩ => rfl
  rw [e, val_main_v281_apply, val_main_v280_apply, val_main_v279_apply, val_main_cst_20_apply]
  rfl

/-- The first scale, repeated down the rows. -/
theorem g1_row3 (r : Fin 100000) (k : Fin 256) :
    val_main_v286 (F := Ideal) x5 (ix2 r k) = val_main_v269 (F := Ideal) x5 (ix1 k) := by
  rw [val_main_v286_apply, val_main_v285_apply]
  exact congrArg (val_main_v269 (F := Ideal) x5) (funext fun a => match a with | ⟨0, _⟩ => rfl)

/-- The first shift, repeated down the rows. -/
theorem be1_row3 (r : Fin 100000) (k : Fin 256) :
    val_main_v289 (F := Ideal) x6 (ix2 r k) = val_main_v271 (F := Ideal) x6 (ix1 k) := by
  rw [val_main_v289_apply, val_main_v288_apply]
  exact congrArg (val_main_v271 (F := Ideal) x6) (funext fun a => match a with | ⟨0, _⟩ => rfl)

/-- The rectifier's zero, hidden width. -/
theorem z1_row3 (r : Fin 100000) (k : Fin 256) :
    val_main_call6_v0 (F := Ideal) (ix2 r k) = zeroW := by
  rw [val_main_call6_v0_apply, val_main_call6_cst_apply]
  rfl

/-- The first affine map of the layer at (r, k): one plain sum over the 128 input columns, plus the bias. -/
theorem lin1_row3 (r : Fin 100000) (k : Fin 256) :
    val_main_v267 (F := Ideal) x0 x1 x3 x4 x5 x6 x7 x8 x9 x10 x11 x12 x13 x14 x15 (ix2 r k)
      = lin1 (val_main_v255 (F := Ideal) x9 ix0) (fun j => val_main_v243 (F := Ideal) x0 x1 x3 x4 x5 x6 x7 x8 x9 x10 x11 x12 x13 x14 x15 (ix2 r j)) (fun j => val_main_v253 (F := Ideal) x0 x1 x3 x4 x5 x6 x7 x8 x9 x10 x11 x12 x13 x14 x15 (ix2 r j))
          (fun j k => val_main_v261 (F := Ideal) x3 (ix2 j k)) (fun k => val_main_v264 (F := Ideal) x4 (ix1 k)) k := by
  unfold lin1
  rw [val_main_v267_apply, val_main_v262_apply, b1_row3]
  show (∑ j : Fin 128, _) + _ = _
  refine congrArg (· + _) (Finset.sum_congr rfl fun j _ => ?_)
  have el : lidx_main_v262 (ix2 r k) j = ix2 r j := funext fun a => match a with | ⟨0, _⟩ => rfl | ⟨1, _⟩ => rfl
  have er : ridx_main_v262 (ix2 r k) j = ix2 j k := funext fun a => match a with | ⟨0, _⟩ => rfl | ⟨1, _⟩ => rfl
  rw [el, er, h_row3]

/-- The hidden row of the layer at (r, k). -/
theorem hid_row3 (r : Fin 100000) (k : Fin 256) :
    val_main_v291 (F := Ideal) x0 x1 x3 x4 x5 x6 x7 x8 x9 x10 x11 x12 x13 x14 x15 (ix2 r k)
      = hid (val_main_v255 (F := Ideal) x9 ix0) (fun j => val_main_v243 (F := Ideal) x0 x1 x3 x4 x5 x6 x7 x8 x9 x10 x11 x12 x13 x14 x15 (ix2 r j)) (fun j => val_main_v253 (F := Ideal) x0 x1 x3 x4 x5 x6 x7 x8 x9 x10 x11 x12 x13 x14 x15 (ix2 r j))
          (fun j k => val_main_v261 (F := Ideal) x3 (ix2 j k)) (fun k => val_main_v264 (F := Ideal) x4 (ix1 k)) (fun k => val_main_v269 (F := Ideal) x5 (ix1 k)) (fun k => val_main_v271 (F := Ideal) x6 (ix1 k)) (fun k => val_main_v273 (F := Ideal) x7 (ix1 k)) (fun k => val_main_v275 (F := Ideal) x8 (ix1 k)) k := by
  unfold hid bnRelu
  rw [val_main_v291_apply, val_main_v290_apply, val_main_v287_apply, val_main_v284_apply, val_main_v278_apply,
    lin1_row3, m1_row3, s1_row3, g1_row3, be1_row3, z1_row3]
  rfl

/-- The second bias, repeated down the rows. -/
theorem b2_row3 (r : Fin 100000) (q : Fin 128) :
    val_main_v298 (F := Ideal) x11 (ix2 r q) = val_main_v296 (F := Ideal) x11 (ix1 q) := by
  rw [val_main_v298_apply, val_main_v297_apply]
  exact congrArg (val_main_v296 (F := Ideal) x11) (funext fun a => match a with | ⟨0, _⟩ => rfl)

/-- The second running mean, repeated down the rows. -/
theorem m2_row3 (r : Fin 100000) (q : Fin 128) :
    val_main_v309 (F := Ideal) x14 (ix2 r q) = val_main_v305 (F := Ideal) x14 (ix1 q) := by
  rw [val_main_v309_apply, val_main_v308_apply]
  exact congrArg (val_main_v305 (F := Ideal) x14) (funext fun a => match a with | ⟨0, _⟩ => rfl)

/-- The second inverse standard deviation, repeated down the rows. -/
theorem s2_row3 (r : Fin 100000) (q : Fin 128) :
    val_main_v315 (F := Ideal) x15 (ix2 r q) = Ideal.rsqrt (val_main_v307 (F := Ideal) x15 (ix1 q) + epsW) := by
  rw [val_main_v315_apply, val_main_v314_apply]
  have e : idx_main_v314 (idx_main_v315 (ix2 r q)) = ix1 q :=
    funext fun a => match a with | ⟨0, _⟩ => rfl
  rw [e, val_main_v313_apply, val_main_v312_apply, val_main_v311_apply, val_main_cst_21_apply]
  rfl

/-- The second scale, repeated down the rows. -/
theorem g2_row3 (r : Fin 100000) (q : Fin 128) :
    val_main_v318 (F := Ideal) x12 (ix2 r q) = val_main_v301 (F := Ideal) x12 (ix1 q) := by
  rw [val_main_v318_apply, val_main_v317_apply]
  exact congrArg (val_main_v301 (F := Ideal) x12) (funext fun a => match a with | ⟨0, _⟩ => rfl)

/-- The second shift, repeated down the rows. -/
theorem be2_row3 (r : Fin 100000) (q : Fin 128) :
    val_main_v321 (F := Ideal) x13 (ix2 r q) = val_main_v303 (F := Ideal) x13 (ix1 q) := by
  rw [val_main_v321_apply, val_main_v320_apply]
  exact congrArg (val_main_v303 (F := Ideal) x13) (funext fun a => match a with | ⟨0, _⟩ => rfl)

/-- The rectifier's zero, output width. -/
theorem z2_row3 (r : Fin 100000) (q : Fin 128) :
    val_main_call7_v0 (F := Ideal) (ix2 r q) = zeroW := by
  rw [val_main_call7_v0_apply, val_main_call7_cst_apply]
  rfl

/-- The second affine map of the layer at (r, q): one plain sum over the 256 hidden columns, plus the bias. -/
theorem lin2_row3 (r : Fin 100000) (q : Fin 128) :
    val_main_v299 (F := Ideal) x0 x1 x3 x4 x5 x6 x7 x8 x9 x10 x11 x12 x13 x14 x15 (ix2 r q)
      = (∑ k : Fin 256, hid (val_main_v255 (F := Ideal) x9 ix0) (fun j => val_main_v243 (F := Ideal) x0 x1 x3 x4 x5 x6 x7 x8 x9 x10 x11 x12 x13 x14 x15 (ix2 r j)) (fun j => val_main_v253 (F := Ideal) x0 x1 x3 x4 x5 x6 x7 x8 x9 x10 x11 x12 x13 x14 x15 (ix2 r j))
          (fun j k => val_main_v261 (F := Ideal) x3 (ix2 j k)) (fun k => val_main_v264 (F := Ideal) x4 (ix1 k)) (fun k => val_main_v269 (F := Ideal) x5 (ix1 k)) (fun k => val_main_v271 (F := Ideal) x6 (ix1 k)) (fun k => val_main_v273 (F := Ideal) x7 (ix1 k)) (fun k => val_main_v275 (F := Ideal) x8 (ix1 k)) k
            * val_main_v293 (F := Ideal) x10 (ix2 k q)) + val_main_v296 (F := Ideal) x11 (ix1 q) := by
  rw [val_main_v299_apply, val_main_v294_apply, b2_row3]
  show (∑ k : Fin 256, _) + _ = _
  refine congrArg (· + _) (Finset.sum_congr rfl fun k _ => ?_)
  have el : lidx_main_v294 (ix2 r q) k = ix2 r k := funext fun a => match a with | ⟨0, _⟩ => rfl | ⟨1, _⟩ => rfl
  have er : ridx_main_v294 (ix2 r q) k = ix2 k q := funext fun a => match a with | ⟨0, _⟩ => rfl | ⟨1, _⟩ => rfl
  rw [el, er, hid_row3]

/-- Layer 3 of the reference on node r, output column q, is the layer of the specification on the node's row and
    the sum of its in-neighbours' rows. -/
theorem layer3_row (r : Fin 100000) (q : Fin 128) :
    val_main_v323 (F := Ideal) x0 x1 x3 x4 x5 x6 x7 x8 x9 x10 x11 x12 x13 x14 x15 (ix2 r q)
      = ginRow (val_main_v255 (F := Ideal) x9 ix0) (fun j => val_main_v243 (F := Ideal) x0 x1 x3 x4 x5 x6 x7 x8 x9 x10 x11 x12 x13 x14 x15 (ix2 r j)) (fun j => val_main_v253 (F := Ideal) x0 x1 x3 x4 x5 x6 x7 x8 x9 x10 x11 x12 x13 x14 x15 (ix2 r j))
          (fun j k => val_main_v261 (F := Ideal) x3 (ix2 j k)) (fun k => val_main_v264 (F := Ideal) x4 (ix1 k)) (fun k => val_main_v269 (F := Ideal) x5 (ix1 k)) (fun k => val_main_v271 (F := Ideal) x6 (ix1 k)) (fun k => val_main_v273 (F := Ideal) x7 (ix1 k)) (fun k => val_main_v275 (F := Ideal) x8 (ix1 k))
          (fun k q => val_main_v293 (F := Ideal) x10 (ix2 k q)) (fun q => val_main_v296 (F := Ideal) x11 (ix1 q)) (fun q => val_main_v301 (F := Ideal) x12 (ix1 q)) (fun q => val_main_v303 (F := Ideal) x13 (ix1 q)) (fun q => val_main_v305 (F := Ideal) x14 (ix1 q)) (fun q => val_main_v307 (F := Ideal) x15 (ix1 q)) q := by
  unfold ginRow bnRelu
  rw [val_main_v323_apply, val_main_v322_apply, val_main_v319_apply, val_main_v316_apply, val_main_v310_apply,
    lin2_row3, m2_row3, s2_row3, g2_row3, be2_row3, z2_row3]
  rfl

end Cert.Gin.RefRow

end
-- ==== Proof.HeadRefRow.lean ====
/-
  The reference network's graph-level head read one graph row at a time.

  On the pooled rows the reference applies one matrix product with bias, a batch normalisation with running statistics
  and a rectifier, a second matrix product with bias to ten logits, and the logarithm of the softmax along the ten:
  the row's largest logit (a fold of max from −∞, then once more max with −∞) is subtracted, and from the result the
  logarithm of 0 plus the sum of the ten exponentials. Read at (r, o) this is the specification's head on row r of the
  pooled array. The pooling itself (a scatter) is not opened here.
-/
import proofs.«113793_j3350074490963_2_alg».proof.Proof.RefReadP
import proofs.«113793_j3350074490963_2_alg».proof.Proof.GinSpec
import proofs.«113793_j3350074490963_2_alg».proof.Proof.LibDense
import proofs.«113793_j3350074490963_2_alg».proof.Proof.LibHostRow
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Gin.RefHead

open Cert.ReferenceIdeal Cert.ReferenceIdeal.Gen Cert.ReferenceIdeal.ReadP Idealize.ShloMosaic Idealize.ShloMosaic.ValueIdx Cert.Gin

variable (x0 : (⟨S100000x128, .f32⟩ : BufTy).Contents (Elt Ideal)) (x1 : (⟨S2x1600000, .i32⟩ : BufTy).Contents (Elt Ideal))
  (x2 : (⟨S100000, .i32⟩ : BufTy).Contents (Elt Ideal))
  (x3 : (⟨S4x128x256, .f32⟩ : BufTy).Contents (Elt Ideal)) (x4 x5 x6 x7 x8 : (⟨S4x256, .f32⟩ : BufTy).Contents (Elt Ideal))
  (x9 : (⟨S4, .f32⟩ : BufTy).Contents (Elt Ideal)) (x10 : (⟨S4x256x128, .f32⟩ : BufTy).Contents (Elt Ideal))
  (x11 x12 x13 x14 x15 : (⟨S4x128, .f32⟩ : BufTy).Contents (Elt Ideal))
  (x16 : (⟨S128x128, .f32⟩ : BufTy).Contents (Elt Ideal)) (x17 x18 x19 x20 x21 : (⟨S128, .f32⟩ : BufTy).Contents (Elt Ideal))
  (x22 : (⟨S128x10, .f32⟩ : BufTy).Contents (Elt Ideal)) (x23 : (⟨S10, .f32⟩ : BufTy).Contents (Elt Ideal))

/-- The first bias, repeated down the rows, reads the bias vector at the column. -/
theorem b1_row (r : Fin 512) (k : Fin 128) :
    val_main_v329 (F := Ideal) x17 (ix2 r k) = x17 (ix1 k) := by
  rw [val_main_v329_apply, val_main_v328_apply]
  exact congrArg x17 (funext fun a => match a with | ⟨0, _⟩ => rfl)

/-- The running mean, repeated down the rows. -/
theorem mu_row (r : Fin 512) (k : Fin 128) :
    val_main_v332 (F := Ideal) x20 (ix2 r k) = x20 (ix1 k) := by
  rw [val_main_v332_apply, val_main_v331_apply]
  exact congrArg x20 (funext fun a => match a with | ⟨0, _⟩ => rfl)

/-- The inverse standard deviation, repeated down the rows. -/
theorem s_row (r : Fin 512) (k : Fin 128) :
    val_main_v338 (F := Ideal) x21 (ix2 r k) = Ideal.rsqrt (x21 (ix1 k) + epsW) := by
  rw [val_main_v338_apply, val_main_v337_apply]
  have e : idx_main_v337 (idx_main_v338 (ix2 r k)) = ix1 k :=
    funext fun a => match a with | ⟨0, _⟩ => rfl
  rw [e, val_main_v336_apply, val_main_v335_apply, val_main_v334_apply, val_main_cst_23_apply]
  rfl

/-- The scale, repeated down the rows. -/
theorem g_row (r : Fin 512) (k : Fin 128) :
    val_main_v341 (F := Ideal) x18 (ix2 r k) = x18 (ix1 k) := by
  rw [val_main_v341_apply, val_main_v340_apply]
  exact congrArg x18 (funext fun a => match a with | ⟨0, _⟩ => rfl)

/-- The shift, repeated down the rows. -/
theorem be_row (r : Fin 512) (k : Fin 128) :
    val_main_v344 (F := Ideal) x19 (ix2 r k) = x19 (ix1 k) := by
  rw [val_main_v344_apply, val_main_v343_apply]
  exact congrArg x19 (funext fun a => match a with | ⟨0, _⟩ => rfl)

/-- The second bias, repeated down the rows. -/
theorem b2_row (r : Fin 512) (o : Fin 10) :
    val_main_v349 (F := Ideal) x23 (ix2 r o) = x23 (ix1 o) := by
  rw [val_main_v349_apply, val_main_v348_apply]
  exact congrArg x23 (funext fun a => match a with | ⟨0, _⟩ => rfl)

/-- The rectifier's zero. -/
theorem z_row (r : Fin 512) (k : Fin 128) :
    val_main_call8_v0 (F := Ideal) (ix2 r k) = zeroW := by
  rw [val_main_call8_v0_apply, val_main_call8_cst_apply]
  rfl

/-- The head's first affine map at (r, k): one plain sum over the 128 pooled columns, plus the bias. -/
theorem lin_row (r : Fin 512) (k : Fin 128) :
    val_main_v330 (F := Ideal) x0 x1 x2 x3 x4 x5 x6 x7 x8 x9 x10 x11 x12 x13 x14 x15 x16 x17 (ix2 r k)
      = (∑ j : Fin 128, val_main_v326 (F := Ideal) x0 x1 x2 x3 x4 x5 x6 x7 x8 x9 x10 x11 x12 x13 x14 x15 (ix2 r j) * x16 (ix2 j k)) + x17 (ix1 k) := by
  rw [val_main_v330_apply, val_main_v327_apply, b1_row]
  have el : ∀ j : Fin 128, lidx_main_v327 (ix2 r k) j = ix2 r j :=
    fun j => funext fun a => match a with | ⟨0, _⟩ => rfl | ⟨1, _⟩ => rfl
  have er : ∀ j : Fin 128, ridx_main_v327 (ix2 r k) j = ix2 j k :=
    fun j => funext fun a => match a with | ⟨0, _⟩ => rfl | ⟨1, _⟩ => rfl
  simp only [el, er]
  rfl

/-- The head's hidden row at (r, k). -/
theorem hid_row (r : Fin 512) (k : Fin 128) :
    val_main_v346 (F := Ideal) x0 x1 x2 x3 x4 x5 x6 x7 x8 x9 x10 x11 x12 x13 x14 x15 x16 x17 x18 x19 x20 x21 (ix2 r k)
      = headHid (fun j => val_main_v326 (F := Ideal) x0 x1 x2 x3 x4 x5 x6 x7 x8 x9 x10 x11 x12 x13 x14 x15 (ix2 r j))
          (fun j k => x16 (ix2 j k)) (fun k => x17 (ix1 k)) (fun k => x18 (ix1 k)) (fun k => x19 (ix1 k))
          (fun k => x20 (ix1 k)) (fun k => x21 (ix1 k)) k := by
  unfold headHid bnRelu
  rw [val_main_v346_apply, val_main_v345_apply, val_main_v342_apply, val_main_v339_apply, val_main_v333_apply,
    lin_row, mu_row, s_row, g_row, be_row, z_row]
  rfl

/-- The ten logits at (r, o): one plain sum over the 128 hidden columns, plus the bias. -/
theorem logits_row (r : Fin 512) (o : Fin 10) :
    val_main_v350 (F := Ideal) x0 x1 x2 x3 x4 x5 x6 x7 x8 x9 x10 x11 x12 x13 x14 x15 x16 x17 x18 x19 x20 x21 x22 x23 (ix2 r o)
      = logits (fun j => val_main_v326 (F := Ideal) x0 x1 x2 x3 x4 x5 x6 x7 x8 x9 x10 x11 x12 x13 x14 x15 (ix2 r j))
          (fun j k => x16 (ix2 j k)) (fun k => x17 (ix1 k)) (fun k => x18 (ix1 k)) (fun k => x19 (ix1 k))
          (fun k => x20 (ix1 k)) (fun k => x21 (ix1 k))
          (fun k o => x22 (ix2 k o)) (fun o => x23 (ix1 o)) o := by
  unfold logits
  rw [val_main_v350_apply, val_main_v347_apply, b2_row]
  have el : ∀ k : Fin 128, lidx_main_v347 (ix2 r o) k = ix2 r k :=
    fun k => funext fun a => match a with | ⟨0, _⟩ => rfl | ⟨1, _⟩ => rfl
  have er : ∀ k : Fin 128, ridx_main_v347 (ix2 r o) k = ix2 k o :=
    fun k => funext fun a => match a with | ⟨0, _⟩ => rfl | ⟨1, _⟩ => rfl
  simp only [el, er, hid_row]
  rfl

/-- The reduction of a row of logits by max from −∞ is the fold of max over the row's ten entries. -/
theorem max_row (r : Fin 512) :
    val_main_call9_v0 (F := Ideal) x0 x1 x2 x3 x4 x5 x6 x7 x8 x9 x10 x11 x12 x13 x14 x15 x16 x17 x18 x19 x20 x21 x22 x23 (ix1 r)
      = Finset.univ.fold max ninfW (fun o : Fin 10 => val_main_v350 (F := Ideal) x0 x1 x2 x3 x4 x5 x6 x7 x8 x9 x10 x11 x12 x13 x14 x15 x16 x17 x18 x19 x20 x21 x22 x23 (ix2 r o)) := by
  unfold val_main_call9_v0
  generalize val_main_v350 (F := Ideal) x0 x1 x2 x3 x4 x5 x6 x7 x8 x9 x10 x11 x12 x13 x14 x15 x16 x17 x18 x19 x20 x21 x22 x23 = y
  have hR : S512x10.Reduces [1] S512 := by decide
  rw [Host.reduce_eq_fold_single (FloatOps.maximumf (F := Ideal) (φ := .f32)) y _ reducesTo_S512x10_S512_d1 hR h_S_]
  have e : (y ∘ hR.lift (ix1 r)) = fun o : Fin 10 => y (ix2 r o) :=
    funext fun o => congrArg y (funext fun a => match a with | ⟨0, _⟩ => rfl | ⟨1, _⟩ => rfl)
  rw [e]
  rfl

/-- The shift the reference subtracts from every logit of row r is the specification's largest-of-ten. -/
theorem top_row (r : Fin 512) (o : Fin 10) :
    val_main_call9_v4 (F := Ideal) x0 x1 x2 x3 x4 x5 x6 x7 x8 x9 x10 x11 x12 x13 x14 x15 x16 x17 x18 x19 x20 x21 x22 x23 (ix2 r o)
      = top10 (logits (fun j => val_main_v326 (F := Ideal) x0 x1 x2 x3 x4 x5 x6 x7 x8 x9 x10 x11 x12 x13 x14 x15 (ix2 r j))
          (fun j k => x16 (ix2 j k)) (fun k => x17 (ix1 k)) (fun k => x18 (ix1 k)) (fun k => x19 (ix1 k))
          (fun k => x20 (ix1 k)) (fun k => x21 (ix1 k))
          (fun k o => x22 (ix2 k o)) (fun o => x23 (ix1 o))) := by
  rw [val_main_call9_v4_apply, val_main_call9_v3_apply]
  have e : idx_main_call9_v3 (idx_main_call9_v4 (ix2 r o)) = ix1 r :=
    funext fun a => match a with | ⟨0, _⟩ => rfl
  rw [e, val_main_call9_v2_apply, val_main_call9_v1_apply, val_main_call9_cst_0_apply, max_row]
  have hz : (fun o : Fin 10 => val_main_v350 (F := Ideal) x0 x1 x2 x3 x4 x5 x6 x7 x8 x9 x10 x11 x12 x13 x14 x15 x16 x17 x18 x19 x20 x21 x22 x23 (ix2 r o))
      = logits (fun j => val_main_v326 (F := Ideal) x0 x1 x2 x3 x4 x5 x6 x7 x8 x9 x10 x11 x12 x13 x14 x15 (ix2 r j))
          (fun j k => x16 (ix2 j k)) (fun k => x17 (ix1 k)) (fun k => x18 (ix1 k)) (fun k => x19 (ix1 k))
          (fun k => x20 (ix1 k)) (fun k => x21 (ix1 k))
          (fun k o => x22 (ix2 k o)) (fun o => x23 (ix1 o)) :=
    funext fun o => logits_row x0 x1 x2 x3 x4 x5 x6 x7 x8 x9 x10 x11 x12 x13 x14 x15 x16 x17 x18 x19 x20 x21 x22 x23 r o
  rw [hz]
  rfl

/-- The logarithm the reference subtracts from every shifted logit of row r. -/
theorem lse_row (r : Fin 512) (o : Fin 10) :
    val_main_call9_v10 (F := Ideal) x0 x1 x2 x3 x4 x5 x6 x7 x8 x9 x10 x11 x12 x13 x14 x15 x16 x17 x18 x19 x20 x21 x22 x23 (ix2 r o)
      = Ideal.log (zeroW + ∑ o' : Fin 10, Ideal.exp
          (logits (fun j => val_main_v326 (F := Ideal) x0 x1 x2 x3 x4 x5 x6 x7 x8 x9 x10 x11 x12 x13 x14 x15 (ix2 r j))
          (fun j k => x16 (ix2 j k)) (fun k => x17 (ix1 k)) (fun k => x18 (ix1 k)) (fun k => x19 (ix1 k))
          (fun k => x20 (ix1 k)) (fun k => x21 (ix1 k))
          (fun k o => x22 (ix2 k o)) (fun o => x23 (ix1 o)) o'
            - top10 (logits (fun j => val_main_v326 (F := Ideal) x0 x1 x2 x3 x4 x5 x6 x7 x8 x9 x10 x11 x12 x13 x14 x15 (ix2 r j))
          (fun j k => x16 (ix2 j k)) (fun k => x17 (ix1 k)) (fun k => x18 (ix1 k)) (fun k => x19 (ix1 k))
          (fun k => x20 (ix1 k)) (fun k => x21 (ix1 k))
          (fun k o => x22 (ix2 k o)) (fun o => x23 (ix1 o))))) := by
  rw [val_main_call9_v10_apply, val_main_call9_v9_apply, val_main_call9_v8_apply]
  have e : idx_main_call9_v8 (idx_main_call9_v10 (ix2 r o)) = ix1 r :=
    funext fun a => match a with | ⟨0, _⟩ => rfl
  rw [e, val_main_call9_v7_apply, val_main_call9_cst_1_apply]
  have ek : ∀ k : Fin 10, idx_main_call9_v7 (ix1 r) k = ix2 r k :=
    fun k => funext fun a => match a with | ⟨0, _⟩ => rfl | ⟨1, _⟩ => rfl
  simp only [ek, val_main_call9_v6_apply, val_main_call9_v5_apply, top_row, logits_row,
    Ideal.hostUnary_log_def, Ideal.hostUnary_exp_def, Ideal.subf_def, Ideal.ofBits_def]

/-- The reference's output at (r, o) is the specification's head on row r of the pooled array. -/
theorem head_row (r : Fin 512) (o : Fin 10) :
    val_main_v351 (F := Ideal) x0 x1 x2 x3 x4 x5 x6 x7 x8 x9 x10 x11 x12 x13 x14 x15 x16 x17 x18 x19 x20 x21 x22 x23 (ix2 r o)
      = headRow (fun j => val_main_v326 (F := Ideal) x0 x1 x2 x3 x4 x5 x6 x7 x8 x9 x10 x11 x12 x13 x14 x15 (ix2 r j))
          (fun j k => x16 (ix2 j k)) (fun k => x17 (ix1 k)) (fun k => x18 (ix1 k)) (fun k => x19 (ix1 k))
          (fun k => x20 (ix1 k)) (fun k => x21 (ix1 k))
          (fun k o => x22 (ix2 k o)) (fun o => x23 (ix1 o)) o := by
  unfold headRow logSoftmax
  rw [val_main_v351_apply, val_main_call9_v5_apply, top_row, lse_row, logits_row]
  rfl

end Cert.Gin.RefHead

end
-- ==== Proof.RefOut.lean ====
/-
  The reference's layers and head, as records of arrays, leave the reference's own values: the array a layer's record
  leaves — row r the specification's layer on row r of the node rows and of the neighbour sums — is the value of the
  reference's operation that ends the layer, and the array the head's record leaves is the reference's result.
-/
import proofs.«113793_j3350074490963_2_alg».proof.Proof.RData
import proofs.«113793_j3350074490963_2_alg».proof.Proof.GinRefRow
import proofs.«113793_j3350074490963_2_alg».proof.Proof.HeadRefRow

noncomputable section

namespace Cert.Gin.RefOut

open Cert.ReferenceIdeal Cert.ReferenceIdeal.ReadP Idealize.ShloMosaic Idealize.ShloMosaic.ValueIdx Cert.Gin Cert.Gin.Rdata

/-- Layer 0's record leaves the value that ends layer 0 of the reference. -/
theorem rdata0_out (x0 : FVec Ideal S100000x128 .f32) (x1 : IVec S2x1600000 32) (x3 : FVec Ideal S4x128x256 .f32)
    (x4 x5 x6 x7 x8 : FVec Ideal S4x256 .f32) (x9 : FVec Ideal S4 .f32) (x10 : FVec Ideal S4x256x128 .f32)
    (x11 x12 x13 x14 x15 : FVec Ideal S4x128 .f32) :
    (rdata0 x0 x1 x3 x4 x5 x6 x7 x8 x9 x10 x11 x12 x13 x14 x15).out
      = val_main_v83 (F := Ideal) x0 x1 x3 x4 x5 x6 x7 x8 x9 x10 x11 x12 x13 x14 x15 := by
  funext i
  obtain ⟨r, q, rfl⟩ : ∃ (r : Fin 100000) (q : Fin 128), i = ix2 r q := ⟨i 0, i 1, eq_ix2 i⟩
  exact (RefRow.layer0_row x0 x1 x3 x4 x5 x6 x7 x8 x9 x10 x11 x12 x13 x14 x15 r q).symm

/-- Layer 1's record leaves the value that ends layer 1 of the reference. -/
theorem rdata1_out (x0 : FVec Ideal S100000x128 .f32) (x1 : IVec S2x1600000 32) (x3 : FVec Ideal S4x128x256 .f32)
    (x4 x5 x6 x7 x8 : FVec Ideal S4x256 .f32) (x9 : FVec Ideal S4 .f32) (x10 : FVec Ideal S4x256x128 .f32)
    (x11 x12 x13 x14 x15 : FVec Ideal S4x128 .f32) :
    (rdata1 x0 x1 x3 x4 x5 x6 x7 x8 x9 x10 x11 x12 x13 x14 x15).out
      = val_main_v163 (F := Ideal) x0 x1 x3 x4 x5 x6 x7 x8 x9 x10 x11 x12 x13 x14 x15 := by
  funext i
  obtain ⟨r, q, rfl⟩ : ∃ (r : Fin 100000) (q : Fin 128), i = ix2 r q := ⟨i 0, i 1, eq_ix2 i⟩
  exact (RefRow.layer1_row x0 x1 x3 x4 x5 x6 x7 x8 x9 x10 x11 x12 x13 x14 x15 r q).symm

/-- Layer 2's record leaves the value that ends layer 2 of the reference. -/
theorem rdata2_out (x0 : FVec Ideal S100000x128 .f32) (x1 : IVec S2x1600000 32) (x3 : FVec Ideal S4x128x256 .f32)
    (x4 x5 x6 x7 x8 : FVec Ideal S4x256 .f32) (x9 : FVec Ideal S4 .f32) (x10 : FVec Ideal S4x256x128 .f32)
    (x11 x12 x13 x14 x15 : FVec Ideal S4x128 .f32) :
    (rdata2 x0 x1 x3 x4 x5 x6 x7 x8 x9 x10 x11 x12 x13 x14 x15).out
      = val_main_v243 (F := Ideal) x0 x1 x3 x4 x5 x6 x7 x8 x9 x10 x11 x12 x13 x14 x15 := by
  funext i
  obtain ⟨r, q, rfl⟩ : ∃ (r : Fin 100000) (q : Fin 128), i = ix2 r q := ⟨i 0, i 1, eq_ix2 i⟩
  exact (RefRow.layer2_row x0 x1 x3 x4 x5 x6 x7 x8 x9 x10 x11 x12 x13 x14 x15 r q).symm

/-- Layer 3's record leaves the value that ends layer 3 of the reference. -/
theorem rdata3_out (x0 : FVec Ideal S100000x128 .f32) (x1 : IVec S2x1600000 32) (x3 : FVec Ideal S4x128x256 .f32)
    (x4 x5 x6 x7 x8 : FVec Ideal S4x256 .f32) (x9 : FVec Ideal S4 .f32) (x10 : FVec Ideal S4x256x128 .f32)
    (x11 x12 x13 x14 x15 : FVec Ideal S4x128 .f32) :
    (rdata3 x0 x1 x3 x4 x5 x6 x7 x8 x9 x10 x11 x12 x13 x14 x15).out
      = val_main_v323 (F := Ideal) x0 x1 x3 x4 x5 x6 x7 x8 x9 x10 x11 x12 x13 x14 x15 := by
  funext i
  obtain ⟨r, q, rfl⟩ : ∃ (r : Fin 100000) (q : Fin 128), i = ix2 r q := ⟨i 0, i 1, eq_ix2 i⟩
  exact (RefRow.layer3_row x0 x1 x3 x4 x5 x6 x7 x8 x9 x10 x11 x12 x13 x14 x15 r q).symm

/-- The head's record leaves the reference's result. -/
theorem rdata4_out (x0 : FVec Ideal S100000x128 .f32) (x1 : IVec S2x1600000 32) (x2 : IVec S100000 32) (x3 : FVec Ideal S4x128x256 .f32)
    (x4 x5 x6 x7 x8 : FVec Ideal S4x256 .f32) (x9 : FVec Ideal S4 .f32) (x10 : FVec Ideal S4x256x128 .f32)
    (x11 x12 x13 x14 x15 : FVec Ideal S4x128 .f32) (x16 : FVec Ideal S128x128 .f32) (x17 x18 x19 x20 x21 : FVec Ideal S128 .f32)
    (x22 : FVec Ideal S128x10 .f32) (x23 : FVec Ideal S10 .f32) :
    (rdata4 x0 x1 x2 x3 x4 x5 x6 x7 x8 x9 x10 x11 x12 x13 x14 x15 x16 x17 x18 x19 x20 x21 x22 x23).out
      = val_main_v351 (F := Ideal) x0 x1 x2 x3 x4 x5 x6 x7 x8 x9 x10 x11 x12 x13 x14 x15 x16 x17 x18 x19 x20 x21 x22 x23 := by
  funext i
  obtain ⟨r, o, rfl⟩ : ∃ (r : Fin 512) (o : Fin 10), i = ix2 r o := ⟨i 0, i 1, eq_ix2 i⟩
  exact (RefHead.head_row x0 x1 x2 x3 x4 x5 x6 x7 x8 x9 x10 x11 x12 x13 x14 x15 x16 x17 x18 x19 x20 x21 x22 x23 r o).symm

end Cert.Gin.RefOut

end
-- ==== Proof.PreFacts.lean ====
/-
  What the precondition gives. The precondition is a conjunction of twenty-five tests, each "every entry of
  an array passes": for each of the twenty-two real arrays, |x| < +∞ at every entry, and for three of them
  moreover x ≥ 0 at every entry. In the extended reals |x| = max x (-x) < ⊤ says that x is neither infinity,
  that is, x is (the image of) a real number; with x ≥ 0 that real number is nonnegative.
-/
import proofs.«113793_j3350074490963_2_alg».proof.Pre_finite_inputs
import proofs.«113793_j3350074490963_2_alg».proof.Proof.Gen.Pre_finite_inputs
import proofs.«113793_j3350074490963_2_alg».proof.Proof.LibRealValued
import Idealize.ShloMosaic.Lib.ReduceAll
import Idealize.ShloMosaic.Lib.ValueIdx
import Idealize.ShloMosaic.PureOps.Ideal.Laws

set_option maxRecDepth 16384

namespace Cert.Gin.PreFacts

open Idealize.ShloMosaic Cert.RealValued
open Cert.Pre_finite_inputs

/-- A one-bit word made from a truth value is 1 exactly when the truth value is true. -/
theorem ofBool_eq_one (b : Bool) : BitVec.ofBool b = 1#1 ↔ b = true := by cases b <;> decide

/-- The word 0x7F800000 denotes +∞. -/
theorem inf_word : Ideal.ofBits .f32 0x7F800000#32 = (⊤ : EReal) := by simp [Ideal.ofBits, Ideal.ieee]

/-- The word 0x00000000 denotes 0. -/
theorem zero_word : Ideal.ofBits .f32 0x00000000#32 = (0 : EReal) := by simp [Ideal.ofBits, Ideal.ieee]

/-- An extended real whose absolute value max x (-x) is below +∞ is neither infinity: it is a real number. -/
theorem isReal_of_abs_lt_top {x : EReal} (h : max x (-x) < ⊤) : IsReal x := by
  have h1 : x ≠ ⊤ := by rintro rfl; simp at h
  have h2 : x ≠ ⊥ := by rintro rfl; simp at h
  exact ⟨x.toReal, (EReal.coe_toReal h1 h2).symm⟩

/-- The scalar test |x| < +∞, passed: x is a real number. -/
theorem isReal_of_cmp {x : EReal}
    (h : Ideal.cmp .olt (max x (-x)) (Ideal.ofBits .f32 0x7F800000#32) = 1#1) : IsReal x := by
  rw [inf_word] at h
  simp only [Ideal.cmp, ofBool_eq_one, decide_eq_true_eq] at h
  exact isReal_of_abs_lt_top h

/-- The scalar test x ≥ 0, passed by a real number: the real number is nonnegative. -/
theorem nonneg_of_cmp {x : EReal} (hx : IsReal x)
    (h : Ideal.cmp .oge x (Ideal.ofBits .f32 0x00000000#32) = 1#1) : ∃ r : ℝ, 0 ≤ r ∧ x = (r : EReal) := by
  rw [zero_word] at h
  simp only [Ideal.cmp, ofBool_eq_one, decide_eq_true_eq] at h
  obtain ⟨r, rfl⟩ := hx
  exact ⟨r, EReal.coe_nonneg.1 h, rfl⟩

/-- The result of a reduction over every axis has one index. -/
instance : Subsingleton S_.Idx := ⟨fun a b => funext fun d => d.elim0⟩

/-- "Every entry has |x| < +∞", passed: every entry is a real number. -/
theorem isReal_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant S_ .f32 0x7F800000#32)))
          (constantI S_ 1 1#1) hr hu j = 1#1) :
    ∀ i, IsReal (x i) := fun i =>
  isReal_of_cmp (Host.reduce_andi_all _ _ hr hu j e i)

/-- "Every entry has x ≥ 0", passed by an array of real numbers: every entry is a nonnegative real number. -/
theorem nonneg_of_all {s : Shape} {axes : List (Fin s.rank)} (x : FVec Ideal s .f32)
    (hb : S_.BroadcastsInDim s (![] : Fin 0 → Fin s.rank)) (hr : s.ReducesTo axes S_) (hu : 0 < S_.numel) (j : S_.Idx)
    (hx : ∀ i, IsReal (x i))
    (e : Host.reduce IntOp.andi
          (cmpf .oge x (broadcastInDim s ![] hb (constant S_ .f32 0x00000000#32)))
          (constantI S_ 1 1#1) hr hu j = 1#1) :
    ∀ i, ∃ r : ℝ, 0 ≤ r ∧ x i = (r : EReal) := fun i =>
  nonneg_of_cmp (hx i) (Host.reduce_andi_all _ _ hr hu j e i)

/-- What the precondition says of the twenty-two real arguments. -/
structure Decoded (a0 : FVec Ideal S100000x128 .f32) (a3 : FVec Ideal S4x128x256 .f32) (a4 : FVec Ideal S4x256 .f32) (a5 : FVec Ideal S4x256 .f32) (a6 : FVec Ideal S4x256 .f32) (a7 : FVec Ideal S4x256 .f32) (a8 : FVec Ideal S4x256 .f32) (a9 : FVec Ideal S4 .f32) (a10 : FVec Ideal S4x256x128 .f32) (a11 : FVec Ideal S4x128 .f32) (a12 : FVec Ideal S4x128 .f32) (a13 : FVec Ideal S4x128 .f32) (a14 : FVec Ideal S4x128 .f32) (a15 : FVec Ideal S4x128 .f32) (a16 : FVec Ideal S128x128 .f32) (a17 : FVec Ideal S128 .f32) (a18 : FVec Ideal S128 .f32) (a19 : FVec Ideal S128 .f32) (a20 : FVec Ideal S128 .f32) (a21 : FVec Ideal S128 .f32) (a22 : FVec Ideal S128x10 .f32) (a23 : FVec Ideal S10 .f32) : Prop where
  /-- Every entry of argument 0 is real-valued. -/
  fin0 : ∀ i, IsReal (a0 i)
  /-- Every entry of argument 3 is real-valued. -/
  fin3 : ∀ i, IsReal (a3 i)
  /-- Every entry of argument 4 is real-valued. -/
  fin4 : ∀ i, IsReal (a4 i)
  /-- Every entry of argument 5 is real-valued. -/
  fin5 : ∀ i, IsReal (a5 i)
  /-- Every entry of argument 6 is real-valued. -/
  fin6 : ∀ i, IsReal (a6 i)
  /-- Every entry of argument 7 is real-valued. -/
  fin7 : ∀ i, IsReal (a7 i)
  /-- Every entry of argument 8 is real-valued. -/
  fin8 : ∀ i, IsReal (a8 i)
  /-- Every entry of argument 9 is real-valued. -/
  fin9 : ∀ i, IsReal (a9 i)
  /-- Every entry of argument 10 is real-valued. -/
  fin10 : ∀ i, IsReal (a10 i)
  /-- Every entry of argument 11 is real-valued. -/
  fin11 : ∀ i, IsReal (a11 i)
  /-- Every entry of argument 12 is real-valued. -/
  fin12 : ∀ i, IsReal (a12 i)
  /-- Every entry of argument 13 is real-valued. -/
  fin13 : ∀ i, IsReal (a13 i)
  /-- Every entry of argument 14 is real-valued. -/
  fin14 : ∀ i, IsReal (a14 i)
  /-- Every entry of argument 15 is real-valued. -/
  fin15 : ∀ i, IsReal (a15 i)
  /-- Every entry of argument 16 is real-valued. -/
  fin16 : ∀ i, IsReal (a16 i)
  /-- Every entry of argument 17 is real-valued. -/
  fin17 : ∀ i, IsReal (a17 i)
  /-- Every entry of argument 18 is real-valued. -/
  fin18 : ∀ i, IsReal (a18 i)
  /-- Every entry of argument 19 is real-valued. -/
  fin19 : ∀ i, IsReal (a19 i)
  /-- Every entry of argument 20 is real-valued. -/
  fin20 : ∀ i, IsReal (a20 i)
  /-- Every entry of argument 21 is real-valued. -/
  fin21 : ∀ i, IsReal (a21 i)
  /-- Every entry of argument 22 is real-valued. -/
  fin22 : ∀ i, IsReal (a22 i)
  /-- Every entry of argument 23 is real-valued. -/
  fin23 : ∀ i, IsReal (a23 i)
  /-- Every entry of argument 8 is a nonnegative real number. -/
  nonneg8 : ∀ i, ∃ r : ℝ, 0 ≤ r ∧ a8 i = (r : EReal)
  /-- Every entry of argument 15 is a nonnegative real number. -/
  nonneg15 : ∀ i, ∃ r : ℝ, 0 ≤ r ∧ a15 i = (r : EReal)
  /-- Every entry of argument 21 is a nonnegative real number. -/
  nonneg21 : ∀ i, ∃ r : ℝ, 0 ≤ r ∧ a21 i = (r : EReal)

variable [Cert.Pre_finite_inputs.Facts]

/-- THE PRECONDITION DECODED: the conjunction of the twenty-five tests is 1, so each test is passed. -/
theorem of_pre (a0 : FVec Ideal S100000x128 .f32) (a1 : IVec S2x1600000 32) (a2 : IVec S100000 32) (a3 : FVec Ideal S4x128x256 .f32) (a4 : FVec Ideal S4x256 .f32) (a5 : FVec Ideal S4x256 .f32) (a6 : FVec Ideal S4x256 .f32) (a7 : FVec Ideal S4x256 .f32) (a8 : FVec Ideal S4x256 .f32) (a9 : FVec Ideal S4 .f32) (a10 : FVec Ideal S4x256x128 .f32) (a11 : FVec Ideal S4x128 .f32) (a12 : FVec Ideal S4x128 .f32) (a13 : FVec Ideal S4x128 .f32) (a14 : FVec Ideal S4x128 .f32) (a15 : FVec Ideal S4x128 .f32) (a16 : FVec Ideal S128x128 .f32) (a17 : FVec Ideal S128 .f32) (a18 : FVec Ideal S128 .f32) (a19 : FVec Ideal S128 .f32) (a20 : FVec Ideal S128 .f32) (a21 : FVec Ideal S128 .f32) (a22 : FVec Ideal S128x10 .f32) (a23 : FVec Ideal S10 .f32)
    (h : Cert.Pre_finite_inputs.fn (F := Ideal) a0 a1 a2 a3 a4 a5 a6 a7 a8 a9 a10 a11 a12 a13 a14 a15 a16 a17 a18 a19 a20 a21 a22 a23 = fun _ => 1#1) :
    Decoded a0 a3 a4 a5 a6 a7 a8 a9 a10 a11 a12 a13 a14 a15 a16 a17 a18 a19 a20 a21 a22 a23 := by
  have e := congrFun h ValueIdx.ix0
  simp only [Cert.Pre_finite_inputs.fn, fn_part1, fn_part2, fn_part3, fn_part4, fn_part5, fn_part6, fn_part7,
    andi, IntOp.andi_eq_one] at e
  obtain ⟨⟨⟨⟨⟨⟨⟨⟨⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, g8⟩, g15⟩, g21⟩ := e
  exact {
    fin0 := isReal_of_all _ _ _ _ _ h0
    fin3 := isReal_of_all _ _ _ _ _ h3
    fin4 := isReal_of_all _ _ _ _ _ h4
    fin5 := isReal_of_all _ _ _ _ _ h5
    fin6 := isReal_of_all _ _ _ _ _ h6
    fin7 := isReal_of_all _ _ _ _ _ h7
    fin8 := isReal_of_all _ _ _ _ _ h8
    fin9 := isReal_of_all _ _ _ _ _ h9
    fin10 := isReal_of_all _ _ _ _ _ h10
    fin11 := isReal_of_all _ _ _ _ _ h11
    fin12 := isReal_of_all _ _ _ _ _ h12
    fin13 := isReal_of_all _ _ _ _ _ h13
    fin14 := isReal_of_all _ _ _ _ _ h14
    fin15 := isReal_of_all _ _ _ _ _ h15
    fin16 := isReal_of_all _ _ _ _ _ h16
    fin17 := isReal_of_all _ _ _ _ _ h17
    fin18 := isReal_of_all _ _ _ _ _ h18
    fin19 := isReal_of_all _ _ _ _ _ h19
    fin20 := isReal_of_all _ _ _ _ _ h20
    fin21 := isReal_of_all _ _ _ _ _ h21
    fin22 := isReal_of_all _ _ _ _ _ h22
    fin23 := isReal_of_all _ _ _ _ _ h23
    nonneg8 := nonneg_of_all _ _ _ _ _ (isReal_of_all _ _ _ _ _ h8) g8
    nonneg15 := nonneg_of_all _ _ _ _ _ (isReal_of_all _ _ _ _ _ h15) g15
    nonneg21 := nonneg_of_all _ _ _ _ _ (isReal_of_all _ _ _ _ _ h21) g21 }

end Cert.Gin.PreFacts
-- ==== Proof.Final.lean ====
/-
  The two programs compute one function. Under the precondition every float argument is real-valued and the running
  variances are non-negative, so layer by layer the kernel's region leaves the array the reference's operations compute:
  both are the layer's row function of the same rows (the previous layer's output and its neighbour sums) and the same
  parameter slices — the kernel's three-pass matrix product being the plain product on real numbers — and every layer's
  output is again real-valued. The head is the same comparison once more, on the pooled rows.
-/
import proofs.«113793_j3350074490963_2_alg».proof.Proof.KChain
import proofs.«113793_j3350074490963_2_alg».proof.Proof.KReal
import proofs.«113793_j3350074490963_2_alg».proof.Proof.KRun
import proofs.«113793_j3350074490963_2_alg».proof.Proof.Bridge
import proofs.«113793_j3350074490963_2_alg».proof.Proof.RefOut
import proofs.«113793_j3350074490963_2_alg».proof.Proof.PreFacts
import proofs.«113793_j3350074490963_2_alg».proof.Defs

set_option maxRecDepth 16384

noncomputable section

namespace Cert.Proof.Gin

open Cert.KernelIdeal Cert.KernelIdeal.Gen Cert.KernelIdeal.Named Idealize.ShloMosaic Idealize.ShloMosaic.TcCoe Idealize.SL.Sem
open Cert.Gin Cert.Gin.Rdata Cert.Gin.RefOut Cert.Gin.Bridge Cert.RealValued

variable (m : (ℓ : Loc nD τ sig) → Buf (Elt Ideal) ℓ) (ρ : Dev nD → PrngReg)

set_option maxHeartbeats 2000000 in
/-- The kernel program's result buffer holds the reference's result term of the same arguments. -/
theorem value (hpre : Cert.Pre_KernelIdeal m) (c : Dev nD) :
    W10 m ρ c (Proc.devRef .tc main_v205)
      = Cert.ReferenceIdeal.ReadP.val_main_v351 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  have D := Cert.Gin.PreFacts.of_pre (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (hpre c)
  -- layer 1
  have R0 := klayer0_real (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) D.fin0 D.fin3 D.fin4 D.fin5 D.fin6 D.fin7 D.nonneg8 D.fin9 D.fin10 D.fin11 D.fin12 D.fin13 D.fin14 D.nonneg15
  have E1 : W2 m ρ c (Proc.devRef .tc main_v51) = Cert.ReferenceIdeal.ReadP.val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
    rw [layer0_arr m ρ c R0, bridge0, rdata0_out]
  have X1 : ∀ i, IsReal (W2 m ρ c (Proc.devRef .tc main_v51) i) := by
    rw [layer0_arr m ρ c R0]; exact out_real _ R0
  -- layer 2
  have R1 := klayer1_real (W2 m ρ c (Proc.devRef .tc main_v51)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) X1 D.fin3 D.fin4 D.fin5 D.fin6 D.fin7 D.nonneg8 D.fin9 D.fin10 D.fin11 D.fin12 D.fin13 D.fin14 D.nonneg15
  have E2 : W4 m ρ c (Proc.devRef .tc main_v99) = Cert.ReferenceIdeal.ReadP.val_main_v163 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
    rw [layer1_arr m ρ c R1, E1, bridge1, rdata1_out]
  have X2 : ∀ i, IsReal (W4 m ρ c (Proc.devRef .tc main_v99) i) := by
    rw [layer1_arr m ρ c R1]; exact out_real _ R1
  -- layer 3
  have R2 := klayer2_real (W4 m ρ c (Proc.devRef .tc main_v99)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) X2 D.fin3 D.fin4 D.fin5 D.fin6 D.fin7 D.nonneg8 D.fin9 D.fin10 D.fin11 D.fin12 D.fin13 D.fin14 D.nonneg15
  have E3 : W6 m ρ c (Proc.devRef .tc main_v147) = Cert.ReferenceIdeal.ReadP.val_main_v243 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
    rw [layer2_arr m ρ c R2, E2, bridge2, rdata2_out]
  have X3 : ∀ i, IsReal (W6 m ρ c (Proc.devRef .tc main_v147) i) := by
    rw [layer2_arr m ρ c R2]; exact out_real _ R2
  -- layer 4
  have R3 := klayer3_real (W6 m ρ c (Proc.devRef .tc main_v147)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) X3 D.fin3 D.fin4 D.fin5 D.fin6 D.fin7 D.nonneg8 D.fin9 D.fin10 D.fin11 D.fin12 D.fin13 D.fin14 D.nonneg15
  have E4 : W8 m ρ c (Proc.devRef .tc main_v195) = Cert.ReferenceIdeal.ReadP.val_main_v323 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
    rw [layer3_arr m ρ c R3, E3, bridge3, rdata3_out]
  have X4 : ∀ i, IsReal (W8 m ρ c (Proc.devRef .tc main_v195) i) := by
    rw [layer3_arr m ρ c R3]; exact out_real _ R3
  -- the head
  have R4 := klayer4_real (W8 m ρ c (Proc.devRef .tc main_v195)) (m ((c : Thread nD τ).loc main_arg2)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) X4 D.fin16 D.fin17 D.fin18 D.fin19 D.fin20 D.nonneg21 D.fin22
  rw [head_arr m ρ c R4, E4, bridge4, rdata4_out]

end Cert.Proof.Gin

end
-- ==== Proof.Claims.lean ====
/-
  The certificate's claims about the two idealized programs. The reference's frame is its run with the result dropped;
  the idealization's twenty rewrites are the identity of a format change on extended reals; and the two idealized
  programs end with equal results because, under the precondition (every float argument finite, the running variances
  non-negative), every value the network computes is a real number, on which the kernel's three-pass split matrix
  product is the plain product the reference takes.
-/
import proofs.«113793_j3350074490963_2_alg».proof.Defs
import proofs.«113793_j3350074490963_2_alg».proof.Proof.Gen.KernelIdeal
import proofs.«113793_j3350074490963_2_alg».proof.Proof.Gen.ReferenceIdeal
import proofs.«113793_j3350074490963_2_alg».proof.Proof.Gen.Pre_finite_inputs
import proofs.«113793_j3350074490963_2_alg».proof.Proof.RefRunW
import proofs.«113793_j3350074490963_2_alg».proof.Proof.Final

set_option maxRecDepth 16384

noncomputable section

namespace Cert.Proof.Claims

open Idealize.ShloMosaic Idealize.SL.Sem Idealize.ShloMosaic.TcCoe

/-- The reference terminates, faults nowhere and keeps its arguments: its run, the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.RunW.run (F := Ideal) m ρ)

/-- Each of the idealization's rewrites replaced a narrowing to bf16 and the widening back by its operand: the identity
    on extended reals, the rounding through bf16 on words. -/
theorem preserves : Cert.preserves_Kernel_KernelIdeal :=
  ⟨IdealRules.truncf_extf.statement _ .f32 .bf16, IdealRules.truncf_extf.statement _ .f32 .bf16, IdealRules.truncf_extf.statement _ .f32 .bf16, IdealRules.truncf_extf.statement _ .f32 .bf16, IdealRules.truncf_extf.statement _ .f32 .bf16, IdealRules.truncf_extf.statement _ .f32 .bf16, IdealRules.truncf_extf.statement _ .f32 .bf16, IdealRules.truncf_extf.statement _ .f32 .bf16, IdealRules.truncf_extf.statement _ .f32 .bf16, IdealRules.truncf_extf.statement _ .f32 .bf16, IdealRules.truncf_extf.statement _ .f32 .bf16, IdealRules.truncf_extf.statement _ .f32 .bf16, IdealRules.truncf_extf.statement _ .f32 .bf16, IdealRules.truncf_extf.statement _ .f32 .bf16, IdealRules.truncf_extf.statement _ .f32 .bf16, IdealRules.truncf_extf.statement _ .f32 .bf16, IdealRules.truncf_extf.statement _ .f32 .bf16, IdealRules.truncf_extf.statement _ .f32 .bf16, IdealRules.truncf_extf.statement _ .f32 .bf16, IdealRules.truncf_extf.statement _ .f32 .bf16⟩

set_option maxHeartbeats 2000000 in
/-- From memories agreeing on the arguments the two idealized programs end with the same result array. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.KernelIdeal.Gen.W10 m ρ c (Proc.devRef .tc Cert.KernelIdeal.main_v205), Cert.KernelIdeal.Named.run_named m ρ, ?_⟩
  refine (θ_run Cert.ReferenceIdeal.defs _ _).mono (fun _ h c => ⟨(h c).1.trans ?_, (h c).2⟩)
    (Cert.ReferenceIdeal.RunW.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2]
  exact (Cert.Proof.Gin.value m ρ hpre c).symm

end Cert.Proof.Claims

end
-- ==== Proof.lean ====
/-
  The certificate of the four-layer graph-isomorphism network against its jnp reference, at the ideal values: the three
  frames, the idealization's rewrites, and the equality of the two idealized programs' results.
-/
import proofs.«113793_j3350074490963_2_alg».proof.Defs
import proofs.«113793_j3350074490963_2_alg».proof.Proof.Gen.Kernel
import proofs.«113793_j3350074490963_2_alg».proof.Proof.Gen.Kernel.Skeleton
import proofs.«113793_j3350074490963_2_alg».proof.Proof.Gen.Kernel.Launch
import proofs.«113793_j3350074490963_2_alg».proof.Proof.Gen.Kernel.Points
import proofs.«113793_j3350074490963_2_alg».proof.Proof.Gen.Kernel.Frame
import proofs.«113793_j3350074490963_2_alg».proof.Proof.Gen.KernelIdeal
import proofs.«113793_j3350074490963_2_alg».proof.Proof.Gen.KernelIdeal.Skeleton
import proofs.«113793_j3350074490963_2_alg».proof.Proof.Gen.KernelIdeal.Launch
import proofs.«113793_j3350074490963_2_alg».proof.Proof.Gen.KernelIdeal.Points
import proofs.«113793_j3350074490963_2_alg».proof.Proof.Gen.KernelIdeal.Frame
import proofs.«113793_j3350074490963_2_alg».proof.Proof.Gen.ReferenceIdeal
import proofs.«113793_j3350074490963_2_alg».proof.Proof.Gen.Pre_finite_inputs
import proofs.«113793_j3350074490963_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, Cert.Proof.Claims.frame_ri, Cert.Proof.Claims.preserves, Cert.Proof.Claims.algebraic⟩

end Cert.Proof

end
